-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) →
    ∃ (v0 : (c : Dev Cert.KernelIdeal.nD) → Buf (Elt Ideal) ((c.tc : Thread Cert.KernelIdeal.nD Cert.KernelIdeal.τ).loc Cert.KernelIdeal.main_v135)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v135) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v294) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part8 {F : FTy → Type} [FloatOps F] (main_v133 : IVec S_ 1) (main_v136 : IVec S128 1) : IVec S_ 1 :=
  let main_c_53 : IVec S_ 1 := constantI S_ 1 1#1
  let main_v137 : IVec S_ 1 := (fun x v => Host.reduce IntOp.andi x v reducesTo_S128_S_d0 h_S_) main_v136 main_c_53
  let main_v138 : IVec S_ 1 := andi main_v133 main_v137
  main_v138

def fn_part7 {F : FTy → Type} [FloatOps F] (main_arg28 : FVec F S128 .f32) (main_arg29 : FVec F S128 .f32) (main_arg30 : FVec F S128 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128 .f32 := Host.absf main_arg28
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  let main_v129 : FVec F S128 .f32 := Host.absf main_arg29
  let main_cst_50 : FVec F S_ .f32 := constant S_ .f32 0x7F800000#32
  let main_v130 : FVec F S128 .f32 := broadcastInDim S128 ![] bcast_S_S128 main_cst_50
  let main_v131 : IVec S128 1 := cmpf .olt main_v129 main_v130
  let main_c_51 : IVec S_ 1 := constantI S_ 1 1#1
  let main_v132 : IVec S_ 1 := (fun x v => Host.reduce IntOp.andi x v reducesTo_S128_S_d0 h_S_) main_v131 main_c_51
  let main_v133 : IVec S_ 1 := andi main_v128 main_v132
  let main_v134 : FVec F S128 .f32 := Host.absf main_arg30
  let main_cst_52 : FVec F S_ .f32 := constant S_ .f32 0x7F800000#32
  let main_v135 : FVec F S128 .f32 := broadcastInDim S128 ![] bcast_S_S128 main_cst_52
  let main_v136 : IVec S128 1 := cmpf .olt main_v134 main_v135
  fn_part8 (F := F) main_v133 main_v136

def fn_part6 {F : FTy → Type} [FloatOps F] (main_arg24 : FVec F S128x128 .f32) (main_arg25 : FVec F S128 .f32) (main_arg26 : FVec F S128x128 .f32) (main_arg27 : FVec F S128 .f32) (main_arg28 : FVec F S128 .f32) (main_arg29 : FVec F S128 .f32) (main_arg30 : FVec F S128 .f32) (main_v98 : IVec S_ 1) (main_v101 : IVec S128x128 1) (main_c_39 : IVec S_ 1) : IVec S_ 1 :=
  let main_v102 : IVec S_ 1 := (fun x v => Host.reduce IntOp.andi x v reducesTo_S128x128_S_d0_1 h_S_) main_v101 main_c_39
  let main_v103 : IVec S_ 1 := andi main_v98 main_v102
  let main_v104 : FVec F S128x128 .f32 := Host.absf main_arg24
  let main_cst_40 : FVec F S_ .f32 := constant S_ .f32 0x7F800000#32
  let main_v105 : FVec F S128x128 .f32 := broadcastInDim S128x128 ![] bcast_S_S128x128 main_cst_40
  let main_v106 : IVec S128x128 1 := cmpf .olt main_v104 main_v105
  let main_c_41 : IVec S_ 1 := constantI S_ 1 1#1
  let main_v107 : IVec S_ 1 := (fun x v => Host.reduce IntOp.andi x v reducesTo_S128x128_S_d0_1 h_S_) main_v106 main_c_41
  let main_v108 : IVec S_ 1 := andi main_v103 main_v107
  let main_v109 : FVec F S128 .f32 := Host.absf main_arg25
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128x128 .f32 := Host.absf main_arg26
  let main_cst_44 : FVec F S_ .f32 := constant S_ .f32 0x7F800000#32
  let main_v115 : FVec F S128x128 .f32 := broadcastInDim S128x128 ![] bcast_S_S128x128 main_cst_44
  let main_v116 : IVec S128x128 1 := cmpf .olt main_v114 main_v115
  let main_c_45 : IVec S_ 1 := constantI S_ 1 1#1
  let main_v117 : IVec S_ 1 := (fun x v => Host.reduce IntOp.andi x v reducesTo_S128x128_S_d0_1 h_S_) main_v116 main_c_45
  let main_v118 : IVec S_ 1 := andi main_v113 main_v117
  let main_v119 : FVec F S128 .f32 := Host.absf main_arg27
  fn_part7 (F := F) main_arg28 main_arg29 main_arg30 main_v118 main_v119

def fn_part5 {F : FTy → Type} [FloatOps F] (main_arg21 : FVec F S128x128 .f32) (main_arg22 : FVec F S128 .f32) (main_arg23 : FVec F S128x128 .f32) (main_arg24 : FVec F S128x128 .f32) (main_arg25 : FVec F S128 .f32) (main_arg26 : FVec F S128x128 .f32) (main_arg27 : FVec F S128 .f32) (main_arg28 : FVec F S128 .f32) (main_arg29 : FVec F S128 .f32) (main_arg30 : FVec F S128 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128x128 .f32 := Host.absf main_arg21
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128 .f32 := Host.absf main_arg22
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x128 .f32 := Host.absf main_arg23
  let main_cst_38 : FVec F S_ .f32 := constant S_ .f32 0x7F800000#32
  let main_v100 : FVec F S128x128 .f32 := broadcastInDim S128x128 ![] bcast_S_S128x128 main_cst_38
  let main_v101 : IVec S128x128 1 := cmpf .olt main_v99 main_v100
  let main_c_39 : IVec S_ 1 := constantI S_ 1 1#1
  fn_part6 (F := F) main_arg24 main_arg25 main_arg26 main_arg27 main_arg28 main_arg29 main_arg30 main_v98 main_v101 main_c_39

def fn_part4 {F : FTy → Type} [FloatOps F] (main_arg17 : FVec F S128 .f32) (main_arg18 : FVec F S128x128 .f32) (main_arg19 : FVec F S128 .f32) (main_arg20 : FVec F S128x128 .f32) (main_arg21 : FVec F S128x128 .f32) (main_arg22 : FVec F S128 .f32) (main_arg23 : FVec F S128x128 .f32) (main_arg24 : FVec F S128x128 .f32) (main_arg25 : FVec F S128 .f32) (main_arg26 : FVec F S128x128 .f32) (main_arg27 : FVec F S128 .f32) (main_arg28 : FVec F S128 .f32) (main_arg29 : FVec F S128 .f32) (main_arg30 : FVec F S128 .f32) (main_v63 : IVec S_ 1) (main_v67 : IVec S_ 1) : IVec S_ 1 :=
  let main_v68 : IVec S_ 1 := andi main_v63 main_v67
  let main_v69 : FVec F S128 .f32 := Host.absf main_arg17
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg18
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg19
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg20
  let main_cst_32 : FVec F S_ .f32 := constant S_ .f32 0x7F800000#32
  fn_part5 (F := F) main_arg21 main_arg22 main_arg23 main_arg24 main_arg25 main_arg26 main_arg27 main_arg28 main_arg29 main_arg30 main_v83 main_v84 main_cst_32

def fn_part3 {F : FTy → Type} [FloatOps F] (main_arg14 : FVec F S128 .f32) (main_arg15 : FVec F S128 .f32) (main_arg16 : FVec F S128 .f32) (main_arg17 : FVec F S128 .f32) (main_arg18 : FVec F S128x128 .f32) (main_arg19 : FVec F S128 .f32) (main_arg20 : FVec F S128x128 .f32) (main_arg21 : FVec F S128x128 .f32) (main_arg22 : FVec F S128 .f32) (main_arg23 : FVec F S128x128 .f32) (main_arg24 : FVec F S128x128 .f32) (main_arg25 : FVec F S128 .f32) (main_arg26 : FVec F S128x128 .f32) (main_arg27 : FVec F S128 .f32) (main_arg28 : FVec F S128 .f32) (main_arg29 : FVec F S128 .f32) (main_arg30 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg14
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg15
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg16
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg17 main_arg18 main_arg19 main_arg20 main_arg21 main_arg22 main_arg23 main_arg24 main_arg25 main_arg26 main_arg27 main_arg28 main_arg29 main_arg30 main_v63 main_v67

def fn_part2 {F : FTy → Type} [FloatOps F] (main_arg10 : FVec F S128x128 .f32) (main_arg11 : FVec F S128x128 .f32) (main_arg12 : FVec F S128 .f32) (main_arg13 : FVec F S128x128 .f32) (main_arg14 : FVec F S128 .f32) (main_arg15 : FVec F S128 .f32) (main_arg16 : FVec F S128 .f32) (main_arg17 : FVec F S128 .f32) (main_arg18 : FVec F S128x128 .f32) (main_arg19 : FVec F S128 .f32) (main_arg20 : FVec F S128x128 .f32) (main_arg21 : FVec F S128x128 .f32) (main_arg22 : FVec F S128 .f32) (main_arg23 : FVec F S128x128 .f32) (main_arg24 : FVec F S128x128 .f32) (main_arg25 : FVec F S128 .f32) (main_arg26 : FVec F S128x128 .f32) (main_arg27 : FVec F S128 .f32) (main_arg28 : FVec F S128 .f32) (main_arg29 : FVec F S128 .f32) (main_arg30 : FVec F S128 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg11
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg13
  let main_cst_18 : FVec F S_ .f32 := constant S_ .f32 0x7F800000#32
  let main_v50 : FVec F S128x128 .f32 := broadcastInDim S128x128 ![] bcast_S_S128x128 main_cst_18
  fn_part3 (F := F) main_arg14 main_arg15 main_arg16 main_arg17 main_arg18 main_arg19 main_arg20 main_arg21 main_arg22 main_arg23 main_arg24 main_arg25 main_arg26 main_arg27 main_arg28 main_arg29 main_arg30 main_v48 main_v49 main_v50

def fn_part1 {F : FTy → Type} [FloatOps F] (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128 .f32) (main_arg15 : FVec F S128 .f32) (main_arg16 : FVec F S128 .f32) (main_arg17 : FVec F S128 .f32) (main_arg18 : FVec F S128x128 .f32) (main_arg19 : FVec F S128 .f32) (main_arg20 : FVec F S128x128 .f32) (main_arg21 : FVec F S128x128 .f32) (main_arg22 : FVec F S128 .f32) (main_arg23 : FVec F S128x128 .f32) (main_arg24 : FVec F S128x128 .f32) (main_arg25 : FVec F S128 .f32) (main_arg26 : FVec F S128x128 .f32) (main_arg27 : FVec F S128 .f32) (main_arg28 : FVec F S128 .f32) (main_arg29 : FVec F S128 .f32) (main_arg30 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v33

def fn {F : FTy → Type} [FloatOps F] (main_arg0 : FVec F S50000x128 .f32) (main_arg1 : FVec F S50000x128 .f32) (main_arg2 : IVec S2x600000 32) (main_arg3 : IVec S2x600000 32) (main_arg4 : IVec S2x600000 32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128 .f32) (main_arg15 : FVec F S128 .f32) (main_arg16 : FVec F S128 .f32) (main_arg17 : FVec F S128 .f32) (main_arg18 : FVec F S128x128 .f32) (main_arg19 : FVec F S128 .f32) (main_arg20 : FVec F S128x128 .f32) (main_arg21 : FVec F S128x128 .f32) (main_arg22 : FVec F S128 .f32) (main_arg23 : FVec F S128x128 .f32) (main_arg24 : FVec F S128x128 .f32) (main_arg25 : FVec F S128 .f32) (main_arg26 : FVec F S128x128 .f32) (main_arg27 : FVec F S128 .f32) (main_arg28 : FVec F S128 .f32) (main_arg29 : FVec F S128 .f32) (main_arg30 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩
abbrev S600000 : Shape := ⟨1, ![600000]⟩
abbrev S1x600000 : Shape := ⟨2, ![1, 600000]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S5000x128 : Shape := ⟨2, ![5000, 128]⟩
abbrev S5000x1 : Shape := ⟨2, ![5000, 1]⟩
abbrev S1x128 : Shape := ⟨2, ![1, 128]⟩
abbrev S5000 : Shape := ⟨1, ![5000]⟩
abbrev S1x50000x128 : Shape := ⟨3, ![1, 50000, 128]⟩
abbrev S2x50000x128 : Shape := ⟨3, ![2, 50000, 128]⟩

abbrev nBuf : Space → Nat
  | .hbm => 197
  | .vmem => 66
  | .smem => 0
  | _ => 0

abbrev hbmTy0_0 (i : Nat) : BufTy := match i % 128 with
  | 0 => ⟨S50000x128, .f32⟩
  | 1 => ⟨S50000x128, .f32⟩
  | 2 => ⟨S2x600000, .i32⟩
  | 3 => ⟨S2x600000, .i32⟩
  | 4 => ⟨S2x600000, .i32⟩
  | 5 => ⟨S128x128, .f32⟩
  | 6 => ⟨S128, .f32⟩
  | 7 => ⟨S128x128, .f32⟩
  | 8 => ⟨S128x128, .f32⟩
  | 9 => ⟨S128, .f32⟩
  | 10 => ⟨S128x128, .f32⟩
  | 11 => ⟨S128x128, .f32⟩
  | 12 => ⟨S128, .f32⟩
  | 13 => ⟨S128x128, .f32⟩
  | 14 => ⟨S128, .f32⟩
  | 15 => ⟨S128, .f32⟩
  | 16 => ⟨S128, .f32⟩
  | 17 => ⟨S128, .f32⟩
  | 18 => ⟨S128x128, .f32⟩
  | 19 => ⟨S128, .f32⟩
  | 20 => ⟨S128x128, .f32⟩
  | 21 => ⟨S128x128, .f32⟩
  | 22 => ⟨S128, .f32⟩
  | 23 => ⟨S128x128, .f32⟩
  | 24 => ⟨S128x128, .f32⟩
  | 25 => ⟨S128, .f32⟩
  | 26 => ⟨S128x128, .f32⟩
  | 27 => ⟨S128, .f32⟩
  | 28 => ⟨S128, .f32⟩
  | 29 => ⟨S128, .f32⟩
  | 30 => ⟨S128, .f32⟩
  | 31 => ⟨S_, .f32⟩
  | 32 => ⟨S600000, .f32⟩
  | 33 => ⟨S1x600000, .i32⟩
  | 34 => ⟨S600000, .i32⟩
  | 35 => ⟨S_, .f32⟩
  | 36 => ⟨S50000, .f32⟩
  | 37 => ⟨S600000x1, .i32⟩
  | 38 => ⟨S50000, .f32⟩
  | 39 => ⟨S_, .f32⟩
  | 40 => ⟨S50000, .f32⟩
  | 41 => ⟨S50000, .f32⟩
  | 42 => ⟨S_, .f32⟩
  | 43 => ⟨S50000, .f32⟩
  | 44 => ⟨S50000, .f32⟩
  | 45 => ⟨S50000x1, .f32⟩
  | 46 => ⟨S_, .f32⟩
  | 47 => ⟨S600000, .f32⟩
  | 48 => ⟨S1x600000, .i32⟩
  | 49 => ⟨S600000, .i32⟩
  | 50 => ⟨S_, .f32⟩
  | 51 => ⟨S50000, .f32⟩
  | 52 => ⟨S600000x1, .i32⟩
  | 53 => ⟨S50000, .f32⟩
  | 54 => ⟨S_, .f32⟩
  | 55 => ⟨S50000, .f32⟩
  | 56 => ⟨S50000, .f32⟩
  | 57 => ⟨S_, .f32⟩
  | 58 => ⟨S50000, .f32⟩
  | 59 => ⟨S50000, .f32⟩
  | 60 => ⟨S50000x1, .f32⟩
  | 61 => ⟨S_, .f32⟩
  | 62 => ⟨S600000, .f32⟩
  | 63 => ⟨S1x600000, .i32⟩
  | 64 => ⟨S600000, .i32⟩
  | 65 => ⟨S_, .f32⟩
  | 66 => ⟨S50000, .f32⟩
  | 67 => ⟨S600000x1, .i32⟩
  | 68 => ⟨S50000, .f32⟩
  | 69 => ⟨S_, .f32⟩
  | 70 => ⟨S50000, .f32⟩
  | 71 => ⟨S50000, .f32⟩
  | 72 => ⟨S_, .f32⟩
  | 73 => ⟨S50000, .f32⟩
  | 74 => ⟨S50000, .f32⟩
  | 75 => ⟨S50000x1, .f32⟩
  | 76 => ⟨S1x600000, .i32⟩
  | 77 => ⟨S600000, .i32⟩
  | 78 => ⟨S_, .i32⟩
  | 79 => ⟨S600000, .i32⟩
  | 80 => ⟨S600000, .i1⟩
  | 81 => ⟨S_, .i32⟩
  | 82 => ⟨S600000, .i32⟩
  | 83 => ⟨S600000, .i32⟩
  | 84 => ⟨S600000, .i32⟩
  | 85 => ⟨S600000x1, .i32⟩
  | 86 => ⟨S600000x128, .f32⟩
  | 87 => ⟨S1x600000, .i32⟩
  | 88 => ⟨S600000, .i32⟩
  | 89 => ⟨S_, .f32⟩
  | 90 => ⟨S50000x128, .f32⟩
  | 91 => ⟨S600000x1, .i32⟩
  | 92 => ⟨S50000x128, .f32⟩
  | 93 => ⟨S1x600000, .i32⟩
  | 94 => ⟨S600000, .i32⟩
  | 95 => ⟨S_, .i32⟩
  | 96 => ⟨S600000, .i32⟩
  | 97 => ⟨S600000, .i1⟩
  | 98 => ⟨S_, .i32⟩
  | 99 => ⟨S600000, .i32⟩
  | 100 => ⟨S600000, .i32⟩
  | 101 => ⟨S600000, .i32⟩
  | 102 => ⟨S600000x1, .i32⟩
  | 103 => ⟨S600000x128, .f32⟩
  | 104 => ⟨S1x600000, .i32⟩
  | 105 => ⟨S600000, .i32⟩
  | 106 => ⟨S_, .f32⟩
  | 107 => ⟨S50000x128, .f32⟩
  | 108 => ⟨S600000x1, .i32⟩
  | 109 => ⟨S50000x128, .f32⟩
  | 110 => ⟨S1x600000, .i32⟩
  | 111 => ⟨S600000, .i32⟩
  | 112 => ⟨S_, .i32⟩
  | 113 => ⟨S600000, .i32⟩
  | 114 => ⟨S600000, .i1⟩
  | 115 => ⟨S_, .i32⟩
  | 116 => ⟨S600000, .i32⟩
  | 117 => ⟨S600000, .i32⟩
  | 118 => ⟨S600000, .i32⟩
  | 119 => ⟨S600000x1, .i32⟩
  | 120 => ⟨S600000x128, .f32⟩
  | 121 => ⟨S1x600000, .i32⟩
  | 122 => ⟨S600000, .i32⟩
  | 123 => ⟨S_, .f32⟩
  | 124 => ⟨S50000x128, .f32⟩
  | 125 => ⟨S600000x1, .i32⟩
  | 126 => ⟨S50000x128, .f32⟩
  | 127 => ⟨S128x128, .f32⟩
  | _ => ⟨S50000x128, .f32⟩

abbrev hbmTy0_1 (i : Nat) : BufTy := match i % 128 with
  | 0 => ⟨S128x128, .f32⟩
  | 1 => ⟨S128x128, .f32⟩
  | 2 => ⟨S128x128, .f32⟩
  | 3 => ⟨S128x128, .f32⟩
  | 4 => ⟨S128x128, .f32⟩
  | 5 => ⟨S50000x128, .f32⟩
  | 6 => ⟨S50000x128, .f32⟩
  | 7 => ⟨S1x600000, .i32⟩
  | 8 => ⟨S600000, .i32⟩
  | 9 => ⟨S_, .i32⟩
  | 10 => ⟨S600000, .i32⟩
  | 11 => ⟨S600000, .i1⟩
  | 12 => ⟨S_, .i32⟩
  | 13 => ⟨S600000, .i32⟩
  | 14 => ⟨S600000, .i32⟩
  | 15 => ⟨S600000, .i32⟩
  | 16 => ⟨S600000x1, .i32⟩
  | 17 => ⟨S600000x128, .f32⟩
  | 18 => ⟨S1x600000, .i32⟩
  | 19 => ⟨S600000, .i32⟩
  | 20 => ⟨S_, .f32⟩
  | 21 => ⟨S50000x128, .f32⟩
  | 22 => ⟨S600000x1, .i32⟩
  | 23 => ⟨S50000x128, .f32⟩
  | 24 => ⟨S1x600000, .i32⟩
  | 25 => ⟨S600000, .i32⟩
  | 26 => ⟨S_, .i32⟩
  | 27 => ⟨S600000, .i32⟩
  | 28 => ⟨S600000, .i1⟩
  | 29 => ⟨S_, .i32⟩
  | 30 => ⟨S600000, .i32⟩
  | 31 => ⟨S600000, .i32⟩
  | 32 => ⟨S600000, .i32⟩
  | 33 => ⟨S600000x1, .i32⟩
  | 34 => ⟨S600000x128, .f32⟩
  | 35 => ⟨S1x600000, .i32⟩
  | 36 => ⟨S600000, .i32⟩
  | 37 => ⟨S_, .f32⟩
  | 38 => ⟨S50000x128, .f32⟩
  | 39 => ⟨S600000x1, .i32⟩
  | 40 => ⟨S50000x128, .f32⟩
  | 41 => ⟨S1x600000, .i32⟩
  | 42 => ⟨S600000, .i32⟩
  | 43 => ⟨S_, .i32⟩
  | 44 => ⟨S600000, .i32⟩
  | 45 => ⟨S600000, .i1⟩
  | 46 => ⟨S_, .i32⟩
  | 47 => ⟨S600000, .i32⟩
  | 48 => ⟨S600000, .i32⟩
  | 49 => ⟨S600000, .i32⟩
  | 50 => ⟨S600000x1, .i32⟩
  | 51 => ⟨S600000x128, .f32⟩
  | 52 => ⟨S1x600000, .i32⟩
  | 53 => ⟨S600000, .i32⟩
  | 54 => ⟨S_, .f32⟩
  | 55 => ⟨S50000x128, .f32⟩
  | 56 => ⟨S600000x1, .i32⟩
  | 57 => ⟨S50000x128, .f32⟩
  | 58 => ⟨S128x128, .f32⟩
  | 59 => ⟨S128x128, .f32⟩
  | 60 => ⟨S128x128, .f32⟩
  | 61 => ⟨S128x128, .f32⟩
  | 62 => ⟨S128x128, .f32⟩
  | 63 => ⟨S128x128, .f32⟩
  | 64 => ⟨S50000x128, .f32⟩
  | 65 => ⟨S50000x128, .f32⟩
  | 66 => ⟨S1x50000x128, .f32⟩
  | 67 => ⟨S1x50000x128, .f32⟩
  | 68 => ⟨S2x50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S128x128, .f32⟩
  | .local _ .vmem, ⟨20, _⟩ => ⟨S128, .f32⟩
  | .local _ .vmem, ⟨21, _⟩ => ⟨S128x128, .f32⟩
  | .local _ .vmem, ⟨22, _⟩ => ⟨S5000x128, .f32⟩
  | .local _ .vmem, ⟨23, _⟩ => ⟨S5000x128, .f32⟩
  | .local _ .vmem, ⟨24, _⟩ => ⟨S5000x1, .f32⟩
  | .local _ .vmem, ⟨25, _⟩ => ⟨S5000x1, .f32⟩
  | .local _ .vmem, ⟨26, _⟩ => ⟨S128x128, .f32⟩
  | .local _ .vmem, ⟨27, _⟩ => ⟨S128, .f32⟩
  | .local _ .vmem, ⟨28, _⟩ => ⟨S128x128, .f32⟩
  | .local _ .vmem, ⟨29, _⟩ => ⟨S128, .f32⟩
  | .local _ .vmem, ⟨30, _⟩ => ⟨S128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x1, .f32⟩
  | .local _ .vmem, ⟨38, _⟩ => ⟨S5000x1, .f32⟩
  | .local _ .vmem, ⟨39, _⟩ => ⟨S128x128, .f32⟩
  | .local _ .vmem, ⟨40, _⟩ => ⟨S128, .f32⟩
  | .local _ .vmem, ⟨41, _⟩ => ⟨S128x128, .f32⟩
  | .local _ .vmem, ⟨42, _⟩ => ⟨S128, .f32⟩
  | .local _ .vmem, ⟨43, _⟩ => ⟨S128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x1, .f32⟩
  | .local _ .vmem, ⟨51, _⟩ => ⟨S5000x1, .f32⟩
  | .local _ .vmem, ⟨52, _⟩ => ⟨S128x128, .f32⟩
  | .local _ .vmem, ⟨53, _⟩ => ⟨S128, .f32⟩
  | .local _ .vmem, ⟨54, _⟩ => ⟨S128x128, .f32⟩
  | .local _ .vmem, ⟨55, _⟩ => ⟨S5000x128, .f32⟩
  | .local _ .vmem, ⟨56, _⟩ => ⟨S5000x128, .f32⟩
  | .local _ .vmem, ⟨57, _⟩ => ⟨S5000x1, .f32⟩
  | .local _ .vmem, ⟨58, _⟩ => ⟨S5000x1, .f32⟩
  | .local _ .vmem, ⟨59, _⟩ => ⟨S128x128, .f32⟩
  | .local _ .vmem, ⟨60, _⟩ => ⟨S128, .f32⟩
  | .local _ .vmem, ⟨61, _⟩ => ⟨S128x128, .f32⟩
  | .local _ .vmem, ⟨62, _⟩ => ⟨S128, .f32⟩
  | .local _ .vmem, ⟨63, _⟩ => ⟨S128, .f32⟩
  | .local _ .vmem, ⟨64, _⟩ => ⟨S5000x128, .f32⟩
  | .local _ .vmem, ⟨65, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_cst : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_cst_0 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_cst_1 : Ref sig .tc := ⟨.hbm, 39, rfl⟩
abbrev main_v6 : Ref sig .tc := ⟨.hbm, 40, rfl⟩
abbrev main_v7 : Ref sig .tc := ⟨.hbm, 41, rfl⟩
abbrev main_cst_2 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_cst_3 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_cst_4 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_cst_5 : Ref sig .tc := ⟨.hbm, 54, rfl⟩
abbrev main_v17 : Ref sig .tc := ⟨.hbm, 55, rfl⟩
abbrev main_v18 : Ref sig .tc := ⟨.hbm, 56, rfl⟩
abbrev main_cst_6 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_cst_7 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_cst_8 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_cst_9 : Ref sig .tc := ⟨.hbm, 69, rfl⟩
abbrev main_v28 : Ref sig .tc := ⟨.hbm, 70, rfl⟩
abbrev main_v29 : Ref sig .tc := ⟨.hbm, 71, rfl⟩
abbrev main_cst_10 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_c : Ref sig .tc := ⟨.hbm, 78, rfl⟩
abbrev main_v35 : Ref sig .tc := ⟨.hbm, 79, rfl⟩
abbrev main_v36 : Ref sig .tc := ⟨.hbm, 80, rfl⟩
abbrev main_c_11 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_cst_12 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_c_13 : Ref sig .tc := ⟨.hbm, 95, rfl⟩
abbrev main_v49 : Ref sig .tc := ⟨.hbm, 96, rfl⟩
abbrev main_v50 : Ref sig .tc := ⟨.hbm, 97, rfl⟩
abbrev main_c_14 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_cst_15 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_c_16 : Ref sig .tc := ⟨.hbm, 112, rfl⟩
abbrev main_v63 : Ref sig .tc := ⟨.hbm, 113, rfl⟩
abbrev main_v64 : Ref sig .tc := ⟨.hbm, 114, rfl⟩
abbrev main_c_17 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_cst_18 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_c_19 : Ref sig .tc := ⟨.hbm, 137, rfl⟩
abbrev main_v85 : Ref sig .tc := ⟨.hbm, 138, rfl⟩
abbrev main_v86 : Ref sig .tc := ⟨.hbm, 139, rfl⟩
abbrev main_c_20 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_cst_21 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_c_22 : Ref sig .tc := ⟨.hbm, 154, rfl⟩
abbrev main_v99 : Ref sig .tc := ⟨.hbm, 155, rfl⟩
abbrev main_v100 : Ref sig .tc := ⟨.hbm, 156, rfl⟩
abbrev main_c_23 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_cst_24 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_c_25 : Ref sig .tc := ⟨.hbm, 171, rfl⟩
abbrev main_v113 : Ref sig .tc := ⟨.hbm, 172, rfl⟩
abbrev main_v114 : Ref sig .tc := ⟨.hbm, 173, rfl⟩
abbrev main_c_26 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_cst_27 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_stg11_0 : Ref sig .tc := ⟨.vmem, 29, rfl⟩
abbrev cc1_stg12_0 : Ref sig .tc := ⟨.vmem, 30, rfl⟩
abbrev cc1_stg13_0 : Ref sig .tc := ⟨.vmem, 31, rfl⟩
abbrev cc1_stg13_1 : Ref sig .tc := ⟨.vmem, 32, rfl⟩
abbrev cc2_stg0_0 : Ref sig .tc := ⟨.vmem, 33, rfl⟩
abbrev cc2_stg0_1 : Ref sig .tc := ⟨.vmem, 34, rfl⟩
abbrev cc2_stg1_0 : Ref sig .tc := ⟨.vmem, 35, rfl⟩
abbrev cc2_stg1_1 : Ref sig .tc := ⟨.vmem, 36, rfl⟩
abbrev cc2_stg2_0 : Ref sig .tc := ⟨.vmem, 37, rfl⟩
abbrev cc2_stg2_1 : Ref sig .tc := ⟨.vmem, 38, rfl⟩
abbrev cc2_stg3_0 : Ref sig .tc := ⟨.vmem, 39, rfl⟩
abbrev cc2_stg4_0 : Ref sig .tc := ⟨.vmem, 40, rfl⟩
abbrev cc2_stg5_0 : Ref sig .tc := ⟨.vmem, 41, rfl⟩
abbrev cc2_stg6_0 : Ref sig .tc := ⟨.vmem, 42, rfl⟩
abbrev cc2_stg7_0 : Ref sig .tc := ⟨.vmem, 43, rfl⟩
abbrev cc2_stg8_0 : Ref sig .tc := ⟨.vmem, 44, rfl⟩
abbrev cc2_stg8_1 : Ref sig .tc := ⟨.vmem, 45, rfl⟩
abbrev cc3_stg0_0 : Ref sig .tc := ⟨.vmem, 46, rfl⟩
abbrev cc3_stg0_1 : Ref sig .tc := ⟨.vmem, 47, rfl⟩
abbrev cc3_stg1_0 : Ref sig .tc := ⟨.vmem, 48, rfl⟩
abbrev cc3_stg1_1 : Ref sig .tc := ⟨.vmem, 49, rfl⟩
abbrev cc3_stg2_0 : Ref sig .tc := ⟨.vmem, 50, rfl⟩
abbrev cc3_stg2_1 : Ref sig .tc := ⟨.vmem, 51, rfl⟩
abbrev cc3_stg3_0 : Ref sig .tc := ⟨.vmem, 52, rfl⟩
abbrev cc3_stg4_0 : Ref sig .tc := ⟨.vmem, 53, rfl⟩
abbrev cc3_stg5_0 : Ref sig .tc := ⟨.vmem, 54, rfl⟩
abbrev cc3_stg6_0 : Ref sig .tc := ⟨.vmem, 55, rfl⟩
abbrev cc3_stg6_1 : Ref sig .tc := ⟨.vmem, 56, rfl⟩
abbrev cc3_stg7_0 : Ref sig .tc := ⟨.vmem, 57, rfl⟩
abbrev cc3_stg7_1 : Ref sig .tc := ⟨.vmem, 58, rfl⟩
abbrev cc3_stg8_0 : Ref sig .tc := ⟨.vmem, 59, rfl⟩
abbrev cc3_stg9_0 : Ref sig .tc := ⟨.vmem, 60, rfl⟩
abbrev cc3_stg10_0 : Ref sig .tc := ⟨.vmem, 61, rfl⟩
abbrev cc3_stg11_0 : Ref sig .tc := ⟨.vmem, 62, rfl⟩
abbrev cc3_stg12_0 : Ref sig .tc := ⟨.vmem, 63, rfl⟩
abbrev cc3_stg13_0 : Ref sig .tc := ⟨.vmem, 64, rfl⟩
abbrev cc3_stg13_1 : Ref sig .tc := ⟨.vmem, 65, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem9_0 : DmaSem sig := 27
abbrev cc1_sem10_0 : DmaSem sig := 28
abbrev cc1_sem11_0 : DmaSem sig := 29
abbrev cc1_sem12_0 : DmaSem sig := 30
abbrev cc1_sem13_0 : DmaSem sig := 31
abbrev cc1_sem13_1 : DmaSem sig := 32
abbrev cc2_sem0_0 : DmaSem sig := 33
abbrev cc2_sem0_1 : DmaSem sig := 34
abbrev cc2_sem1_0 : DmaSem sig := 35
abbrev cc2_sem1_1 : DmaSem sig := 36
abbrev cc2_sem2_0 : DmaSem sig := 37
abbrev cc2_sem2_1 : DmaSem sig := 38
abbrev cc2_sem3_0 : DmaSem sig := 39
abbrev cc2_sem4_0 : DmaSem sig := 40
abbrev cc2_sem5_0 : DmaSem sig := 41
abbrev cc2_sem6_0 : DmaSem sig := 42
abbrev cc2_sem7_0 : DmaSem sig := 43
abbrev cc2_sem8_0 : DmaSem sig := 44
abbrev cc2_sem8_1 : DmaSem sig := 45
abbrev cc3_sem0_0 : DmaSem sig := 46
abbrev cc3_sem0_1 : DmaSem sig := 47
abbrev cc3_sem1_0 : DmaSem sig := 48
abbrev cc3_sem1_1 : DmaSem sig := 49
abbrev cc3_sem2_0 : DmaSem sig := 50
abbrev cc3_sem2_1 : DmaSem sig := 51
abbrev cc3_sem3_0 : DmaSem sig := 52
abbrev cc3_sem4_0 : DmaSem sig := 53
abbrev cc3_sem5_0 : DmaSem sig := 54
abbrev cc3_sem6_0 : DmaSem sig := 55
abbrev cc3_sem6_1 : DmaSem sig := 56
abbrev cc3_sem7_0 : DmaSem sig := 57
abbrev cc3_sem7_1 : DmaSem sig := 58
abbrev cc3_sem8_0 : DmaSem sig := 59
abbrev cc3_sem9_0 : DmaSem sig := 60
abbrev cc3_sem10_0 : DmaSem sig := 61
abbrev cc3_sem11_0 : DmaSem sig := 62
abbrev cc3_sem12_0 : DmaSem sig := 63
abbrev cc3_sem13_0 : DmaSem sig := 64
abbrev cc3_sem13_1 : DmaSem sig := 65

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_12 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S5000x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_12 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_13 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S5000x1 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 1 → Memref sig .tc .vmem S128x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S128x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S128 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 2 → Memref sig .tc .vmem S5000x128 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true]

class Facts₀ : Prop where
  bcast_S_S600000 : S_.BroadcastsInDim S600000 (![] : Fin 0 → Fin S600000.rank)
  slices_S2x600000_S1x600000_1_0 : S2x600000.Slices ![1, 0] S1x600000
  shapeCasts_S1x600000_S600000 : S1x600000.ShapeCasts S600000
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  slices_S2x600000_S1x600000_0_0 : S2x600000.Slices ![0, 0] S1x600000
  bcast_S_S50000x128 : S_.BroadcastsInDim S50000x128 (![] : Fin 0 → Fin S50000x128.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  reduces_S5000x128_S5000 : S5000x128.Reduces [1] S5000
  shapeCasts_S5000_S5000x1 : S5000.ShapeCasts S5000x1
  bcast_S50000x128_S1x50000x128_1_2 : S50000x128.BroadcastsInDim S1x50000x128 (![1, 2] : Fin 2 → Fin S1x50000x128.rank)
  concatenates_S1x50000x128_S1x50000x128_S2x50000x128_d0 : Shape.Concatenates [S1x50000x128, S1x50000x128] S2x50000x128 0
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S50000x128.size a
  hwx0_8 : ∀ i : grid0.Coords, EltTy.bits .f32 = 32 ∨ (Rect.block (s := S50000x128) S5000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x1.size a ≤ S50000x1.size a
  hwx1_7 : ∀ i : grid1.Coords, EltTy.bits .f32 = 32 ∨ (Rect.block (s := S50000x1) S5000x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128.size a ≤ S128.size a
  hwx1_9 : ∀ i : grid1.Coords, EltTy.bits .f32 = 32 ∨ (Rect.block (s := S128) S128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128x128.size a ≤ S128x128.size a
  hwx1_10 : ∀ i : grid1.Coords, EltTy.bits .f32 = 32 ∨ (Rect.block (s := S128x128) S128x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S128.size a ≤ S128.size a
  hwx1_11 : ∀ i : grid1.Coords, EltTy.bits .f32 = 32 ∨ (Rect.block (s := S128) S128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S128.size a ≤ S128.size a
  hwx1_12 : ∀ i : grid1.Coords, EltTy.bits .f32 = 32 ∨ (Rect.block (s := S128) S128.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S5000x128.size a ≤ S50000x128.size a
  hwx1_13 : ∀ i : grid1.Coords, EltTy.bits .f32 = 32 ∨ (Rect.block (s := S50000x128) S5000x128.size (cc1_transform_13 i) (hinb1_13 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128.size a ≤ S128.size a
  hwx2_7 : ∀ i : grid2.Coords, EltTy.bits .f32 = 32 ∨ (Rect.block (s := S128) S128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x128.size a ≤ S50000x128.size a
  hwx2_8 : ∀ i : grid2.Coords, EltTy.bits .f32 = 32 ∨ (Rect.block (s := S50000x128) S5000x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x1.size a ≤ S50000x1.size a
  hwx3_7 : ∀ i : grid3.Coords, EltTy.bits .f32 = 32 ∨ (Rect.block (s := S50000x1) S5000x1.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128x128.size a ≤ S128x128.size a
  hwx3_8 : ∀ i : grid3.Coords, EltTy.bits .f32 = 32 ∨ (Rect.block (s := S128x128) S128x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S128.size a ≤ S128.size a
  hwx3_9 : ∀ i : grid3.Coords, EltTy.bits .f32 = 32 ∨ (Rect.block (s := S128) S128.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S128x128.size a ≤ S128x128.size a
  hwx3_10 : ∀ i : grid3.Coords, EltTy.bits .f32 = 32 ∨ (Rect.block (s := S128x128) S128x128.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S128.size a ≤ S128.size a
  hwx3_11 : ∀ i : grid3.Coords, EltTy.bits .f32 = 32 ∨ (Rect.block (s := S128) S128.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S128.size a ≤ S128.size a
  hwx3_12 : ∀ i : grid3.Coords, EltTy.bits .f32 = 32 ∨ (Rect.block (s := S128) S128.size (cc3_transform_12 i) (hinb3_12 i)).WholeWords (EltTy.packing .f32)
  hstage3_13 : ∀ j, (stage3_13 j).IsWhole
  nbuf3_13 : grid3.bufCount reads3_13 false = 2
  hreads3_13 : ∀ i i' : grid3.Coords, (∀ a, reads3_13 a = true → i a = i' a) → cc3_transform_13 i = cc3_transform_13 i'
  hinb3_13 : ∀ (i : grid3.Coords) a, (cc3_transform_13 i a + 1) * S5000x128.size a ≤ S50000x128.size a
  hwx3_13 : ∀ i : grid3.Coords, EltTy.bits .f32 = 32 ∨ (Rect.block (s := S50000x128) S5000x128.size (cc3_transform_13 i) (hinb3_13 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg1) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v46) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v75) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v76) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg16) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg17) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v81) S5000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v60) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v77) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v78) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v74) S5000x128.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v32) S5000x1.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v79) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg12) S128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v80) S128x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg14) S128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg15) S128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v82) S5000x128.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

abbrev win2_0 : Pipeline.Window sig grid2 :=
  Pipeline.Window.ofSpec (Memref.whole main_v81) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v96) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v125) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg19) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v126) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg29) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg30) S128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v131) S5000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v82) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v110) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v21) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v127) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg22) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v128) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v124) S5000x128.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_v32) S5000x1.size cc3_transform_7 reads3_7 false false 2 stage3_7 sem3_7
    hrank3 hreads3_7 hinb3_7 nbuf3_7 (Memref.isWhole_whole _) hwx3_7 hstage3_7

abbrev win3_8 : Pipeline.Window sig grid3 :=
  Pipeline.Window.ofSpec (Memref.whole main_v129) S128x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_arg25) S128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v130) S128x128.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_arg27) S128.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_arg28) S128.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v132) S5000x128.size cc3_transform_13 reads3_13 true false 2 stage3_13 sem3_13
    hrank3 hreads3_13 hinb3_13 nbuf3_13 (Memref.isWhole_whole _) hwx3_13 hstage3_13

abbrev win3 : Fin 14 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | ⟨_ + 14, h⟩ => absurd h (Nat.not_lt.2 (Nat.le_add_left _ _))
abbrev spec3 : Fin 14 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩
abbrev S1x50000x128 : Shape := ⟨3, ![1, 50000, 128]⟩
abbrev S2x50000x128 : Shape := ⟨3, ![2, 50000, 128]⟩

abbrev nBuf : Space → Nat
  | .hbm => 390
  | .vmem => 0
  | .smem => 0
  | _ => 0

abbrev hbmTy0_0 (i : Nat) : BufTy := match i % 128 with
  | 0 => ⟨S50000x128, .f32⟩
  | 1 => ⟨S50000x128, .f32⟩
  | 2 => ⟨S2x600000, .i32⟩
  | 3 => ⟨S2x600000, .i32⟩
  | 4 => ⟨S2x600000, .i32⟩
  | 5 => ⟨S128x128, .f32⟩
  | 6 => ⟨S128, .f32⟩
  | 7 => ⟨S128x128, .f32⟩
  | 8 => ⟨S128x128, .f32⟩
  | 9 => ⟨S128, .f32⟩
  | 10 => ⟨S128x128, .f32⟩
  | 11 => ⟨S128x128, .f32⟩
  | 12 => ⟨S128, .f32⟩
  | 13 => ⟨S128x128, .f32⟩
  | 14 => ⟨S128, .f32⟩
  | 15 => ⟨S128, .f32⟩
  | 16 => ⟨S128, .f32⟩
  | 17 => ⟨S128, .f32⟩
  | 18 => ⟨S128x128, .f32⟩
  | 19 => ⟨S128, .f32⟩
  | 20 => ⟨S128x128, .f32⟩
  | 21 => ⟨S128x128, .f32⟩
  | 22 => ⟨S128, .f32⟩
  | 23 => ⟨S128x128, .f32⟩
  | 24 => ⟨S128x128, .f32⟩
  | 25 => ⟨S128, .f32⟩
  | 26 => ⟨S128x128, .f32⟩
  | 27 => ⟨S128, .f32⟩
  | 28 => ⟨S128, .f32⟩
  | 29 => ⟨S128, .f32⟩
  | 30 => ⟨S128, .f32⟩
  | 31 => ⟨S1x600000, .i32⟩
  | 32 => ⟨S600000, .i32⟩
  | 33 => ⟨S_, .i32⟩
  | 34 => ⟨S600000, .i32⟩
  | 35 => ⟨S600000, .i1⟩
  | 36 => ⟨S_, .i32⟩
  | 37 => ⟨S600000, .i32⟩
  | 38 => ⟨S600000, .i32⟩
  | 39 => ⟨S600000, .i32⟩
  | 40 => ⟨S600000x1, .i32⟩
  | 41 => ⟨S600000x128, .f32⟩
  | 42 => ⟨S1x600000, .i32⟩
  | 43 => ⟨S600000, .i32⟩
  | 44 => ⟨S_, .f32⟩
  | 45 => ⟨S50000x128, .f32⟩
  | 46 => ⟨S600000x1, .i32⟩
  | 47 => ⟨S50000x128, .f32⟩
  | 48 => ⟨S_, .f32⟩
  | 49 => ⟨S600000, .f32⟩
  | 50 => ⟨S1x600000, .i32⟩
  | 51 => ⟨S600000, .i32⟩
  | 52 => ⟨S_, .f32⟩
  | 53 => ⟨S50000, .f32⟩
  | 54 => ⟨S600000x1, .i32⟩
  | 55 => ⟨S50000, .f32⟩
  | 56 => ⟨S_, .f32⟩
  | 57 => ⟨S50000, .f32⟩
  | 58 => ⟨S50000, .f32⟩
  | 59 => ⟨S50000x1, .f32⟩
  | 60 => ⟨S50000x128, .f32⟩
  | 61 => ⟨S50000x128, .f32⟩
  | 62 => ⟨S128x128, .f32⟩
  | 63 => ⟨S50000x128, .f32⟩
  | 64 => ⟨S1x128, .f32⟩
  | 65 => ⟨S50000x128, .f32⟩
  | 66 => ⟨S50000x128, .f32⟩
  | 67 => ⟨S128x128, .f32⟩
  | 68 => ⟨S50000x128, .f32⟩
  | 69 => ⟨S50000x128, .f32⟩
  | 70 => ⟨S1x600000, .i32⟩
  | 71 => ⟨S600000, .i32⟩
  | 72 => ⟨S_, .i32⟩
  | 73 => ⟨S600000, .i32⟩
  | 74 => ⟨S600000, .i1⟩
  | 75 => ⟨S_, .i32⟩
  | 76 => ⟨S600000, .i32⟩
  | 77 => ⟨S600000, .i32⟩
  | 78 => ⟨S600000, .i32⟩
  | 79 => ⟨S600000x1, .i32⟩
  | 80 => ⟨S600000x128, .f32⟩
  | 81 => ⟨S1x600000, .i32⟩
  | 82 => ⟨S600000, .i32⟩
  | 83 => ⟨S_, .f32⟩
  | 84 => ⟨S50000x128, .f32⟩
  | 85 => ⟨S600000x1, .i32⟩
  | 86 => ⟨S50000x128, .f32⟩
  | 87 => ⟨S_, .f32⟩
  | 88 => ⟨S600000, .f32⟩
  | 89 => ⟨S1x600000, .i32⟩
  | 90 => ⟨S600000, .i32⟩
  | 91 => ⟨S_, .f32⟩
  | 92 => ⟨S50000, .f32⟩
  | 93 => ⟨S600000x1, .i32⟩
  | 94 => ⟨S50000, .f32⟩
  | 95 => ⟨S_, .f32⟩
  | 96 => ⟨S50000, .f32⟩
  | 97 => ⟨S50000, .f32⟩
  | 98 => ⟨S50000x1, .f32⟩
  | 99 => ⟨S50000x128, .f32⟩
  | 100 => ⟨S50000x128, .f32⟩
  | 101 => ⟨S128x128, .f32⟩
  | 102 => ⟨S50000x128, .f32⟩
  | 103 => ⟨S1x128, .f32⟩
  | 104 => ⟨S50000x128, .f32⟩
  | 105 => ⟨S50000x128, .f32⟩
  | 106 => ⟨S128x128, .f32⟩
  | 107 => ⟨S50000x128, .f32⟩
  | 108 => ⟨S50000x128, .f32⟩
  | 109 => ⟨S1x600000, .i32⟩
  | 110 => ⟨S600000, .i32⟩
  | 111 => ⟨S_, .i32⟩
  | 112 => ⟨S600000, .i32⟩
  | 113 => ⟨S600000, .i1⟩
  | 114 => ⟨S_, .i32⟩
  | 115 => ⟨S600000, .i32⟩
  | 116 => ⟨S600000, .i32⟩
  | 117 => ⟨S600000, .i32⟩
  | 118 => ⟨S600000x1, .i32⟩
  | 119 => ⟨S600000x128, .f32⟩
  | 120 => ⟨S1x600000, .i32⟩
  | 121 => ⟨S600000, .i32⟩
  | 122 => ⟨S_, .f32⟩
  | 123 => ⟨S50000x128, .f32⟩
  | 124 => ⟨S600000x1, .i32⟩
  | 125 => ⟨S50000x128, .f32⟩
  | 126 => ⟨S_, .f32⟩
  | 127 => ⟨S600000, .f32⟩
  | _ => ⟨S50000x128, .f32⟩

abbrev hbmTy0_1 (i : Nat) : BufTy := match i % 128 with
  | 0 => ⟨S1x600000, .i32⟩
  | 1 => ⟨S600000, .i32⟩
  | 2 => ⟨S_, .f32⟩
  | 3 => ⟨S50000, .f32⟩
  | 4 => ⟨S600000x1, .i32⟩
  | 5 => ⟨S50000, .f32⟩
  | 6 => ⟨S_, .f32⟩
  | 7 => ⟨S50000, .f32⟩
  | 8 => ⟨S50000, .f32⟩
  | 9 => ⟨S50000x1, .f32⟩
  | 10 => ⟨S50000x128, .f32⟩
  | 11 => ⟨S50000x128, .f32⟩
  | 12 => ⟨S128x128, .f32⟩
  | 13 => ⟨S50000x128, .f32⟩
  | 14 => ⟨S1x128, .f32⟩
  | 15 => ⟨S50000x128, .f32⟩
  | 16 => ⟨S50000x128, .f32⟩
  | 17 => ⟨S128x128, .f32⟩
  | 18 => ⟨S50000x128, .f32⟩
  | 19 => ⟨S50000x128, .f32⟩
  | 20 => ⟨S50000x128, .f32⟩
  | 21 => ⟨S_, .f32⟩
  | 22 => ⟨S50000, .f32⟩
  | 23 => ⟨S50000x1, .f32⟩
  | 24 => ⟨S_, .f32⟩
  | 25 => ⟨S50000x1, .f32⟩
  | 26 => ⟨S50000x1, .f32⟩
  | 27 => ⟨S50000x128, .f32⟩
  | 28 => ⟨S50000x128, .f32⟩
  | 29 => ⟨S50000x128, .f32⟩
  | 30 => ⟨S_, .f32⟩
  | 31 => ⟨S50000, .f32⟩
  | 32 => ⟨S50000x1, .f32⟩
  | 33 => ⟨S_, .f32⟩
  | 34 => ⟨S50000x1, .f32⟩
  | 35 => ⟨S50000x1, .f32⟩
  | 36 => ⟨S_, .f32⟩
  | 37 => ⟨S50000x1, .f32⟩
  | 38 => ⟨S50000x1, .f32⟩
  | 39 => ⟨S50000x1, .f32⟩
  | 40 => ⟨S50000x128, .f32⟩
  | 41 => ⟨S50000x128, .f32⟩
  | 42 => ⟨S1x128, .f32⟩
  | 43 => ⟨S50000x128, .f32⟩
  | 44 => ⟨S50000x128, .f32⟩
  | 45 => ⟨S1x128, .f32⟩
  | 46 => ⟨S50000x128, .f32⟩
  | 47 => ⟨S50000x128, .f32⟩
  | 48 => ⟨S_, .f32⟩
  | 49 => ⟨S50000x128, .f32⟩
  | 50 => ⟨S50000x128, .f32⟩
  | 51 => ⟨S_, .f32⟩
  | 52 => ⟨S50000, .f32⟩
  | 53 => ⟨S50000x1, .f32⟩
  | 54 => ⟨S_, .f32⟩
  | 55 => ⟨S50000x1, .f32⟩
  | 56 => ⟨S50000x1, .f32⟩
  | 57 => ⟨S50000x128, .f32⟩
  | 58 => ⟨S50000x128, .f32⟩
  | 59 => ⟨S50000x128, .f32⟩
  | 60 => ⟨S_, .f32⟩
  | 61 => ⟨S50000, .f32⟩
  | 62 => ⟨S50000x1, .f32⟩
  | 63 => ⟨S_, .f32⟩
  | 64 => ⟨S50000x1, .f32⟩
  | 65 => ⟨S50000x1, .f32⟩
  | 66 => ⟨S_, .f32⟩
  | 67 => ⟨S50000x1, .f32⟩
  | 68 => ⟨S50000x1, .f32⟩
  | 69 => ⟨S50000x1, .f32⟩
  | 70 => ⟨S50000x128, .f32⟩
  | 71 => ⟨S50000x128, .f32⟩
  | 72 => ⟨S1x128, .f32⟩
  | 73 => ⟨S50000x128, .f32⟩
  | 74 => ⟨S50000x128, .f32⟩
  | 75 => ⟨S1x128, .f32⟩
  | 76 => ⟨S50000x128, .f32⟩
  | 77 => ⟨S50000x128, .f32⟩
  | 78 => ⟨S_, .f32⟩
  | 79 => ⟨S50000x128, .f32⟩
  | 80 => ⟨S50000x128, .f32⟩
  | 81 => ⟨S1x600000, .i32⟩
  | 82 => ⟨S600000, .i32⟩
  | 83 => ⟨S_, .i32⟩
  | 84 => ⟨S600000, .i32⟩
  | 85 => ⟨S600000, .i1⟩
  | 86 => ⟨S_, .i32⟩
  | 87 => ⟨S600000, .i32⟩
  | 88 => ⟨S600000, .i32⟩
  | 89 => ⟨S600000, .i32⟩
  | 90 => ⟨S600000x1, .i32⟩
  | 91 => ⟨S600000x128, .f32⟩
  | 92 => ⟨S1x600000, .i32⟩
  | 93 => ⟨S600000, .i32⟩
  | 94 => ⟨S_, .f32⟩
  | 95 => ⟨S50000x128, .f32⟩
  | 96 => ⟨S600000x1, .i32⟩
  | 97 => ⟨S50000x128, .f32⟩
  | 98 => ⟨S_, .f32⟩
  | 99 => ⟨S600000, .f32⟩
  | 100 => ⟨S1x600000, .i32⟩
  | 101 => ⟨S600000, .i32⟩
  | 102 => ⟨S_, .f32⟩
  | 103 => ⟨S50000, .f32⟩
  | 104 => ⟨S600000x1, .i32⟩
  | 105 => ⟨S50000, .f32⟩
  | 106 => ⟨S_, .f32⟩
  | 107 => ⟨S50000, .f32⟩
  | 108 => ⟨S50000, .f32⟩
  | 109 => ⟨S50000x1, .f32⟩
  | 110 => ⟨S50000x128, .f32⟩
  | 111 => ⟨S50000x128, .f32⟩
  | 112 => ⟨S128x128, .f32⟩
  | 113 => ⟨S50000x128, .f32⟩
  | 114 => ⟨S1x128, .f32⟩
  | 115 => ⟨S50000x128, .f32⟩
  | 116 => ⟨S50000x128, .f32⟩
  | 117 => ⟨S128x128, .f32⟩
  | 118 => ⟨S50000x128, .f32⟩
  | 119 => ⟨S50000x128, .f32⟩
  | 120 => ⟨S1x600000, .i32⟩
  | 121 => ⟨S600000, .i32⟩
  | 122 => ⟨S_, .i32⟩
  | 123 => ⟨S600000, .i32⟩
  | 124 => ⟨S600000, .i1⟩
  | 125 => ⟨S_, .i32⟩
  | 126 => ⟨S600000, .i32⟩
  | 127 => ⟨S600000, .i32⟩
  | _ => ⟨S50000x128, .f32⟩

abbrev hbmTy0_2 (i : Nat) : BufTy := match i % 128 with
  | 0 => ⟨S600000, .i32⟩
  | 1 => ⟨S600000x1, .i32⟩
  | 2 => ⟨S600000x128, .f32⟩
  | 3 => ⟨S1x600000, .i32⟩
  | 4 => ⟨S600000, .i32⟩
  | 5 => ⟨S_, .f32⟩
  | 6 => ⟨S50000x128, .f32⟩
  | 7 => ⟨S600000x1, .i32⟩
  | 8 => ⟨S50000x128, .f32⟩
  | 9 => ⟨S_, .f32⟩
  | 10 => ⟨S600000, .f32⟩
  | 11 => ⟨S1x600000, .i32⟩
  | 12 => ⟨S600000, .i32⟩
  | 13 => ⟨S_, .f32⟩
  | 14 => ⟨S50000, .f32⟩
  | 15 => ⟨S600000x1, .i32⟩
  | 16 => ⟨S50000, .f32⟩
  | 17 => ⟨S_, .f32⟩
  | 18 => ⟨S50000, .f32⟩
  | 19 => ⟨S50000, .f32⟩
  | 20 => ⟨S50000x1, .f32⟩
  | 21 => ⟨S50000x128, .f32⟩
  | 22 => ⟨S50000x128, .f32⟩
  | 23 => ⟨S128x128, .f32⟩
  | 24 => ⟨S50000x128, .f32⟩
  | 25 => ⟨S1x128, .f32⟩
  | 26 => ⟨S50000x128, .f32⟩
  | 27 => ⟨S50000x128, .f32⟩
  | 28 => ⟨S128x128, .f32⟩
  | 29 => ⟨S50000x128, .f32⟩
  | 30 => ⟨S50000x128, .f32⟩
  | 31 => ⟨S1x600000, .i32⟩
  | 32 => ⟨S600000, .i32⟩
  | 33 => ⟨S_, .i32⟩
  | 34 => ⟨S600000, .i32⟩
  | 35 => ⟨S600000, .i1⟩
  | 36 => ⟨S_, .i32⟩
  | 37 => ⟨S600000, .i32⟩
  | 38 => ⟨S600000, .i32⟩
  | 39 => ⟨S600000, .i32⟩
  | 40 => ⟨S600000x1, .i32⟩
  | 41 => ⟨S600000x128, .f32⟩
  | 42 => ⟨S1x600000, .i32⟩
  | 43 => ⟨S600000, .i32⟩
  | 44 => ⟨S_, .f32⟩
  | 45 => ⟨S50000x128, .f32⟩
  | 46 => ⟨S600000x1, .i32⟩
  | 47 => ⟨S50000x128, .f32⟩
  | 48 => ⟨S_, .f32⟩
  | 49 => ⟨S600000, .f32⟩
  | 50 => ⟨S1x600000, .i32⟩
  | 51 => ⟨S600000, .i32⟩
  | 52 => ⟨S_, .f32⟩
  | 53 => ⟨S50000, .f32⟩
  | 54 => ⟨S600000x1, .i32⟩
  | 55 => ⟨S50000, .f32⟩
  | 56 => ⟨S_, .f32⟩
  | 57 => ⟨S50000, .f32⟩
  | 58 => ⟨S50000, .f32⟩
  | 59 => ⟨S50000x1, .f32⟩
  | 60 => ⟨S50000x128, .f32⟩
  | 61 => ⟨S50000x128, .f32⟩
  | 62 => ⟨S128x128, .f32⟩
  | 63 => ⟨S50000x128, .f32⟩
  | 64 => ⟨S1x128, .f32⟩
  | 65 => ⟨S50000x128, .f32⟩
  | 66 => ⟨S50000x128, .f32⟩
  | 67 => ⟨S128x128, .f32⟩
  | 68 => ⟨S50000x128, .f32⟩
  | 69 => ⟨S50000x128, .f32⟩
  | 70 => ⟨S50000x128, .f32⟩
  | 71 => ⟨S_, .f32⟩
  | 72 => ⟨S50000, .f32⟩
  | 73 => ⟨S50000x1, .f32⟩
  | 74 => ⟨S_, .f32⟩
  | 75 => ⟨S50000x1, .f32⟩
  | 76 => ⟨S50000x1, .f32⟩
  | 77 => ⟨S50000x128, .f32⟩
  | 78 => ⟨S50000x128, .f32⟩
  | 79 => ⟨S50000x128, .f32⟩
  | 80 => ⟨S_, .f32⟩
  | 81 => ⟨S50000, .f32⟩
  | 82 => ⟨S50000x1, .f32⟩
  | 83 => ⟨S_, .f32⟩
  | 84 => ⟨S50000x1, .f32⟩
  | 85 => ⟨S50000x1, .f32⟩
  | 86 => ⟨S_, .f32⟩
  | 87 => ⟨S50000x1, .f32⟩
  | 88 => ⟨S50000x1, .f32⟩
  | 89 => ⟨S50000x1, .f32⟩
  | 90 => ⟨S50000x128, .f32⟩
  | 91 => ⟨S50000x128, .f32⟩
  | 92 => ⟨S1x128, .f32⟩
  | 93 => ⟨S50000x128, .f32⟩
  | 94 => ⟨S50000x128, .f32⟩
  | 95 => ⟨S1x128, .f32⟩
  | 96 => ⟨S50000x128, .f32⟩
  | 97 => ⟨S50000x128, .f32⟩
  | 98 => ⟨S_, .f32⟩
  | 99 => ⟨S50000x128, .f32⟩
  | 100 => ⟨S50000x128, .f32⟩
  | 101 => ⟨S_, .f32⟩
  | 102 => ⟨S50000, .f32⟩
  | 103 => ⟨S50000x1, .f32⟩
  | 104 => ⟨S_, .f32⟩
  | 105 => ⟨S50000x1, .f32⟩
  | 106 => ⟨S50000x1, .f32⟩
  | 107 => ⟨S50000x128, .f32⟩
  | 108 => ⟨S50000x128, .f32⟩
  | 109 => ⟨S50000x128, .f32⟩
  | 110 => ⟨S_, .f32⟩
  | 111 => ⟨S50000, .f32⟩
  | 112 => ⟨S50000x1, .f32⟩
  | 113 => ⟨S_, .f32⟩
  | 114 => ⟨S50000x1, .f32⟩
  | 115 => ⟨S50000x1, .f32⟩
  | 116 => ⟨S_, .f32⟩
  | 117 => ⟨S50000x1, .f32⟩
  | 118 => ⟨S50000x1, .f32⟩
  | 119 => ⟨S50000x1, .f32⟩
  | 120 => ⟨S50000x128, .f32⟩
  | 121 => ⟨S50000x128, .f32⟩
  | 122 => ⟨S1x128, .f32⟩
  | 123 => ⟨S50000x128, .f32⟩
  | 124 => ⟨S50000x128, .f32⟩
  | 125 => ⟨S1x128, .f32⟩
  | 126 => ⟨S50000x128, .f32⟩
  | 127 => ⟨S50000x128, .f32⟩
  | _ => ⟨S50000x128, .f32⟩

abbrev hbmTy0_3 (i : Nat) : BufTy := match i % 128 with
  | 0 => ⟨S_, .f32⟩
  | 1 => ⟨S50000x128, .f32⟩
  | 2 => ⟨S50000x128, .f32⟩
  | 3 => ⟨S1x50000x128, .f32⟩
  | 4 => ⟨S1x50000x128, .f32⟩
  | 5 => ⟨S2x50000x128, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_c : Ref sig .tc := ⟨.hbm, 33, rfl⟩
abbrev main_v2 : Ref sig .tc := ⟨.hbm, 34, rfl⟩
abbrev main_v3 : Ref sig .tc := ⟨.hbm, 35, rfl⟩
abbrev main_c_0 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_cst : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_cst_1 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_cst_2 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_cst_3 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_c_4 : Ref sig .tc := ⟨.hbm, 72, rfl⟩
abbrev main_v35 : Ref sig .tc := ⟨.hbm, 73, rfl⟩
abbrev main_v36 : Ref sig .tc := ⟨.hbm, 74, rfl⟩
abbrev main_c_5 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_cst_6 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_cst_7 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_cst_8 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_cst_9 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_c_10 : Ref sig .tc := ⟨.hbm, 111, rfl⟩
abbrev main_v68 : Ref sig .tc := ⟨.hbm, 112, rfl⟩
abbrev main_v69 : Ref sig .tc := ⟨.hbm, 113, rfl⟩
abbrev main_c_11 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_12 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_13 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_14 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_cst_15 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_cst_16 : Ref sig .tc := ⟨.hbm, 149, rfl⟩
abbrev main_v100 : Ref sig .tc := ⟨.hbm, 150, rfl⟩
abbrev main_v101 : Ref sig .tc := ⟨.hbm, 151, rfl⟩
abbrev main_cst_17 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_cst_18 : Ref sig .tc := ⟨.hbm, 158, rfl⟩
abbrev main_v107 : Ref sig .tc := ⟨.hbm, 159, rfl⟩
abbrev main_v108 : Ref sig .tc := ⟨.hbm, 160, rfl⟩
abbrev main_cst_19 : Ref sig .tc := ⟨.hbm, 161, rfl⟩
abbrev main_v109 : Ref sig .tc := ⟨.hbm, 162, rfl⟩
abbrev main_v110 : Ref sig .tc := ⟨.hbm, 163, rfl⟩
abbrev main_cst_20 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_call0_cst : Ref sig .tc := ⟨.hbm, 176, rfl⟩
abbrev main_call0_v0 : Ref sig .tc := ⟨.hbm, 177, rfl⟩
abbrev main_v122 : Ref sig .tc := ⟨.hbm, 178, rfl⟩
abbrev main_cst_21 : Ref sig .tc := ⟨.hbm, 179, rfl⟩
abbrev main_v123 : Ref sig .tc := ⟨.hbm, 180, rfl⟩
abbrev main_v124 : Ref sig .tc := ⟨.hbm, 181, rfl⟩
abbrev main_cst_22 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_cst_23 : Ref sig .tc := ⟨.hbm, 188, rfl⟩
abbrev main_v130 : Ref sig .tc := ⟨.hbm, 189, rfl⟩
abbrev main_v131 : Ref sig .tc := ⟨.hbm, 190, rfl⟩
abbrev main_cst_24 : Ref sig .tc := ⟨.hbm, 191, rfl⟩
abbrev main_v132 : Ref sig .tc := ⟨.hbm, 192, rfl⟩
abbrev main_v133 : Ref sig .tc := ⟨.hbm, 193, rfl⟩
abbrev main_cst_25 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_call1_cst : Ref sig .tc := ⟨.hbm, 206, rfl⟩
abbrev main_call1_v0 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_c_26 : Ref sig .tc := ⟨.hbm, 211, rfl⟩
abbrev main_v148 : Ref sig .tc := ⟨.hbm, 212, rfl⟩
abbrev main_v149 : Ref sig .tc := ⟨.hbm, 213, rfl⟩
abbrev main_c_27 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_cst_28 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_cst_29 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_cst_30 : Ref sig .tc := ⟨.hbm, 230, rfl⟩
abbrev main_v163 : Ref sig .tc := ⟨.hbm, 231, rfl⟩
abbrev main_v164 : Ref sig .tc := ⟨.hbm, 232, rfl⟩
abbrev main_v165 : Ref sig .tc := ⟨.hbm, 233, rfl⟩
abbrev main_cst_31 : Ref sig .tc := ⟨.hbm, 234, rfl⟩
abbrev main_v166 : Ref sig .tc := ⟨.hbm, 235, rfl⟩
abbrev main_v167 : Ref sig .tc := ⟨.hbm, 236, rfl⟩
abbrev main_v168 : Ref sig .tc := ⟨.hbm, 237, rfl⟩
abbrev main_v169 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_v173 : Ref sig .tc := ⟨.hbm, 242, rfl⟩
abbrev main_v174 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_v180 : Ref sig .tc := ⟨.hbm, 249, rfl⟩
abbrev main_c_32 : Ref sig .tc := ⟨.hbm, 250, rfl⟩
abbrev main_v181 : Ref sig .tc := ⟨.hbm, 251, rfl⟩
abbrev main_v182 : Ref sig .tc := ⟨.hbm, 252, rfl⟩
abbrev main_c_33 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩
abbrev main_v186 : Ref sig .tc := ⟨.hbm, 257, rfl⟩
abbrev main_v187 : Ref sig .tc := ⟨.hbm, 258, rfl⟩
abbrev main_v188 : Ref sig .tc := ⟨.hbm, 259, rfl⟩
abbrev main_v189 : Ref sig .tc := ⟨.hbm, 260, rfl⟩
abbrev main_cst_34 : Ref sig .tc := ⟨.hbm, 261, rfl⟩
abbrev main_v190 : Ref sig .tc := ⟨.hbm, 262, rfl⟩
abbrev main_v191 : Ref sig .tc := ⟨.hbm, 263, rfl⟩
abbrev main_v192 : Ref sig .tc := ⟨.hbm, 264, rfl⟩
abbrev main_cst_35 : Ref sig .tc := ⟨.hbm, 265, rfl⟩
abbrev main_v193 : Ref sig .tc := ⟨.hbm, 266, rfl⟩
abbrev main_v194 : Ref sig .tc := ⟨.hbm, 267, rfl⟩
abbrev main_v195 : Ref sig .tc := ⟨.hbm, 268, rfl⟩
abbrev main_cst_36 : Ref sig .tc := ⟨.hbm, 269, rfl⟩
abbrev main_v196 : Ref sig .tc := ⟨.hbm, 270, rfl⟩
abbrev main_v197 : Ref sig .tc := ⟨.hbm, 271, rfl⟩
abbrev main_v198 : Ref sig .tc := ⟨.hbm, 272, rfl⟩
abbrev main_cst_37 : Ref sig .tc := ⟨.hbm, 273, rfl⟩
abbrev main_v199 : Ref sig .tc := ⟨.hbm, 274, rfl⟩
abbrev main_v200 : Ref sig .tc := ⟨.hbm, 275, rfl⟩
abbrev main_v201 : Ref sig .tc := ⟨.hbm, 276, rfl⟩
abbrev main_v202 : Ref sig .tc := ⟨.hbm, 277, rfl⟩
abbrev main_v203 : Ref sig .tc := ⟨.hbm, 278, rfl⟩
abbrev main_v204 : Ref sig .tc := ⟨.hbm, 279, rfl⟩
abbrev main_v205 : Ref sig .tc := ⟨.hbm, 280, rfl⟩
abbrev main_v206 : Ref sig .tc := ⟨.hbm, 281, rfl⟩
abbrev main_v207 : Ref sig .tc := ⟨.hbm, 282, rfl⟩
abbrev main_v208 : Ref sig .tc := ⟨.hbm, 283, rfl⟩
abbrev main_v209 : Ref sig .tc := ⟨.hbm, 284, rfl⟩
abbrev main_v210 : Ref sig .tc := ⟨.hbm, 285, rfl⟩
abbrev main_v211 : Ref sig .tc := ⟨.hbm, 286, rfl⟩
abbrev main_v212 : Ref sig .tc := ⟨.hbm, 287, rfl⟩
abbrev main_v213 : Ref sig .tc := ⟨.hbm, 288, rfl⟩
abbrev main_c_38 : Ref sig .tc := ⟨.hbm, 289, rfl⟩
abbrev main_v214 : Ref sig .tc := ⟨.hbm, 290, rfl⟩
abbrev main_v215 : Ref sig .tc := ⟨.hbm, 291, rfl⟩
abbrev main_c_39 : Ref sig .tc := ⟨.hbm, 292, rfl⟩
abbrev main_v216 : Ref sig .tc := ⟨.hbm, 293, rfl⟩
abbrev main_v217 : Ref sig .tc := ⟨.hbm, 294, rfl⟩
abbrev main_v218 : Ref sig .tc := ⟨.hbm, 295, rfl⟩
abbrev main_v219 : Ref sig .tc := ⟨.hbm, 296, rfl⟩
abbrev main_v220 : Ref sig .tc := ⟨.hbm, 297, rfl⟩
abbrev main_v221 : Ref sig .tc := ⟨.hbm, 298, rfl⟩
abbrev main_v222 : Ref sig .tc := ⟨.hbm, 299, rfl⟩
abbrev main_cst_40 : Ref sig .tc := ⟨.hbm, 300, rfl⟩
abbrev main_v223 : Ref sig .tc := ⟨.hbm, 301, rfl⟩
abbrev main_v224 : Ref sig .tc := ⟨.hbm, 302, rfl⟩
abbrev main_v225 : Ref sig .tc := ⟨.hbm, 303, rfl⟩
abbrev main_cst_41 : Ref sig .tc := ⟨.hbm, 304, rfl⟩
abbrev main_v226 : Ref sig .tc := ⟨.hbm, 305, rfl⟩
abbrev main_v227 : Ref sig .tc := ⟨.hbm, 306, rfl⟩
abbrev main_v228 : Ref sig .tc := ⟨.hbm, 307, rfl⟩
abbrev main_cst_42 : Ref sig .tc := ⟨.hbm, 308, rfl⟩
abbrev main_v229 : Ref sig .tc := ⟨.hbm, 309, rfl⟩
abbrev main_v230 : Ref sig .tc := ⟨.hbm, 310, rfl⟩
abbrev main_v231 : Ref sig .tc := ⟨.hbm, 311, rfl⟩
abbrev main_cst_43 : Ref sig .tc := ⟨.hbm, 312, rfl⟩
abbrev main_v232 : Ref sig .tc := ⟨.hbm, 313, rfl⟩
abbrev main_v233 : Ref sig .tc := ⟨.hbm, 314, rfl⟩
abbrev main_v234 : Ref sig .tc := ⟨.hbm, 315, rfl⟩
abbrev main_v235 : Ref sig .tc := ⟨.hbm, 316, rfl⟩
abbrev main_v236 : Ref sig .tc := ⟨.hbm, 317, rfl⟩
abbrev main_v237 : Ref sig .tc := ⟨.hbm, 318, rfl⟩
abbrev main_v238 : Ref sig .tc := ⟨.hbm, 319, rfl⟩
abbrev main_v239 : Ref sig .tc := ⟨.hbm, 320, rfl⟩
abbrev main_v240 : Ref sig .tc := ⟨.hbm, 321, rfl⟩
abbrev main_v241 : Ref sig .tc := ⟨.hbm, 322, rfl⟩
abbrev main_v242 : Ref sig .tc := ⟨.hbm, 323, rfl⟩
abbrev main_v243 : Ref sig .tc := ⟨.hbm, 324, rfl⟩
abbrev main_v244 : Ref sig .tc := ⟨.hbm, 325, rfl⟩
abbrev main_v245 : Ref sig .tc := ⟨.hbm, 326, rfl⟩
abbrev main_cst_44 : Ref sig .tc := ⟨.hbm, 327, rfl⟩
abbrev main_v246 : Ref sig .tc := ⟨.hbm, 328, rfl⟩
abbrev main_v247 : Ref sig .tc := ⟨.hbm, 329, rfl⟩
abbrev main_cst_45 : Ref sig .tc := ⟨.hbm, 330, rfl⟩
abbrev main_v248 : Ref sig .tc := ⟨.hbm, 331, rfl⟩
abbrev main_v249 : Ref sig .tc := ⟨.hbm, 332, rfl⟩
abbrev main_v250 : Ref sig .tc := ⟨.hbm, 333, rfl⟩
abbrev main_v251 : Ref sig .tc := ⟨.hbm, 334, rfl⟩
abbrev main_v252 : Ref sig .tc := ⟨.hbm, 335, rfl⟩
abbrev main_cst_46 : Ref sig .tc := ⟨.hbm, 336, rfl⟩
abbrev main_v253 : Ref sig .tc := ⟨.hbm, 337, rfl⟩
abbrev main_v254 : Ref sig .tc := ⟨.hbm, 338, rfl⟩
abbrev main_cst_47 : Ref sig .tc := ⟨.hbm, 339, rfl⟩
abbrev main_v255 : Ref sig .tc := ⟨.hbm, 340, rfl⟩
abbrev main_v256 : Ref sig .tc := ⟨.hbm, 341, rfl⟩
abbrev main_cst_48 : Ref sig .tc := ⟨.hbm, 342, rfl⟩
abbrev main_v257 : Ref sig .tc := ⟨.hbm, 343, rfl⟩
abbrev main_v258 : Ref sig .tc := ⟨.hbm, 344, rfl⟩
abbrev main_v259 : Ref sig .tc := ⟨.hbm, 345, rfl⟩
abbrev main_v260 : Ref sig .tc := ⟨.hbm, 346, rfl⟩
abbrev main_v261 : Ref sig .tc := ⟨.hbm, 347, rfl⟩
abbrev main_v262 : Ref sig .tc := ⟨.hbm, 348, rfl⟩
abbrev main_v263 : Ref sig .tc := ⟨.hbm, 349, rfl⟩
abbrev main_v264 : Ref sig .tc := ⟨.hbm, 350, rfl⟩
abbrev main_v265 : Ref sig .tc := ⟨.hbm, 351, rfl⟩
abbrev main_v266 : Ref sig .tc := ⟨.hbm, 352, rfl⟩
abbrev main_v267 : Ref sig .tc := ⟨.hbm, 353, rfl⟩
abbrev main_call2_cst : Ref sig .tc := ⟨.hbm, 354, rfl⟩
abbrev main_call2_v0 : Ref sig .tc := ⟨.hbm, 355, rfl⟩
abbrev main_v268 : Ref sig .tc := ⟨.hbm, 356, rfl⟩
abbrev main_cst_49 : Ref sig .tc := ⟨.hbm, 357, rfl⟩
abbrev main_v269 : Ref sig .tc := ⟨.hbm, 358, rfl⟩
abbrev main_v270 : Ref sig .tc := ⟨.hbm, 359, rfl⟩
abbrev main_cst_50 : Ref sig .tc := ⟨.hbm, 360, rfl⟩
abbrev main_v271 : Ref sig .tc := ⟨.hbm, 361, rfl⟩
abbrev main_v272 : Ref sig .tc := ⟨.hbm, 362, rfl⟩
abbrev main_v273 : Ref sig .tc := ⟨.hbm, 363, rfl⟩
abbrev main_v274 : Ref sig .tc := ⟨.hbm, 364, rfl⟩
abbrev main_v275 : Ref sig .tc := ⟨.hbm, 365, rfl⟩
abbrev main_cst_51 : Ref sig .tc := ⟨.hbm, 366, rfl⟩
abbrev main_v276 : Ref sig .tc := ⟨.hbm, 367, rfl⟩
abbrev main_v277 : Ref sig .tc := ⟨.hbm, 368, rfl⟩
abbrev main_cst_52 : Ref sig .tc := ⟨.hbm, 369, rfl⟩
abbrev main_v278 : Ref sig .tc := ⟨.hbm, 370, rfl⟩
abbrev main_v279 : Ref sig .tc := ⟨.hbm, 371, rfl⟩
abbrev main_cst_53 : Ref sig .tc := ⟨.hbm, 372, rfl⟩
abbrev main_v280 : Ref sig .tc := ⟨.hbm, 373, rfl⟩
abbrev main_v281 : Ref sig .tc := ⟨.hbm, 374, rfl⟩
abbrev main_v282 : Ref sig .tc := ⟨.hbm, 375, rfl⟩
abbrev main_v283 : Ref sig .tc := ⟨.hbm, 376, rfl⟩
abbrev main_v284 : Ref sig .tc := ⟨.hbm, 377, rfl⟩
abbrev main_v285 : Ref sig .tc := ⟨.hbm, 378, rfl⟩
abbrev main_v286 : Ref sig .tc := ⟨.hbm, 379, rfl⟩
abbrev main_v287 : Ref sig .tc := ⟨.hbm, 380, rfl⟩
abbrev main_v288 : Ref sig .tc := ⟨.hbm, 381, rfl⟩
abbrev main_v289 : Ref sig .tc := ⟨.hbm, 382, rfl⟩
abbrev main_v290 : Ref sig .tc := ⟨.hbm, 383, rfl⟩
abbrev main_call3_cst : Ref sig .tc := ⟨.hbm, 384, rfl⟩
abbrev main_call3_v0 : Ref sig .tc := ⟨.hbm, 385, rfl⟩
abbrev main_v291 : Ref sig .tc := ⟨.hbm, 386, rfl⟩
abbrev main_v292 : Ref sig .tc := ⟨.hbm, 387, rfl⟩
abbrev main_v293 : Ref sig .tc := ⟨.hbm, 388, rfl⟩
abbrev main_v294 : Ref sig .tc := ⟨.hbm, 389, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  bcast_S600000_S600000x1_0 : S600000.BroadcastsInDim S600000x1 (![0] : Fin 1 → Fin S600000x1.rank)
  slices_S2x600000_S1x600000_1_0 : S2x600000.Slices ![1, 0] S1x600000
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  bcast_S50000x128_S1x50000x128_1_2 : S50000x128.BroadcastsInDim S1x50000x128 (![1, 2] : Fin 2 → Fin S1x50000x128.rank)
  concatenates_S1x50000x128_S1x50000x128_S2x50000x128_d0 : Shape.Concatenates [S1x50000x128, S1x50000x128] S2x50000x128 0
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The mathematics both programs compute, one node (one row of 128 features) at a time, on the extended reals.

  A node's new feature vector is
      relu (layerNorm (Σ_e (mean_e · Wl_eᵀ + b_e + x · Wr_eᵀ)))
  where `e` ranges over the edge types that point at the node's type (one for an item, two for a user),
  `mean_e` is the node's aggregated neighbour row divided by its in-degree (clamped below by 1), `x` its own row,
  and the layer norm is over the 128 features with the biased variance and the shift 1e-5.
  Everything is stated row-wise so that a row block of 5000 nodes and the whole array of 50000 nodes read the same.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A 128×128 matrix as a function of its index. -/
abbrev Mat := (⟨2, ![128, 128]⟩ : Shape).Idx → EReal
/-- A vector of 128 features as a function of its index. -/
abbrev Vc := (⟨1, ![128]⟩ : Shape).Idx → EReal
/-- One node's row of 128 features. -/
abbrev Row := Fin 128 → EReal

/-- One edge type's contribution to a node: `mean · WlT + b + x · WrT` (both matrices already transposed:
    entry `(k, j)` multiplies input feature `k` into output feature `j`). -/
def sage (mean x : Row) (wlT : Mat) (b : Vc) (wrT : Mat) : Row := fun j =>
  ((∑ k : Fin 128, mean k * wlT (ix2 k j)) + b (ix1 j)) + ∑ k : Fin 128, x k * wrT (ix2 k j)

/-- The mean of a row: its sum divided by 128. -/
def rowMean (a : Row) : EReal := Ideal.div (∑ k : Fin 128, a k) (Ideal.ofBits .f32 0x43000000#32)

/-- A row minus its mean. -/
def centred (a : Row) : Row := fun j => a j - rowMean a

/-- Layer norm over the 128 features (biased variance, shift `1e-5` as the f32 literal both programs carry),
    then the affine map, then relu. -/
def lnRelu (a : Row) (lnw lnb : Vc) : Row := fun j =>
  max (centred a j
        * Ideal.rsqrt (rowMean (fun k => centred a k * centred a k) + Ideal.ofBits .f32 0x3727C5AC#32)
        * lnw (ix1 j) + lnb (ix1 j))
      (Ideal.ofBits .f32 0x00000000#32)

/-- A node reached by ONE edge type (an item). -/
def node1 (x mean : Row) (wlT : Mat) (b : Vc) (wrT : Mat) (lnw lnb : Vc) : Row :=
  lnRelu (sage mean x wlT b wrT) lnw lnb

/-- A node reached by TWO edge types (a user): the two contributions added, then the norm. -/
def node2 (x mean1 : Row) (wlT1 : Mat) (b1 : Vc) (wrT1 : Mat) (mean2 : Row) (wlT2 : Mat) (b2 : Vc) (wrT2 : Mat)
    (lnw lnb : Vc) : Row :=
  lnRelu (fun j => sage mean1 x wlT1 b1 wrT1 j + sage mean2 x wlT2 b2 wrT2 j) lnw lnb

/-- The reciprocal of a clamped count times a sum IS the sum divided by the clamped count: the clamp keeps the
    divisor at least 1, so it is never zero and the division is the product with the inverse. -/
theorem mul_recip_clamped (s cnt : EReal) :
    s * Ideal.div (Ideal.ofBits .f32 0x3F800000#32) (max cnt (Ideal.ofBits .f32 0x3F800000#32))
      = Ideal.div s (max cnt (Ideal.ofBits .f32 0x3F800000#32)) := by
  have h1 : Ideal.ofBits .f32 0x3F800000#32 = (1 : EReal) := by
    simp [Ideal.ofBits, Ideal.ieee, -EReal.coe_mul]; norm_num
  rw [h1]
  have hne : max cnt (1 : EReal) ≠ 0 := by
    have : (0 : EReal) < max cnt 1 := lt_of_lt_of_le zero_lt_one (le_max_right _ _)
    exact ne_of_gt this
  unfold Ideal.div
  rw [if_neg hne, if_neg hne, one_mul]

end Cert.Spec

end
-- ==== Proof.HostSpec.lean ====
/-
  The whole computation as ONE function of the argument arrays, spelt with the host operations the reference
  applies: per edge type the neighbour sum (a gather of the source rows followed by a scatter-add at the
  destination nodes) and the clamped in-degree; per node type and layer the transform of `Spec` applied row by
  row; the two node types' second-layer arrays stacked.

  The gather / scatter-add chains are never opened: both programs apply the same chain to the same arrays, so they
  are carried as the functions `segsum` and `cntc`.
-/
import proofs.«148312_j75428215652543_2_alg».proof.ReferenceIdeal
import proofs.«148312_j75428215652543_2_alg».proof.Proof.Spec

noncomputable section

namespace Cert.HostSpec

open Idealize.ShloMosaic Idealize.ShloMosaic.ValueIdx Cert.ReferenceIdeal

variable [Cert.ReferenceIdeal.Facts]

open Cert.ReferenceIdeal.Facts₀ Cert.ReferenceIdeal.Facts

/-- A node type's feature array: 50000 nodes, 128 features. -/
abbrev Nodes := FVec Ideal S50000x128 .f32
/-- An edge type's index array: row 0 the source node of each of the 600000 edges, row 1 the destination. -/
abbrev Edges := IVec S2x600000 32
abbrev Mat := FVec Ideal S128x128 .f32
abbrev Vc := FVec Ideal S128 .f32

/-- The source node of each edge, a negative index wrapped once by the node count, as a column. -/
def srcIdx (ei : Edges) : IVec S600000x1 32 :=
  broadcastInDim S600000x1 ![0] bcast_S600000_S600000x1_0
    (select
      (cmpi .slt (shapeCast S600000 (extractStridedSlice S1x600000 ![0, 0] ei slices_S2x600000_S1x600000_0_0) shapeCasts_S1x600000_S600000)
        (broadcastInDim S600000 ![] bcast_S_S600000 (constantI S_ 32 0#32)))
      (addi (shapeCast S600000 (extractStridedSlice S1x600000 ![0, 0] ei slices_S2x600000_S1x600000_0_0) shapeCasts_S1x600000_S600000)
        (broadcastInDim S600000 ![] bcast_S_S600000 (constantI S_ 32 50000#32)))
      (shapeCast S600000 (extractStridedSlice S1x600000 ![0, 0] ei slices_S2x600000_S1x600000_0_0) shapeCasts_S1x600000_S600000))

/-- The destination node of each edge, as a column. -/
def dstIdx (ei : Edges) : IVec S600000x1 32 :=
  broadcastInDim S600000x1 ![0] bcast_S600000_S600000x1_0
    (shapeCast S600000 (extractStridedSlice S1x600000 ![1, 0] ei slices_S2x600000_S1x600000_1_0) shapeCasts_S1x600000_S600000)

/-- Per destination node, the sum of its in-neighbours' rows. -/
def segsum (x : Nodes) (ei : Edges) : Nodes :=
  Host.scatterAdd scatter_S50000x128_S600000x1_S600000x128_1_0_0_1
    (broadcastInDim S50000x128 ![] bcast_S_S50000x128 (constant S_ .f32 0x00000000#32))
    (dstIdx ei)
    (Host.gather gather_S50000x128_S600000x1_S600000x128_1_0_n_n_0_1_1128 x (srcIdx ei))

/-- Per destination node, its in-degree clamped below by 1. -/
def cntc (ei : Edges) : FVec Ideal S50000 .f32 :=
  maximumf
    (Host.scatterAdd scatter_S50000_S600000x1_S600000_n_0_0_1
      (broadcastInDim S50000 ![] bcast_S_S50000 (constant S_ .f32 0x00000000#32))
      (dstIdx ei)
      (broadcastInDim S600000 ![] bcast_S_S600000 (constant S_ .f32 0x3F800000#32)))
    (broadcastInDim S50000 ![] bcast_S_S50000 (constant S_ .f32 0x3F800000#32))

/-- A node's row of an array. -/
abbrev row (a : Nodes) (i : Fin 50000) : Spec.Row := fun k => a (ix2 i k)

/-- A node's mean neighbour row: the neighbour sum divided by the clamped in-degree. -/
def meanRow (x : Nodes) (ei : Edges) (i : Fin 50000) : Spec.Row :=
  fun k => Ideal.div (segsum x ei (ix2 i k)) (cntc ei (ix1 i))

/-- The transpose of a 128×128 matrix. -/
def tr (w : Mat) : Spec.Mat := fun kj => w (ix2 (kj 1) (kj 0))

/-- One layer at the node type reached by ONE edge type (`src → dst` along `ei`). -/
def layer1 (xsrc xdst : Nodes) (ei : Edges) (wl : Mat) (b : Vc) (wr : Mat) (lnw lnb : Vc) : Nodes :=
  fun idx => Spec.node1 (row xdst (idx 0)) (meanRow xsrc ei (idx 0)) (tr wl) b (tr wr) lnw lnb (idx 1)

/-- One layer at the node type reached by TWO edge types (`srcA → dst` along `eiA`, `srcB → dst` along `eiB`). -/
def layer2 (xsrcA xsrcB xdst : Nodes) (eiA : Edges) (wlA : Mat) (bA : Vc) (wrA : Mat)
    (eiB : Edges) (wlB : Mat) (bB : Vc) (wrB : Mat) (lnw lnb : Vc) : Nodes :=
  fun idx => Spec.node2 (row xdst (idx 0)) (meanRow xsrcA eiA (idx 0)) (tr wlA) bA (tr wrA)
    (meanRow xsrcB eiB (idx 0)) (tr wlB) bB (tr wrB) lnw lnb (idx 1)

/-! ## The reference's own spelling of one layer, in host operations over whole arrays -/

/-- One edge type's contribution over the whole array, as the reference spells it: the neighbour sum `s` divided
    by the clamped in-degree `c` (broadcast along the features), times `wlᵀ`, plus the bias, plus `xdst · wrᵀ`. -/
def refSage (s : Nodes) (c : FVec Ideal S50000 .f32) (xdst : Nodes) (wl : Mat) (b : Vc) (wr : Mat) : Nodes :=
  addf
    (addf
      (Host.dotGeneral dot_S50000x128_S128x128_S50000x128_1_0_0_1_n_n none
        (Host.divf s
          (broadcastInDim S50000x128 ![0, 1] bcast_S50000x1_S50000x128_0_1
            (broadcastInDim S50000x1 ![0] bcast_S50000_S50000x1_0 c)))
        (transpose S128x128 [1, 0] wl transposes_S128x128_S128x128_1_0))
      (broadcastInDim S50000x128 ![0, 1] bcast_S1x128_S50000x128_0_1 (broadcastInDim S1x128 ![1] bcast_S128_S1x128_1 b)))
    (Host.dotGeneral dot_S50000x128_S128x128_S50000x128_1_0_0_1_n_n none xdst
      (transpose S128x128 [1, 0] wr transposes_S128x128_S128x128_1_0))

/-- A whole array minus its row means (the mean as a row sum from zero, divided by 128). -/
def refCentred (a : Nodes) : Nodes :=
  subf a
    (broadcastInDim S50000x128 ![0, 1] bcast_S50000x1_S50000x128_0_1
      (Host.divf
        (broadcastInDim S50000x1 ![0] bcast_S50000_S50000x1_0
          (Host.reduceAdd a (constant S_ .f32 0x00000000#32) reducesTo_S50000x128_S50000_d1 h_S_))
        (broadcastInDim S50000x1 ![] bcast_S_S50000x1 (constant S_ .f32 0x43000000#32))))

/-- Layer norm, affine map and relu over the whole array, as the reference spells them. -/
def refLnRelu (a : Nodes) (lnw lnb : Vc) : Nodes :=
  maximumf
    (addf
      (mulf
        (mulf (refCentred a)
          (broadcastInDim S50000x128 ![0, 1] bcast_S50000x1_S50000x128_0_1
            (Host.rsqrt
              (addf
                (Host.divf
                  (broadcastInDim S50000x1 ![0] bcast_S50000_S50000x1_0
                    (Host.reduceAdd (mulf (refCentred a) (refCentred a)) (constant S_ .f32 0x00000000#32)
                      reducesTo_S50000x128_S50000_d1 h_S_))
                  (broadcastInDim S50000x1 ![] bcast_S_S50000x1 (constant S_ .f32 0x43000000#32)))
                (broadcastInDim S50000x1 ![] bcast_S_S50000x1 (constant S_ .f32 0x3727C5AC#32))))))
        (broadcastInDim S50000x128 ![0, 1] bcast_S1x128_S50000x128_0_1 (broadcastInDim S1x128 ![1] bcast_S128_S1x128_1 lnw)))
      (broadcastInDim S50000x128 ![0, 1] bcast_S1x128_S50000x128_0_1 (broadcastInDim S1x128 ![1] bcast_S128_S1x128_1 lnb)))
    (broadcastInDim S50000x128 ![] bcast_S_S50000x128 (constant S_ .f32 0x00000000#32))

/-- The reference's layer at the node type reached by one edge type. -/
def refLayer1 (xsrc xdst : Nodes) (ei : Edges) (wl : Mat) (b : Vc) (wr : Mat) (lnw lnb : Vc) : Nodes :=
  refLnRelu (refSage (segsum xsrc ei) (cntc ei) xdst wl b wr) lnw lnb

/-- The reference's layer at the node type reached by two edge types. -/
def refLayer2 (xsrcA xsrcB xdst : Nodes) (eiA : Edges) (wlA : Mat) (bA : Vc) (wrA : Mat)
    (eiB : Edges) (wlB : Mat) (bB : Vc) (wrB : Mat) (lnw lnb : Vc) : Nodes :=
  refLnRelu (addf (refSage (segsum xsrcA eiA) (cntc eiA) xdst wlA bA wrA) (refSage (segsum xsrcB eiB) (cntc eiB) xdst wlB bB wrB)) lnw lnb

/-! ## The kernel program's host-side spelling of the per-node reciprocal count and of a transposed weight -/

/-- The reciprocal of the clamped in-degree, as a column (one entry per node). -/
def invcol (ei : Edges) : FVec Ideal S50000x1 .f32 :=
  broadcastInDim S50000x1 ![0] bcast_S50000_S50000x1_0
    (Host.divf (broadcastInDim S50000 ![] bcast_S_S50000 (constant S_ .f32 0x3F800000#32)) (cntc ei))

/-- A weight matrix transposed on the host. -/
def trh (w : Mat) : Mat := transpose S128x128 [1, 0] w transposes_S128x128_S128x128_1_0

/-- What a region of the kernel program leaves in its output array, one edge type: the row-wise transform of the
    region's input arrays — the node's own rows `x`, the neighbour sums `s`, the reciprocal-count column `inv`
    (the mean is their product), the already transposed weights. -/
def kLayer1 (x s : Nodes) (inv : FVec Ideal S50000x1 .f32) (wlT : Mat) (b : Vc) (wrT : Mat) (lnw lnb : Vc) : Nodes :=
  fun idx => Spec.node1 (row x (idx 0)) (fun k => s (ix2 (idx 0) k) * inv (ix2 (idx 0) (0 : Fin 1))) wlT b wrT lnw lnb (idx 1)

/-- The same for a region fed by two edge types. -/
def kLayer2 (x sA : Nodes) (invA : FVec Ideal S50000x1 .f32) (wlTA : Mat) (bA : Vc) (wrTA : Mat)
    (sB : Nodes) (invB : FVec Ideal S50000x1 .f32) (wlTB : Mat) (bB : Vc) (wrTB : Mat) (lnw lnb : Vc) : Nodes :=
  fun idx => Spec.node2 (row x (idx 0)) (fun k => sA (ix2 (idx 0) k) * invA (ix2 (idx 0) (0 : Fin 1))) wlTA bA wrTA
    (fun k => sB (ix2 (idx 0) k) * invB (ix2 (idx 0) (0 : Fin 1))) wlTB bB wrTB lnw lnb (idx 1)

/-- The two node types' arrays stacked: users first, items second. -/
def stack (u i : Nodes) : FVec Ideal S2x50000x128 .f32 :=
  concatenate S2x50000x128 0
    [⟨S1x50000x128, broadcastInDim S1x50000x128 ![1, 2] bcast_S50000x128_S1x50000x128_1_2 u⟩,
     ⟨S1x50000x128, broadcastInDim S1x50000x128 ![1, 2] bcast_S50000x128_S1x50000x128_1_2 i⟩]
    concatenates_S1x50000x128_S1x50000x128_S2x50000x128_d0

end Cert.HostSpec

end
-- ==== Proof.Region0.lean ====
/-
  Region 0 of the kernel program, read as a value: whatever the region finds in its 8 input arrays, its
  output array ends holding the row-wise transform of them — block `t` of the output is rows
  `5000·t … 5000·t + 4999`, computed from the same rows of the row-blocked inputs and from the whole weight
  matrices and vectors; the ten blocks tile the 50000 rows.
-/
import proofs.«148312_j75428215652543_2_alg».proof.Proof.Gen.KernelIdeal.Frame
import proofs.«148312_j75428215652543_2_alg».proof.Proof.HostSpec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

/-- The block index maps over the grid: a row-blocked window moves with the point along the rows, a weight
    window stays at its whole array. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 1) = 0
    ∧ win0_5.index t (0 : Fin 2) = 0
    ∧ win0_5.index t (1 : Fin 2) = 0
    ∧ win0_6.index t (0 : Fin 1) = 0
    ∧ win0_7.index t (0 : Fin 1) = 0
    ∧ win0_8.index t (0 : Fin 2) = t.val
    ∧ win0_8.index t (1 : Fin 2) = 0 :=
  (by decide +kernel : ∀ t : Fin grid0.N, _)

/-- Window 0's block at point `t` is rows `5000·t … 5000·t + 4999` of its array. -/
theorem blk0 (c : Dev nD) (t : Fin cfg0.N) (p : Fin 5000) (k : Fin 128) (I : Fin 50000) (hI : I.val = t.val * 5000 + p.val) :
    (iblk0 V c 0 t : Vec Ideal S5000x128 .f32) (ix2 p k) = (V c main_arg1 : S50000x128.Idx → EReal) (ix2 I k) := by
  obtain ⟨f0, f1, f2, f3, f4, f5, f6, f7, f8, f9, f10, f11, f12, f13, f14⟩ := idx_facts t
  unfold iblk0
  rw [View.read_apply]
  show V c main_arg1 _ = V c main_arg1 _
  congr 1
  funext a
  apply Fin.ext
  match a with
  | ⟨0, _⟩ => show win0_0.index t (0 : Fin 2) * 5000 + 1 * p.val = I.val; rw [f0, hI]; omega
  | ⟨1, _⟩ => show win0_0.index t (1 : Fin 2) * 128 + 1 * k.val = k.val; rw [f1]; omega

/-- Window 1's block at point `t` is rows `5000·t … 5000·t + 4999` of its array. -/
theorem blk1 (c : Dev nD) (t : Fin cfg0.N) (p : Fin 5000) (k : Fin 128) (I : Fin 50000) (hI : I.val = t.val * 5000 + p.val) :
    (iblk0 V c 1 t : Vec Ideal S5000x128 .f32) (ix2 p k) = (V c main_v46 : S50000x128.Idx → EReal) (ix2 I k) := by
  obtain ⟨f0, f1, f2, f3, f4, f5, f6, f7, f8, f9, f10, f11, f12, f13, f14⟩ := idx_facts t
  unfold iblk0
  rw [View.read_apply]
  show V c main_v46 _ = V c main_v46 _
  congr 1
  funext a
  apply Fin.ext
  match a with
  | ⟨0, _⟩ => show win0_1.index t (0 : Fin 2) * 5000 + 1 * p.val = I.val; rw [f2, hI]; omega
  | ⟨1, _⟩ => show win0_1.index t (1 : Fin 2) * 128 + 1 * k.val = k.val; rw [f3]; omega

/-- Window 2's block at point `t` is entries `5000·t … 5000·t + 4999` of its column. -/
theorem blk2 (c : Dev nD) (t : Fin cfg0.N) (p : Fin 5000) (I : Fin 50000) (hI : I.val = t.val * 5000 + p.val) :
    (iblk0 V c 2 t : Vec Ideal S5000x1 .f32) (ix2 p (0 : Fin 1)) = (V c main_v10 : S50000x1.Idx → EReal) (ix2 I (0 : Fin 1)) := by
  obtain ⟨f0, f1, f2, f3, f4, f5, f6, f7, f8, f9, f10, f11, f12, f13, f14⟩ := idx_facts t
  unfold iblk0
  rw [View.read_apply]
  show V c main_v10 _ = V c main_v10 _
  congr 1
  funext a
  apply Fin.ext
  match a with
  | ⟨0, _⟩ => show win0_2.index t (0 : Fin 2) * 5000 + 1 * p.val = I.val; rw [f4, hI]; omega
  | ⟨1, _⟩ => show win0_2.index t (1 : Fin 2) * 1 + 1 * 0 = 0; rw [f5]

/-- Window 3's block at every point is its whole matrix. -/
theorem blk3 (c : Dev nD) (t : Fin cfg0.N) :
    (iblk0 V c 3 t : Vec Ideal S128x128 .f32) = (V c main_v75 : S128x128.Idx → EReal) := by
  obtain ⟨f0, f1, f2, f3, f4, f5, f6, f7, f8, f9, f10, f11, f12, f13, f14⟩ := idx_facts t
  funext y
  unfold iblk0
  rw [View.read_apply]
  show V c main_v75 _ = V c main_v75 _
  congr 1
  funext a
  apply Fin.ext
  match a with
  | ⟨0, _⟩ => show win0_3.index t (0 : Fin 2) * 128 + 1 * (y 0).val = (y 0).val; rw [f6]; omega
  | ⟨1, _⟩ => show win0_3.index t (1 : Fin 2) * 128 + 1 * (y 1).val = (y 1).val; rw [f7]; omega

/-- Window 4's block at every point is its whole vector. -/
theorem blk4 (c : Dev nD) (t : Fin cfg0.N) :
    (iblk0 V c 4 t : Vec Ideal S128 .f32) = (V c main_arg6 : S128.Idx → EReal) := by
  obtain ⟨f0, f1, f2, f3, f4, f5, f6, f7, f8, f9, f10, f11, f12, f13, f14⟩ := idx_facts t
  funext y
  unfold iblk0
  rw [View.read_apply]
  show V c main_arg6 _ = V c main_arg6 _
  congr 1
  funext a
  apply Fin.ext
  match a with
  | ⟨0, _⟩ => show win0_4.index t (0 : Fin 1) * 128 + 1 * (y 0).val = (y 0).val; rw [f8]; omega

/-- Window 5's block at every point is its whole matrix. -/
theorem blk5 (c : Dev nD) (t : Fin cfg0.N) :
    (iblk0 V c 5 t : Vec Ideal S128x128 .f32) = (V c main_v76 : S128x128.Idx → EReal) := by
  obtain ⟨f0, f1, f2, f3, f4, f5, f6, f7, f8, f9, f10, f11, f12, f13, f14⟩ := idx_facts t
  funext y
  unfold iblk0
  rw [View.read_apply]
  show V c main_v76 _ = V c main_v76 _
  congr 1
  funext a
  apply Fin.ext
  match a with
  | ⟨0, _⟩ => show win0_5.index t (0 : Fin 2) * 128 + 1 * (y 0).val = (y 0).val; rw [f9]; omega
  | ⟨1, _⟩ => show win0_5.index t (1 : Fin 2) * 128 + 1 * (y 1).val = (y 1).val; rw [f10]; omega

/-- Window 6's block at every point is its whole vector. -/
theorem blk6 (c : Dev nD) (t : Fin cfg0.N) :
    (iblk0 V c 6 t : Vec Ideal S128 .f32) = (V c main_arg16 : S128.Idx → EReal) := by
  obtain ⟨f0, f1, f2, f3, f4, f5, f6, f7, f8, f9, f10, f11, f12, f13, f14⟩ := idx_facts t
  funext y
  unfold iblk0
  rw [View.read_apply]
  show V c main_arg16 _ = V c main_arg16 _
  congr 1
  funext a
  apply Fin.ext
  match a with
  | ⟨0, _⟩ => show win0_6.index t (0 : Fin 1) * 128 + 1 * (y 0).val = (y 0).val; rw [f11]; omega

/-- Window 7's block at every point is its whole vector. -/
theorem blk7 (c : Dev nD) (t : Fin cfg0.N) :
    (iblk0 V c 7 t : Vec Ideal S128 .f32) = (V c main_arg17 : S128.Idx → EReal) := by
  obtain ⟨f0, f1, f2, f3, f4, f5, f6, f7, f8, f9, f10, f11, f12, f13, f14⟩ := idx_facts t
  funext y
  unfold iblk0
  rw [View.read_apply]
  show V c main_arg17 _ = V c main_arg17 _
  congr 1
  funext a
  apply Fin.ext
  match a with
  | ⟨0, _⟩ => show win0_7.index t (0 : Fin 1) * 128 + 1 * (y 0).val = (y 0).val; rw [f12]; omega

/-- What the region's array function reads at an index given by its row and feature. -/
theorem kfn_apply (a0 : S50000x128.Idx → EReal) (a1 : S50000x128.Idx → EReal) (a2 : S50000x1.Idx → EReal) (a3 : S128x128.Idx → EReal) (a4 : S128.Idx → EReal) (a5 : S128x128.Idx → EReal) (a6 : S128.Idx → EReal) (a7 : S128.Idx → EReal) (I : Fin 50000) (q : Fin 128) :
    Cert.HostSpec.kLayer1 a0 a1 a2 a3 a4 a5 a6 a7 (ix2 I q)
      = Cert.Spec.node1 (fun k => a0 (ix2 I k)) (fun k => a1 (ix2 I k) * a2 (ix2 I (0 : Fin 1))) a3 a4 a5 a6 a7 q := rfl

/-- WHAT POINT `t` WRITES BACK is block `t` of the row-wise transform of the arrays the region finds
    (given the body's value at an index, `hbody`). -/
theorem flushed_eq
    (hbody : ∀ (x0 : Vec Ideal S5000x128 .f32) (x1 : Vec Ideal S5000x128 .f32) (x2 : Vec Ideal S5000x1 .f32) (x3 : Vec Ideal S128x128 .f32) (x4 : Vec Ideal S128 .f32) (x5 : Vec Ideal S128x128 .f32) (x6 : Vec Ideal S128 .f32) (x7 : Vec Ideal S128 .f32) (p : Fin 5000) (q : Fin 128),
      out0_8 (F := Ideal) x0 x1 x2 x3 x4 x5 x6 x7 (ix2 p q) = Cert.Spec.node1 (fun k => x0 (ix2 p k)) (fun k => x1 (ix2 p k) * x2 (ix2 p (0 : Fin 1))) x3 x4 x5 x6 x7 q)
    (c : Dev nD) (t : Fin cfg0.N) :
    (dat0 V c).flushed 8 t = ((cfg0.win 8).blk t).view.read (Elt Ideal)
      (Cert.HostSpec.kLayer1 (V c main_arg1) (V c main_v46) (V c main_v10) (V c main_v75) (V c main_arg6) (V c main_v76) (V c main_arg16) (V c main_arg17)) := by
  show (cfg0.win 8).cut (grid0.coords t) ((dat0 V c).after 8 t) = _
  rw [after0_8]
  obtain ⟨f0, f1, f2, f3, f4, f5, f6, f7, f8, f9, f10, f11, f12, f13, f14⟩ := idx_facts t
  funext j
  have hj0 : (j 0).val < 5000 := (j 0).isLt
  have hj1 : (j 1).val < 128 := (j 1).isLt
  have htN : t.val < 10 := by have h1 := t.isLt; have h2 : cfg0.N = 10 := N_0; omega
  let p : Fin 5000 := ⟨(j 0).val, hj0⟩
  let q : Fin 128 := ⟨(j 1).val, hj1⟩
  let I : Fin 50000 := ⟨t.val * 5000 + (j 0).val, by omega⟩
  have hI : I.val = t.val * 5000 + p.val := rfl
  have hx : (cfg0.win 8).xinj (grid0.coords t) j = ix2 p q :=
    funext fun a => by match a with | ⟨0, _⟩ => rfl | ⟨1, _⟩ => rfl
  have he : ((cfg0.win 8).blk t).view.emb j = ix2 I q := by
    funext a
    apply Fin.ext
    match a with
    | ⟨0, _⟩ => show win0_8.index t (0 : Fin 2) * 5000 + 1 * (j 0).val = t.val * 5000 + (j 0).val; rw [f13]; omega
    | ⟨1, _⟩ => show win0_8.index t (1 : Fin 2) * 128 + 1 * (j 1).val = (j 1).val; rw [f14]; omega
  show out0_8 (F := Ideal) (iblk0 V c 0 t) (iblk0 V c 1 t) (iblk0 V c 2 t) (iblk0 V c 3 t) (iblk0 V c 4 t) (iblk0 V c 5 t) (iblk0 V c 6 t) (iblk0 V c 7 t) ((cfg0.win 8).xinj (grid0.coords t) j) = _
  rw [hx, hbody, View.read_apply, he]
  show _ = Cert.HostSpec.kLayer1 (V c main_arg1) (V c main_v46) (V c main_v10) (V c main_v75) (V c main_arg6) (V c main_v76) (V c main_arg16) (V c main_arg17) (ix2 I q)
  rw [kfn_apply]
  simp only [blk0 V c t p _ I hI, blk1 V c t p _ I hI, blk2 V c t p I hI, blk3 V c t, blk4 V c t, blk5 V c t, blk6 V c t, blk7 V c t]

/-- The ten blocks tile the rows: row `r` lies in block `r / 5000`. -/
theorem cover (c : Dev nD) (i : S50000x128.Idx) :
    ∃ t : Fin cfg0.N, (cfg0.win 8).flush t = true ∧ i ∈ ((cfg0.win 8).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨f0, f1, f2, f3, f4, f5, f6, f7, f8, f9, f10, f11, f12, f13, f14⟩ := idx_facts t
  refine ⟨t, flush0_8 t, ?_⟩
  show i ∈ ((View.whole main_v81).slice (win0_8.rect t)).set
  rw [View.set_slice_whole, Rect.mem_set_unit]
  intro a
  match a with
  | ⟨0, _⟩ =>
    show win0_8.index t (0 : Fin 2) * 5000 ≤ (i 0).val ∧ (i 0).val < win0_8.index t (0 : Fin 2) * 5000 + 5000
    rw [f13]
    show (i 0).val / 5000 * 5000 ≤ (i 0).val ∧ (i 0).val < (i 0).val / 5000 * 5000 + 5000
    omega
  | ⟨1, _⟩ =>
    show win0_8.index t (1 : Fin 2) * 128 ≤ (i 1).val ∧ (i 1).val < win0_8.index t (1 : Fin 2) * 128 + 128
    rw [f14]
    omega

/-- THE OUTPUT ARRAY after the region: the row-wise transform of the arrays the region finds. -/
theorem final
    (hbody : ∀ (x0 : Vec Ideal S5000x128 .f32) (x1 : Vec Ideal S5000x128 .f32) (x2 : Vec Ideal S5000x1 .f32) (x3 : Vec Ideal S128x128 .f32) (x4 : Vec Ideal S128 .f32) (x5 : Vec Ideal S128x128 .f32) (x6 : Vec Ideal S128 .f32) (x7 : Vec Ideal S128 .f32) (p : Fin 5000) (q : Fin 128),
      out0_8 (F := Ideal) x0 x1 x2 x3 x4 x5 x6 x7 (ix2 p q) = Cert.Spec.node1 (fun k => x0 (ix2 p k)) (fun k => x1 (ix2 p k) * x2 (ix2 p (0 : Fin 1))) x3 x4 x5 x6 x7 q)
    (c : Dev nD) :
    (dat0 V c).arrAt 8 cfg0.N = Cert.HostSpec.kLayer1 (V c main_arg1) (V c main_v46) (V c main_v10) (V c main_v75) (V c main_arg6) (V c main_v76) (V c main_arg16) (V c main_arg17) :=
  (dat0 V c).arrAt_eq_of_cover 8 _ (fun t _ => flushed_eq V hbody c t) (cover c)

end Cert.KernelIdeal.Region0

end
-- ==== Proof.Region1.lean ====
/-
  Region 1 of the kernel program, read as a value: whatever the region finds in its 13 input arrays, its
  output array ends holding the row-wise transform of them — block `t` of the output is rows
  `5000·t … 5000·t + 4999`, computed from the same rows of the row-blocked inputs and from the whole weight
  matrices and vectors; the ten blocks tile the 50000 rows.
-/
import proofs.«148312_j75428215652543_2_alg».proof.Proof.Gen.KernelIdeal.Frame
import proofs.«148312_j75428215652543_2_alg».proof.Proof.HostSpec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

/-- The block index maps over the grid: a row-blocked window moves with the point along the rows, a weight
    window stays at its whole array. -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 1) = 0
    ∧ win1_5.index t (0 : Fin 2) = 0
    ∧ win1_5.index t (1 : Fin 2) = 0
    ∧ win1_6.index t (0 : Fin 2) = t.val
    ∧ win1_6.index t (1 : Fin 2) = 0
    ∧ win1_7.index t (0 : Fin 2) = t.val
    ∧ win1_7.index t (1 : Fin 2) = 0
    ∧ win1_8.index t (0 : Fin 2) = 0
    ∧ win1_8.index t (1 : Fin 2) = 0
    ∧ win1_9.index t (0 : Fin 1) = 0
    ∧ win1_10.index t (0 : Fin 2) = 0
    ∧ win1_10.index t (1 : Fin 2) = 0
    ∧ win1_11.index t (0 : Fin 1) = 0
    ∧ win1_12.index t (0 : Fin 1) = 0
    ∧ win1_13.index t (0 : Fin 2) = t.val
    ∧ win1_13.index t (1 : Fin 2) = 0 :=
  (by decide +kernel : ∀ t : Fin grid1.N, _)

/-- Window 0's block at point `t` is rows `5000·t … 5000·t + 4999` of its array. -/
theorem blk0 (c : Dev nD) (t : Fin cfg1.N) (p : Fin 5000) (k : Fin 128) (I : Fin 50000) (hI : I.val = t.val * 5000 + p.val) :
    (iblk1 V c 0 t : Vec Ideal S5000x128 .f32) (ix2 p k) = (V c main_arg0 : S50000x128.Idx → EReal) (ix2 I k) := by
  obtain ⟨f0, f1, f2, f3, f4, f5, f6, f7, f8, f9, f10, f11, f12, f13, f14, f15, f16, f17, f18, f19, f20, f21, f22, f23⟩ := idx_facts t
  unfold iblk1
  rw [View.read_apply]
  show V c main_arg0 _ = V c main_arg0 _
  congr 1
  funext a
  apply Fin.ext
  match a with
  | ⟨0, _⟩ => show win1_0.index t (0 : Fin 2) * 5000 + 1 * p.val = I.val; rw [f0, hI]; omega
  | ⟨1, _⟩ => show win1_0.index t (1 : Fin 2) * 128 + 1 * k.val = k.val; rw [f1]; omega

/-- Window 1's block at point `t` is rows `5000·t … 5000·t + 4999` of its array. -/
theorem blk1 (c : Dev nD) (t : Fin cfg1.N) (p : Fin 5000) (k : Fin 128) (I : Fin 50000) (hI : I.val = t.val * 5000 + p.val) :
    (iblk1 V c 1 t : Vec Ideal S5000x128 .f32) (ix2 p k) = (V c main_v60 : S50000x128.Idx → EReal) (ix2 I k) := by
  obtain ⟨f0, f1, f2, f3, f4, f5, f6, f7, f8, f9, f10, f11, f12, f13, f14, f15, f16, f17, f18, f19, f20, f21, f22, f23⟩ := idx_facts t
  unfold iblk1
  rw [View.read_apply]
  show V c main_v60 _ = V c main_v60 _
  congr 1
  funext a
  apply Fin.ext
  match a with
  | ⟨0, _⟩ => show win1_1.index t (0 : Fin 2) * 5000 + 1 * p.val = I.val; rw [f2, hI]; omega
  | ⟨1, _⟩ => show win1_1.index t (1 : Fin 2) * 128 + 1 * k.val = k.val; rw [f3]; omega

/-- Window 2's block at point `t` is entries `5000·t … 5000·t + 4999` of its column. -/
theorem blk2 (c : Dev nD) (t : Fin cfg1.N) (p : Fin 5000) (I : Fin 50000) (hI : I.val = t.val * 5000 + p.val) :
    (iblk1 V c 2 t : Vec Ideal S5000x1 .f32) (ix2 p (0 : Fin 1)) = (V c main_v21 : S50000x1.Idx → EReal) (ix2 I (0 : Fin 1)) := by
  obtain ⟨f0, f1, f2, f3, f4, f5, f6, f7, f8, f9, f10, f11, f12, f13, f14, f15, f16, f17, f18, f19, f20, f21, f22, f23⟩ := idx_facts t
  unfold iblk1
  rw [View.read_apply]
  show V c main_v21 _ = V c main_v21 _
  congr 1
  funext a
  apply Fin.ext
  match a with
  | ⟨0, _⟩ => show win1_2.index t (0 : Fin 2) * 5000 + 1 * p.val = I.val; rw [f4, hI]; omega
  | ⟨1, _⟩ => show win1_2.index t (1 : Fin 2) * 1 + 1 * 0 = 0; rw [f5]

/-- Window 3's block at every point is its whole matrix. -/
theorem blk3 (c : Dev nD) (t : Fin cfg1.N) :
    (iblk1 V c 3 t : Vec Ideal S128x128 .f32) = (V c main_v77 : S128x128.Idx → EReal) := by
  obtain ⟨f0, f1, f2, f3, f4, f5, f6, f7, f8, f9, f10, f11, f12, f13, f14, f15, f16, f17, f18, f19, f20, f21, f22, f23⟩ := idx_facts t
  funext y
  unfold iblk1
  rw [View.read_apply]
  show V c main_v77 _ = V c main_v77 _
  congr 1
  funext a
  apply Fin.ext
  match a with
  | ⟨0, _⟩ => show win1_3.index t (0 : Fin 2) * 128 + 1 * (y 0).val = (y 0).val; rw [f6]; omega
  | ⟨1, _⟩ => show win1_3.index t (1 : Fin 2) * 128 + 1 * (y 1).val = (y 1).val; rw [f7]; omega

/-- Window 4's block at every point is its whole vector. -/
theorem blk4 (c : Dev nD) (t : Fin cfg1.N) :
    (iblk1 V c 4 t : Vec Ideal S128 .f32) = (V c main_arg9 : S128.Idx → EReal) := by
  obtain ⟨f0, f1, f2, f3, f4, f5, f6, f7, f8, f9, f10, f11, f12, f13, f14, f15, f16, f17, f18, f19, f20, f21, f22, f23⟩ := idx_facts t
  funext y
  unfold iblk1
  rw [View.read_apply]
  show V c main_arg9 _ = V c main_arg9 _
  congr 1
  funext a
  apply Fin.ext
  match a with
  | ⟨0, _⟩ => show win1_4.index t (0 : Fin 1) * 128 + 1 * (y 0).val = (y 0).val; rw [f8]; omega

/-- Window 5's block at every point is its whole matrix. -/
theorem blk5 (c : Dev nD) (t : Fin cfg1.N) :
    (iblk1 V c 5 t : Vec Ideal S128x128 .f32) = (V c main_v78 : S128x128.Idx → EReal) := by
  obtain ⟨f0, f1, f2, f3, f4, f5, f6, f7, f8, f9, f10, f11, f12, f13, f14, f15, f16, f17, f18, f19, f20, f21, f22, f23⟩ := idx_facts t
  funext y
  unfold iblk1
  rw [View.read_apply]
  show V c main_v78 _ = V c main_v78 _
  congr 1
  funext a
  apply Fin.ext
  match a with
  | ⟨0, _⟩ => show win1_5.index t (0 : Fin 2) * 128 + 1 * (y 0).val = (y 0).val; rw [f9]; omega
  | ⟨1, _⟩ => show win1_5.index t (1 : Fin 2) * 128 + 1 * (y 1).val = (y 1).val; rw [f10]; omega

/-- Window 6's block at point `t` is rows `5000·t … 5000·t + 4999` of its array. -/
theorem blk6 (c : Dev nD) (t : Fin cfg1.N) (p : Fin 5000) (k : Fin 128) (I : Fin 50000) (hI : I.val = t.val * 5000 + p.val) :
    (iblk1 V c 6 t : Vec Ideal S5000x128 .f32) (ix2 p k) = (V c main_v74 : S50000x128.Idx → EReal) (ix2 I k) := by
  obtain ⟨f0, f1, f2, f3, f4, f5, f6, f7, f8, f9, f10, f11, f12, f13, f14, f15, f16, f17, f18, f19, f20, f21, f22, f23⟩ := idx_facts t
  unfold iblk1
  rw [View.read_apply]
  show V c main_v74 _ = V c main_v74 _
  congr 1
  funext a
  apply Fin.ext
  match a with
  | ⟨0, _⟩ => show win1_6.index t (0 : Fin 2) * 5000 + 1 * p.val = I.val; rw [f11, hI]; omega
  | ⟨1, _⟩ => show win1_6.index t (1 : Fin 2) * 128 + 1 * k.val = k.val; rw [f12]; omega

/-- Window 7's block at point `t` is entries `5000·t … 5000·t + 4999` of its column. -/
theorem blk7 (c : Dev nD) (t : Fin cfg1.N) (p : Fin 5000) (I : Fin 50000) (hI : I.val = t.val * 5000 + p.val) :
    (iblk1 V c 7 t : Vec Ideal S5000x1 .f32) (ix2 p (0 : Fin 1)) = (V c main_v32 : S50000x1.Idx → EReal) (ix2 I (0 : Fin 1)) := by
  obtain ⟨f0, f1, f2, f3, f4, f5, f6, f7, f8, f9, f10, f11, f12, f13, f14, f15, f16, f17, f18, f19, f20, f21, f22, f23⟩ := idx_facts t
  unfold iblk1
  rw [View.read_apply]
  show V c main_v32 _ = V c main_v32 _
  congr 1
  funext a
  apply Fin.ext
  match a with
  | ⟨0, _⟩ => show win1_7.index t (0 : Fin 2) * 5000 + 1 * p.val = I.val; rw [f13, hI]; omega
  | ⟨1, _⟩ => show win1_7.index t (1 : Fin 2) * 1 + 1 * 0 = 0; rw [f14]

/-- Window 8's block at every point is its whole matrix. -/
theorem blk8 (c : Dev nD) (t : Fin cfg1.N) :
    (iblk1 V c 8 t : Vec Ideal S128x128 .f32) = (V c main_v79 : S128x128.Idx → EReal) := by
  obtain ⟨f0, f1, f2, f3, f4, f5, f6, f7, f8, f9, f10, f11, f12, f13, f14, f15, f16, f17, f18, f19, f20, f21, f22, f23⟩ := idx_facts t
  funext y
  unfold iblk1
  rw [View.read_apply]
  show V c main_v79 _ = V c main_v79 _
  congr 1
  funext a
  apply Fin.ext
  match a with
  | ⟨0, _⟩ => show win1_8.index t (0 : Fin 2) * 128 + 1 * (y 0).val = (y 0).val; rw [f15]; omega
  | ⟨1, _⟩ => show win1_8.index t (1 : Fin 2) * 128 + 1 * (y 1).val = (y 1).val; rw [f16]; omega

/-- Window 9's block at every point is its whole vector. -/
theorem blk9 (c : Dev nD) (t : Fin cfg1.N) :
    (iblk1 V c 9 t : Vec Ideal S128 .f32) = (V c main_arg12 : S128.Idx → EReal) := by
  obtain ⟨f0, f1, f2, f3, f4, f5, f6, f7, f8, f9, f10, f11, f12, f13, f14, f15, f16, f17, f18, f19, f20, f21, f22, f23⟩ := idx_facts t
  funext y
  unfold iblk1
  rw [View.read_apply]
  show V c main_arg12 _ = V c main_arg12 _
  congr 1
  funext a
  apply Fin.ext
  match a with
  | ⟨0, _⟩ => show win1_9.index t (0 : Fin 1) * 128 + 1 * (y 0).val = (y 0).val; rw [f17]; omega

/-- Window 10's block at every point is its whole matrix. -/
theorem blk10 (c : Dev nD) (t : Fin cfg1.N) :
    (iblk1 V c 10 t : Vec Ideal S128x128 .f32) = (V c main_v80 : S128x128.Idx → EReal) := by
  obtain ⟨f0, f1, f2, f3, f4, f5, f6, f7, f8, f9, f10, f11, f12, f13, f14, f15, f16, f17, f18, f19, f20, f21, f22, f23⟩ := idx_facts t
  funext y
  unfold iblk1
  rw [View.read_apply]
  show V c main_v80 _ = V c main_v80 _
  congr 1
  funext a
  apply Fin.ext
  match a with
  | ⟨0, _⟩ => show win1_10.index t (0 : Fin 2) * 128 + 1 * (y 0).val = (y 0).val; rw [f18]; omega
  | ⟨1, _⟩ => show win1_10.index t (1 : Fin 2) * 128 + 1 * (y 1).val = (y 1).val; rw [f19]; omega

/-- Window 11's block at every point is its whole vector. -/
theorem blk11 (c : Dev nD) (t : Fin cfg1.N) :
    (iblk1 V c 11 t : Vec Ideal S128 .f32) = (V c main_arg14 : S128.Idx → EReal) := by
  obtain ⟨f0, f1, f2, f3, f4, f5, f6, f7, f8, f9, f10, f11, f12, f13, f14, f15, f16, f17, f18, f19, f20, f21, f22, f23⟩ := idx_facts t
  funext y
  unfold iblk1
  rw [View.read_apply]
  show V c main_arg14 _ = V c main_arg14 _
  congr 1
  funext a
  apply Fin.ext
  match a with
  | ⟨0, _⟩ => show win1_11.index t (0 : Fin 1) * 128 + 1 * (y 0).val = (y 0).val; rw [f20]; omega

/-- Window 12's block at every point is its whole vector. -/
theorem blk12 (c : Dev nD) (t : Fin cfg1.N) :
    (iblk1 V c 12 t : Vec Ideal S128 .f32) = (V c main_arg15 : S128.Idx → EReal) := by
  obtain ⟨f0, f1, f2, f3, f4, f5, f6, f7, f8, f9, f10, f11, f12, f13, f14, f15, f16, f17, f18, f19, f20, f21, f22, f23⟩ := idx_facts t
  funext y
  unfold iblk1
  rw [View.read_apply]
  show V c main_arg15 _ = V c main_arg15 _
  congr 1
  funext a
  apply Fin.ext
  match a with
  | ⟨0, _⟩ => show win1_12.index t (0 : Fin 1) * 128 + 1 * (y 0).val = (y 0).val; rw [f21]; omega

/-- What the region's array function reads at an index given by its row and feature. -/
theorem kfn_apply (a0 : S50000x128.Idx → EReal) (a1 : S50000x128.Idx → EReal) (a2 : S50000x1.Idx → EReal) (a3 : S128x128.Idx → EReal) (a4 : S128.Idx → EReal) (a5 : S128x128.Idx → EReal) (a6 : S50000x128.Idx → EReal) (a7 : S50000x1.Idx → EReal) (a8 : S128x128.Idx → EReal) (a9 : S128.Idx → EReal) (a10 : S128x128.Idx → EReal) (a11 : S128.Idx → EReal) (a12 : S128.Idx → EReal) (I : Fin 50000) (q : Fin 128) :
    Cert.HostSpec.kLayer2 a0 a1 a2 a3 a4 a5 a6 a7 a8 a9 a10 a11 a12 (ix2 I q)
      = Cert.Spec.node2 (fun k => a0 (ix2 I k)) (fun k => a1 (ix2 I k) * a2 (ix2 I (0 : Fin 1))) a3 a4 a5 (fun k => a6 (ix2 I k) * a7 (ix2 I (0 : Fin 1))) a8 a9 a10 a11 a12 q := rfl

/-- WHAT POINT `t` WRITES BACK is block `t` of the row-wise transform of the arrays the region finds
    (given the body's value at an index, `hbody`). -/
theorem flushed_eq
    (hbody : ∀ (x0 : Vec Ideal S5000x128 .f32) (x1 : Vec Ideal S5000x128 .f32) (x2 : Vec Ideal S5000x1 .f32) (x3 : Vec Ideal S128x128 .f32) (x4 : Vec Ideal S128 .f32) (x5 : Vec Ideal S128x128 .f32) (x6 : Vec Ideal S5000x128 .f32) (x7 : Vec Ideal S5000x1 .f32) (x8 : Vec Ideal S128x128 .f32) (x9 : Vec Ideal S128 .f32) (x10 : Vec Ideal S128x128 .f32) (x11 : Vec Ideal S128 .f32) (x12 : Vec Ideal S128 .f32) (p : Fin 5000) (q : Fin 128),
      out1_13 (F := Ideal) x0 x1 x2 x3 x4 x5 x6 x7 x8 x9 x10 x11 x12 (ix2 p q) = Cert.Spec.node2 (fun k => x0 (ix2 p k)) (fun k => x1 (ix2 p k) * x2 (ix2 p (0 : Fin 1))) x3 x4 x5 (fun k => x6 (ix2 p k) * x7 (ix2 p (0 : Fin 1))) x8 x9 x10 x11 x12 q)
    (c : Dev nD) (t : Fin cfg1.N) :
    (dat1 V c).flushed 13 t = ((cfg1.win 13).blk t).view.read (Elt Ideal)
      (Cert.HostSpec.kLayer2 (V c main_arg0) (V c main_v60) (V c main_v21) (V c main_v77) (V c main_arg9) (V c main_v78) (V c main_v74) (V c main_v32) (V c main_v79) (V c main_arg12) (V c main_v80) (V c main_arg14) (V c main_arg15)) := by
  show (cfg1.win 13).cut (grid1.coords t) ((dat1 V c).after 13 t) = _
  rw [after1_13]
  obtain ⟨f0, f1, f2, f3, f4, f5, f6, f7, f8, f9, f10, f11, f12, f13, f14, f15, f16, f17, f18, f19, f20, f21, f22, f23⟩ := idx_facts t
  funext j
  have hj0 : (j 0).val < 5000 := (j 0).isLt
  have hj1 : (j 1).val < 128 := (j 1).isLt
  have htN : t.val < 10 := by have h1 := t.isLt; have h2 : cfg1.N = 10 := N_1; omega
  let p : Fin 5000 := ⟨(j 0).val, hj0⟩
  let q : Fin 128 := ⟨(j 1).val, hj1⟩
  let I : Fin 50000 := ⟨t.val * 5000 + (j 0).val, by omega⟩
  have hI : I.val = t.val * 5000 + p.val := rfl
  have hx : (cfg1.win 13).xinj (grid1.coords t) j = ix2 p q :=
    funext fun a => by match a with | ⟨0, _⟩ => rfl | ⟨1, _⟩ => rfl
  have he : ((cfg1.win 13).blk t).view.emb j = ix2 I q := by
    funext a
    apply Fin.ext
    match a with
    | ⟨0, _⟩ => show win1_13.index t (0 : Fin 2) * 5000 + 1 * (j 0).val = t.val * 5000 + (j 0).val; rw [f22]; omega
    | ⟨1, _⟩ => show win1_13.index t (1 : Fin 2) * 128 + 1 * (j 1).val = (j 1).val; rw [f23]; omega
  show out1_13 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) ((cfg1.win 13).xinj (grid1.coords t) j) = _
  rw [hx, hbody, View.read_apply, he]
  show _ = Cert.HostSpec.kLayer2 (V c main_arg0) (V c main_v60) (V c main_v21) (V c main_v77) (V c main_arg9) (V c main_v78) (V c main_v74) (V c main_v32) (V c main_v79) (V c main_arg12) (V c main_v80) (V c main_arg14) (V c main_arg15) (ix2 I q)
  rw [kfn_apply]
  simp only [blk0 V c t p _ I hI, blk1 V c t p _ I hI, blk2 V c t p I hI, blk6 V c t p _ I hI, blk7 V c t p I hI, blk3 V c t, blk4 V c t, blk5 V c t, blk8 V c t, blk9 V c t, blk10 V c t, blk11 V c t, blk12 V c t]

/-- The ten blocks tile the rows: row `r` lies in block `r / 5000`. -/
theorem cover (c : Dev nD) (i : S50000x128.Idx) :
    ∃ t : Fin cfg1.N, (cfg1.win 13).flush t = true ∧ i ∈ ((cfg1.win 13).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨f0, f1, f2, f3, f4, f5, f6, f7, f8, f9, f10, f11, f12, f13, f14, f15, f16, f17, f18, f19, f20, f21, f22, f23⟩ := idx_facts t
  refine ⟨t, flush1_13 t, ?_⟩
  show i ∈ ((View.whole main_v82).slice (win1_13.rect t)).set
  rw [View.set_slice_whole, Rect.mem_set_unit]
  intro a
  match a with
  | ⟨0, _⟩ =>
    show win1_13.index t (0 : Fin 2) * 5000 ≤ (i 0).val ∧ (i 0).val < win1_13.index t (0 : Fin 2) * 5000 + 5000
    rw [f22]
    show (i 0).val / 5000 * 5000 ≤ (i 0).val ∧ (i 0).val < (i 0).val / 5000 * 5000 + 5000
    omega
  | ⟨1, _⟩ =>
    show win1_13.index t (1 : Fin 2) * 128 ≤ (i 1).val ∧ (i 1).val < win1_13.index t (1 : Fin 2) * 128 + 128
    rw [f23]
    omega

/-- THE OUTPUT ARRAY after the region: the row-wise transform of the arrays the region finds. -/
theorem final
    (hbody : ∀ (x0 : Vec Ideal S5000x128 .f32) (x1 : Vec Ideal S5000x128 .f32) (x2 : Vec Ideal S5000x1 .f32) (x3 : Vec Ideal S128x128 .f32) (x4 : Vec Ideal S128 .f32) (x5 : Vec Ideal S128x128 .f32) (x6 : Vec Ideal S5000x128 .f32) (x7 : Vec Ideal S5000x1 .f32) (x8 : Vec Ideal S128x128 .f32) (x9 : Vec Ideal S128 .f32) (x10 : Vec Ideal S128x128 .f32) (x11 : Vec Ideal S128 .f32) (x12 : Vec Ideal S128 .f32) (p : Fin 5000) (q : Fin 128),
      out1_13 (F := Ideal) x0 x1 x2 x3 x4 x5 x6 x7 x8 x9 x10 x11 x12 (ix2 p q) = Cert.Spec.node2 (fun k => x0 (ix2 p k)) (fun k => x1 (ix2 p k) * x2 (ix2 p (0 : Fin 1))) x3 x4 x5 (fun k => x6 (ix2 p k) * x7 (ix2 p (0 : Fin 1))) x8 x9 x10 x11 x12 q)
    (c : Dev nD) :
    (dat1 V c).arrAt 13 cfg1.N = Cert.HostSpec.kLayer2 (V c main_arg0) (V c main_v60) (V c main_v21) (V c main_v77) (V c main_arg9) (V c main_v78) (V c main_v74) (V c main_v32) (V c main_v79) (V c main_arg12) (V c main_v80) (V c main_arg14) (V c main_arg15) :=
  (dat1 V c).arrAt_eq_of_cover 13 _ (fun t _ => flushed_eq V hbody c t) (cover c)

end Cert.KernelIdeal.Region1

end
-- ==== Proof.Region2.lean ====
/-
  Region 2 of the kernel program, read as a value: whatever the region finds in its 8 input arrays, its
  output array ends holding the row-wise transform of them — block `t` of the output is rows
  `5000·t … 5000·t + 4999`, computed from the same rows of the row-blocked inputs and from the whole weight
  matrices and vectors; the ten blocks tile the 50000 rows.
-/
import proofs.«148312_j75428215652543_2_alg».proof.Proof.Gen.KernelIdeal.Frame
import proofs.«148312_j75428215652543_2_alg».proof.Proof.HostSpec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen

variable (V : (c : Dev nD) → (b : Ref sig .tc) → Buf (Elt Ideal) ((c : Thread nD τ).loc b))

/-- The block index maps over the grid: a row-blocked window moves with the point along the rows, a weight
    window stays at its whole array. -/
theorem idx_facts : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = 0
    ∧ win2_3.index t (1 : Fin 2) = 0
    ∧ win2_4.index t (0 : Fin 1) = 0
    ∧ win2_5.index t (0 : Fin 2) = 0
    ∧ win2_5.index t (1 : Fin 2) = 0
    ∧ win2_6.index t (0 : Fin 1) = 0
    ∧ win2_7.index t (0 : Fin 1) = 0
    ∧ win2_8.index t (0 : Fin 2) = t.val
    ∧ win2_8.index t (1 : Fin 2) = 0 :=
  (by decide +kernel : ∀ t : Fin grid2.N, _)

/-- Window 0's block at point `t` is rows `5000·t … 5000·t + 4999` of its array. -/
theorem blk0 (c : Dev nD) (t : Fin cfg2.N) (p : Fin 5000) (k : Fin 128) (I : Fin 50000) (hI : I.val = t.val * 5000 + p.val) :
    (iblk2 V c 0 t : Vec Ideal S5000x128 .f32) (ix2 p k) = (V c main_v81 : S50000x128.Idx → EReal) (ix2 I k) := by
  obtain ⟨f0, f1, f2, f3, f4, f5, f6, f7, f8, f9, f10, f11, f12, f13, f14⟩ := idx_facts t
  unfold iblk2
  rw [View.read_apply]
  show V c main_v81 _ = V c main_v81 _
  congr 1
  funext a
  apply Fin.ext
  match a with
  | ⟨0, _⟩ => show win2_0.index t (0 : Fin 2) * 5000 + 1 * p.val = I.val; rw [f0, hI]; omega
  | ⟨1, _⟩ => show win2_0.index t (1 : Fin 2) * 128 + 1 * k.val = k.val; rw [f1]; omega

/-- Window 1's block at point `t` is rows `5000·t … 5000·t + 4999` of its array. -/
theorem blk1 (c : Dev nD) (t : Fin cfg2.N) (p : Fin 5000) (k : Fin 128) (I : Fin 50000) (hI : I.val = t.val * 5000 + p.val) :
    (iblk2 V c 1 t : Vec Ideal S5000x128 .f32) (ix2 p k) = (V c main_v96 : S50000x128.Idx → EReal) (ix2 I k) := by
  obtain ⟨f0, f1, f2, f3, f4, f5, f6, f7, f8, f9, f10, f11, f12, f13, f14⟩ := idx_facts t
  unfold iblk2
  rw [View.read_apply]
  show V c main_v96 _ = V c main_v96 _
  congr 1
  funext a
  apply Fin.ext
  match a with
  | ⟨0, _⟩ => show win2_1.index t (0 : Fin 2) * 5000 + 1 * p.val = I.val; rw [f2, hI]; omega
  | ⟨1, _⟩ => show win2_1.index t (1 : Fin 2) * 128 + 1 * k.val = k.val; rw [f3]; omega

/-- Window 2's block at point `t` is entries `5000·t … 5000·t + 4999` of its column. -/
theorem blk2 (c : Dev nD) (t : Fin cfg2.N) (p : Fin 5000) (I : Fin 50000) (hI : I.val = t.val * 5000 + p.val) :
    (iblk2 V c 2 t : Vec Ideal S5000x1 .f32) (ix2 p (0 : Fin 1)) = (V c main_v10 : S50000x1.Idx → EReal) (ix2 I (0 : Fin 1)) := by
  obtain ⟨f0, f1, f2, f3, f4, f5, f6, f7, f8, f9, f10, f11, f12, f13, f14⟩ := idx_facts t
  unfold iblk2
  rw [View.read_apply]
  show V c main_v10 _ = V c main_v10 _
  congr 1
  funext a
  apply Fin.ext
  match a with
  | ⟨0, _⟩ => show win2_2.index t (0 : Fin 2) * 5000 + 1 * p.val = I.val; rw [f4, hI]; omega
  | ⟨1, _⟩ => show win2_2.index t (1 : Fin 2) * 1 + 1 * 0 = 0; rw [f5]

/-- Window 3's block at every point is its whole matrix. -/
theorem blk3 (c : Dev nD) (t : Fin cfg2.N) :
    (iblk2 V c 3 t : Vec Ideal S128x128 .f32) = (V c main_v125 : S128x128.Idx → EReal) := by
  obtain ⟨f0, f1, f2, f3, f4, f5, f6, f7, f8, f9, f10, f11, f12, f13, f14⟩ := idx_facts t
  funext y
  unfold iblk2
  rw [View.read_apply]
  show V c main_v125 _ = V c main_v125 _
  congr 1
  funext a
  apply Fin.ext
  match a with
  | ⟨0, _⟩ => show win2_3.index t (0 : Fin 2) * 128 + 1 * (y 0).val = (y 0).val; rw [f6]; omega
  | ⟨1, _⟩ => show win2_3.index t (1 : Fin 2) * 128 + 1 * (y 1).val = (y 1).val; rw [f7]; omega

/-- Window 4's block at every point is its whole vector. -/
theorem blk4 (c : Dev nD) (t : Fin cfg2.N) :
    (iblk2 V c 4 t : Vec Ideal S128 .f32) = (V c main_arg19 : S128.Idx → EReal) := by
  obtain ⟨f0, f1, f2, f3, f4, f5, f6, f7, f8, f9, f10, f11, f12, f13, f14⟩ := idx_facts t
  funext y
  unfold iblk2
  rw [View.read_apply]
  show V c main_arg19 _ = V c main_arg19 _
  congr 1
  funext a
  apply Fin.ext
  match a with
  | ⟨0, _⟩ => show win2_4.index t (0 : Fin 1) * 128 + 1 * (y 0).val = (y 0).val; rw [f8]; omega

/-- Window 5's block at every point is its whole matrix. -/
theorem blk5 (c : Dev nD) (t : Fin cfg2.N) :
    (iblk2 V c 5 t : Vec Ideal S128x128 .f32) = (V c main_v126 : S128x128.Idx → EReal) := by
  obtain ⟨f0, f1, f2, f3, f4, f5, f6, f7, f8, f9, f10, f11, f12, f13, f14⟩ := idx_facts t
  funext y
  unfold iblk2
  rw [View.read_apply]
  show V c main_v126 _ = V c main_v126 _
  congr 1
  funext a
  apply Fin.ext
  match a with
  | ⟨0, _⟩ => show win2_5.index t (0 : Fin 2) * 128 + 1 * (y 0).val = (y 0).val; rw [f9]; omega
  | ⟨1, _⟩ => show win2_5.index t (1 : Fin 2) * 128 + 1 * (y 1).val = (y 1).val; rw [f10]; omega

/-- Window 6's block at every point is its whole vector. -/
theorem blk6 (c : Dev nD) (t : Fin cfg2.N) :
    (iblk2 V c 6 t : Vec Ideal S128 .f32) = (V c main_arg29 : S128.Idx → EReal) := by
  obtain ⟨f0, f1, f2, f3, f4, f5, f6, f7, f8, f9, f10, f11, f12, f13, f14⟩ := idx_facts t
  funext y
  unfold iblk2
  rw [View.read_apply]
  show V c main_arg29 _ = V c main_arg29 _
  congr 1
  funext a
  apply Fin.ext
  match a with
  | ⟨0, _⟩ => show win2_6.index t (0 : Fin 1) * 128 + 1 * (y 0).val = (y 0).val; rw [f11]; omega

/-- Window 7's block at every point is its whole vector. -/
theorem blk7 (c : Dev nD) (t : Fin cfg2.N) :
    (iblk2 V c 7 t : Vec Ideal S128 .f32) = (V c main_arg30 : S128.Idx → EReal) := by
  obtain ⟨f0, f1, f2, f3, f4, f5, f6, f7, f8, f9, f10, f11, f12, f13, f14⟩ := idx_facts t
  funext y
  unfold iblk2
  rw [View.read_apply]
  show V c main_arg30 _ = V c main_arg30 _
  congr 1
  funext a
  apply Fin.ext
  match a with
  | ⟨0, _⟩ => show win2_7.index t (0 : Fin 1) * 128 + 1 * (y 0).val = (y 0).val; rw [f12]; omega

/-- What the region's array function reads at an index given by its row and feature. -/
theorem kfn_apply (a0 : S50000x128.Idx → EReal) (a1 : S50000x128.Idx → EReal) (a2 : S50000x1.Idx → EReal) (a3 : S128x128.Idx → EReal) (a4 : S128.Idx → EReal) (a5 : S128x128.Idx → EReal) (a6 : S128.Idx → EReal) (a7 : S128.Idx → EReal) (I : Fin 50000) (q : Fin 128) :
    Cert.HostSpec.kLayer1 a0 a1 a2 a3 a4 a5 a6 a7 (ix2 I q)
      = Cert.Spec.node1 (fun k => a0 (ix2 I k)) (fun k => a1 (ix2 I k) * a2 (ix2 I (0 : Fin 1))) a3 a4 a5 a6 a7 q := rfl

/-- WHAT POINT `t` WRITES BACK is block `t` of the row-wise transform of the arrays the region finds
    (given the body's value at an index, `hbody`). -/
theorem flushed_eq
    (hbody : ∀ (x0 : Vec Ideal S5000x128 .f32) (x1 : Vec Ideal S5000x128 .f32) (x2 : Vec Ideal S5000x1 .f32) (x3 : Vec Ideal S128x128 .f32) (x4 : Vec Ideal S128 .f32) (x5 : Vec Ideal S128x128 .f32) (x6 : Vec Ideal S128 .f32) (x7 : Vec Ideal S128 .f32) (p : Fin 5000) (q : Fin 128),
      out2_8 (F := Ideal) x0 x1 x2 x3 x4 x5 x6 x7 (ix2 p q) = Cert.Spec.node1 (fun k => x0 (ix2 p k)) (fun k => x1 (ix2 p k) * x2 (ix2 p (0 : Fin 1))) x3 x4 x5 x6 x7 q)
    (c : Dev nD) (t : Fin cfg2.N) :
    (dat2 V c).flushed 8 t = ((cfg2.win 8).blk t).view.read (Elt Ideal)
      (Cert.HostSpec.kLayer1 (V c main_v81) (V c main_v96) (V c main_v10) (V c main_v125) (V c main_arg19) (V c main_v126) (V c main_arg29) (V c main_arg30)) := by
  show (cfg2.win 8).cut (grid2.coords t) ((dat2 V c).after 8 t) = _
  rw [after2_8]
  obtain ⟨f0, f1, f2, f3, f4, f5, f6, f7, f8, f9, f10, f11, f12, f13, f14⟩ := idx_facts t
  funext j
  have hj0 : (j 0).val < 5000 := (j 0).isLt
  have hj1 : (j 1).val < 128 := (j 1).isLt
  have htN : t.val < 10 := by have h1 := t.isLt; have h2 : cfg2.N = 10 := N_2; omega
  let p : Fin 5000 := ⟨(j 0).val, hj0⟩
  let q : Fin 128 := ⟨(j 1).val, hj1⟩
  let I : Fin 50000 := ⟨t.val * 5000 + (j 0).val, by omega⟩
  have hI : I.val = t.val * 5000 + p.val := rfl
  have hx : (cfg2.win 8).xinj (grid2.coords t) j = ix2 p q :=
    funext fun a => by match a with | ⟨0, _⟩ => rfl | ⟨1, _⟩ => rfl
  have he : ((cfg2.win 8).blk t).view.emb j = ix2 I q := by
    funext a
    apply Fin.ext
    match a with
    | ⟨0, _⟩ => show win2_8.index t (0 : Fin 2) * 5000 + 1 * (j 0).val = t.val * 5000 + (j 0).val; rw [f13]; omega
    | ⟨1, _⟩ => show win2_8.index t (1 : Fin 2) * 128 + 1 * (j 1).val = (j 1).val; rw [f14]; omega
  show out2_8 (F := Ideal) (iblk2 V c 0 t) (iblk2 V c 1 t) (iblk2 V c 2 t) (iblk2 V c 3 t) (iblk2 V c 4 t) (iblk2 V c 5 t) (iblk2 V c 6 t) (iblk2 V c 7 t) ((cfg2.win 8).xinj (grid2.coords t) j) = _
  rw [hx, hbody, View.read_apply, he]
  show _ = Cert.HostSpec.kLayer1 (V c main_v81) (V c main_v96) (V c main_v10) (V c main_v125) (V c main_arg19) (V c main_v126) (V c main_arg29) (V c main_arg30) (ix2 I q)
  rw [kfn_apply]
  simp only [blk0 V c t p _ I hI, blk1 V c t p _ I hI, blk2 V c t p I hI, blk3 V c t, blk4 V c t, blk5 V c t, blk6 V c t, blk7 V c t]

/-- The ten blocks tile the rows: row `r` lies in block `r / 5000`. -/
theorem cover (c : Dev nD) (i : S50000x128.Idx) :
    ∃ t : Fin cfg2.N, (cfg2.win 8).flush t = true ∧ i ∈ ((cfg2.win 8).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  obtain ⟨f0, f1, f2, f3, f4, f5, f6, f7, f8, f9, f10, f11, f12, f13, f14⟩ := idx_facts t
  refine ⟨t, flush2_8 t, ?_⟩
  show i ∈ ((View.whole main_v131).slice (win2_8.rect t)).set
  rw [View.set_slice_whole, Rect.mem_set_unit]
  intro a
  match a with
  | ⟨0, _⟩ =>
    show win2_8.index t (0 : Fin 2) * 5000 ≤ (i 0).val ∧ (i 0).val < win2_8.index t (0 : Fin 2) * 5000 + 5000
    rw [f13]
    show (i 0).val / 5000 * 5000 ≤ (i 0).val ∧ (i 0).val < (i 0).val / 5000 * 5000 + 5000
    omega
  | ⟨1, _⟩ =>
    show win2_8.index t (1 : Fin 2) * 128 ≤ (i 1).val ∧ (i 1).val < win2_8.index t (1 : Fin 2) * 128 + 128
    rw [f14]
    omega

/-- THE OUTPUT ARRAY after the region: the row-wise transform of the arrays the region finds. -/
theorem final
    (hbody : ∀ (x0 : Vec Ideal S5000x128 .f32) (x1 : Vec Ideal S5000x128 .f32) (x2 : Vec Ideal S5000x1 .f32) (x3 : Vec Ideal S128x128 .f32) (x4 : Vec Ideal S128 .f32) (x5 : Vec Ideal S128x128 .f32) (x6 : Vec Ideal S128 .f32) (x7 : Vec Ideal S128 .f32) (p : Fin 5000) (q : Fin 128),
      out2_8 (F := Ideal) x0 x1 x2 x3 x4 x5 x6 x7 (ix2 p q) = Cert.Spec.node1 (fun k => x0 (ix2 p k)) (fun k => x1 (ix2 p k) * x2 (ix2 p (0 : Fin 1))) x3 x4 x5 x6 x7 q)
    (c : Dev nD) :
    (dat2 V c).arrAt 8 cfg2.N = Cert.HostSpec.kLayer1 (V c main_v81) (V c main_v96) (V c main_v10) (V c main_v125) (V c main_arg19) (V c main_v126) (V c main_arg29) (V c main_arg30) :=
  (dat2 V c).arrAt_eq_of_cover 8 _ (fun t _ => flushed_eq V hbody c t) (cover c)

end Cert.KernelIdeal.Region2

end
-- ==== Proof.Region3.lean ====
/-
  Region 3 of the kernel program, read as a value: whatever the region finds in its 13 input arrays, its
  output array ends holding the row-wise transform of them — block `t` of the output is rows
  `5000·t … 5000·t + 4999`, computed from the same rows of the row-blocked inputs and from the whole weight
  matrices and vectors; the ten blocks tile the 50000 rows.
-/
import proofs.«148312_j75428215652543_2_alg».proof.Proof.Gen.KernelIdeal.Frame
import proofs.«148312_j75428215652543_2_alg».proof.Proof.HostSpec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen

variable (V : (c : Dev nD) → (b : Ref sig .tc) → Buf (Elt Ideal) ((c : Thread nD τ).loc b))

/-- The block index maps over the grid: a row-blocked window moves with the point along the rows, a weight
    window stays at its whole array. -/
theorem idx_facts : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = t.val
    ∧ win3_2.index t (1 : Fin 2) = 0
    ∧ win3_3.index t (0 : Fin 2) = 0
    ∧ win3_3.index t (1 : Fin 2) = 0
    ∧ win3_4.index t (0 : Fin 1) = 0
    ∧ win3_5.index t (0 : Fin 2) = 0
    ∧ win3_5.index t (1 : Fin 2) = 0
    ∧ win3_6.index t (0 : Fin 2) = t.val
    ∧ win3_6.index t (1 : Fin 2) = 0
    ∧ win3_7.index t (0 : Fin 2) = t.val
    ∧ win3_7.index t (1 : Fin 2) = 0
    ∧ win3_8.index t (0 : Fin 2) = 0
    ∧ win3_8.index t (1 : Fin 2) = 0
    ∧ win3_9.index t (0 : Fin 1) = 0
    ∧ win3_10.index t (0 : Fin 2) = 0
    ∧ win3_10.index t (1 : Fin 2) = 0
    ∧ win3_11.index t (0 : Fin 1) = 0
    ∧ win3_12.index t (0 : Fin 1) = 0
    ∧ win3_13.index t (0 : Fin 2) = t.val
    ∧ win3_13.index t (1 : Fin 2) = 0 :=
  (by decide +kernel : ∀ t : Fin grid3.N, _)

/-- Window 0's block at point `t` is rows `5000·t … 5000·t + 4999` of its array. -/
theorem blk0 (c : Dev nD) (t : Fin cfg3.N) (p : Fin 5000) (k : Fin 128) (I : Fin 50000) (hI : I.val = t.val * 5000 + p.val) :
    (iblk3 V c 0 t : Vec Ideal S5000x128 .f32) (ix2 p k) = (V c main_v82 : S50000x128.Idx → EReal) (ix2 I k) := by
  obtain ⟨f0, f1, f2, f3, f4, f5, f6, f7, f8, f9, f10, f11, f12, f13, f14, f15, f16, f17, f18, f19, f20, f21, f22, f23⟩ := idx_facts t
  unfold iblk3
  rw [View.read_apply]
  show V c main_v82 _ = V c main_v82 _
  congr 1
  funext a
  apply Fin.ext
  match a with
  | ⟨0, _⟩ => show win3_0.index t (0 : Fin 2) * 5000 + 1 * p.val = I.val; rw [f0, hI]; omega
  | ⟨1, _⟩ => show win3_0.index t (1 : Fin 2) * 128 + 1 * k.val = k.val; rw [f1]; omega

/-- Window 1's block at point `t` is rows `5000·t … 5000·t + 4999` of its array. -/
theorem blk1 (c : Dev nD) (t : Fin cfg3.N) (p : Fin 5000) (k : Fin 128) (I : Fin 50000) (hI : I.val = t.val * 5000 + p.val) :
    (iblk3 V c 1 t : Vec Ideal S5000x128 .f32) (ix2 p k) = (V c main_v110 : S50000x128.Idx → EReal) (ix2 I k) := by
  obtain ⟨f0, f1, f2, f3, f4, f5, f6, f7, f8, f9, f10, f11, f12, f13, f14, f15, f16, f17, f18, f19, f20, f21, f22, f23⟩ := idx_facts t
  unfold iblk3
  rw [View.read_apply]
  show V c main_v110 _ = V c main_v110 _
  congr 1
  funext a
  apply Fin.ext
  match a with
  | ⟨0, _⟩ => show win3_1.index t (0 : Fin 2) * 5000 + 1 * p.val = I.val; rw [f2, hI]; omega
  | ⟨1, _⟩ => show win3_1.index t (1 : Fin 2) * 128 + 1 * k.val = k.val; rw [f3]; omega

/-- Window 2's block at point `t` is entries `5000·t … 5000·t + 4999` of its column. -/
theorem blk2 (c : Dev nD) (t : Fin cfg3.N) (p : Fin 5000) (I : Fin 50000) (hI : I.val = t.val * 5000 + p.val) :
    (iblk3 V c 2 t : Vec Ideal S5000x1 .f32) (ix2 p (0 : Fin 1)) = (V c main_v21 : S50000x1.Idx → EReal) (ix2 I (0 : Fin 1)) := by
  obtain ⟨f0, f1, f2, f3, f4, f5, f6, f7, f8, f9, f10, f11, f12, f13, f14, f15, f16, f17, f18, f19, f20, f21, f22, f23⟩ := idx_facts t
  unfold iblk3
  rw [View.read_apply]
  show V c main_v21 _ = V c main_v21 _
  congr 1
  funext a
  apply Fin.ext
  match a with
  | ⟨0, _⟩ => show win3_2.index t (0 : Fin 2) * 5000 + 1 * p.val = I.val; rw [f4, hI]; omega
  | ⟨1, _⟩ => show win3_2.index t (1 : Fin 2) * 1 + 1 * 0 = 0; rw [f5]

/-- Window 3's block at every point is its whole matrix. -/
theorem blk3 (c : Dev nD) (t : Fin cfg3.N) :
    (iblk3 V c 3 t : Vec Ideal S128x128 .f32) = (V c main_v127 : S128x128.Idx → EReal) := by
  obtain ⟨f0, f1, f2, f3, f4, f5, f6, f7, f8, f9, f10, f11, f12, f13, f14, f15, f16, f17, f18, f19, f20, f21, f22, f23⟩ := idx_facts t
  funext y
  unfold iblk3
  rw [View.read_apply]
  show V c main_v127 _ = V c main_v127 _
  congr 1
  funext a
  apply Fin.ext
  match a with
  | ⟨0, _⟩ => show win3_3.index t (0 : Fin 2) * 128 + 1 * (y 0).val = (y 0).val; rw [f6]; omega
  | ⟨1, _⟩ => show win3_3.index t (1 : Fin 2) * 128 + 1 * (y 1).val = (y 1).val; rw [f7]; omega

/-- Window 4's block at every point is its whole vector. -/
theorem blk4 (c : Dev nD) (t : Fin cfg3.N) :
    (iblk3 V c 4 t : Vec Ideal S128 .f32) = (V c main_arg22 : S128.Idx → EReal) := by
  obtain ⟨f0, f1, f2, f3, f4, f5, f6, f7, f8, f9, f10, f11, f12, f13, f14, f15, f16, f17, f18, f19, f20, f21, f22, f23⟩ := idx_facts t
  funext y
  unfold iblk3
  rw [View.read_apply]
  show V c main_arg22 _ = V c main_arg22 _
  congr 1
  funext a
  apply Fin.ext
  match a with
  | ⟨0, _⟩ => show win3_4.index t (0 : Fin 1) * 128 + 1 * (y 0).val = (y 0).val; rw [f8]; omega

/-- Window 5's block at every point is its whole matrix. -/
theorem blk5 (c : Dev nD) (t : Fin cfg3.N) :
    (iblk3 V c 5 t : Vec Ideal S128x128 .f32) = (V c main_v128 : S128x128.Idx → EReal) := by
  obtain ⟨f0, f1, f2, f3, f4, f5, f6, f7, f8, f9, f10, f11, f12, f13, f14, f15, f16, f17, f18, f19, f20, f21, f22, f23⟩ := idx_facts t
  funext y
  unfold iblk3
  rw [View.read_apply]
  show V c main_v128 _ = V c main_v128 _
  congr 1
  funext a
  apply Fin.ext
  match a with
  | ⟨0, _⟩ => show win3_5.index t (0 : Fin 2) * 128 + 1 * (y 0).val = (y 0).val; rw [f9]; omega
  | ⟨1, _⟩ => show win3_5.index t (1 : Fin 2) * 128 + 1 * (y 1).val = (y 1).val; rw [f10]; omega

/-- Window 6's block at point `t` is rows `5000·t … 5000·t + 4999` of its array. -/
theorem blk6 (c : Dev nD) (t : Fin cfg3.N) (p : Fin 5000) (k : Fin 128) (I : Fin 50000) (hI : I.val = t.val * 5000 + p.val) :
    (iblk3 V c 6 t : Vec Ideal S5000x128 .f32) (ix2 p k) = (V c main_v124 : S50000x128.Idx → EReal) (ix2 I k) := by
  obtain ⟨f0, f1, f2, f3, f4, f5, f6, f7, f8, f9, f10, f11, f12, f13, f14, f15, f16, f17, f18, f19, f20, f21, f22, f23⟩ := idx_facts t
  unfold iblk3
  rw [View.read_apply]
  show V c main_v124 _ = V c main_v124 _
  congr 1
  funext a
  apply Fin.ext
  match a with
  | ⟨0, _⟩ => show win3_6.index t (0 : Fin 2) * 5000 + 1 * p.val = I.val; rw [f11, hI]; omega
  | ⟨1, _⟩ => show win3_6.index t (1 : Fin 2) * 128 + 1 * k.val = k.val; rw [f12]; omega

/-- Window 7's block at point `t` is entries `5000·t … 5000·t + 4999` of its column. -/
theorem blk7 (c : Dev nD) (t : Fin cfg3.N) (p : Fin 5000) (I : Fin 50000) (hI : I.val = t.val * 5000 + p.val) :
    (iblk3 V c 7 t : Vec Ideal S5000x1 .f32) (ix2 p (0 : Fin 1)) = (V c main_v32 : S50000x1.Idx → EReal) (ix2 I (0 : Fin 1)) := by
  obtain ⟨f0, f1, f2, f3, f4, f5, f6, f7, f8, f9, f10, f11, f12, f13, f14, f15, f16, f17, f18, f19, f20, f21, f22, f23⟩ := idx_facts t
  unfold iblk3
  rw [View.read_apply]
  show V c main_v32 _ = V c main_v32 _
  congr 1
  funext a
  apply Fin.ext
  match a with
  | ⟨0, _⟩ => show win3_7.index t (0 : Fin 2) * 5000 + 1 * p.val = I.val; rw [f13, hI]; omega
  | ⟨1, _⟩ => show win3_7.index t (1 : Fin 2) * 1 + 1 * 0 = 0; rw [f14]

/-- Window 8's block at every point is its whole matrix. -/
theorem blk8 (c : Dev nD) (t : Fin cfg3.N) :
    (iblk3 V c 8 t : Vec Ideal S128x128 .f32) = (V c main_v129 : S128x128.Idx → EReal) := by
  obtain ⟨f0, f1, f2, f3, f4, f5, f6, f7, f8, f9, f10, f11, f12, f13, f14, f15, f16, f17, f18, f19, f20, f21, f22, f23⟩ := idx_facts t
  funext y
  unfold iblk3
  rw [View.read_apply]
  show V c main_v129 _ = V c main_v129 _
  congr 1
  funext a
  apply Fin.ext
  match a with
  | ⟨0, _⟩ => show win3_8.index t (0 : Fin 2) * 128 + 1 * (y 0).val = (y 0).val; rw [f15]; omega
  | ⟨1, _⟩ => show win3_8.index t (1 : Fin 2) * 128 + 1 * (y 1).val = (y 1).val; rw [f16]; omega

/-- Window 9's block at every point is its whole vector. -/
theorem blk9 (c : Dev nD) (t : Fin cfg3.N) :
    (iblk3 V c 9 t : Vec Ideal S128 .f32) = (V c main_arg25 : S128.Idx → EReal) := by
  obtain ⟨f0, f1, f2, f3, f4, f5, f6, f7, f8, f9, f10, f11, f12, f13, f14, f15, f16, f17, f18, f19, f20, f21, f22, f23⟩ := idx_facts t
  funext y
  unfold iblk3
  rw [View.read_apply]
  show V c main_arg25 _ = V c main_arg25 _
  congr 1
  funext a
  apply Fin.ext
  match a with
  | ⟨0, _⟩ => show win3_9.index t (0 : Fin 1) * 128 + 1 * (y 0).val = (y 0).val; rw [f17]; omega

/-- Window 10's block at every point is its whole matrix. -/
theorem blk10 (c : Dev nD) (t : Fin cfg3.N) :
    (iblk3 V c 10 t : Vec Ideal S128x128 .f32) = (V c main_v130 : S128x128.Idx → EReal) := by
  obtain ⟨f0, f1, f2, f3, f4, f5, f6, f7, f8, f9, f10, f11, f12, f13, f14, f15, f16, f17, f18, f19, f20, f21, f22, f23⟩ := idx_facts t
  funext y
  unfold iblk3
  rw [View.read_apply]
  show V c main_v130 _ = V c main_v130 _
  congr 1
  funext a
  apply Fin.ext
  match a with
  | ⟨0, _⟩ => show win3_10.index t (0 : Fin 2) * 128 + 1 * (y 0).val = (y 0).val; rw [f18]; omega
  | ⟨1, _⟩ => show win3_10.index t (1 : Fin 2) * 128 + 1 * (y 1).val = (y 1).val; rw [f19]; omega

/-- Window 11's block at every point is its whole vector. -/
theorem blk11 (c : Dev nD) (t : Fin cfg3.N) :
    (iblk3 V c 11 t : Vec Ideal S128 .f32) = (V c main_arg27 : S128.Idx → EReal) := by
  obtain ⟨f0, f1, f2, f3, f4, f5, f6, f7, f8, f9, f10, f11, f12, f13, f14, f15, f16, f17, f18, f19, f20, f21, f22, f23⟩ := idx_facts t
  funext y
  unfold iblk3
  rw [View.read_apply]
  show V c main_arg27 _ = V c main_arg27 _
  congr 1
  funext a
  apply Fin.ext
  match a with
  | ⟨0, _⟩ => show win3_11.index t (0 : Fin 1) * 128 + 1 * (y 0).val = (y 0).val; rw [f20]; omega

/-- Window 12's block at every point is its whole vector. -/
theorem blk12 (c : Dev nD) (t : Fin cfg3.N) :
    (iblk3 V c 12 t : Vec Ideal S128 .f32) = (V c main_arg28 : S128.Idx → EReal) := by
  obtain ⟨f0, f1, f2, f3, f4, f5, f6, f7, f8, f9, f10, f11, f12, f13, f14, f15, f16, f17, f18, f19, f20, f21, f22, f23⟩ := idx_facts t
  funext y
  unfold iblk3
  rw [View.read_apply]
  show V c main_arg28 _ = V c main_arg28 _
  congr 1
  funext a
  apply Fin.ext
  match a with
  | ⟨0, _⟩ => show win3_12.index t (0 : Fin 1) * 128 + 1 * (y 0).val = (y 0).val; rw [f21]; omega

/-- What the region's array function reads at an index given by its row and feature. -/
theorem kfn_apply (a0 : S50000x128.Idx → EReal) (a1 : S50000x128.Idx → EReal) (a2 : S50000x1.Idx → EReal) (a3 : S128x128.Idx → EReal) (a4 : S128.Idx → EReal) (a5 : S128x128.Idx → EReal) (a6 : S50000x128.Idx → EReal) (a7 : S50000x1.Idx → EReal) (a8 : S128x128.Idx → EReal) (a9 : S128.Idx → EReal) (a10 : S128x128.Idx → EReal) (a11 : S128.Idx → EReal) (a12 : S128.Idx → EReal) (I : Fin 50000) (q : Fin 128) :
    Cert.HostSpec.kLayer2 a0 a1 a2 a3 a4 a5 a6 a7 a8 a9 a10 a11 a12 (ix2 I q)
      = Cert.Spec.node2 (fun k => a0 (ix2 I k)) (fun k => a1 (ix2 I k) * a2 (ix2 I (0 : Fin 1))) a3 a4 a5 (fun k => a6 (ix2 I k) * a7 (ix2 I (0 : Fin 1))) a8 a9 a10 a11 a12 q := rfl

/-- WHAT POINT `t` WRITES BACK is block `t` of the row-wise transform of the arrays the region finds
    (given the body's value at an index, `hbody`). -/
theorem flushed_eq
    (hbody : ∀ (x0 : Vec Ideal S5000x128 .f32) (x1 : Vec Ideal S5000x128 .f32) (x2 : Vec Ideal S5000x1 .f32) (x3 : Vec Ideal S128x128 .f32) (x4 : Vec Ideal S128 .f32) (x5 : Vec Ideal S128x128 .f32) (x6 : Vec Ideal S5000x128 .f32) (x7 : Vec Ideal S5000x1 .f32) (x8 : Vec Ideal S128x128 .f32) (x9 : Vec Ideal S128 .f32) (x10 : Vec Ideal S128x128 .f32) (x11 : Vec Ideal S128 .f32) (x12 : Vec Ideal S128 .f32) (p : Fin 5000) (q : Fin 128),
      out3_13 (F := Ideal) x0 x1 x2 x3 x4 x5 x6 x7 x8 x9 x10 x11 x12 (ix2 p q) = Cert.Spec.node2 (fun k => x0 (ix2 p k)) (fun k => x1 (ix2 p k) * x2 (ix2 p (0 : Fin 1))) x3 x4 x5 (fun k => x6 (ix2 p k) * x7 (ix2 p (0 : Fin 1))) x8 x9 x10 x11 x12 q)
    (c : Dev nD) (t : Fin cfg3.N) :
    (dat3 V c).flushed 13 t = ((cfg3.win 13).blk t).view.read (Elt Ideal)
      (Cert.HostSpec.kLayer2 (V c main_v82) (V c main_v110) (V c main_v21) (V c main_v127) (V c main_arg22) (V c main_v128) (V c main_v124) (V c main_v32) (V c main_v129) (V c main_arg25) (V c main_v130) (V c main_arg27) (V c main_arg28)) := by
  show (cfg3.win 13).cut (grid3.coords t) ((dat3 V c).after 13 t) = _
  rw [after3_13]
  obtain ⟨f0, f1, f2, f3, f4, f5, f6, f7, f8, f9, f10, f11, f12, f13, f14, f15, f16, f17, f18, f19, f20, f21, f22, f23⟩ := idx_facts t
  funext j
  have hj0 : (j 0).val < 5000 := (j 0).isLt
  have hj1 : (j 1).val < 128 := (j 1).isLt
  have htN : t.val < 10 := by have h1 := t.isLt; have h2 : cfg3.N = 10 := N_3; omega
  let p : Fin 5000 := ⟨(j 0).val, hj0⟩
  let q : Fin 128 := ⟨(j 1).val, hj1⟩
  let I : Fin 50000 := ⟨t.val * 5000 + (j 0).val, by omega⟩
  have hI : I.val = t.val * 5000 + p.val := rfl
  have hx : (cfg3.win 13).xinj (grid3.coords t) j = ix2 p q :=
    funext fun a => by match a with | ⟨0, _⟩ => rfl | ⟨1, _⟩ => rfl
  have he : ((cfg3.win 13).blk t).view.emb j = ix2 I q := by
    funext a
    apply Fin.ext
    match a with
    | ⟨0, _⟩ => show win3_13.index t (0 : Fin 2) * 5000 + 1 * (j 0).val = t.val * 5000 + (j 0).val; rw [f22]; omega
    | ⟨1, _⟩ => show win3_13.index t (1 : Fin 2) * 128 + 1 * (j 1).val = (j 1).val; rw [f23]; omega
  show out3_13 (F := Ideal) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) ((cfg3.win 13).xinj (grid3.coords t) j) = _
  rw [hx, hbody, View.read_apply, he]
  show _ = Cert.HostSpec.kLayer2 (V c main_v82) (V c main_v110) (V c main_v21) (V c main_v127) (V c main_arg22) (V c main_v128) (V c main_v124) (V c main_v32) (V c main_v129) (V c main_arg25) (V c main_v130) (V c main_arg27) (V c main_arg28) (ix2 I q)
  rw [kfn_apply]
  simp only [blk0 V c t p _ I hI, blk1 V c t p _ I hI, blk2 V c t p I hI, blk6 V c t p _ I hI, blk7 V c t p I hI, blk3 V c t, blk4 V c t, blk5 V c t, blk8 V c t, blk9 V c t, blk10 V c t, blk11 V c t, blk12 V c t]

/-- The ten blocks tile the rows: row `r` lies in block `r / 5000`. -/
theorem cover (c : Dev nD) (i : S50000x128.Idx) :
    ∃ t : Fin cfg3.N, (cfg3.win 13).flush t = true ∧ i ∈ ((cfg3.win 13).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  obtain ⟨f0, f1, f2, f3, f4, f5, f6, f7, f8, f9, f10, f11, f12, f13, f14, f15, f16, f17, f18, f19, f20, f21, f22, f23⟩ := idx_facts t
  refine ⟨t, flush3_13 t, ?_⟩
  show i ∈ ((View.whole main_v132).slice (win3_13.rect t)).set
  rw [View.set_slice_whole, Rect.mem_set_unit]
  intro a
  match a with
  | ⟨0, _⟩ =>
    show win3_13.index t (0 : Fin 2) * 5000 ≤ (i 0).val ∧ (i 0).val < win3_13.index t (0 : Fin 2) * 5000 + 5000
    rw [f22]
    show (i 0).val / 5000 * 5000 ≤ (i 0).val ∧ (i 0).val < (i 0).val / 5000 * 5000 + 5000
    omega
  | ⟨1, _⟩ =>
    show win3_13.index t (1 : Fin 2) * 128 ≤ (i 1).val ∧ (i 1).val < win3_13.index t (1 : Fin 2) * 128 + 128
    rw [f23]
    omega

/-- THE OUTPUT ARRAY after the region: the row-wise transform of the arrays the region finds. -/
theorem final
    (hbody : ∀ (x0 : Vec Ideal S5000x128 .f32) (x1 : Vec Ideal S5000x128 .f32) (x2 : Vec Ideal S5000x1 .f32) (x3 : Vec Ideal S128x128 .f32) (x4 : Vec Ideal S128 .f32) (x5 : Vec Ideal S128x128 .f32) (x6 : Vec Ideal S5000x128 .f32) (x7 : Vec Ideal S5000x1 .f32) (x8 : Vec Ideal S128x128 .f32) (x9 : Vec Ideal S128 .f32) (x10 : Vec Ideal S128x128 .f32) (x11 : Vec Ideal S128 .f32) (x12 : Vec Ideal S128 .f32) (p : Fin 5000) (q : Fin 128),
      out3_13 (F := Ideal) x0 x1 x2 x3 x4 x5 x6 x7 x8 x9 x10 x11 x12 (ix2 p q) = Cert.Spec.node2 (fun k => x0 (ix2 p k)) (fun k => x1 (ix2 p k) * x2 (ix2 p (0 : Fin 1))) x3 x4 x5 (fun k => x6 (ix2 p k) * x7 (ix2 p (0 : Fin 1))) x8 x9 x10 x11 x12 q)
    (c : Dev nD) :
    (dat3 V c).arrAt 13 cfg3.N = Cert.HostSpec.kLayer2 (V c main_v82) (V c main_v110) (V c main_v21) (V c main_v127) (V c main_arg22) (V c main_v128) (V c main_v124) (V c main_v32) (V c main_v129) (V c main_arg25) (V c main_v130) (V c main_arg27) (V c main_arg28) :=
  (dat3 V c).arrAt_eq_of_cover 13 _ (fun t _ => flushed_eq V hbody c t) (cover c)

end Cert.KernelIdeal.Region3

end
-- ==== Proof.KHost0.lean ====
/-
  The first host stretch of the kernel program, read back over an arbitrary valuation. Per edge type it computes
  the reciprocal of the clamped in-degree as a column and the neighbour sum of the source features; it transposes
  the six first-layer weight matrices. Each result is one of the shared host functions applied to the stretch's
  inputs; the stretch writes none of the program's arguments.
-/
import proofs.«148312_j75428215652543_2_alg».proof.Proof.Gen.KernelIdeal.Launch
import proofs.«148312_j75428215652543_2_alg».proof.Proof.HostSpec
import Idealize.ShloMosaic.Lib.StableHlo.Run

noncomputable section

namespace Cert.KernelIdeal.KHost

open Idealize.ShloMosaic Idealize.ShloMosaic.StableHlo Cert.KernelIdeal Cert.KernelIdeal.Gen

variable [Cert.KernelIdeal.Facts] [Cert.ReferenceIdeal.Facts]

/-! ## The values the first two regions read -/

/-- The reciprocal clamped in-degree along the edges at `arg2`, as a column. -/
theorem h0_v10 (V : Valuation τ sig (Elt Ideal)) :
    after (hostOps0 (F := Ideal)) V (Proc.devRef .tc main_v10)
      = HostSpec.invcol (V (Proc.devRef .tc main_arg2)) := by
  after_results_simp <;> rfl

/-- The reciprocal clamped in-degree along the edges at `arg3`, as a column. -/
theorem h0_v21 (V : Valuation τ sig (Elt Ideal)) :
    after (hostOps0 (F := Ideal)) V (Proc.devRef .tc main_v21)
      = HostSpec.invcol (V (Proc.devRef .tc main_arg3)) := by
  after_results_simp <;> rfl

/-- The reciprocal clamped in-degree along the edges at `arg4`, as a column. -/
theorem h0_v32 (V : Valuation τ sig (Elt Ideal)) :
    after (hostOps0 (F := Ideal)) V (Proc.devRef .tc main_v32)
      = HostSpec.invcol (V (Proc.devRef .tc main_arg4)) := by
  after_results_simp <;> rfl

/-- The neighbour sum of the features at `arg0` along the edges at `arg2`. -/
theorem h0_v46 (V : Valuation τ sig (Elt Ideal)) :
    after (hostOps0 (F := Ideal)) V (Proc.devRef .tc main_v46)
      = HostSpec.segsum (V (Proc.devRef .tc main_arg0)) (V (Proc.devRef .tc main_arg2)) := by
  after_results_simp <;> rfl

/-- The neighbour sum of the features at `arg1` along the edges at `arg3`. -/
theorem h0_v60 (V : Valuation τ sig (Elt Ideal)) :
    after (hostOps0 (F := Ideal)) V (Proc.devRef .tc main_v60)
      = HostSpec.segsum (V (Proc.devRef .tc main_arg1)) (V (Proc.devRef .tc main_arg3)) := by
  after_results_simp <;> rfl

/-- The neighbour sum of the features at `arg0` along the edges at `arg4`. -/
theorem h0_v74 (V : Valuation τ sig (Elt Ideal)) :
    after (hostOps0 (F := Ideal)) V (Proc.devRef .tc main_v74)
      = HostSpec.segsum (V (Proc.devRef .tc main_arg0)) (V (Proc.devRef .tc main_arg4)) := by
  after_results_simp <;> rfl

/-- The weight matrix at `arg5`, transposed. -/
theorem h0_v75 (V : Valuation τ sig (Elt Ideal)) :
    after (hostOps0 (F := Ideal)) V (Proc.devRef .tc main_v75)
      = HostSpec.trh (V (Proc.devRef .tc main_arg5)) := by
  after_results_simp <;> rfl

/-- The weight matrix at `arg7`, transposed. -/
theorem h0_v76 (V : Valuation τ sig (Elt Ideal)) :
    after (hostOps0 (F := Ideal)) V (Proc.devRef .tc main_v76)
      = HostSpec.trh (V (Proc.devRef .tc main_arg7)) := by
  after_results_simp <;> rfl

/-- The weight matrix at `arg8`, transposed. -/
theorem h0_v77 (V : Valuation τ sig (Elt Ideal)) :
    after (hostOps0 (F := Ideal)) V (Proc.devRef .tc main_v77)
      = HostSpec.trh (V (Proc.devRef .tc main_arg8)) := by
  after_results_simp <;> rfl

/-- The weight matrix at `arg10`, transposed. -/
theorem h0_v78 (V : Valuation τ sig (Elt Ideal)) :
    after (hostOps0 (F := Ideal)) V (Proc.devRef .tc main_v78)
      = HostSpec.trh (V (Proc.devRef .tc main_arg10)) := by
  after_results_simp <;> rfl

/-- The weight matrix at `arg11`, transposed. -/
theorem h0_v79 (V : Valuation τ sig (Elt Ideal)) :
    after (hostOps0 (F := Ideal)) V (Proc.devRef .tc main_v79)
      = HostSpec.trh (V (Proc.devRef .tc main_arg11)) := by
  after_results_simp <;> rfl

/-- The weight matrix at `arg13`, transposed. -/
theorem h0_v80 (V : Valuation τ sig (Elt Ideal)) :
    after (hostOps0 (F := Ideal)) V (Proc.devRef .tc main_v80)
      = HostSpec.trh (V (Proc.devRef .tc main_arg13)) := by
  after_results_simp <;> rfl

/-! ## What the stretch leaves alone -/

/-- The references the first stretch writes, in order. -/
noncomputable def written0 : List (Ref sig .tc) :=
  [main_cst, main_v0, main_v1, main_v2, main_cst_0, main_v3, main_v4, main_v5, main_cst_1, main_v6,
   main_v7, main_cst_2, main_v8, main_v9, main_v10, main_cst_3, main_v11, main_v12, main_v13,
   main_cst_4, main_v14, main_v15, main_v16, main_cst_5, main_v17, main_v18, main_cst_6, main_v19,
   main_v20, main_v21, main_cst_7, main_v22, main_v23, main_v24, main_cst_8, main_v25, main_v26,
   main_v27, main_cst_9, main_v28, main_v29, main_cst_10, main_v30, main_v31, main_v32, main_v33,
   main_v34, main_c, main_v35, main_v36, main_c_11, main_v37, main_v38, main_v39, main_v40,
   main_v41, main_v42, main_v43, main_cst_12, main_v44, main_v45, main_v46, main_v47, main_v48,
   main_c_13, main_v49, main_v50, main_c_14, main_v51, main_v52, main_v53, main_v54, main_v55,
   main_v56, main_v57, main_cst_15, main_v58, main_v59, main_v60, main_v61, main_v62, main_c_16,
   main_v63, main_v64, main_c_17, main_v65, main_v66, main_v67, main_v68, main_v69, main_v70,
   main_v71, main_cst_18, main_v72, main_v73, main_v74, main_v75, main_v76, main_v77, main_v78,
   main_v79, main_v80]

/-- Every operation of the stretch writes one reference of that list. -/
theorem writes_sub0 : ((hostOps0 (F := Ideal)) : List (HloOp τ sig (Elt Ideal))).Forall fun op =>
    op.writes ⊆ (written0.map (Proc.devRef (τ := τ) .tc)).toFinset := by
  simp only [hostOps0, List.Forall, nullary_writes, unary_writes, binary_writes, ternary_writes, reshape_writes,
    Finset.singleton_subset_iff]
  repeat' apply And.intro
  all_goals exact List.mem_toFinset.mpr (List.mem_map_of_mem (by decide))

/-- A reference the first stretch does not write keeps its contents (every argument of the program is one). -/
theorem h0_kept (V : Valuation τ sig (Elt Ideal)) (r : Ref sig .tc) (hr : r ∉ written0) :
    after (hostOps0 (F := Ideal)) V (Proc.devRef .tc r) = V (Proc.devRef .tc r) :=
  after_of_writes_sub _ V writes_sub0 hr

end Cert.KernelIdeal.KHost

end
-- ==== Proof.KHost2.lean ====
/-
  The second host stretch of the kernel program, read back over an arbitrary valuation. Per edge type it computes
  the neighbour sum of the first layer's output features; it transposes the six second-layer weight matrices.
  Each result is one of the shared host functions applied to the stretch's inputs; the stretch writes none of the
  program's arguments, neither the first layer's outputs nor the reciprocal in-degree columns.
-/
import proofs.«148312_j75428215652543_2_alg».proof.Proof.Gen.KernelIdeal.Launch
import proofs.«148312_j75428215652543_2_alg».proof.Proof.HostSpec
import Idealize.ShloMosaic.Lib.StableHlo.Run

noncomputable section

namespace Cert.KernelIdeal.KHost

open Idealize.ShloMosaic Idealize.ShloMosaic.StableHlo Cert.KernelIdeal Cert.KernelIdeal.Gen

variable [Cert.KernelIdeal.Facts] [Cert.ReferenceIdeal.Facts]

/-! ## The values the last two regions read -/

/-- The neighbour sum of the features at `v82` along the edges at `arg2`. -/
theorem h2_v96 (V : Valuation τ sig (Elt Ideal)) :
    after (hostOps2 (F := Ideal)) V (Proc.devRef .tc main_v96)
      = HostSpec.segsum (V (Proc.devRef .tc main_v82)) (V (Proc.devRef .tc main_arg2)) := by
  after_results_simp <;> rfl

/-- The neighbour sum of the features at `v81` along the edges at `arg3`. -/
theorem h2_v110 (V : Valuation τ sig (Elt Ideal)) :
    after (hostOps2 (F := Ideal)) V (Proc.devRef .tc main_v110)
      = HostSpec.segsum (V (Proc.devRef .tc main_v81)) (V (Proc.devRef .tc main_arg3)) := by
  after_results_simp <;> rfl

/-- The neighbour sum of the features at `v82` along the edges at `arg4`. -/
theorem h2_v124 (V : Valuation τ sig (Elt Ideal)) :
    after (hostOps2 (F := Ideal)) V (Proc.devRef .tc main_v124)
      = HostSpec.segsum (V (Proc.devRef .tc main_v82)) (V (Proc.devRef .tc main_arg4)) := by
  after_results_simp <;> rfl

/-- The weight matrix at `arg18`, transposed. -/
theorem h2_v125 (V : Valuation τ sig (Elt Ideal)) :
    after (hostOps2 (F := Ideal)) V (Proc.devRef .tc main_v125)
      = HostSpec.trh (V (Proc.devRef .tc main_arg18)) := by
  after_results_simp <;> rfl

/-- The weight matrix at `arg20`, transposed. -/
theorem h2_v126 (V : Valuation τ sig (Elt Ideal)) :
    after (hostOps2 (F := Ideal)) V (Proc.devRef .tc main_v126)
      = HostSpec.trh (V (Proc.devRef .tc main_arg20)) := by
  after_results_simp <;> rfl

/-- The weight matrix at `arg21`, transposed. -/
theorem h2_v127 (V : Valuation τ sig (Elt Ideal)) :
    after (hostOps2 (F := Ideal)) V (Proc.devRef .tc main_v127)
      = HostSpec.trh (V (Proc.devRef .tc main_arg21)) := by
  after_results_simp <;> rfl

/-- The weight matrix at `arg23`, transposed. -/
theorem h2_v128 (V : Valuation τ sig (Elt Ideal)) :
    after (hostOps2 (F := Ideal)) V (Proc.devRef .tc main_v128)
      = HostSpec.trh (V (Proc.devRef .tc main_arg23)) := by
  after_results_simp <;> rfl

/-- The weight matrix at `arg24`, transposed. -/
theorem h2_v129 (V : Valuation τ sig (Elt Ideal)) :
    after (hostOps2 (F := Ideal)) V (Proc.devRef .tc main_v129)
      = HostSpec.trh (V (Proc.devRef .tc main_arg24)) := by
  after_results_simp <;> rfl

/-- The weight matrix at `arg26`, transposed. -/
theorem h2_v130 (V : Valuation τ sig (Elt Ideal)) :
    after (hostOps2 (F := Ideal)) V (Proc.devRef .tc main_v130)
      = HostSpec.trh (V (Proc.devRef .tc main_arg26)) := by
  after_results_simp <;> rfl

/-! ## What the stretch leaves alone -/

/-- The references the second stretch writes, in order. -/
noncomputable def written2 : List (Ref sig .tc) :=
  [main_v83, main_v84, main_c_19, main_v85, main_v86, main_c_20, main_v87, main_v88, main_v89,
   main_v90, main_v91, main_v92, main_v93, main_cst_21, main_v94, main_v95, main_v96, main_v97,
   main_v98, main_c_22, main_v99, main_v100, main_c_23, main_v101, main_v102, main_v103, main_v104,
   main_v105, main_v106, main_v107, main_cst_24, main_v108, main_v109, main_v110, main_v111,
   main_v112, main_c_25, main_v113, main_v114, main_c_26, main_v115, main_v116, main_v117,
   main_v118, main_v119, main_v120, main_v121, main_cst_27, main_v122, main_v123, main_v124,
   main_v125, main_v126, main_v127, main_v128, main_v129, main_v130]

/-- Every operation of the stretch writes one reference of that list. -/
theorem writes_sub2 : ((hostOps2 (F := Ideal)) : List (HloOp τ sig (Elt Ideal))).Forall fun op =>
    op.writes ⊆ (written2.map (Proc.devRef (τ := τ) .tc)).toFinset := by
  simp only [hostOps2, List.Forall, nullary_writes, unary_writes, binary_writes, ternary_writes, reshape_writes,
    Finset.singleton_subset_iff]
  repeat' apply And.intro
  all_goals exact List.mem_toFinset.mpr (List.mem_map_of_mem (by decide))

/-- A reference the second stretch does not write keeps its contents (every argument of the program, the first
    layer's two outputs and the three reciprocal in-degree columns are such). -/
theorem h2_kept (V : Valuation τ sig (Elt Ideal)) (r : Ref sig .tc) (hr : r ∉ written2) :
    after (hostOps2 (F := Ideal)) V (Proc.devRef .tc r) = V (Proc.devRef .tc r) :=
  after_of_writes_sub _ V writes_sub2 hr

end Cert.KernelIdeal.KHost

end
-- ==== Proof.KHost4.lean ====
/-
  The last host stretch of the kernel program, read back over an arbitrary valuation: the two node types'
  second-layer arrays, each given a leading axis of length one, are concatenated along that axis, the array at
  `v132` first and the array at `v131` second. The stretch writes none of the program's arguments.
-/
import proofs.«148312_j75428215652543_2_alg».proof.Proof.Gen.KernelIdeal.Launch
import proofs.«148312_j75428215652543_2_alg».proof.Proof.HostSpec
import Idealize.ShloMosaic.Lib.StableHlo.Run

noncomputable section

namespace Cert.KernelIdeal.KHost

open Idealize.ShloMosaic Idealize.ShloMosaic.StableHlo Cert.KernelIdeal Cert.KernelIdeal.Gen

variable [Cert.KernelIdeal.Facts] [Cert.ReferenceIdeal.Facts]

/-- The stacked output: the array at `v132` first, the array at `v131` second. -/
theorem h4_v135 (V : Valuation τ sig (Elt Ideal)) :
    after (hostOps4 (F := Ideal)) V (Proc.devRef .tc main_v135)
      = HostSpec.stack (V (Proc.devRef .tc main_v132)) (V (Proc.devRef .tc main_v131)) := by
  after_results_simp <;> rfl

/-- The references the last stretch writes, in order. -/
noncomputable def written4 : List (Ref sig .tc) :=
  [main_v133, main_v134, main_v135]

/-- Every operation of the stretch writes one reference of that list. -/
theorem writes_sub4 : ((hostOps4 (F := Ideal)) : List (HloOp τ sig (Elt Ideal))).Forall fun op =>
    op.writes ⊆ (written4.map (Proc.devRef (τ := τ) .tc)).toFinset := by
  simp only [hostOps4, List.Forall, nullary_writes, unary_writes, binary_writes, ternary_writes, reshape_writes,
    Finset.singleton_subset_iff]
  repeat' apply And.intro
  all_goals exact List.mem_toFinset.mpr (List.mem_map_of_mem (by decide))

/-- A reference the last stretch does not write keeps its contents (every argument of the program is one). -/
theorem h4_kept (V : Valuation τ sig (Elt Ideal)) (r : Ref sig .tc) (hr : r ∉ written4) :
    after (hostOps4 (F := Ideal)) V (Proc.devRef .tc r) = V (Proc.devRef .tc r) :=
  after_of_writes_sub _ V writes_sub4 hr

end Cert.KernelIdeal.KHost

end
-- ==== Proof.BodyLib.lean ====
/-
  Reading the kernel bodies at an index: the small layout, lane-sum and matrix-product facts the four bodies share.

  Every body works on a block of 5000 rows of 128 features.  Read at row `p` and feature `q`:
    • a row vector `[128]` viewed `[1,128]` and repeated down the rows is the vector at `q`;
    • a column `[5000,1]` repeated across the features is the column at `p`;
    • a per-row value `[5000]` viewed as a column `[5000,1]` is the value at `p`;
    • the sum over the feature axis of a block is the finite sum over `k : Fin 128` of the row's entries;
    • the product of a `[5000,128]` block with a `[128,128]` matrix, accumulated into zero, is the finite sum over
      `k : Fin 128` of row entry `k` times matrix entry `(k, q)`.
-/
import proofs.«148312_j75428215652543_2_alg».proof.Proof.Gen.KernelIdeal
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Idealize.ShloMosaic Idealize.ShloMosaic.ValueIdx Cert.KernelIdeal Cert.KernelIdeal.Gen

/-- The zero offsets of a rank-2 whole-block access, as the constant function. -/
theorem hz2 : (![0, 0] : Fin 2 → Nat) = fun _ => 0 := funext fun a => by fin_cases a <;> rfl
/-- The zero offset of a rank-1 whole-block access, as the constant function. -/
theorem hz1 : (![0] : Fin 1 → Nat) = fun _ => 0 := funext fun a => by fin_cases a <;> rfl

section Layout
variable {α : Type}

/-- A column `[a,1]` repeated across `b` features reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` viewed as a column `[a,1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector `[b]` viewed as one row `[1,b]` and repeated down `a` rows reads, at `(p, c)`, the vector at `c`. -/
theorem rowBroadcast_apply {a b : ℕ} (x : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ x h1) h2 (ix2 p c) = x (ix1 c) :=
  (broadcastTo_1b_ab_apply _ h2 p c).trans (shapeCast_a_1a_apply x h1 0 c)

end Layout

/-- The sum over the feature axis of a block, read at row `p`: the finite sum of the row's 128 entries. -/
theorem laneSum_apply (src : FVec Ideal S5000x128 .f32) (h : S5000x128.Reduces [1] S5000) (hφ : FKind.Formats .f32)
    (hacc : (0x00000000#32 : BitVec 32) = 0x00000000#32) (p : Fin 5000) :
    multiReduction (F := Ideal) .add [1] S5000 src 0x00000000#32 h hφ hacc (ix1 p) = ∑ k : Fin 128, src (ix2 p k) := by
  refine (Ideal.multiReduction_add_single src 0x00000000#32 h hφ hacc (ix1 p)).trans ?_
  refine Finset.sum_congr rfl fun k _ => congrArg src ?_
  funext a; apply Fin.ext
  match a with
  | ⟨0, _⟩ => rfl
  | ⟨1, _⟩ => rfl

/-- The row sum viewed as a column and divided by a repeated scalar, read at `(p, u)`: the row's finite sum divided
    by the scalar. -/
theorem laneSum_div_apply (src : FVec Ideal S5000x128 .f32) (h : S5000x128.Reduces [1] S5000) (hφ : FKind.Formats .f32)
    (hacc : (0x00000000#32 : BitVec 32) = 0x00000000#32) (hc : S5000.ShapeCasts S5000x1) (c : Ideal .f32)
    (p : Fin 5000) (u : Fin 1) :
    divf (shapeCast S5000x1 (multiReduction (F := Ideal) .add [1] S5000 src 0x00000000#32 h hφ hacc) hc)
        (broadcast S5000x1 c) (ix2 p u)
      = Ideal.div (∑ k : Fin 128, src (ix2 p k)) c := by
  rw [divf_apply, broadcast_apply]
  refine congrArg (fun t => Ideal.div t c) ?_
  exact (shapeCast_a_a1_apply _ hc p u).trans (laneSum_apply src h hφ hacc p)

/-- `laneSum_apply` with the accumulator's fact stated against the reduction kind's neutral word. -/
theorem laneSum_apply' (src : FVec Ideal S5000x128 .f32) (h : S5000x128.Reduces [1] S5000) (hφ : FKind.Formats .f32)
    (hacc : (0x00000000#32 : BitVec 32) = FKind.add.neutral .f32 hφ) (p : Fin 5000) :
    multiReduction (F := Ideal) .add [1] S5000 src 0x00000000#32 h hφ hacc (ix1 p) = ∑ k : Fin 128, src (ix2 p k) :=
  laneSum_apply src h hφ hacc p

/-- `laneSum_div_apply` with the accumulator's fact stated against the reduction kind's neutral word. -/
theorem laneSum_div_apply' (src : FVec Ideal S5000x128 .f32) (h : S5000x128.Reduces [1] S5000) (hφ : FKind.Formats .f32)
    (hacc : (0x00000000#32 : BitVec 32) = FKind.add.neutral .f32 hφ) (hc : S5000.ShapeCasts S5000x1) (c : Ideal .f32)
    (p : Fin 5000) (u : Fin 1) :
    divf (shapeCast S5000x1 (multiReduction (F := Ideal) .add [1] S5000 src 0x00000000#32 h hφ hacc) hc)
        (broadcast S5000x1 c) (ix2 p u)
      = Ideal.div (∑ k : Fin 128, src (ix2 p k)) c :=
  laneSum_div_apply src h hφ hacc hc c p u

/-- The feature-axis sum as the ideal instance's reduction over an axis list that is the feature axis, read at row
    `p`: the finite sum of the row's 128 entries. (The axis list is a variable with its value as a hypothesis.) -/
theorem reduceAdd_lane_apply (axes : List (Fin S5000x128.rank)) (ha : axes = [1]) (src : FVec Ideal S5000x128 .f32)
    (h : S5000x128.Reduces axes S5000) (p : Fin 5000) :
    FloatOps.reduceAdd (F := Ideal) axes h src (ix1 p) = ∑ k : Fin 128, src (ix2 p k) := by
  subst ha
  exact laneSum_apply src h (.inl rfl) rfl p

/-- That sum viewed as a column and divided by a repeated scalar, read at `(p, u)`: the row's finite sum divided by
    the scalar. -/
theorem reduceAdd_lane_div_apply (axes : List (Fin S5000x128.rank)) (ha : axes = [1]) (src : FVec Ideal S5000x128 .f32)
    (h : S5000x128.Reduces axes S5000) (hc : S5000.ShapeCasts S5000x1) (c : Ideal .f32) (p : Fin 5000) (u : Fin 1) :
    divf (shapeCast S5000x1 (FloatOps.reduceAdd (F := Ideal) axes h src) hc) (broadcast S5000x1 c) (ix2 p u)
      = Ideal.div (∑ k : Fin 128, src (ix2 p k)) c := by
  subst ha
  exact laneSum_div_apply src h (.inl rfl) rfl hc c p u

/-- In the block-times-matrix product the block's index keeps the output's row … -/
theorem dot_lhs_row (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- … and takes the shared feature as its column; -/
theorem dot_lhs_col (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k
/-- the matrix's index takes the shared feature as its row … -/
theorem dot_rhs_row (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k
/-- … and keeps the output's column. -/
theorem dot_rhs_col (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The block-times-matrix product accumulated into zero, read at `(p, q)`: the finite sum over the 128 shared
    features of the block's row entry times the matrix entry in column `q`. -/
theorem matmul_apply_sum (prec : Option ContractPrecision) (lhs : FVec Ideal S5000x128 .f32) (rhs : FVec Ideal S128x128 .f32)
    (p : Fin 5000) (q : Fin 128) :
    matmul dot_S5000x128_S128x128_S5000x128_1_0_0_1_n_n prec lhs rhs (constant S5000x128 .f32 0x00000000#32) (ix2 p q)
      = ∑ k : Fin 128, lhs (ix2 p k) * rhs (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact dot_lhs_row _ _
      | ⟨1, _⟩ => exact (dot_lhs_col _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (dot_rhs_row _ _).trans hk
      | ⟨1, _⟩ => exact dot_rhs_col _ _)
  rw [el, er]

/-- The reciprocal square root of a block, read at an index: the reciprocal square root of the entry. -/
theorem rsqrt_apply {s : Shape} {φ : FTy} (a : FVec Ideal s φ) (i : s.Idx) : rsqrt a i = Ideal.rsqrt (a i) := rfl

end Cert.KernelIdeal.Body

end
-- ==== Proof.Body0.lean ====
/-
  Region 0 of the kernel program (one edge type): what the body leaves in its output block, read at row `p` and
  feature `q`, is the specification's `node1` of that row,
      relu (layerNorm (mean · WlT + b + x · WrT)),
  with `mean` the aggregated row times the row's reciprocal count.  The body accumulates from a zero block, adds the
  bias as a repeated row, takes the mean and the variance over the 128 features as lane sums divided by 128, and
  multiplies by the reciprocal square root; each of these is read at the index and meets the specification term by term.
-/
import proofs.«148312_j75428215652543_2_alg».proof.Proof.Gen.KernelIdeal.Frame
import proofs.«148312_j75428215652543_2_alg».proof.Proof.Spec
import proofs.«148312_j75428215652543_2_alg».proof.Proof.BodyLib

noncomputable section

namespace Cert.KernelIdeal.Body

open Idealize.ShloMosaic Idealize.ShloMosaic.ValueIdx Cert.KernelIdeal

/-- The output block of region 0 at `(p, q)` is the one-edge-type node formula of row `p`, feature `q`. -/
theorem out0_8_apply (x0 x1 : Vec Ideal S5000x128 .f32) (x2 : Vec Ideal S5000x1 .f32) (x3 : Vec Ideal S128x128 .f32)
    (x4 : Vec Ideal S128 .f32) (x5 : Vec Ideal S128x128 .f32) (x6 x7 : Vec Ideal S128 .f32) (p : Fin 5000) (q : Fin 128) :
    Gen.out0_8 (F := Ideal) x0 x1 x2 x3 x4 x5 x6 x7 (ix2 p q)
      = Cert.Spec.node1 (fun k => x0 (ix2 p k)) (fun k => x1 (ix2 p k) * x2 (ix2 p 0)) x3 x4 x5 x6 x7 q := by
  -- the one store covers the block, and every load reads a whole input block
  unfold Gen.out0_8
  rw [View.canon_unit_zero hz2]
  simp only [View.ld_unit_zero (S := S5000x128) hz2, View.ld_unit_zero (S := S5000x1) hz2,
    View.ld_unit_zero (S := S128x128) hz2, View.ld_unit_zero (S := S128) hz1]
  -- the body's arithmetic, read at the index operation by operation
  unfold Gen.k0_pay1 Gen.k0_pay2 Gen.k0_pay3
  simp only [multiReduction, maximumf_apply, addf_apply, mulf_apply, subf_apply, broadcast_apply, rowBroadcast_apply,
    broadcastTo_a1_ab_apply, rsqrt_apply, reduceAdd_lane_div_apply, matmul_apply_sum, shapeCast_self,
    Ideal.ofBits_def, Ideal.rsqrt_def]
  -- the specification's formula, opened; the accumulator starts from the zero word
  simp only [Cert.Spec.node1, Cert.Spec.lnRelu, Cert.Spec.centred, Cert.Spec.rowMean, Cert.Spec.sage,
    Ideal.ofBits_zero_f32, zero_add]

end Cert.KernelIdeal.Body

end
-- ==== Proof.Body1.lean ====
/-
  Region 1 of the kernel program (two edge types): what the body leaves in its output block, read at row `p` and
  feature `q`, is the specification's `node2` of that row:
      relu (layerNorm ((mean₁ · WlT₁ + b₁ + x · WrT₁) + (mean₂ · WlT₂ + b₂ + x · WrT₂)))
  with `meanₑ` the row aggregated along edge type `e` times the row's reciprocal count.

  The body is cut in three: the block before the norm, a sum from a zero block of six terms (per edge type a product
  of the scaled aggregate with `WlT`, the bias repeated down the rows, the product of the node's own block with `WrT`),
  named `pre`; the norm and relu applied to it, named `lnTail`; and the equation saying the printed body is the one
  applied to the other. Each is read at the index `(p, q)`: the products become sums over the 128 features, the six
  terms regroup into the two edge types' contributions by associativity, and the norm meets `Spec.lnRelu` term by term.
-/
import proofs.«148312_j75428215652543_2_alg».proof.Proof.Gen.KernelIdeal.Frame
import proofs.«148312_j75428215652543_2_alg».proof.Proof.Spec
import proofs.«148312_j75428215652543_2_alg».proof.Proof.BodyLib

noncomputable section

namespace Cert.KernelIdeal.Body

open Idealize.ShloMosaic Idealize.ShloMosaic.ValueIdx Cert.KernelIdeal

/-! ## The three kinds of term before the norm -/

/-- The aggregate block scaled row by row by the reciprocal-count column, times a weight matrix, from a zero block. -/
def aggT (agg : FVec Ideal S5000x128 .f32) (inv : FVec Ideal S5000x1 .f32) (w : FVec Ideal S128x128 .f32) :
    FVec Ideal S5000x128 .f32 :=
  matmul dot_S5000x128_S128x128_S5000x128_1_0_0_1_n_n (some .fp32)
    (mulf (shapeCast S5000x128 agg Gen.shapeCasts_S5000x128_S5000x128)
      (broadcastTo S5000x128 (shapeCast S5000x1 inv Gen.shapeCasts_S5000x1_S5000x1) Gen.broadcasts_S5000x1_S5000x128))
    (shapeCast S128x128 w Gen.shapeCasts_S128x128_S128x128) (constant S5000x128 .f32 0x00000000#32)

/-- A block times a weight matrix, from a zero block. -/
def selfT (x : FVec Ideal S5000x128 .f32) (w : FVec Ideal S128x128 .f32) : FVec Ideal S5000x128 .f32 :=
  matmul dot_S5000x128_S128x128_S5000x128_1_0_0_1_n_n (some .fp32) x
    (shapeCast S128x128 w Gen.shapeCasts_S128x128_S128x128) (constant S5000x128 .f32 0x00000000#32)

/-- A vector of 128 features repeated down the rows. -/
def biasT (b : FVec Ideal S128 .f32) : FVec Ideal S5000x128 .f32 :=
  broadcastTo S5000x128 (shapeCast S1x128 b Gen.shapeCasts_S128_S1x128) Gen.broadcasts_S1x128_S5000x128

/-- The scaled aggregate's product at `(p, q)`: the sum over the features `k` of the aggregate at `(p, k)` times the
    row's reciprocal count, times the matrix at `(k, q)`. -/
theorem aggT_apply (agg : FVec Ideal S5000x128 .f32) (inv : FVec Ideal S5000x1 .f32) (w : FVec Ideal S128x128 .f32)
    (p : Fin 5000) (q : Fin 128) :
    aggT agg inv w (ix2 p q) = ∑ k : Fin 128, (agg (ix2 p k) * inv (ix2 p (0 : Fin 1))) * w (ix2 k q) := by
  unfold aggT
  rw [matmul_apply_sum, shapeCast_self, shapeCast_self, shapeCast_self]
  refine Finset.sum_congr rfl fun k _ => ?_
  rw [mulf_apply, broadcastTo_a1_ab_apply]

/-- The node's own product at `(p, q)`: the sum over the features `k` of the block at `(p, k)` times the matrix at
    `(k, q)`. -/
theorem selfT_apply (x : FVec Ideal S5000x128 .f32) (w : FVec Ideal S128x128 .f32) (p : Fin 5000) (q : Fin 128) :
    selfT x w (ix2 p q) = ∑ k : Fin 128, x (ix2 p k) * w (ix2 k q) := by
  unfold selfT
  rw [matmul_apply_sum, shapeCast_self]

/-- The repeated bias at `(p, q)` is the bias at `q`. -/
theorem biasT_apply (b : FVec Ideal S128 .f32) (p : Fin 5000) (q : Fin 128) : biasT b (ix2 p q) = b (ix1 q) :=
  rowBroadcast_apply b _ _ p q

/-! ## The block before the norm -/

/-- The block before the norm: from a zero block, edge type 1's three terms then edge type 2's, added left to right.
    `xs` is the node's own block as the two products read it. -/
def pre (xs : FVec Ideal S5000x128 .f32) (x1 : FVec Ideal S5000x128 .f32) (x2 : FVec Ideal S5000x1 .f32)
    (x3 : FVec Ideal S128x128 .f32) (x4 : FVec Ideal S128 .f32) (x5 : FVec Ideal S128x128 .f32)
    (x6 : FVec Ideal S5000x128 .f32) (x7 : FVec Ideal S5000x1 .f32) (x8 : FVec Ideal S128x128 .f32)
    (x9 : FVec Ideal S128 .f32) (x10 : FVec Ideal S128x128 .f32) : FVec Ideal S5000x128 .f32 :=
  addf (addf (addf (addf (addf (addf (broadcast S5000x128 (Scalar.ofBits .f32 0x00000000#32)) (aggT x1 x2 x3))
    (biasT x4)) (selfT xs x5)) (aggT x6 x7 x8)) (biasT x9)) (selfT xs x10)

/-- Six terms added left to right from zero are the first three plus the last three. -/
theorem sum_regroup (z A1 b1 C1 A2 b2 C2 : EReal) (hz : z = 0) :
    z + A1 + b1 + C1 + A2 + b2 + C2 = (A1 + b1 + C1) + (A2 + b2 + C2) := by
  rw [hz, zero_add, add_assoc (A1 + b1 + C1) A2 b2, add_assoc (A1 + b1 + C1) (A2 + b2) C2]

/-- The block before the norm at `(p, q)` is the sum of the two edge types' contributions to row `p`, at `q`. -/
theorem pre_apply (xs : FVec Ideal S5000x128 .f32) (x1 : FVec Ideal S5000x128 .f32) (x2 : FVec Ideal S5000x1 .f32)
    (x3 : FVec Ideal S128x128 .f32) (x4 : FVec Ideal S128 .f32) (x5 : FVec Ideal S128x128 .f32)
    (x6 : FVec Ideal S5000x128 .f32) (x7 : FVec Ideal S5000x1 .f32) (x8 : FVec Ideal S128x128 .f32)
    (x9 : FVec Ideal S128 .f32) (x10 : FVec Ideal S128x128 .f32) (p : Fin 5000) (q : Fin 128) :
    pre xs x1 x2 x3 x4 x5 x6 x7 x8 x9 x10 (ix2 p q)
      = Cert.Spec.sage (fun k => x1 (ix2 p k) * x2 (ix2 p (0 : Fin 1))) (fun k => xs (ix2 p k)) x3 x4 x5 q
        + Cert.Spec.sage (fun k => x6 (ix2 p k) * x7 (ix2 p (0 : Fin 1))) (fun k => xs (ix2 p k)) x8 x9 x10 q := by
  unfold pre Cert.Spec.sage
  rw [addf_apply, addf_apply, addf_apply, addf_apply, addf_apply, addf_apply, broadcast_apply,
    aggT_apply, aggT_apply, biasT_apply, biasT_apply, selfT_apply, selfT_apply]
  exact sum_regroup _ _ _ _ _ _ _ Ideal.ofBits_zero_f32

/-! ## The norm and relu -/

/-- A block minus its row means (a row's mean: its lane sum as a column, divided by 128, repeated along the row). -/
def ctr (a : FVec Ideal S5000x128 .f32) : FVec Ideal S5000x128 .f32 :=
  subf a (broadcastTo S5000x128
    (divf (shapeCast S5000x1 (multiReduction .add [1] S5000 a 0x00000000#32 Gen.reduces_S5000x128_S5000 (.inl rfl) rfl)
        Gen.shapeCasts_S5000_S5000x1)
      (broadcast S5000x1 (Scalar.ofBits .f32 0x43000000#32)))
    Gen.broadcasts_S5000x1_S5000x128)

/-- The layer norm over the features (biased variance, shift `1e-5`), the affine map and relu of a block. -/
def lnTail (a : FVec Ideal S5000x128 .f32) (lnw lnb : FVec Ideal S128 .f32) : FVec Ideal S5000x128 .f32 :=
  maximumf
    (addf
      (mulf
        (mulf (ctr a)
          (broadcastTo S5000x128
            (rsqrt
              (addf
                (divf (shapeCast S5000x1
                    (multiReduction .add [1] S5000 (mulf (ctr a) (ctr a)) 0x00000000#32 Gen.reduces_S5000x128_S5000 (.inl rfl) rfl)
                    Gen.shapeCasts_S5000_S5000x1)
                  (broadcast S5000x1 (Scalar.ofBits .f32 0x43000000#32)))
                (broadcast S5000x1 (Scalar.ofBits .f32 0x3727C5AC#32))))
            Gen.broadcasts_S5000x1_S5000x128))
        (biasT lnw))
      (biasT lnb))
    (broadcast S5000x128 (Scalar.ofBits .f32 0x00000000#32))

/-- The centred block at `(p, q)` is row `p` minus its mean, at `q`. -/
theorem ctr_apply (a : FVec Ideal S5000x128 .f32) (p : Fin 5000) (q : Fin 128) :
    ctr a (ix2 p q) = Cert.Spec.centred (fun k => a (ix2 p k)) q := by
  unfold ctr Cert.Spec.centred Cert.Spec.rowMean
  rw [subf_apply, broadcastTo_a1_ab_apply, laneSum_div_apply]
  rfl

/-- The lane sum of the squared centred block, at row `p`: the sum of the row's squared deviations. -/
theorem sqSum_apply (a : FVec Ideal S5000x128 .f32) (p : Fin 5000) :
    ∑ k : Fin 128, mulf (ctr a) (ctr a) (ix2 p k)
      = ∑ k : Fin 128, Cert.Spec.centred (fun k => a (ix2 p k)) k * Cert.Spec.centred (fun k => a (ix2 p k)) k :=
  Finset.sum_congr rfl fun k _ => by rw [mulf_apply, ctr_apply]

/-- The norm and relu of a block at `(p, q)` is `Spec.lnRelu` of row `p`, at `q`. -/
theorem lnTail_apply (a : FVec Ideal S5000x128 .f32) (lnw lnb : FVec Ideal S128 .f32) (p : Fin 5000) (q : Fin 128) :
    lnTail a lnw lnb (ix2 p q) = Cert.Spec.lnRelu (fun k => a (ix2 p k)) lnw lnb q := by
  unfold lnTail Cert.Spec.lnRelu
  rw [maximumf_apply, addf_apply, mulf_apply, mulf_apply, biasT_apply, biasT_apply, broadcast_apply,
    broadcastTo_a1_ab_apply, rsqrt_apply, addf_apply, laneSum_div_apply, broadcast_apply, sqSum_apply, ctr_apply]
  rfl

/-! ## Region 1's body -/

/-- The printed sum of region 1 before its last product is `pre` without that product. -/
theorem k1_pay2_eq (x0 x1 : Vec Ideal S5000x128 .f32) (x2 : Vec Ideal S5000x1 .f32) (x3 : Vec Ideal S128x128 .f32)
    (x4 : Vec Ideal S128 .f32) (x5 : Vec Ideal S128x128 .f32) (x6 : Vec Ideal S5000x128 .f32) (x7 : Vec Ideal S5000x1 .f32)
    (x8 : Vec Ideal S128x128 .f32) (x9 : Vec Ideal S128 .f32) (x10 : Vec Ideal S128x128 .f32) :
    addf (Gen.k1_pay2 (F := Ideal) x0 x1 x2 x3 x4 x5 x6 x7 x8 x9) (selfT x0 x10) = pre x0 x1 x2 x3 x4 x5 x6 x7 x8 x9 x10 := rfl

/-- The printed payload of region 1's store is the norm and relu of the sum it is handed plus the last product. -/
theorem k1_pay1_eq (v0 v33 : FVec Ideal S5000x128 .f32) (v34 : Vec Ideal S128x128 .f32) (v54 v58 : Vec Ideal S128 .f32) :
    Gen.k1_pay1 (F := Ideal) v0 v33 v34 v54 v58 = lnTail (addf v33 (selfT v0 v34)) v54 v58 := rfl

/-- The output block of region 1 at `(p, q)` is the two-edge-type node formula of row `p`, feature `q`. -/
theorem out1_13_apply (x0 x1 : Vec Ideal S5000x128 .f32) (x2 : Vec Ideal S5000x1 .f32) (x3 : Vec Ideal S128x128 .f32)
    (x4 : Vec Ideal S128 .f32) (x5 : Vec Ideal S128x128 .f32) (x6 : Vec Ideal S5000x128 .f32) (x7 : Vec Ideal S5000x1 .f32)
    (x8 : Vec Ideal S128x128 .f32) (x9 : Vec Ideal S128 .f32) (x10 : Vec Ideal S128x128 .f32) (x11 x12 : Vec Ideal S128 .f32)
    (p : Fin 5000) (q : Fin 128) :
    Gen.out1_13 (F := Ideal) x0 x1 x2 x3 x4 x5 x6 x7 x8 x9 x10 x11 x12 (ix2 p q)
      = Cert.Spec.node2 (fun k => x0 (ix2 p k)) (fun k => x1 (ix2 p k) * x2 (ix2 p (0 : Fin 1))) x3 x4 x5
          (fun k => x6 (ix2 p k) * x7 (ix2 p (0 : Fin 1))) x8 x9 x10 x11 x12 q := by
  unfold Gen.out1_13
  rw [View.canon_unit_zero hz2]
  simp only [View.ld_unit_zero (S := S5000x128) hz2, View.ld_unit_zero (S := S5000x1) hz2,
    View.ld_unit_zero (S := S128x128) hz2, View.ld_unit_zero (S := S128) hz1]
  rw [k1_pay1_eq, k1_pay2_eq, lnTail_apply]
  unfold Cert.Spec.node2
  exact congrArg (fun r => Cert.Spec.lnRelu r x11 x12 q) (funext fun k => pre_apply _ _ _ _ _ _ _ _ _ _ _ p k)

end Cert.KernelIdeal.Body

end
-- ==== Proof.Body2.lean ====
/-
  Region 2 of the kernel program (one edge type): what the body leaves in its output block, read at row `p` and
  feature `q`, is the specification's `node1` of that row,
      relu (layerNorm (mean · WlT + b + x · WrT)),
  with `mean` the aggregated row times the row's reciprocal count.  The body accumulates from a zero block, adds the
  bias as a repeated row, takes the mean and the variance over the 128 features as lane sums divided by 128, and
  multiplies by the reciprocal square root; each of these is read at the index and meets the specification term by term.
-/
import proofs.«148312_j75428215652543_2_alg».proof.Proof.Gen.KernelIdeal.Frame
import proofs.«148312_j75428215652543_2_alg».proof.Proof.Spec
import proofs.«148312_j75428215652543_2_alg».proof.Proof.BodyLib

noncomputable section

namespace Cert.KernelIdeal.Body

open Idealize.ShloMosaic Idealize.ShloMosaic.ValueIdx Cert.KernelIdeal

/-- The output block of region 2 at `(p, q)` is the one-edge-type node formula of row `p`, feature `q`. -/
theorem out2_8_apply (x0 x1 : Vec Ideal S5000x128 .f32) (x2 : Vec Ideal S5000x1 .f32) (x3 : Vec Ideal S128x128 .f32)
    (x4 : Vec Ideal S128 .f32) (x5 : Vec Ideal S128x128 .f32) (x6 x7 : Vec Ideal S128 .f32) (p : Fin 5000) (q : Fin 128) :
    Gen.out2_8 (F := Ideal) x0 x1 x2 x3 x4 x5 x6 x7 (ix2 p q)
      = Cert.Spec.node1 (fun k => x0 (ix2 p k)) (fun k => x1 (ix2 p k) * x2 (ix2 p 0)) x3 x4 x5 x6 x7 q := by
  -- the one store covers the block, and every load reads a whole input block
  unfold Gen.out2_8
  rw [View.canon_unit_zero hz2]
  simp only [View.ld_unit_zero (S := S5000x128) hz2, View.ld_unit_zero (S := S5000x1) hz2,
    View.ld_unit_zero (S := S128x128) hz2, View.ld_unit_zero (S := S128) hz1]
  -- the body's arithmetic, read at the index operation by operation
  unfold Gen.k2_pay1 Gen.k2_pay2 Gen.k2_pay3
  simp only [multiReduction, maximumf_apply, addf_apply, mulf_apply, subf_apply, broadcast_apply, rowBroadcast_apply,
    broadcastTo_a1_ab_apply, rsqrt_apply, reduceAdd_lane_div_apply, matmul_apply_sum, shapeCast_self,
    Ideal.ofBits_def, Ideal.rsqrt_def]
  -- the specification's formula, opened; the accumulator starts from the zero word
  simp only [Cert.Spec.node1, Cert.Spec.lnRelu, Cert.Spec.centred, Cert.Spec.rowMean, Cert.Spec.sage,
    Ideal.ofBits_zero_f32, zero_add]

end Cert.KernelIdeal.Body

end
-- ==== Proof.Body3.lean ====
/-
  Region 3 of the kernel program (two edge types, second layer): what the body leaves in its output block, read at
  row `p` and feature `q`, is the specification's `node2` of that row. The body is region 1's with the node's own
  block passed through a shape cast to its own shape, which is the identity; the block before the norm, the norm and
  their readings at an index are region 1's (`pre`, `lnTail`, `pre_apply`, `lnTail_apply`).
-/
import proofs.«148312_j75428215652543_2_alg».proof.Proof.Body1

noncomputable section

namespace Cert.KernelIdeal.Body

open Idealize.ShloMosaic Idealize.ShloMosaic.ValueIdx Cert.KernelIdeal

/-- The node's own block cast to its own shape is the block. -/
theorem k3_pay2_eq (x0 : Vec Ideal S5000x128 .f32) : Gen.k3_pay2 (F := Ideal) x0 = x0 :=
  shapeCast_self x0 _

/-- The printed sum of region 3 before its last product is `pre` without that product. -/
theorem k3_pay3_eq (x0 x1 : Vec Ideal S5000x128 .f32) (x2 : Vec Ideal S5000x1 .f32) (x3 : Vec Ideal S128x128 .f32)
    (x4 : Vec Ideal S128 .f32) (x5 : Vec Ideal S128x128 .f32) (x6 : Vec Ideal S5000x128 .f32) (x7 : Vec Ideal S5000x1 .f32)
    (x8 : Vec Ideal S128x128 .f32) (x9 : Vec Ideal S128 .f32) (x10 : Vec Ideal S128x128 .f32) :
    addf (Gen.k3_pay3 (F := Ideal) x0 x1 x2 x3 x4 x5 x6 x7 x8 x9) (selfT (Gen.k3_pay2 (F := Ideal) x0) x10)
      = pre (Gen.k3_pay2 (F := Ideal) x0) x1 x2 x3 x4 x5 x6 x7 x8 x9 x10 := rfl

/-- The printed payload of region 3's store is the norm and relu of the sum it is handed plus the last product. -/
theorem k3_pay1_eq (v1 v34 : FVec Ideal S5000x128 .f32) (v35 : Vec Ideal S128x128 .f32) (v55 v59 : Vec Ideal S128 .f32) :
    Gen.k3_pay1 (F := Ideal) v1 v34 v35 v55 v59 = lnTail (addf v34 (selfT v1 v35)) v55 v59 := rfl

/-- The output block of region 3 at `(p, q)` is the two-edge-type node formula of row `p`, feature `q`. -/
theorem out3_13_apply (x0 x1 : Vec Ideal S5000x128 .f32) (x2 : Vec Ideal S5000x1 .f32) (x3 : Vec Ideal S128x128 .f32)
    (x4 : Vec Ideal S128 .f32) (x5 : Vec Ideal S128x128 .f32) (x6 : Vec Ideal S5000x128 .f32) (x7 : Vec Ideal S5000x1 .f32)
    (x8 : Vec Ideal S128x128 .f32) (x9 : Vec Ideal S128 .f32) (x10 : Vec Ideal S128x128 .f32) (x11 x12 : Vec Ideal S128 .f32)
    (p : Fin 5000) (q : Fin 128) :
    Gen.out3_13 (F := Ideal) x0 x1 x2 x3 x4 x5 x6 x7 x8 x9 x10 x11 x12 (ix2 p q)
      = Cert.Spec.node2 (fun k => x0 (ix2 p k)) (fun k => x1 (ix2 p k) * x2 (ix2 p (0 : Fin 1))) x3 x4 x5
          (fun k => x6 (ix2 p k) * x7 (ix2 p (0 : Fin 1))) x8 x9 x10 x11 x12 q := by
  unfold Gen.out3_13
  rw [View.canon_unit_zero hz2]
  simp only [View.ld_unit_zero (S := S5000x128) hz2, View.ld_unit_zero (S := S5000x1) hz2,
    View.ld_unit_zero (S := S128x128) hz2, View.ld_unit_zero (S := S128) hz1]
  rw [k3_pay1_eq, k3_pay3_eq, k3_pay2_eq, lnTail_apply]
  unfold Cert.Spec.node2
  exact congrArg (fun r => Cert.Spec.lnRelu r x11 x12 q) (funext fun k => pre_apply _ _ _ _ _ _ _ _ _ _ _ p k)

end Cert.KernelIdeal.Body

end
-- ==== Proof.KValue.lean ====
/-
  The kernel program's run, read as a value: the result array after the last host stretch, walked back through the
  four regions and the host stretches between them to the launch contents of the arguments. At each boundary a
  buffer is either what the stretch or region just computed (a neighbour sum, a reciprocal-count column, a
  transposed weight, a region's row-wise transform of its inputs) or what it held at the boundary before.
-/
import proofs.«148312_j75428215652543_2_alg».proof.Proof.KFrame
import proofs.«148312_j75428215652543_2_alg».proof.Proof.Region0
import proofs.«148312_j75428215652543_2_alg».proof.Proof.Region1
import proofs.«148312_j75428215652543_2_alg».proof.Proof.Region2
import proofs.«148312_j75428215652543_2_alg».proof.Proof.Region3
import proofs.«148312_j75428215652543_2_alg».proof.Proof.KHost0
import proofs.«148312_j75428215652543_2_alg».proof.Proof.KHost2
import proofs.«148312_j75428215652543_2_alg».proof.Proof.KHost4
import proofs.«148312_j75428215652543_2_alg».proof.Proof.Body0
import proofs.«148312_j75428215652543_2_alg».proof.Proof.Body1
import proofs.«148312_j75428215652543_2_alg».proof.Proof.Body2
import proofs.«148312_j75428215652543_2_alg».proof.Proof.Body3

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable [Cert.KernelIdeal.Facts] [Cert.ReferenceIdeal.Facts]
variable (m : (ℓ : Loc nD τ sig) → Buf (Elt Ideal) ℓ) (ρ : Dev nD → PrngReg)

/-! ## The arguments' launch contents -/
abbrev arg0 (c : Dev nD) : Cert.HostSpec.Nodes := m ((c.tc : Thread nD τ).loc main_arg0)
abbrev arg1 (c : Dev nD) : Cert.HostSpec.Nodes := m ((c.tc : Thread nD τ).loc main_arg1)
abbrev arg2 (c : Dev nD) : Cert.HostSpec.Edges := m ((c.tc : Thread nD τ).loc main_arg2)
abbrev arg3 (c : Dev nD) : Cert.HostSpec.Edges := m ((c.tc : Thread nD τ).loc main_arg3)
abbrev arg4 (c : Dev nD) : Cert.HostSpec.Edges := m ((c.tc : Thread nD τ).loc main_arg4)
abbrev arg5 (c : Dev nD) : Cert.HostSpec.Mat := m ((c.tc : Thread nD τ).loc main_arg5)
abbrev arg6 (c : Dev nD) : Cert.HostSpec.Vc := m ((c.tc : Thread nD τ).loc main_arg6)
abbrev arg7 (c : Dev nD) : Cert.HostSpec.Mat := m ((c.tc : Thread nD τ).loc main_arg7)
abbrev arg8 (c : Dev nD) : Cert.HostSpec.Mat := m ((c.tc : Thread nD τ).loc main_arg8)
abbrev arg9 (c : Dev nD) : Cert.HostSpec.Vc := m ((c.tc : Thread nD τ).loc main_arg9)
abbrev arg10 (c : Dev nD) : Cert.HostSpec.Mat := m ((c.tc : Thread nD τ).loc main_arg10)
abbrev arg11 (c : Dev nD) : Cert.HostSpec.Mat := m ((c.tc : Thread nD τ).loc main_arg11)
abbrev arg12 (c : Dev nD) : Cert.HostSpec.Vc := m ((c.tc : Thread nD τ).loc main_arg12)
abbrev arg13 (c : Dev nD) : Cert.HostSpec.Mat := m ((c.tc : Thread nD τ).loc main_arg13)
abbrev arg14 (c : Dev nD) : Cert.HostSpec.Vc := m ((c.tc : Thread nD τ).loc main_arg14)
abbrev arg15 (c : Dev nD) : Cert.HostSpec.Vc := m ((c.tc : Thread nD τ).loc main_arg15)
abbrev arg16 (c : Dev nD) : Cert.HostSpec.Vc := m ((c.tc : Thread nD τ).loc main_arg16)
abbrev arg17 (c : Dev nD) : Cert.HostSpec.Vc := m ((c.tc : Thread nD τ).loc main_arg17)
abbrev arg18 (c : Dev nD) : Cert.HostSpec.Mat := m ((c.tc : Thread nD τ).loc main_arg18)
abbrev arg19 (c : Dev nD) : Cert.HostSpec.Vc := m ((c.tc : Thread nD τ).loc main_arg19)
abbrev arg20 (c : Dev nD) : Cert.HostSpec.Mat := m ((c.tc : Thread nD τ).loc main_arg20)
abbrev arg21 (c : Dev nD) : Cert.HostSpec.Mat := m ((c.tc : Thread nD τ).loc main_arg21)
abbrev arg22 (c : Dev nD) : Cert.HostSpec.Vc := m ((c.tc : Thread nD τ).loc main_arg22)
abbrev arg23 (c : Dev nD) : Cert.HostSpec.Mat := m ((c.tc : Thread nD τ).loc main_arg23)
abbrev arg24 (c : Dev nD) : Cert.HostSpec.Mat := m ((c.tc : Thread nD τ).loc main_arg24)
abbrev arg25 (c : Dev nD) : Cert.HostSpec.Vc := m ((c.tc : Thread nD τ).loc main_arg25)
abbrev arg26 (c : Dev nD) : Cert.HostSpec.Mat := m ((c.tc : Thread nD τ).loc main_arg26)
abbrev arg27 (c : Dev nD) : Cert.HostSpec.Vc := m ((c.tc : Thread nD τ).loc main_arg27)
abbrev arg28 (c : Dev nD) : Cert.HostSpec.Vc := m ((c.tc : Thread nD τ).loc main_arg28)
abbrev arg29 (c : Dev nD) : Cert.HostSpec.Vc := m ((c.tc : Thread nD τ).loc main_arg29)
abbrev arg30 (c : Dev nD) : Cert.HostSpec.Vc := m ((c.tc : Thread nD τ).loc main_arg30)

/-! ## Each boundary's contents at the buffers the next stretch or region reads -/

theorem w0_arg0 (c : Dev nD) : W0 m ρ c (Proc.devRef .tc main_arg0) = (arg0 m c) :=
  rfl

theorem w1_arg0 (c : Dev nD) : W1 m ρ c (Proc.devRef .tc main_arg0) = (arg0 m c) :=
  (Cert.KernelIdeal.KHost.h0_kept (W0 m ρ c) main_arg0 (by decide)).trans (w0_arg0 m ρ c)

theorem w2_arg0 (c : Dev nD) : W2 m ρ c (Proc.devRef .tc main_arg0) = (arg0 m c) :=
  (W2_of_ne m ρ c main_arg0 (by decide)).trans (w1_arg0 m ρ c)

theorem w1_v60 (c : Dev nD) : W1 m ρ c (Proc.devRef .tc main_v60) = (Cert.HostSpec.segsum (arg1 m c) (arg3 m c)) :=
  Cert.KernelIdeal.KHost.h0_v60 (W0 m ρ c)

theorem w2_v60 (c : Dev nD) : W2 m ρ c (Proc.devRef .tc main_v60) = (Cert.HostSpec.segsum (arg1 m c) (arg3 m c)) :=
  (W2_of_ne m ρ c main_v60 (by decide)).trans (w1_v60 m ρ c)

theorem w1_v21 (c : Dev nD) : W1 m ρ c (Proc.devRef .tc main_v21) = (Cert.HostSpec.invcol (arg3 m c)) :=
  Cert.KernelIdeal.KHost.h0_v21 (W0 m ρ c)

theorem w2_v21 (c : Dev nD) : W2 m ρ c (Proc.devRef .tc main_v21) = (Cert.HostSpec.invcol (arg3 m c)) :=
  (W2_of_ne m ρ c main_v21 (by decide)).trans (w1_v21 m ρ c)

theorem w1_v77 (c : Dev nD) : W1 m ρ c (Proc.devRef .tc main_v77) = (Cert.HostSpec.trh (arg8 m c)) :=
  Cert.KernelIdeal.KHost.h0_v77 (W0 m ρ c)

theorem w2_v77 (c : Dev nD) : W2 m ρ c (Proc.devRef .tc main_v77) = (Cert.HostSpec.trh (arg8 m c)) :=
  (W2_of_ne m ρ c main_v77 (by decide)).trans (w1_v77 m ρ c)

theorem w0_arg9 (c : Dev nD) : W0 m ρ c (Proc.devRef .tc main_arg9) = (arg9 m c) :=
  rfl

theorem w1_arg9 (c : Dev nD) : W1 m ρ c (Proc.devRef .tc main_arg9) = (arg9 m c) :=
  (Cert.KernelIdeal.KHost.h0_kept (W0 m ρ c) main_arg9 (by decide)).trans (w0_arg9 m ρ c)

theorem w2_arg9 (c : Dev nD) : W2 m ρ c (Proc.devRef .tc main_arg9) = (arg9 m c) :=
  (W2_of_ne m ρ c main_arg9 (by decide)).trans (w1_arg9 m ρ c)

theorem w1_v78 (c : Dev nD) : W1 m ρ c (Proc.devRef .tc main_v78) = (Cert.HostSpec.trh (arg10 m c)) :=
  Cert.KernelIdeal.KHost.h0_v78 (W0 m ρ c)

theorem w2_v78 (c : Dev nD) : W2 m ρ c (Proc.devRef .tc main_v78) = (Cert.HostSpec.trh (arg10 m c)) :=
  (W2_of_ne m ρ c main_v78 (by decide)).trans (w1_v78 m ρ c)

theorem w1_v74 (c : Dev nD) : W1 m ρ c (Proc.devRef .tc main_v74) = (Cert.HostSpec.segsum (arg0 m c) (arg4 m c)) :=
  Cert.KernelIdeal.KHost.h0_v74 (W0 m ρ c)

theorem w2_v74 (c : Dev nD) : W2 m ρ c (Proc.devRef .tc main_v74) = (Cert.HostSpec.segsum (arg0 m c) (arg4 m c)) :=
  (W2_of_ne m ρ c main_v74 (by decide)).trans (w1_v74 m ρ c)

theorem w1_v32 (c : Dev nD) : W1 m ρ c (Proc.devRef .tc main_v32) = (Cert.HostSpec.invcol (arg4 m c)) :=
  Cert.KernelIdeal.KHost.h0_v32 (W0 m ρ c)

theorem w2_v32 (c : Dev nD) : W2 m ρ c (Proc.devRef .tc main_v32) = (Cert.HostSpec.invcol (arg4 m c)) :=
  (W2_of_ne m ρ c main_v32 (by decide)).trans (w1_v32 m ρ c)

theorem w1_v79 (c : Dev nD) : W1 m ρ c (Proc.devRef .tc main_v79) = (Cert.HostSpec.trh (arg11 m c)) :=
  Cert.KernelIdeal.KHost.h0_v79 (W0 m ρ c)

theorem w2_v79 (c : Dev nD) : W2 m ρ c (Proc.devRef .tc main_v79) = (Cert.HostSpec.trh (arg11 m c)) :=
  (W2_of_ne m ρ c main_v79 (by decide)).trans (w1_v79 m ρ c)

theorem w0_arg12 (c : Dev nD) : W0 m ρ c (Proc.devRef .tc main_arg12) = (arg12 m c) :=
  rfl

theorem w1_arg12 (c : Dev nD) : W1 m ρ c (Proc.devRef .tc main_arg12) = (arg12 m c) :=
  (Cert.KernelIdeal.KHost.h0_kept (W0 m ρ c) main_arg12 (by decide)).trans (w0_arg12 m ρ c)

theorem w2_arg12 (c : Dev nD) : W2 m ρ c (Proc.devRef .tc main_arg12) = (arg12 m c) :=
  (W2_of_ne m ρ c main_arg12 (by decide)).trans (w1_arg12 m ρ c)

theorem w1_v80 (c : Dev nD) : W1 m ρ c (Proc.devRef .tc main_v80) = (Cert.HostSpec.trh (arg13 m c)) :=
  Cert.KernelIdeal.KHost.h0_v80 (W0 m ρ c)

theorem w2_v80 (c : Dev nD) : W2 m ρ c (Proc.devRef .tc main_v80) = (Cert.HostSpec.trh (arg13 m c)) :=
  (W2_of_ne m ρ c main_v80 (by decide)).trans (w1_v80 m ρ c)

theorem w0_arg14 (c : Dev nD) : W0 m ρ c (Proc.devRef .tc main_arg14) = (arg14 m c) :=
  rfl

theorem w1_arg14 (c : Dev nD) : W1 m ρ c (Proc.devRef .tc main_arg14) = (arg14 m c) :=
  (Cert.KernelIdeal.KHost.h0_kept (W0 m ρ c) main_arg14 (by decide)).trans (w0_arg14 m ρ c)

theorem w2_arg14 (c : Dev nD) : W2 m ρ c (Proc.devRef .tc main_arg14) = (arg14 m c) :=
  (W2_of_ne m ρ c main_arg14 (by decide)).trans (w1_arg14 m ρ c)

theorem w0_arg15 (c : Dev nD) : W0 m ρ c (Proc.devRef .tc main_arg15) = (arg15 m c) :=
  rfl

theorem w1_arg15 (c : Dev nD) : W1 m ρ c (Proc.devRef .tc main_arg15) = (arg15 m c) :=
  (Cert.KernelIdeal.KHost.h0_kept (W0 m ρ c) main_arg15 (by decide)).trans (w0_arg15 m ρ c)

theorem w2_arg15 (c : Dev nD) : W2 m ρ c (Proc.devRef .tc main_arg15) = (arg15 m c) :=
  (W2_of_ne m ρ c main_arg15 (by decide)).trans (w1_arg15 m ρ c)

theorem w3_v82 (c : Dev nD) : W3 m ρ c (Proc.devRef .tc main_v82) = (Cert.HostSpec.kLayer2 (arg0 m c) (Cert.HostSpec.segsum (arg1 m c) (arg3 m c)) (Cert.HostSpec.invcol (arg3 m c)) (Cert.HostSpec.trh (arg8 m c)) (arg9 m c) (Cert.HostSpec.trh (arg10 m c)) (Cert.HostSpec.segsum (arg0 m c) (arg4 m c)) (Cert.HostSpec.invcol (arg4 m c)) (Cert.HostSpec.trh (arg11 m c)) (arg12 m c) (Cert.HostSpec.trh (arg13 m c)) (arg14 m c) (arg15 m c)) :=
  (W3_arr m ρ c 13).trans ((Cert.KernelIdeal.Region1.final (V2 m ρ) Cert.KernelIdeal.Body.out1_13_apply c).trans (by
    show Cert.HostSpec.kLayer2 (W2 m ρ c (Proc.devRef .tc main_arg0)) (W2 m ρ c (Proc.devRef .tc main_v60)) (W2 m ρ c (Proc.devRef .tc main_v21)) (W2 m ρ c (Proc.devRef .tc main_v77)) (W2 m ρ c (Proc.devRef .tc main_arg9)) (W2 m ρ c (Proc.devRef .tc main_v78)) (W2 m ρ c (Proc.devRef .tc main_v74)) (W2 m ρ c (Proc.devRef .tc main_v32)) (W2 m ρ c (Proc.devRef .tc main_v79)) (W2 m ρ c (Proc.devRef .tc main_arg12)) (W2 m ρ c (Proc.devRef .tc main_v80)) (W2 m ρ c (Proc.devRef .tc main_arg14)) (W2 m ρ c (Proc.devRef .tc main_arg15)) = _
    rw [w2_arg0 m ρ c, w2_v60 m ρ c, w2_v21 m ρ c, w2_v77 m ρ c, w2_arg9 m ρ c, w2_v78 m ρ c, w2_v74 m ρ c, w2_v32 m ρ c, w2_v79 m ρ c, w2_arg12 m ρ c, w2_v80 m ρ c, w2_arg14 m ρ c, w2_arg15 m ρ c]))

theorem w4_v82 (c : Dev nD) : W4 m ρ c (Proc.devRef .tc main_v82) = (Cert.HostSpec.kLayer2 (arg0 m c) (Cert.HostSpec.segsum (arg1 m c) (arg3 m c)) (Cert.HostSpec.invcol (arg3 m c)) (Cert.HostSpec.trh (arg8 m c)) (arg9 m c) (Cert.HostSpec.trh (arg10 m c)) (Cert.HostSpec.segsum (arg0 m c) (arg4 m c)) (Cert.HostSpec.invcol (arg4 m c)) (Cert.HostSpec.trh (arg11 m c)) (arg12 m c) (Cert.HostSpec.trh (arg13 m c)) (arg14 m c) (arg15 m c)) :=
  (Cert.KernelIdeal.KHost.h2_kept (W3 m ρ c) main_v82 (by decide)).trans (w3_v82 m ρ c)

theorem w5_v82 (c : Dev nD) : W5 m ρ c (Proc.devRef .tc main_v82) = (Cert.HostSpec.kLayer2 (arg0 m c) (Cert.HostSpec.segsum (arg1 m c) (arg3 m c)) (Cert.HostSpec.invcol (arg3 m c)) (Cert.HostSpec.trh (arg8 m c)) (arg9 m c) (Cert.HostSpec.trh (arg10 m c)) (Cert.HostSpec.segsum (arg0 m c) (arg4 m c)) (Cert.HostSpec.invcol (arg4 m c)) (Cert.HostSpec.trh (arg11 m c)) (arg12 m c) (Cert.HostSpec.trh (arg13 m c)) (arg14 m c) (arg15 m c)) :=
  (W5_of_ne m ρ c main_v82 (by decide)).trans (w4_v82 m ρ c)

theorem w0_arg1 (c : Dev nD) : W0 m ρ c (Proc.devRef .tc main_arg1) = (arg1 m c) :=
  rfl

theorem w1_arg1 (c : Dev nD) : W1 m ρ c (Proc.devRef .tc main_arg1) = (arg1 m c) :=
  (Cert.KernelIdeal.KHost.h0_kept (W0 m ρ c) main_arg1 (by decide)).trans (w0_arg1 m ρ c)

theorem w1_v46 (c : Dev nD) : W1 m ρ c (Proc.devRef .tc main_v46) = (Cert.HostSpec.segsum (arg0 m c) (arg2 m c)) :=
  Cert.KernelIdeal.KHost.h0_v46 (W0 m ρ c)

theorem w1_v10 (c : Dev nD) : W1 m ρ c (Proc.devRef .tc main_v10) = (Cert.HostSpec.invcol (arg2 m c)) :=
  Cert.KernelIdeal.KHost.h0_v10 (W0 m ρ c)

theorem w1_v75 (c : Dev nD) : W1 m ρ c (Proc.devRef .tc main_v75) = (Cert.HostSpec.trh (arg5 m c)) :=
  Cert.KernelIdeal.KHost.h0_v75 (W0 m ρ c)

theorem w0_arg6 (c : Dev nD) : W0 m ρ c (Proc.devRef .tc main_arg6) = (arg6 m c) :=
  rfl

theorem w1_arg6 (c : Dev nD) : W1 m ρ c (Proc.devRef .tc main_arg6) = (arg6 m c) :=
  (Cert.KernelIdeal.KHost.h0_kept (W0 m ρ c) main_arg6 (by decide)).trans (w0_arg6 m ρ c)

theorem w1_v76 (c : Dev nD) : W1 m ρ c (Proc.devRef .tc main_v76) = (Cert.HostSpec.trh (arg7 m c)) :=
  Cert.KernelIdeal.KHost.h0_v76 (W0 m ρ c)

theorem w0_arg16 (c : Dev nD) : W0 m ρ c (Proc.devRef .tc main_arg16) = (arg16 m c) :=
  rfl

theorem w1_arg16 (c : Dev nD) : W1 m ρ c (Proc.devRef .tc main_arg16) = (arg16 m c) :=
  (Cert.KernelIdeal.KHost.h0_kept (W0 m ρ c) main_arg16 (by decide)).trans (w0_arg16 m ρ c)

theorem w0_arg17 (c : Dev nD) : W0 m ρ c (Proc.devRef .tc main_arg17) = (arg17 m c) :=
  rfl

theorem w1_arg17 (c : Dev nD) : W1 m ρ c (Proc.devRef .tc main_arg17) = (arg17 m c) :=
  (Cert.KernelIdeal.KHost.h0_kept (W0 m ρ c) main_arg17 (by decide)).trans (w0_arg17 m ρ c)

theorem w2_v81 (c : Dev nD) : W2 m ρ c (Proc.devRef .tc main_v81) = (Cert.HostSpec.kLayer1 (arg1 m c) (Cert.HostSpec.segsum (arg0 m c) (arg2 m c)) (Cert.HostSpec.invcol (arg2 m c)) (Cert.HostSpec.trh (arg5 m c)) (arg6 m c) (Cert.HostSpec.trh (arg7 m c)) (arg16 m c) (arg17 m c)) :=
  (W2_arr m ρ c 8).trans ((Cert.KernelIdeal.Region0.final (V1 m ρ) Cert.KernelIdeal.Body.out0_8_apply c).trans (by
    show Cert.HostSpec.kLayer1 (W1 m ρ c (Proc.devRef .tc main_arg1)) (W1 m ρ c (Proc.devRef .tc main_v46)) (W1 m ρ c (Proc.devRef .tc main_v10)) (W1 m ρ c (Proc.devRef .tc main_v75)) (W1 m ρ c (Proc.devRef .tc main_arg6)) (W1 m ρ c (Proc.devRef .tc main_v76)) (W1 m ρ c (Proc.devRef .tc main_arg16)) (W1 m ρ c (Proc.devRef .tc main_arg17)) = _
    rw [w1_arg1 m ρ c, w1_v46 m ρ c, w1_v10 m ρ c, w1_v75 m ρ c, w1_arg6 m ρ c, w1_v76 m ρ c, w1_arg16 m ρ c, w1_arg17 m ρ c]))

theorem w3_v81 (c : Dev nD) : W3 m ρ c (Proc.devRef .tc main_v81) = (Cert.HostSpec.kLayer1 (arg1 m c) (Cert.HostSpec.segsum (arg0 m c) (arg2 m c)) (Cert.HostSpec.invcol (arg2 m c)) (Cert.HostSpec.trh (arg5 m c)) (arg6 m c) (Cert.HostSpec.trh (arg7 m c)) (arg16 m c) (arg17 m c)) :=
  (W3_of_ne m ρ c main_v81 (by decide)).trans (w2_v81 m ρ c)

theorem w0_arg3 (c : Dev nD) : W0 m ρ c (Proc.devRef .tc main_arg3) = (arg3 m c) :=
  rfl

theorem w1_arg3 (c : Dev nD) : W1 m ρ c (Proc.devRef .tc main_arg3) = (arg3 m c) :=
  (Cert.KernelIdeal.KHost.h0_kept (W0 m ρ c) main_arg3 (by decide)).trans (w0_arg3 m ρ c)

theorem w2_arg3 (c : Dev nD) : W2 m ρ c (Proc.devRef .tc main_arg3) = (arg3 m c) :=
  (W2_of_ne m ρ c main_arg3 (by decide)).trans (w1_arg3 m ρ c)

theorem w3_arg3 (c : Dev nD) : W3 m ρ c (Proc.devRef .tc main_arg3) = (arg3 m c) :=
  (W3_of_ne m ρ c main_arg3 (by decide)).trans (w2_arg3 m ρ c)

theorem w4_v110 (c : Dev nD) : W4 m ρ c (Proc.devRef .tc main_v110) = (Cert.HostSpec.segsum (Cert.HostSpec.kLayer1 (arg1 m c) (Cert.HostSpec.segsum (arg0 m c) (arg2 m c)) (Cert.HostSpec.invcol (arg2 m c)) (Cert.HostSpec.trh (arg5 m c)) (arg6 m c) (Cert.HostSpec.trh (arg7 m c)) (arg16 m c) (arg17 m c)) (arg3 m c)) :=
  (Cert.KernelIdeal.KHost.h2_v110 (W3 m ρ c)).trans (by rw [w3_v81 m ρ c, w3_arg3 m ρ c])

theorem w5_v110 (c : Dev nD) : W5 m ρ c (Proc.devRef .tc main_v110) = (Cert.HostSpec.segsum (Cert.HostSpec.kLayer1 (arg1 m c) (Cert.HostSpec.segsum (arg0 m c) (arg2 m c)) (Cert.HostSpec.invcol (arg2 m c)) (Cert.HostSpec.trh (arg5 m c)) (arg6 m c) (Cert.HostSpec.trh (arg7 m c)) (arg16 m c) (arg17 m c)) (arg3 m c)) :=
  (W5_of_ne m ρ c main_v110 (by decide)).trans (w4_v110 m ρ c)

theorem w3_v21 (c : Dev nD) : W3 m ρ c (Proc.devRef .tc main_v21) = (Cert.HostSpec.invcol (arg3 m c)) :=
  ((W3_arr m ρ c 2).trans (((dat1 (V2 m ρ) c).arrAt_in 2 rfl _).trans (A_eq1 (V2 m ρ) c 2))).trans (w2_v21 m ρ c)

theorem w4_v21 (c : Dev nD) : W4 m ρ c (Proc.devRef .tc main_v21) = (Cert.HostSpec.invcol (arg3 m c)) :=
  (Cert.KernelIdeal.KHost.h2_kept (W3 m ρ c) main_v21 (by decide)).trans (w3_v21 m ρ c)

theorem w5_v21 (c : Dev nD) : W5 m ρ c (Proc.devRef .tc main_v21) = (Cert.HostSpec.invcol (arg3 m c)) :=
  (W5_of_ne m ρ c main_v21 (by decide)).trans (w4_v21 m ρ c)

theorem w0_arg21 (c : Dev nD) : W0 m ρ c (Proc.devRef .tc main_arg21) = (arg21 m c) :=
  rfl

theorem w1_arg21 (c : Dev nD) : W1 m ρ c (Proc.devRef .tc main_arg21) = (arg21 m c) :=
  (Cert.KernelIdeal.KHost.h0_kept (W0 m ρ c) main_arg21 (by decide)).trans (w0_arg21 m ρ c)

theorem w2_arg21 (c : Dev nD) : W2 m ρ c (Proc.devRef .tc main_arg21) = (arg21 m c) :=
  (W2_of_ne m ρ c main_arg21 (by decide)).trans (w1_arg21 m ρ c)

theorem w3_arg21 (c : Dev nD) : W3 m ρ c (Proc.devRef .tc main_arg21) = (arg21 m c) :=
  (W3_of_ne m ρ c main_arg21 (by decide)).trans (w2_arg21 m ρ c)

theorem w4_v127 (c : Dev nD) : W4 m ρ c (Proc.devRef .tc main_v127) = (Cert.HostSpec.trh (arg21 m c)) :=
  (Cert.KernelIdeal.KHost.h2_v127 (W3 m ρ c)).trans (by rw [w3_arg21 m ρ c])

theorem w5_v127 (c : Dev nD) : W5 m ρ c (Proc.devRef .tc main_v127) = (Cert.HostSpec.trh (arg21 m c)) :=
  (W5_of_ne m ρ c main_v127 (by decide)).trans (w4_v127 m ρ c)

theorem w0_arg22 (c : Dev nD) : W0 m ρ c (Proc.devRef .tc main_arg22) = (arg22 m c) :=
  rfl

theorem w1_arg22 (c : Dev nD) : W1 m ρ c (Proc.devRef .tc main_arg22) = (arg22 m c) :=
  (Cert.KernelIdeal.KHost.h0_kept (W0 m ρ c) main_arg22 (by decide)).trans (w0_arg22 m ρ c)

theorem w2_arg22 (c : Dev nD) : W2 m ρ c (Proc.devRef .tc main_arg22) = (arg22 m c) :=
  (W2_of_ne m ρ c main_arg22 (by decide)).trans (w1_arg22 m ρ c)

theorem w3_arg22 (c : Dev nD) : W3 m ρ c (Proc.devRef .tc main_arg22) = (arg22 m c) :=
  (W3_of_ne m ρ c main_arg22 (by decide)).trans (w2_arg22 m ρ c)

theorem w4_arg22 (c : Dev nD) : W4 m ρ c (Proc.devRef .tc main_arg22) = (arg22 m c) :=
  (Cert.KernelIdeal.KHost.h2_kept (W3 m ρ c) main_arg22 (by decide)).trans (w3_arg22 m ρ c)

theorem w5_arg22 (c : Dev nD) : W5 m ρ c (Proc.devRef .tc main_arg22) = (arg22 m c) :=
  (W5_of_ne m ρ c main_arg22 (by decide)).trans (w4_arg22 m ρ c)

theorem w0_arg23 (c : Dev nD) : W0 m ρ c (Proc.devRef .tc main_arg23) = (arg23 m c) :=
  rfl

theorem w1_arg23 (c : Dev nD) : W1 m ρ c (Proc.devRef .tc main_arg23) = (arg23 m c) :=
  (Cert.KernelIdeal.KHost.h0_kept (W0 m ρ c) main_arg23 (by decide)).trans (w0_arg23 m ρ c)

theorem w2_arg23 (c : Dev nD) : W2 m ρ c (Proc.devRef .tc main_arg23) = (arg23 m c) :=
  (W2_of_ne m ρ c main_arg23 (by decide)).trans (w1_arg23 m ρ c)

theorem w3_arg23 (c : Dev nD) : W3 m ρ c (Proc.devRef .tc main_arg23) = (arg23 m c) :=
  (W3_of_ne m ρ c main_arg23 (by decide)).trans (w2_arg23 m ρ c)

theorem w4_v128 (c : Dev nD) : W4 m ρ c (Proc.devRef .tc main_v128) = (Cert.HostSpec.trh (arg23 m c)) :=
  (Cert.KernelIdeal.KHost.h2_v128 (W3 m ρ c)).trans (by rw [w3_arg23 m ρ c])

theorem w5_v128 (c : Dev nD) : W5 m ρ c (Proc.devRef .tc main_v128) = (Cert.HostSpec.trh (arg23 m c)) :=
  (W5_of_ne m ρ c main_v128 (by decide)).trans (w4_v128 m ρ c)

theorem w0_arg4 (c : Dev nD) : W0 m ρ c (Proc.devRef .tc main_arg4) = (arg4 m c) :=
  rfl

theorem w1_arg4 (c : Dev nD) : W1 m ρ c (Proc.devRef .tc main_arg4) = (arg4 m c) :=
  (Cert.KernelIdeal.KHost.h0_kept (W0 m ρ c) main_arg4 (by decide)).trans (w0_arg4 m ρ c)

theorem w2_arg4 (c : Dev nD) : W2 m ρ c (Proc.devRef .tc main_arg4) = (arg4 m c) :=
  (W2_of_ne m ρ c main_arg4 (by decide)).trans (w1_arg4 m ρ c)

theorem w3_arg4 (c : Dev nD) : W3 m ρ c (Proc.devRef .tc main_arg4) = (arg4 m c) :=
  (W3_of_ne m ρ c main_arg4 (by decide)).trans (w2_arg4 m ρ c)

theorem w4_v124 (c : Dev nD) : W4 m ρ c (Proc.devRef .tc main_v124) = (Cert.HostSpec.segsum (Cert.HostSpec.kLayer2 (arg0 m c) (Cert.HostSpec.segsum (arg1 m c) (arg3 m c)) (Cert.HostSpec.invcol (arg3 m c)) (Cert.HostSpec.trh (arg8 m c)) (arg9 m c) (Cert.HostSpec.trh (arg10 m c)) (Cert.HostSpec.segsum (arg0 m c) (arg4 m c)) (Cert.HostSpec.invcol (arg4 m c)) (Cert.HostSpec.trh (arg11 m c)) (arg12 m c) (Cert.HostSpec.trh (arg13 m c)) (arg14 m c) (arg15 m c)) (arg4 m c)) :=
  (Cert.KernelIdeal.KHost.h2_v124 (W3 m ρ c)).trans (by rw [w3_v82 m ρ c, w3_arg4 m ρ c])

theorem w5_v124 (c : Dev nD) : W5 m ρ c (Proc.devRef .tc main_v124) = (Cert.HostSpec.segsum (Cert.HostSpec.kLayer2 (arg0 m c) (Cert.HostSpec.segsum (arg1 m c) (arg3 m c)) (Cert.HostSpec.invcol (arg3 m c)) (Cert.HostSpec.trh (arg8 m c)) (arg9 m c) (Cert.HostSpec.trh (arg10 m c)) (Cert.HostSpec.segsum (arg0 m c) (arg4 m c)) (Cert.HostSpec.invcol (arg4 m c)) (Cert.HostSpec.trh (arg11 m c)) (arg12 m c) (Cert.HostSpec.trh (arg13 m c)) (arg14 m c) (arg15 m c)) (arg4 m c)) :=
  (W5_of_ne m ρ c main_v124 (by decide)).trans (w4_v124 m ρ c)

theorem w3_v32 (c : Dev nD) : W3 m ρ c (Proc.devRef .tc main_v32) = (Cert.HostSpec.invcol (arg4 m c)) :=
  ((W3_arr m ρ c 7).trans (((dat1 (V2 m ρ) c).arrAt_in 7 rfl _).trans (A_eq1 (V2 m ρ) c 7))).trans (w2_v32 m ρ c)

theorem w4_v32 (c : Dev nD) : W4 m ρ c (Proc.devRef .tc main_v32) = (Cert.HostSpec.invcol (arg4 m c)) :=
  (Cert.KernelIdeal.KHost.h2_kept (W3 m ρ c) main_v32 (by decide)).trans (w3_v32 m ρ c)

theorem w5_v32 (c : Dev nD) : W5 m ρ c (Proc.devRef .tc main_v32) = (Cert.HostSpec.invcol (arg4 m c)) :=
  (W5_of_ne m ρ c main_v32 (by decide)).trans (w4_v32 m ρ c)

theorem w0_arg24 (c : Dev nD) : W0 m ρ c (Proc.devRef .tc main_arg24) = (arg24 m c) :=
  rfl

theorem w1_arg24 (c : Dev nD) : W1 m ρ c (Proc.devRef .tc main_arg24) = (arg24 m c) :=
  (Cert.KernelIdeal.KHost.h0_kept (W0 m ρ c) main_arg24 (by decide)).trans (w0_arg24 m ρ c)

theorem w2_arg24 (c : Dev nD) : W2 m ρ c (Proc.devRef .tc main_arg24) = (arg24 m c) :=
  (W2_of_ne m ρ c main_arg24 (by decide)).trans (w1_arg24 m ρ c)

theorem w3_arg24 (c : Dev nD) : W3 m ρ c (Proc.devRef .tc main_arg24) = (arg24 m c) :=
  (W3_of_ne m ρ c main_arg24 (by decide)).trans (w2_arg24 m ρ c)

theorem w4_v129 (c : Dev nD) : W4 m ρ c (Proc.devRef .tc main_v129) = (Cert.HostSpec.trh (arg24 m c)) :=
  (Cert.KernelIdeal.KHost.h2_v129 (W3 m ρ c)).trans (by rw [w3_arg24 m ρ c])

theorem w5_v129 (c : Dev nD) : W5 m ρ c (Proc.devRef .tc main_v129) = (Cert.HostSpec.trh (arg24 m c)) :=
  (W5_of_ne m ρ c main_v129 (by decide)).trans (w4_v129 m ρ c)

theorem w0_arg25 (c : Dev nD) : W0 m ρ c (Proc.devRef .tc main_arg25) = (arg25 m c) :=
  rfl

theorem w1_arg25 (c : Dev nD) : W1 m ρ c (Proc.devRef .tc main_arg25) = (arg25 m c) :=
  (Cert.KernelIdeal.KHost.h0_kept (W0 m ρ c) main_arg25 (by decide)).trans (w0_arg25 m ρ c)

theorem w2_arg25 (c : Dev nD) : W2 m ρ c (Proc.devRef .tc main_arg25) = (arg25 m c) :=
  (W2_of_ne m ρ c main_arg25 (by decide)).trans (w1_arg25 m ρ c)

theorem w3_arg25 (c : Dev nD) : W3 m ρ c (Proc.devRef .tc main_arg25) = (arg25 m c) :=
  (W3_of_ne m ρ c main_arg25 (by decide)).trans (w2_arg25 m ρ c)

theorem w4_arg25 (c : Dev nD) : W4 m ρ c (Proc.devRef .tc main_arg25) = (arg25 m c) :=
  (Cert.KernelIdeal.KHost.h2_kept (W3 m ρ c) main_arg25 (by decide)).trans (w3_arg25 m ρ c)

theorem w5_arg25 (c : Dev nD) : W5 m ρ c (Proc.devRef .tc main_arg25) = (arg25 m c) :=
  (W5_of_ne m ρ c main_arg25 (by decide)).trans (w4_arg25 m ρ c)

theorem w0_arg26 (c : Dev nD) : W0 m ρ c (Proc.devRef .tc main_arg26) = (arg26 m c) :=
  rfl

theorem w1_arg26 (c : Dev nD) : W1 m ρ c (Proc.devRef .tc main_arg26) = (arg26 m c) :=
  (Cert.KernelIdeal.KHost.h0_kept (W0 m ρ c) main_arg26 (by decide)).trans (w0_arg26 m ρ c)

theorem w2_arg26 (c : Dev nD) : W2 m ρ c (Proc.devRef .tc main_arg26) = (arg26 m c) :=
  (W2_of_ne m ρ c main_arg26 (by decide)).trans (w1_arg26 m ρ c)

theorem w3_arg26 (c : Dev nD) : W3 m ρ c (Proc.devRef .tc main_arg26) = (arg26 m c) :=
  (W3_of_ne m ρ c main_arg26 (by decide)).trans (w2_arg26 m ρ c)

theorem w4_v130 (c : Dev nD) : W4 m ρ c (Proc.devRef .tc main_v130) = (Cert.HostSpec.trh (arg26 m c)) :=
  (Cert.KernelIdeal.KHost.h2_v130 (W3 m ρ c)).trans (by rw [w3_arg26 m ρ c])

theorem w5_v130 (c : Dev nD) : W5 m ρ c (Proc.devRef .tc main_v130) = (Cert.HostSpec.trh (arg26 m c)) :=
  (W5_of_ne m ρ c main_v130 (by decide)).trans (w4_v130 m ρ c)

theorem w0_arg27 (c : Dev nD) : W0 m ρ c (Proc.devRef .tc main_arg27) = (arg27 m c) :=
  rfl

theorem w1_arg27 (c : Dev nD) : W1 m ρ c (Proc.devRef .tc main_arg27) = (arg27 m c) :=
  (Cert.KernelIdeal.KHost.h0_kept (W0 m ρ c) main_arg27 (by decide)).trans (w0_arg27 m ρ c)

theorem w2_arg27 (c : Dev nD) : W2 m ρ c (Proc.devRef .tc main_arg27) = (arg27 m c) :=
  (W2_of_ne m ρ c main_arg27 (by decide)).trans (w1_arg27 m ρ c)

theorem w3_arg27 (c : Dev nD) : W3 m ρ c (Proc.devRef .tc main_arg27) = (arg27 m c) :=
  (W3_of_ne m ρ c main_arg27 (by decide)).trans (w2_arg27 m ρ c)

theorem w4_arg27 (c : Dev nD) : W4 m ρ c (Proc.devRef .tc main_arg27) = (arg27 m c) :=
  (Cert.KernelIdeal.KHost.h2_kept (W3 m ρ c) main_arg27 (by decide)).trans (w3_arg27 m ρ c)

theorem w5_arg27 (c : Dev nD) : W5 m ρ c (Proc.devRef .tc main_arg27) = (arg27 m c) :=
  (W5_of_ne m ρ c main_arg27 (by decide)).trans (w4_arg27 m ρ c)

theorem w0_arg28 (c : Dev nD) : W0 m ρ c (Proc.devRef .tc main_arg28) = (arg28 m c) :=
  rfl

theorem w1_arg28 (c : Dev nD) : W1 m ρ c (Proc.devRef .tc main_arg28) = (arg28 m c) :=
  (Cert.KernelIdeal.KHost.h0_kept (W0 m ρ c) main_arg28 (by decide)).trans (w0_arg28 m ρ c)

theorem w2_arg28 (c : Dev nD) : W2 m ρ c (Proc.devRef .tc main_arg28) = (arg28 m c) :=
  (W2_of_ne m ρ c main_arg28 (by decide)).trans (w1_arg28 m ρ c)

theorem w3_arg28 (c : Dev nD) : W3 m ρ c (Proc.devRef .tc main_arg28) = (arg28 m c) :=
  (W3_of_ne m ρ c main_arg28 (by decide)).trans (w2_arg28 m ρ c)

theorem w4_arg28 (c : Dev nD) : W4 m ρ c (Proc.devRef .tc main_arg28) = (arg28 m c) :=
  (Cert.KernelIdeal.KHost.h2_kept (W3 m ρ c) main_arg28 (by decide)).trans (w3_arg28 m ρ c)

theorem w5_arg28 (c : Dev nD) : W5 m ρ c (Proc.devRef .tc main_arg28) = (arg28 m c) :=
  (W5_of_ne m ρ c main_arg28 (by decide)).trans (w4_arg28 m ρ c)

theorem w6_v132 (c : Dev nD) : W6 m ρ c (Proc.devRef .tc main_v132) = (Cert.HostSpec.kLayer2 (Cert.HostSpec.kLayer2 (arg0 m c) (Cert.HostSpec.segsum (arg1 m c) (arg3 m c)) (Cert.HostSpec.invcol (arg3 m c)) (Cert.HostSpec.trh (arg8 m c)) (arg9 m c) (Cert.HostSpec.trh (arg10 m c)) (Cert.HostSpec.segsum (arg0 m c) (arg4 m c)) (Cert.HostSpec.invcol (arg4 m c)) (Cert.HostSpec.trh (arg11 m c)) (arg12 m c) (Cert.HostSpec.trh (arg13 m c)) (arg14 m c) (arg15 m c)) (Cert.HostSpec.segsum (Cert.HostSpec.kLayer1 (arg1 m c) (Cert.HostSpec.segsum (arg0 m c) (arg2 m c)) (Cert.HostSpec.invcol (arg2 m c)) (Cert.HostSpec.trh (arg5 m c)) (arg6 m c) (Cert.HostSpec.trh (arg7 m c)) (arg16 m c) (arg17 m c)) (arg3 m c)) (Cert.HostSpec.invcol (arg3 m c)) (Cert.HostSpec.trh (arg21 m c)) (arg22 m c) (Cert.HostSpec.trh (arg23 m c)) (Cert.HostSpec.segsum (Cert.HostSpec.kLayer2 (arg0 m c) (Cert.HostSpec.segsum (arg1 m c) (arg3 m c)) (Cert.HostSpec.invcol (arg3 m c)) (Cert.HostSpec.trh (arg8 m c)) (arg9 m c) (Cert.HostSpec.trh (arg10 m c)) (Cert.HostSpec.segsum (arg0 m c) (arg4 m c)) (Cert.HostSpec.invcol (arg4 m c)) (Cert.HostSpec.trh (arg11 m c)) (arg12 m c) (Cert.HostSpec.trh (arg13 m c)) (arg14 m c) (arg15 m c)) (arg4 m c)) (Cert.HostSpec.invcol (arg4 m c)) (Cert.HostSpec.trh (arg24 m c)) (arg25 m c) (Cert.HostSpec.trh (arg26 m c)) (arg27 m c) (arg28 m c)) :=
  (W6_arr m ρ c 13).trans ((Cert.KernelIdeal.Region3.final (V5 m ρ) Cert.KernelIdeal.Body.out3_13_apply c).trans (by
    show Cert.HostSpec.kLayer2 (W5 m ρ c (Proc.devRef .tc main_v82)) (W5 m ρ c (Proc.devRef .tc main_v110)) (W5 m ρ c (Proc.devRef .tc main_v21)) (W5 m ρ c (Proc.devRef .tc main_v127)) (W5 m ρ c (Proc.devRef .tc main_arg22)) (W5 m ρ c (Proc.devRef .tc main_v128)) (W5 m ρ c (Proc.devRef .tc main_v124)) (W5 m ρ c (Proc.devRef .tc main_v32)) (W5 m ρ c (Proc.devRef .tc main_v129)) (W5 m ρ c (Proc.devRef .tc main_arg25)) (W5 m ρ c (Proc.devRef .tc main_v130)) (W5 m ρ c (Proc.devRef .tc main_arg27)) (W5 m ρ c (Proc.devRef .tc main_arg28)) = _
    rw [w5_v82 m ρ c, w5_v110 m ρ c, w5_v21 m ρ c, w5_v127 m ρ c, w5_arg22 m ρ c, w5_v128 m ρ c, w5_v124 m ρ c, w5_v32 m ρ c, w5_v129 m ρ c, w5_arg25 m ρ c, w5_v130 m ρ c, w5_arg27 m ρ c, w5_arg28 m ρ c]))

theorem w4_v81 (c : Dev nD) : W4 m ρ c (Proc.devRef .tc main_v81) = (Cert.HostSpec.kLayer1 (arg1 m c) (Cert.HostSpec.segsum (arg0 m c) (arg2 m c)) (Cert.HostSpec.invcol (arg2 m c)) (Cert.HostSpec.trh (arg5 m c)) (arg6 m c) (Cert.HostSpec.trh (arg7 m c)) (arg16 m c) (arg17 m c)) :=
  (Cert.KernelIdeal.KHost.h2_kept (W3 m ρ c) main_v81 (by decide)).trans (w3_v81 m ρ c)

theorem w0_arg2 (c : Dev nD) : W0 m ρ c (Proc.devRef .tc main_arg2) = (arg2 m c) :=
  rfl

theorem w1_arg2 (c : Dev nD) : W1 m ρ c (Proc.devRef .tc main_arg2) = (arg2 m c) :=
  (Cert.KernelIdeal.KHost.h0_kept (W0 m ρ c) main_arg2 (by decide)).trans (w0_arg2 m ρ c)

theorem w2_arg2 (c : Dev nD) : W2 m ρ c (Proc.devRef .tc main_arg2) = (arg2 m c) :=
  (W2_of_ne m ρ c main_arg2 (by decide)).trans (w1_arg2 m ρ c)

theorem w3_arg2 (c : Dev nD) : W3 m ρ c (Proc.devRef .tc main_arg2) = (arg2 m c) :=
  (W3_of_ne m ρ c main_arg2 (by decide)).trans (w2_arg2 m ρ c)

theorem w4_v96 (c : Dev nD) : W4 m ρ c (Proc.devRef .tc main_v96) = (Cert.HostSpec.segsum (Cert.HostSpec.kLayer2 (arg0 m c) (Cert.HostSpec.segsum (arg1 m c) (arg3 m c)) (Cert.HostSpec.invcol (arg3 m c)) (Cert.HostSpec.trh (arg8 m c)) (arg9 m c) (Cert.HostSpec.trh (arg10 m c)) (Cert.HostSpec.segsum (arg0 m c) (arg4 m c)) (Cert.HostSpec.invcol (arg4 m c)) (Cert.HostSpec.trh (arg11 m c)) (arg12 m c) (Cert.HostSpec.trh (arg13 m c)) (arg14 m c) (arg15 m c)) (arg2 m c)) :=
  (Cert.KernelIdeal.KHost.h2_v96 (W3 m ρ c)).trans (by rw [w3_v82 m ρ c, w3_arg2 m ρ c])

theorem w2_v10 (c : Dev nD) : W2 m ρ c (Proc.devRef .tc main_v10) = (Cert.HostSpec.invcol (arg2 m c)) :=
  ((W2_arr m ρ c 2).trans (((dat0 (V1 m ρ) c).arrAt_in 2 rfl _).trans (A_eq0 (V1 m ρ) c 2))).trans (w1_v10 m ρ c)

theorem w3_v10 (c : Dev nD) : W3 m ρ c (Proc.devRef .tc main_v10) = (Cert.HostSpec.invcol (arg2 m c)) :=
  (W3_of_ne m ρ c main_v10 (by decide)).trans (w2_v10 m ρ c)

theorem w4_v10 (c : Dev nD) : W4 m ρ c (Proc.devRef .tc main_v10) = (Cert.HostSpec.invcol (arg2 m c)) :=
  (Cert.KernelIdeal.KHost.h2_kept (W3 m ρ c) main_v10 (by decide)).trans (w3_v10 m ρ c)

theorem w0_arg18 (c : Dev nD) : W0 m ρ c (Proc.devRef .tc main_arg18) = (arg18 m c) :=
  rfl

theorem w1_arg18 (c : Dev nD) : W1 m ρ c (Proc.devRef .tc main_arg18) = (arg18 m c) :=
  (Cert.KernelIdeal.KHost.h0_kept (W0 m ρ c) main_arg18 (by decide)).trans (w0_arg18 m ρ c)

theorem w2_arg18 (c : Dev nD) : W2 m ρ c (Proc.devRef .tc main_arg18) = (arg18 m c) :=
  (W2_of_ne m ρ c main_arg18 (by decide)).trans (w1_arg18 m ρ c)

theorem w3_arg18 (c : Dev nD) : W3 m ρ c (Proc.devRef .tc main_arg18) = (arg18 m c) :=
  (W3_of_ne m ρ c main_arg18 (by decide)).trans (w2_arg18 m ρ c)

theorem w4_v125 (c : Dev nD) : W4 m ρ c (Proc.devRef .tc main_v125) = (Cert.HostSpec.trh (arg18 m c)) :=
  (Cert.KernelIdeal.KHost.h2_v125 (W3 m ρ c)).trans (by rw [w3_arg18 m ρ c])

theorem w0_arg19 (c : Dev nD) : W0 m ρ c (Proc.devRef .tc main_arg19) = (arg19 m c) :=
  rfl

theorem w1_arg19 (c : Dev nD) : W1 m ρ c (Proc.devRef .tc main_arg19) = (arg19 m c) :=
  (Cert.KernelIdeal.KHost.h0_kept (W0 m ρ c) main_arg19 (by decide)).trans (w0_arg19 m ρ c)

theorem w2_arg19 (c : Dev nD) : W2 m ρ c (Proc.devRef .tc main_arg19) = (arg19 m c) :=
  (W2_of_ne m ρ c main_arg19 (by decide)).trans (w1_arg19 m ρ c)

theorem w3_arg19 (c : Dev nD) : W3 m ρ c (Proc.devRef .tc main_arg19) = (arg19 m c) :=
  (W3_of_ne m ρ c main_arg19 (by decide)).trans (w2_arg19 m ρ c)

theorem w4_arg19 (c : Dev nD) : W4 m ρ c (Proc.devRef .tc main_arg19) = (arg19 m c) :=
  (Cert.KernelIdeal.KHost.h2_kept (W3 m ρ c) main_arg19 (by decide)).trans (w3_arg19 m ρ c)

theorem w0_arg20 (c : Dev nD) : W0 m ρ c (Proc.devRef .tc main_arg20) = (arg20 m c) :=
  rfl

theorem w1_arg20 (c : Dev nD) : W1 m ρ c (Proc.devRef .tc main_arg20) = (arg20 m c) :=
  (Cert.KernelIdeal.KHost.h0_kept (W0 m ρ c) main_arg20 (by decide)).trans (w0_arg20 m ρ c)

theorem w2_arg20 (c : Dev nD) : W2 m ρ c (Proc.devRef .tc main_arg20) = (arg20 m c) :=
  (W2_of_ne m ρ c main_arg20 (by decide)).trans (w1_arg20 m ρ c)

theorem w3_arg20 (c : Dev nD) : W3 m ρ c (Proc.devRef .tc main_arg20) = (arg20 m c) :=
  (W3_of_ne m ρ c main_arg20 (by decide)).trans (w2_arg20 m ρ c)

theorem w4_v126 (c : Dev nD) : W4 m ρ c (Proc.devRef .tc main_v126) = (Cert.HostSpec.trh (arg20 m c)) :=
  (Cert.KernelIdeal.KHost.h2_v126 (W3 m ρ c)).trans (by rw [w3_arg20 m ρ c])

theorem w0_arg29 (c : Dev nD) : W0 m ρ c (Proc.devRef .tc main_arg29) = (arg29 m c) :=
  rfl

theorem w1_arg29 (c : Dev nD) : W1 m ρ c (Proc.devRef .tc main_arg29) = (arg29 m c) :=
  (Cert.KernelIdeal.KHost.h0_kept (W0 m ρ c) main_arg29 (by decide)).trans (w0_arg29 m ρ c)

theorem w2_arg29 (c : Dev nD) : W2 m ρ c (Proc.devRef .tc main_arg29) = (arg29 m c) :=
  (W2_of_ne m ρ c main_arg29 (by decide)).trans (w1_arg29 m ρ c)

theorem w3_arg29 (c : Dev nD) : W3 m ρ c (Proc.devRef .tc main_arg29) = (arg29 m c) :=
  (W3_of_ne m ρ c main_arg29 (by decide)).trans (w2_arg29 m ρ c)

theorem w4_arg29 (c : Dev nD) : W4 m ρ c (Proc.devRef .tc main_arg29) = (arg29 m c) :=
  (Cert.KernelIdeal.KHost.h2_kept (W3 m ρ c) main_arg29 (by decide)).trans (w3_arg29 m ρ c)

theorem w0_arg30 (c : Dev nD) : W0 m ρ c (Proc.devRef .tc main_arg30) = (arg30 m c) :=
  rfl

theorem w1_arg30 (c : Dev nD) : W1 m ρ c (Proc.devRef .tc main_arg30) = (arg30 m c) :=
  (Cert.KernelIdeal.KHost.h0_kept (W0 m ρ c) main_arg30 (by decide)).trans (w0_arg30 m ρ c)

theorem w2_arg30 (c : Dev nD) : W2 m ρ c (Proc.devRef .tc main_arg30) = (arg30 m c) :=
  (W2_of_ne m ρ c main_arg30 (by decide)).trans (w1_arg30 m ρ c)

theorem w3_arg30 (c : Dev nD) : W3 m ρ c (Proc.devRef .tc main_arg30) = (arg30 m c) :=
  (W3_of_ne m ρ c main_arg30 (by decide)).trans (w2_arg30 m ρ c)

theorem w4_arg30 (c : Dev nD) : W4 m ρ c (Proc.devRef .tc main_arg30) = (arg30 m c) :=
  (Cert.KernelIdeal.KHost.h2_kept (W3 m ρ c) main_arg30 (by decide)).trans (w3_arg30 m ρ c)

theorem w5_v131 (c : Dev nD) : W5 m ρ c (Proc.devRef .tc main_v131) = (Cert.HostSpec.kLayer1 (Cert.HostSpec.kLayer1 (arg1 m c) (Cert.HostSpec.segsum (arg0 m c) (arg2 m c)) (Cert.HostSpec.invcol (arg2 m c)) (Cert.HostSpec.trh (arg5 m c)) (arg6 m c) (Cert.HostSpec.trh (arg7 m c)) (arg16 m c) (arg17 m c)) (Cert.HostSpec.segsum (Cert.HostSpec.kLayer2 (arg0 m c) (Cert.HostSpec.segsum (arg1 m c) (arg3 m c)) (Cert.HostSpec.invcol (arg3 m c)) (Cert.HostSpec.trh (arg8 m c)) (arg9 m c) (Cert.HostSpec.trh (arg10 m c)) (Cert.HostSpec.segsum (arg0 m c) (arg4 m c)) (Cert.HostSpec.invcol (arg4 m c)) (Cert.HostSpec.trh (arg11 m c)) (arg12 m c) (Cert.HostSpec.trh (arg13 m c)) (arg14 m c) (arg15 m c)) (arg2 m c)) (Cert.HostSpec.invcol (arg2 m c)) (Cert.HostSpec.trh (arg18 m c)) (arg19 m c) (Cert.HostSpec.trh (arg20 m c)) (arg29 m c) (arg30 m c)) :=
  (W5_arr m ρ c 8).trans ((Cert.KernelIdeal.Region2.final (V4 m ρ) Cert.KernelIdeal.Body.out2_8_apply c).trans (by
    show Cert.HostSpec.kLayer1 (W4 m ρ c (Proc.devRef .tc main_v81)) (W4 m ρ c (Proc.devRef .tc main_v96)) (W4 m ρ c (Proc.devRef .tc main_v10)) (W4 m ρ c (Proc.devRef .tc main_v125)) (W4 m ρ c (Proc.devRef .tc main_arg19)) (W4 m ρ c (Proc.devRef .tc main_v126)) (W4 m ρ c (Proc.devRef .tc main_arg29)) (W4 m ρ c (Proc.devRef .tc main_arg30)) = _
    rw [w4_v81 m ρ c, w4_v96 m ρ c, w4_v10 m ρ c, w4_v125 m ρ c, w4_arg19 m ρ c, w4_v126 m ρ c, w4_arg29 m ρ c, w4_arg30 m ρ c]))

theorem w6_v131 (c : Dev nD) : W6 m ρ c (Proc.devRef .tc main_v131) = (Cert.HostSpec.kLayer1 (Cert.HostSpec.kLayer1 (arg1 m c) (Cert.HostSpec.segsum (arg0 m c) (arg2 m c)) (Cert.HostSpec.invcol (arg2 m c)) (Cert.HostSpec.trh (arg5 m c)) (arg6 m c) (Cert.HostSpec.trh (arg7 m c)) (arg16 m c) (arg17 m c)) (Cert.HostSpec.segsum (Cert.HostSpec.kLayer2 (arg0 m c) (Cert.HostSpec.segsum (arg1 m c) (arg3 m c)) (Cert.HostSpec.invcol (arg3 m c)) (Cert.HostSpec.trh (arg8 m c)) (arg9 m c) (Cert.HostSpec.trh (arg10 m c)) (Cert.HostSpec.segsum (arg0 m c) (arg4 m c)) (Cert.HostSpec.invcol (arg4 m c)) (Cert.HostSpec.trh (arg11 m c)) (arg12 m c) (Cert.HostSpec.trh (arg13 m c)) (arg14 m c) (arg15 m c)) (arg2 m c)) (Cert.HostSpec.invcol (arg2 m c)) (Cert.HostSpec.trh (arg18 m c)) (arg19 m c) (Cert.HostSpec.trh (arg20 m c)) (arg29 m c) (arg30 m c)) :=
  (W6_of_ne m ρ c main_v131 (by decide)).trans (w5_v131 m ρ c)

theorem w7_v135 (c : Dev nD) : W7 m ρ c (Proc.devRef .tc main_v135) = (Cert.HostSpec.stack (Cert.HostSpec.kLayer2 (Cert.HostSpec.kLayer2 (arg0 m c) (Cert.HostSpec.segsum (arg1 m c) (arg3 m c)) (Cert.HostSpec.invcol (arg3 m c)) (Cert.HostSpec.trh (arg8 m c)) (arg9 m c) (Cert.HostSpec.trh (arg10 m c)) (Cert.HostSpec.segsum (arg0 m c) (arg4 m c)) (Cert.HostSpec.invcol (arg4 m c)) (Cert.HostSpec.trh (arg11 m c)) (arg12 m c) (Cert.HostSpec.trh (arg13 m c)) (arg14 m c) (arg15 m c)) (Cert.HostSpec.segsum (Cert.HostSpec.kLayer1 (arg1 m c) (Cert.HostSpec.segsum (arg0 m c) (arg2 m c)) (Cert.HostSpec.invcol (arg2 m c)) (Cert.HostSpec.trh (arg5 m c)) (arg6 m c) (Cert.HostSpec.trh (arg7 m c)) (arg16 m c) (arg17 m c)) (arg3 m c)) (Cert.HostSpec.invcol (arg3 m c)) (Cert.HostSpec.trh (arg21 m c)) (arg22 m c) (Cert.HostSpec.trh (arg23 m c)) (Cert.HostSpec.segsum (Cert.HostSpec.kLayer2 (arg0 m c) (Cert.HostSpec.segsum (arg1 m c) (arg3 m c)) (Cert.HostSpec.invcol (arg3 m c)) (Cert.HostSpec.trh (arg8 m c)) (arg9 m c) (Cert.HostSpec.trh (arg10 m c)) (Cert.HostSpec.segsum (arg0 m c) (arg4 m c)) (Cert.HostSpec.invcol (arg4 m c)) (Cert.HostSpec.trh (arg11 m c)) (arg12 m c) (Cert.HostSpec.trh (arg13 m c)) (arg14 m c) (arg15 m c)) (arg4 m c)) (Cert.HostSpec.invcol (arg4 m c)) (Cert.HostSpec.trh (arg24 m c)) (arg25 m c) (Cert.HostSpec.trh (arg26 m c)) (arg27 m c) (arg28 m c)) (Cert.HostSpec.kLayer1 (Cert.HostSpec.kLayer1 (arg1 m c) (Cert.HostSpec.segsum (arg0 m c) (arg2 m c)) (Cert.HostSpec.invcol (arg2 m c)) (Cert.HostSpec.trh (arg5 m c)) (arg6 m c) (Cert.HostSpec.trh (arg7 m c)) (arg16 m c) (arg17 m c)) (Cert.HostSpec.segsum (Cert.HostSpec.kLayer2 (arg0 m c) (Cert.HostSpec.segsum (arg1 m c) (arg3 m c)) (Cert.HostSpec.invcol (arg3 m c)) (Cert.HostSpec.trh (arg8 m c)) (arg9 m c) (Cert.HostSpec.trh (arg10 m c)) (Cert.HostSpec.segsum (arg0 m c) (arg4 m c)) (Cert.HostSpec.invcol (arg4 m c)) (Cert.HostSpec.trh (arg11 m c)) (arg12 m c) (Cert.HostSpec.trh (arg13 m c)) (arg14 m c) (arg15 m c)) (arg2 m c)) (Cert.HostSpec.invcol (arg2 m c)) (Cert.HostSpec.trh (arg18 m c)) (arg19 m c) (Cert.HostSpec.trh (arg20 m c)) (arg29 m c) (arg30 m c))) :=
  (Cert.KernelIdeal.KHost.h4_v135 (W6 m ρ c)).trans (by rw [w6_v132 m ρ c, w6_v131 m ρ c])

end Cert.KernelIdeal.KValue

end
-- ==== Proof.RefLayer.lean ====
/-
  The reference's layer, spelt in host operations over whole 50000×128 arrays, IS the row-wise mathematics of `Spec`.
  Every host operation is read at an index `ix2 i j`: a broadcast along the rows or the columns reads through to the
  vector it spreads, a matrix product and a row sum become sums over the 128 features, the elementwise operations are
  the extended reals'. What is left at `(i, j)` is `Spec.sage` and `Spec.lnRelu` applied to row `i`, read at `j`.
-/
import proofs.«148312_j75428215652543_2_alg».proof.Proof.HostSpec
import Idealize.ShloMosaic.Lib.ValueIdx
import Idealize.ShloMosaic.Lib.ValueLayout
import Idealize.ShloMosaic.Lib.Pipeline.Value
import Idealize.ShloMosaic.PureOps.Ideal.Laws

noncomputable section

namespace Cert.HostSpec

open Idealize.ShloMosaic Idealize.ShloMosaic.ValueIdx Cert.ReferenceIdeal Cert.ReferenceIdeal.Facts₀

variable [Cert.ReferenceIdeal.Facts]

/-! ## The layout operations of the layer, read at an index -/

section Layout
variable {α : Type}

/-- A column of 50000 values spread along the 128 features reads, at `(i, j)`, the column at `(i, 0)`. -/
theorem bcastCol_apply (y : S50000x1.Idx → α) (i : Fin 50000) (j : Fin 128) :
    broadcastInDim S50000x128 ![0, 1] bcast_S50000x1_S50000x128_0_1 y (ix2 i j) = y (ix2 i (⟨0, Nat.one_pos⟩ : Fin 1)) :=
  broadcastInDim_apply _ bcast_S50000x1_S50000x128_0_1 y (ix2 i j) (ix2 i (⟨0, Nat.one_pos⟩ : Fin 1)) (fun a => match a with
    | ⟨0, _⟩ => by show i.val = if (50000 : Nat) = 1 then 0 else i.val; rw [if_neg (by decide)]
    | ⟨1, _⟩ => by show 0 = if (1 : Nat) = 1 then 0 else j.val; rw [if_pos rfl])

/-- A vector of 50000 values made a column reads, at `(i, 0)`, the vector at `i`. -/
theorem toCol_apply (c : S50000.Idx → α) (i : Fin 50000) (z : Fin 1) :
    broadcastInDim S50000x1 ![0] bcast_S50000_S50000x1_0 c (ix2 i z) = c (ix1 i) :=
  broadcastInDim_apply _ bcast_S50000_S50000x1_0 c (ix2 i z) (ix1 i) (fun a => match a with
    | ⟨0, _⟩ => by show i.val = if (50000 : Nat) = 1 then 0 else i.val; rw [if_neg (by decide)])

/-- A row of 128 values spread along the 50000 nodes reads, at `(i, j)`, the row at `(0, j)`. -/
theorem bcastRow_apply (y : S1x128.Idx → α) (i : Fin 50000) (j : Fin 128) :
    broadcastInDim S50000x128 ![0, 1] bcast_S1x128_S50000x128_0_1 y (ix2 i j) = y (ix2 (⟨0, Nat.one_pos⟩ : Fin 1) j) :=
  broadcastInDim_apply _ bcast_S1x128_S50000x128_0_1 y (ix2 i j) (ix2 (⟨0, Nat.one_pos⟩ : Fin 1) j) (fun a => match a with
    | ⟨0, _⟩ => by show 0 = if (1 : Nat) = 1 then 0 else i.val; rw [if_pos rfl]
    | ⟨1, _⟩ => by show j.val = if (128 : Nat) = 1 then 0 else j.val; rw [if_neg (by decide)])

/-- A vector of 128 values made a row reads, at `(0, j)`, the vector at `j`. -/
theorem toRow_apply (b : S128.Idx → α) (z : Fin 1) (j : Fin 128) :
    broadcastInDim S1x128 ![1] bcast_S128_S1x128_1 b (ix2 z j) = b (ix1 j) :=
  broadcastInDim_apply _ bcast_S128_S1x128_1 b (ix2 z j) (ix1 j) (fun a => match a with
    | ⟨0, _⟩ => by show j.val = if (128 : Nat) = 1 then 0 else j.val; rw [if_neg (by decide)])

/-- A vector of 128 features spread over every node reads, at `(i, j)`, the vector at `j`. -/
theorem bcastVc_apply (b : S128.Idx → α) (i : Fin 50000) (j : Fin 128) :
    broadcastInDim S50000x128 ![0, 1] bcast_S1x128_S50000x128_0_1 (broadcastInDim S1x128 ![1] bcast_S128_S1x128_1 b) (ix2 i j)
      = b (ix1 j) := by
  rw [bcastRow_apply, toRow_apply]

/-- A vector of 50000 node values spread over every feature reads, at `(i, j)`, the vector at `i`. -/
theorem bcastNode_apply (c : S50000.Idx → α) (i : Fin 50000) (j : Fin 128) :
    broadcastInDim S50000x128 ![0, 1] bcast_S50000x1_S50000x128_0_1 (broadcastInDim S50000x1 ![0] bcast_S50000_S50000x1_0 c) (ix2 i j)
      = c (ix1 i) := by
  rw [bcastCol_apply, toCol_apply]

end Layout

/-- A scalar constant spread over a column reads its value everywhere. -/
theorem constCol_apply (w : BitVec 32) (idx : S50000x1.Idx) :
    broadcastInDim S50000x1 ![] bcast_S_S50000x1 (constant (F := Ideal) S_ .f32 w) idx = Ideal.ofBits .f32 w := rfl

/-- A scalar constant spread over the whole array reads its value everywhere. -/
theorem constAll_apply (w : BitVec 32) (idx : S50000x128.Idx) :
    broadcastInDim S50000x128 ![] bcast_S_S50000x128 (constant (F := Ideal) S_ .f32 w) idx = Ideal.ofBits .f32 w := rfl

/-- The host's division at an index is the extended reals' division of the elements. -/
theorem hostDivf_apply {s : Shape} (x y : FVec Ideal s .f32) (i : s.Idx) : Host.divf x y i = Ideal.div (x i) (y i) := rfl

/-- The host's reciprocal square root at an index is that of the element. -/
theorem hostRsqrt_apply {s : Shape} (x : FVec Ideal s .f32) (i : s.Idx) : Host.rsqrt x i = Ideal.rsqrt (x i) := rfl

/-- The transposed weight matrix at `(k, j)` is the weight matrix at `(j, k)`: the matrix `tr` names. -/
theorem transpose_tr (w : Mat) (k j : Fin 128) :
    transpose S128x128 [1, 0] w transposes_S128x128_S128x128_1_0 (ix2 k j) = tr w (ix2 k j) :=
  transpose_ix2_apply w transposes_S128x128_S128x128_1_0 k j

/-! ## The matrix product and the row sum, read at an index -/

/-- The product's left operand is read on the output's row. -/
theorem dot_lhs0 (idx : S50000x128.Idx) (q : dot_S50000x128_S128x128_S50000x128_1_0_0_1_n_n.contr.Idx) :
    (dot_S50000x128_S128x128_S50000x128_1_0_0_1_n_n.lhsIdx idx q 0).val = (idx 0).val := by
  unfold DotDims.lhsIdx
  rw [dif_neg (show ¬(0 : Fin S50000x128.rank) ∈ dot_S50000x128_S128x128_S50000x128_1_0_0_1_n_n.lhsBatch from List.not_mem_nil),
    dif_pos (show (0 : Fin S50000x128.rank) ∈ dot_S50000x128_S128x128_S50000x128_1_0_0_1_n_n.lhsNonContracting from List.mem_singleton.mpr rfl)]
  rfl

/-- The product's right operand is read on the output's column. -/
theorem dot_rhs1 (idx : S50000x128.Idx) (q : dot_S50000x128_S128x128_S50000x128_1_0_0_1_n_n.contr.Idx) :
    (dot_S50000x128_S128x128_S50000x128_1_0_0_1_n_n.rhsIdx idx q 1).val = (idx 1).val := by
  unfold DotDims.rhsIdx
  rw [dif_neg (show ¬(1 : Fin S128x128.rank) ∈ dot_S50000x128_S128x128_S50000x128_1_0_0_1_n_n.rhsBatch from List.not_mem_nil),
    dif_pos (show (1 : Fin S128x128.rank) ∈ dot_S50000x128_S128x128_S50000x128_1_0_0_1_n_n.rhsNonContracting from List.mem_singleton.mpr rfl)]
  rfl

/-- The host's product of a 50000×128 array with a 128×128 matrix, at `(i, j)`: the sum over the 128 features `k` of
    the array at `(i, k)` times the matrix at `(k, j)`. -/
theorem dot_apply (x : Nodes) (y : Mat) (i : Fin 50000) (j : Fin 128) :
    Host.dotGeneral dot_S50000x128_S128x128_S50000x128_1_0_0_1_n_n none x y (ix2 i j)
      = ∑ k : Fin 128, x (ix2 i k) * y (ix2 k j) := by
  simp only [Host.dotGeneral]
  rw [Ideal.dotGeneral_apply,
    ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 i j)
      ((ValueIdx.contrEquiv1 dot_S50000x128_S128x128_S50000x128_1_0_0_1_n_n 128 rfl rfl).symm k) = ix2 i k :=
    funext fun a => Fin.ext (by
      match a with
      | ⟨0, _⟩ => exact dot_lhs0 _ _
      | ⟨1, _⟩ => exact (dot_S50000x128_S128x128_S50000x128_1_0_0_1_n_n.lhsIdx_val_of_single rfl _ _).trans hk)
  have er : dot_S50000x128_S128x128_S50000x128_1_0_0_1_n_n.rhsIdx (ix2 i j)
      ((ValueIdx.contrEquiv1 dot_S50000x128_S128x128_S50000x128_1_0_0_1_n_n 128 rfl rfl).symm k) = ix2 k j :=
    funext fun a => Fin.ext (by
      match a with
      | ⟨0, _⟩ => exact (dot_S50000x128_S128x128_S50000x128_1_0_0_1_n_n.rhsIdx_val_of_single rfl _ _).trans hk
      | ⟨1, _⟩ => exact dot_rhs1 _ _)
  rw [el, er]

/-- The host's sum of a 50000×128 array along the features, from zero, at node `i`: the sum of row `i`. -/
theorem rowSum_apply (a : Nodes) (i : Fin 50000) :
    Host.reduceAdd a (constant S_ .f32 0x00000000#32) reducesTo_S50000x128_S50000_d1 h_S_ (ix1 i)
      = ∑ k : Fin 128, a (ix2 i k) := by
  simp only [Host.reduceAdd, Ideal.hostReduceAdd_def]
  rw [Ideal.hostReduceAdd_single reducesTo_S50000x128_S50000_d1 (by decide), constant_apply, Ideal.ofBits_zero_f32, zero_add]
  refine Finset.sum_congr rfl fun k _ => ?_
  exact congrArg a (funext fun b => Fin.ext (by match b with | ⟨0, _⟩ => rfl | ⟨1, _⟩ => rfl))

/-! ## One edge type's contribution -/

/-- The reference's contribution of one edge type, at `(i, j)`, is `Spec.sage` of node `i`'s mean neighbour row (the
    neighbour sum over the clamped in-degree) and its own row, read at feature `j`. -/
theorem refSage_apply (s : Nodes) (c : FVec Ideal S50000 .f32) (xdst : Nodes) (wl : Mat) (b : Vc) (wr : Mat)
    (i : Fin 50000) (j : Fin 128) :
    refSage s c xdst wl b wr (ix2 i j)
      = Spec.sage (fun k => Ideal.div (s (ix2 i k)) (c (ix1 i))) (fun k => xdst (ix2 i k)) (tr wl) b (tr wr) j := by
  unfold refSage Spec.sage
  rw [addf_apply, addf_apply, dot_apply, dot_apply, bcastVc_apply]
  refine congrArg₂ (· + ·) (congrArg (· + b (ix1 j)) (Finset.sum_congr rfl fun k _ => ?_))
    (Finset.sum_congr rfl fun k _ => ?_)
  · rw [hostDivf_apply, bcastNode_apply, transpose_tr]
  · rw [transpose_tr]

/-! ## The layer norm and relu -/

/-- The reference's centred array at `(i, j)` is row `i` minus its mean, at `j`. -/
theorem refCentred_apply (a : Nodes) (i : Fin 50000) (j : Fin 128) :
    refCentred a (ix2 i j) = Spec.centred (fun k => a (ix2 i k)) j := by
  unfold refCentred Spec.centred Spec.rowMean
  rw [subf_apply, bcastCol_apply, hostDivf_apply, toCol_apply, rowSum_apply, constCol_apply]

/-- The reference's row sum of the squared centred array, at node `i`: the sum of row `i`'s squared deviations. -/
theorem refSqSum_apply (a : Nodes) (i : Fin 50000) :
    Host.reduceAdd (mulf (refCentred a) (refCentred a)) (constant S_ .f32 0x00000000#32)
        reducesTo_S50000x128_S50000_d1 h_S_ (ix1 i)
      = ∑ k : Fin 128, Spec.centred (fun k => a (ix2 i k)) k * Spec.centred (fun k => a (ix2 i k)) k := by
  rw [rowSum_apply]
  refine Finset.sum_congr rfl fun k _ => ?_
  rw [mulf_apply, refCentred_apply]

/-- The reference's layer norm, affine map and relu at `(i, j)` is `Spec.lnRelu` of row `i`, at `j`. -/
theorem refLnRelu_apply (a : Nodes) (lnw lnb : Vc) (i : Fin 50000) (j : Fin 128) :
    refLnRelu a lnw lnb (ix2 i j) = Spec.lnRelu (fun k => a (ix2 i k)) lnw lnb j := by
  unfold refLnRelu Spec.lnRelu
  rw [maximumf_apply, addf_apply, mulf_apply, mulf_apply, bcastVc_apply, bcastVc_apply, constAll_apply, bcastCol_apply,
    hostRsqrt_apply, addf_apply, hostDivf_apply, toCol_apply, refSqSum_apply, constCol_apply, constCol_apply,
    refCentred_apply]
  rfl

/-! ## The two layers -/

/-- The reference's layer at the node type reached by one edge type is the row-wise `layer1`. -/
theorem refLayer1_eq (xsrc xdst : Nodes) (ei : Edges) (wl : Mat) (b : Vc) (wr : Mat) (lnw lnb : Vc) :
    refLayer1 xsrc xdst ei wl b wr lnw lnb = layer1 xsrc xdst ei wl b wr lnw lnb := by
  funext idx
  obtain ⟨i, j, rfl⟩ : ∃ (i : Fin 50000) (j : Fin 128), idx = ix2 i j := ⟨idx 0, idx 1, eq_ix2 idx⟩
  have h : (fun k => refSage (segsum xsrc ei) (cntc ei) xdst wl b wr (ix2 i k))
      = Spec.sage (meanRow xsrc ei i) (row xdst i) (tr wl) b (tr wr) :=
    funext fun k => refSage_apply _ _ _ _ _ _ i k
  show refLnRelu (refSage (segsum xsrc ei) (cntc ei) xdst wl b wr) lnw lnb (ix2 i j)
    = Spec.lnRelu (Spec.sage (meanRow xsrc ei i) (row xdst i) (tr wl) b (tr wr)) lnw lnb j
  exact (refLnRelu_apply _ lnw lnb i j).trans (congrArg (fun r => Spec.lnRelu r lnw lnb j) h)

/-- The reference's layer at the node type reached by two edge types is the row-wise `layer2`. -/
theorem refLayer2_eq (xsrcA xsrcB xdst : Nodes) (eiA : Edges) (wlA : Mat) (bA : Vc) (wrA : Mat)
    (eiB : Edges) (wlB : Mat) (bB : Vc) (wrB : Mat) (lnw lnb : Vc) :
    refLayer2 xsrcA xsrcB xdst eiA wlA bA wrA eiB wlB bB wrB lnw lnb
      = layer2 xsrcA xsrcB xdst eiA wlA bA wrA eiB wlB bB wrB lnw lnb := by
  funext idx
  obtain ⟨i, j, rfl⟩ : ∃ (i : Fin 50000) (j : Fin 128), idx = ix2 i j := ⟨idx 0, idx 1, eq_ix2 idx⟩
  have h : (fun k => addf (refSage (segsum xsrcA eiA) (cntc eiA) xdst wlA bA wrA)
        (refSage (segsum xsrcB eiB) (cntc eiB) xdst wlB bB wrB) (ix2 i k))
      = fun k => Spec.sage (meanRow xsrcA eiA i) (row xdst i) (tr wlA) bA (tr wrA) k
          + Spec.sage (meanRow xsrcB eiB i) (row xdst i) (tr wlB) bB (tr wrB) k :=
    funext fun k => (addf_apply _ _ _).trans
      (congrArg₂ (· + ·) (refSage_apply _ _ _ _ _ _ i k) (refSage_apply _ _ _ _ _ _ i k))
  show refLnRelu (addf (refSage (segsum xsrcA eiA) (cntc eiA) xdst wlA bA wrA)
      (refSage (segsum xsrcB eiB) (cntc eiB) xdst wlB bB wrB)) lnw lnb (ix2 i j)
    = Spec.lnRelu (fun k => Spec.sage (meanRow xsrcA eiA i) (row xdst i) (tr wlA) bA (tr wrA) k
          + Spec.sage (meanRow xsrcB eiB i) (row xdst i) (tr wlB) bB (tr wrB) k) lnw lnb j
  exact (refLnRelu_apply _ lnw lnb i j).trans (congrArg (fun r => Spec.lnRelu r lnw lnb j) h)

end Cert.HostSpec

end
-- ==== Proof.KLayer.lean ====
/-
  What a region of the kernel program computes from the host-side arrays — the neighbour sums, the reciprocal
  clamped in-degree as a column, the weights transposed on the host — is the row-wise layer of the specification:
  the node's mean row is `sum · (1 / max(count, 1))`, which is `sum / max(count, 1)` because the clamp keeps the
  divisor away from zero, and a host transpose read at `(k, j)` is the matrix at `(j, k)`.
-/
import proofs.«148312_j75428215652543_2_alg».proof.Proof.RefLayer
import Idealize.ShloMosaic.Lib.Pipeline.Value
import Idealize.ShloMosaic.Lib.ValueIdx

noncomputable section

namespace Cert.HostSpec

open Idealize.ShloMosaic Idealize.ShloMosaic.ValueIdx Cert.ReferenceIdeal

variable [Cert.ReferenceIdeal.Facts]

open Cert.ReferenceIdeal.Facts₀ Cert.ReferenceIdeal.Facts

/-- A scalar constant spread over the nodes reads its value at every node. -/
theorem constNode_apply (b : BitVec 32) (i : S50000.Idx) :
    broadcastInDim S50000 ![] bcast_S_S50000 (constant (F := Ideal) S_ .f32 b) i = Ideal.ofBits .f32 b := rfl

/-- The reciprocal-count column at node `i` is `1 / max(count i, 1)`. -/
theorem invcol_apply (ei : Edges) (i : Fin 50000) :
    invcol ei (ix2 i (0 : Fin 1)) = Ideal.div (Ideal.ofBits .f32 0x3F800000#32) (cntc ei (ix1 i)) := by
  unfold invcol
  rw [toCol_apply, hostDivf_apply, constNode_apply]

/-- The clamped count at node `i` is the maximum of the count and `1`. -/
theorem cntc_apply (ei : Edges) (i : Fin 50000) :
    ∃ n : EReal, cntc ei (ix1 i) = max n (Ideal.ofBits .f32 0x3F800000#32) := ⟨_, rfl⟩

/-- A host transpose read at `(k, j)` is the matrix at `(j, k)`. -/
theorem trh_eq (w : Mat) : trh w = tr w := by
  funext kj
  unfold trh tr
  exact transpose_apply _ _ _ kj (ix2 (kj 1) (kj 0)) (fun b => by match b with | ⟨0, _⟩ => rfl | ⟨1, _⟩ => rfl)

/-- The mean row the kernel forms, `sum · reciprocal`, is the specification's `sum / clamped count`. -/
theorem mean_eq (x : Nodes) (ei : Edges) (i : Fin 50000) :
    (fun k : Fin 128 => segsum x ei (ix2 i k) * invcol ei (ix2 i (0 : Fin 1))) = meanRow x ei i := by
  funext k
  unfold meanRow
  rw [invcol_apply]
  obtain ⟨n, hn⟩ := cntc_apply ei i
  rw [hn]
  exact Spec.mul_recip_clamped _ _

/-- One edge type: the region's value over the host-side arrays is the specification's layer. -/
theorem kLayer1_eq (xsrc xdst : Nodes) (ei : Edges) (wl : Mat) (b : Vc) (wr : Mat) (lnw lnb : Vc) :
    kLayer1 xdst (segsum xsrc ei) (invcol ei) (trh wl) b (trh wr) lnw lnb = layer1 xsrc xdst ei wl b wr lnw lnb := by
  funext idx
  obtain ⟨i, j, rfl⟩ : ∃ (i : Fin 50000) (j : Fin 128), idx = ix2 i j := ⟨idx 0, idx 1, eq_ix2 idx⟩
  show Spec.node1 (row xdst i) (fun k => segsum xsrc ei (ix2 i k) * invcol ei (ix2 i (0 : Fin 1))) (trh wl) b (trh wr) lnw lnb j
    = Spec.node1 (row xdst i) (meanRow xsrc ei i) (tr wl) b (tr wr) lnw lnb j
  rw [trh_eq, trh_eq, mean_eq]

/-- Two edge types. -/
theorem kLayer2_eq (xsrcA xsrcB xdst : Nodes) (eiA : Edges) (wlA : Mat) (bA : Vc) (wrA : Mat)
    (eiB : Edges) (wlB : Mat) (bB : Vc) (wrB : Mat) (lnw lnb : Vc) :
    kLayer2 xdst (segsum xsrcA eiA) (invcol eiA) (trh wlA) bA (trh wrA) (segsum xsrcB eiB) (invcol eiB) (trh wlB) bB (trh wrB) lnw lnb
      = layer2 xsrcA xsrcB xdst eiA wlA bA wrA eiB wlB bB wrB lnw lnb := by
  funext idx
  obtain ⟨i, j, rfl⟩ : ∃ (i : Fin 50000) (j : Fin 128), idx = ix2 i j := ⟨idx 0, idx 1, eq_ix2 idx⟩
  show Spec.node2 (row xdst i) (fun k => segsum xsrcA eiA (ix2 i k) * invcol eiA (ix2 i (0 : Fin 1))) (trh wlA) bA (trh wrA)
      (fun k => segsum xsrcB eiB (ix2 i k) * invcol eiB (ix2 i (0 : Fin 1))) (trh wlB) bB (trh wrB) lnw lnb j
    = Spec.node2 (row xdst i) (meanRow xsrcA eiA i) (tr wlA) bA (tr wrA) (meanRow xsrcB eiB i) (tr wlB) bB (tr wrB) lnw lnb j
  rw [trh_eq, trh_eq, trh_eq, trh_eq, mean_eq, mean_eq]

end Cert.HostSpec

end
-- ==== Proof.Net.lean ====
/-
  The whole two-layer network as one function of the 31 argument arrays: the first layer's user and item arrays,
  the second layer applied to them, the two results stacked (users first). Both programs' values are brought to
  this one term: the kernel program's through the regions' row-wise transforms of the host-side arrays, the
  reference's through its own host-operation spelling of a layer.
-/
import proofs.«148312_j75428215652543_2_alg».proof.Proof.KLayer
import proofs.«148312_j75428215652543_2_alg».proof.Proof.RefLayer

noncomputable section

namespace Cert.HostSpec

open Idealize.ShloMosaic Cert.ReferenceIdeal

variable [Cert.ReferenceIdeal.Facts]

/-- The network: layer 0 at both node types, layer 1 on its outputs, stacked. -/
def net (a0 : Nodes) (a1 : Nodes) (a2 : Edges) (a3 : Edges) (a4 : Edges) (a5 : Mat) (a6 : Vc) (a7 : Mat) (a8 : Mat) (a9 : Vc) (a10 : Mat) (a11 : Mat) (a12 : Vc) (a13 : Mat) (a14 : Vc) (a15 : Vc) (a16 : Vc) (a17 : Vc) (a18 : Mat) (a19 : Vc) (a20 : Mat) (a21 : Mat) (a22 : Vc) (a23 : Mat) (a24 : Mat) (a25 : Vc) (a26 : Mat) (a27 : Vc) (a28 : Vc) (a29 : Vc) (a30 : Vc) : FVec Ideal S2x50000x128 .f32 :=
  stack (layer2 (layer1 a0 a1 a2 a5 a6 a7 a16 a17) (layer2 a1 a0 a0 a3 a8 a9 a10 a4 a11 a12 a13 a14 a15) (layer2 a1 a0 a0 a3 a8 a9 a10 a4 a11 a12 a13 a14 a15) a3 a21 a22 a23 a4 a24 a25 a26 a27 a28)
    (layer1 (layer2 a1 a0 a0 a3 a8 a9 a10 a4 a11 a12 a13 a14 a15) (layer1 a0 a1 a2 a5 a6 a7 a16 a17) a2 a18 a19 a20 a29 a30)

/-- The kernel program's value (the regions' transforms of the host-side arrays) is the network. -/
theorem net_of_regions (a0 : Nodes) (a1 : Nodes) (a2 : Edges) (a3 : Edges) (a4 : Edges) (a5 : Mat) (a6 : Vc) (a7 : Mat) (a8 : Mat) (a9 : Vc) (a10 : Mat) (a11 : Mat) (a12 : Vc) (a13 : Mat) (a14 : Vc) (a15 : Vc) (a16 : Vc) (a17 : Vc) (a18 : Mat) (a19 : Vc) (a20 : Mat) (a21 : Mat) (a22 : Vc) (a23 : Mat) (a24 : Mat) (a25 : Vc) (a26 : Mat) (a27 : Vc) (a28 : Vc) (a29 : Vc) (a30 : Vc) :
    stack (kLayer2 (kLayer2 a0 (segsum a1 a3) (invcol a3) (trh a8) a9 (trh a10) (segsum a0 a4) (invcol a4) (trh a11) a12 (trh a13) a14 a15) (segsum (kLayer1 a1 (segsum a0 a2) (invcol a2) (trh a5) a6 (trh a7) a16 a17) a3) (invcol a3) (trh a21) a22 (trh a23) (segsum (kLayer2 a0 (segsum a1 a3) (invcol a3) (trh a8) a9 (trh a10) (segsum a0 a4) (invcol a4) (trh a11) a12 (trh a13) a14 a15) a4) (invcol a4) (trh a24) a25 (trh a26) a27 a28)
      (kLayer1 (kLayer1 a1 (segsum a0 a2) (invcol a2) (trh a5) a6 (trh a7) a16 a17) (segsum (kLayer2 a0 (segsum a1 a3) (invcol a3) (trh a8) a9 (trh a10) (segsum a0 a4) (invcol a4) (trh a11) a12 (trh a13) a14 a15) a2) (invcol a2) (trh a18) a19 (trh a20) a29 a30)
      = net a0 a1 a2 a3 a4 a5 a6 a7 a8 a9 a10 a11 a12 a13 a14 a15 a16 a17 a18 a19 a20 a21 a22 a23 a24 a25 a26 a27 a28 a29 a30 := by
  unfold net
  simp only [kLayer1_eq, kLayer2_eq]

/-- The reference's value (its own spelling of the layers) is the network. -/
theorem net_of_ref (a0 : Nodes) (a1 : Nodes) (a2 : Edges) (a3 : Edges) (a4 : Edges) (a5 : Mat) (a6 : Vc) (a7 : Mat) (a8 : Mat) (a9 : Vc) (a10 : Mat) (a11 : Mat) (a12 : Vc) (a13 : Mat) (a14 : Vc) (a15 : Vc) (a16 : Vc) (a17 : Vc) (a18 : Mat) (a19 : Vc) (a20 : Mat) (a21 : Mat) (a22 : Vc) (a23 : Mat) (a24 : Mat) (a25 : Vc) (a26 : Mat) (a27 : Vc) (a28 : Vc) (a29 : Vc) (a30 : Vc) :
    stack (refLayer2 (refLayer1 a0 a1 a2 a5 a6 a7 a16 a17) (refLayer2 a1 a0 a0 a3 a8 a9 a10 a4 a11 a12 a13 a14 a15) (refLayer2 a1 a0 a0 a3 a8 a9 a10 a4 a11 a12 a13 a14 a15) a3 a21 a22 a23 a4 a24 a25 a26 a27 a28)
      (refLayer1 (refLayer2 a1 a0 a0 a3 a8 a9 a10 a4 a11 a12 a13 a14 a15) (refLayer1 a0 a1 a2 a5 a6 a7 a16 a17) a2 a18 a19 a20 a29 a30)
      = net a0 a1 a2 a3 a4 a5 a6 a7 a8 a9 a10 a11 a12 a13 a14 a15 a16 a17 a18 a19 a20 a21 a22 a23 a24 a25 a26 a27 a28 a29 a30 := by
  unfold net
  simp only [refLayer1_eq, refLayer2_eq]

end Cert.HostSpec

end
-- ==== Proof.RefSeg0.lean ====
/-
  The reference's run read back in segments, segment 0 (operations 1 to 39 of the 359).
  Layer 0, the items: the contribution of the edge type user → item (neighbour sum over the users' rows divided by the clamped in-degree, times the transposed left weight, plus the bias, plus the items' own rows times the transposed right weight).
  Over an arbitrary valuation of the buffers: what the segment's result buffer holds after the segment, as a function
  of what the buffers it reads held before it; and that every buffer the segment does not write keeps its contents.
-/
import proofs.«148312_j75428215652543_2_alg».proof.Proof.Gen.ReferenceIdeal
import proofs.«148312_j75428215652543_2_alg».proof.Proof.HostSpec
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- The segment's operations, in the program's order. -/
def seg0 : List (HloOp τ sig (Elt F)) :=
  [ unary main_arg2 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    nullary main_c (constantI S_ 32 0#32),
    unary main_c main_v2 (broadcastInDim S600000 ![] bcast_S_S600000 : (⟨S_, .i32⟩ : BufTy).Contents (Elt F) → (⟨S600000, .i32⟩ : BufTy).Contents (Elt F)),
    binary main_v1 main_v2 main_v3 (cmpi .slt : (⟨S600000, .i32⟩ : BufTy).Contents (Elt F) → (⟨S600000, .i32⟩ : BufTy).Contents (Elt F) → (⟨S600000, .i1⟩ : BufTy).Contents (Elt F)),
    nullary main_c_0 (constantI S_ 32 50000#32),
    unary main_c_0 main_v4 (broadcastInDim S600000 ![] bcast_S_S600000 : (⟨S_, .i32⟩ : BufTy).Contents (Elt F) → (⟨S600000, .i32⟩ : BufTy).Contents (Elt F)),
    binary main_v1 main_v4 main_v5 (addi : (⟨S600000, .i32⟩ : BufTy).Contents (Elt F) → (⟨S600000, .i32⟩ : BufTy).Contents (Elt F) → (⟨S600000, .i32⟩ : BufTy).Contents (Elt F)),
    ternary main_v3 main_v5 main_v1 main_v6 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v6 main_v7 (broadcastInDim S600000x1 ![0] bcast_S600000_S600000x1_0 : (⟨S600000, .i32⟩ : BufTy).Contents (Elt F) → (⟨S600000x1, .i32⟩ : BufTy).Contents (Elt F)),
    binary main_arg0 main_v7 main_v8 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_arg2 main_v9 ((extractStridedSlice S1x600000 ![1, 0] · slices_S2x600000_S1x600000_1_0) : (⟨S2x600000, .i32⟩ : BufTy).Contents (Elt F) → (⟨S1x600000, .i32⟩ : BufTy).Contents (Elt F)),
    reshape main_v9 main_v10 rfl shapeCasts_S1x600000_S600000,
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v10 main_v12 (broadcastInDim S600000x1 ![0] bcast_S600000_S600000x1_0 : (⟨S600000, .i32⟩ : BufTy).Contents (Elt F) → (⟨S600000x1, .i32⟩ : BufTy).Contents (Elt F)),
    ternary main_v11 main_v12 main_v8 main_v13 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    nullary main_cst_1 (constant S_ .f32 0x3F800000#32),
    unary main_cst_1 main_v14 (broadcastInDim S600000 ![] bcast_S_S600000 : (⟨S_, .f32⟩ : BufTy).Contents (Elt F) → (⟨S600000, .f32⟩ : BufTy).Contents (Elt F)),
    unary main_arg2 main_v15 ((extractStridedSlice S1x600000 ![1, 0] · slices_S2x600000_S1x600000_1_0) : (⟨S2x600000, .i32⟩ : BufTy).Contents (Elt F) → (⟨S1x600000, .i32⟩ : BufTy).Contents (Elt F)),
    reshape main_v15 main_v16 rfl shapeCasts_S1x600000_S600000,
    nullary main_cst_2 (constant S_ .f32 0x00000000#32),
    unary main_cst_2 main_v17 (broadcastInDim S50000 ![] bcast_S_S50000 : (⟨S_, .f32⟩ : BufTy).Contents (Elt F) → (⟨S50000, .f32⟩ : BufTy).Contents (Elt F)),
    unary main_v16 main_v18 (broadcastInDim S600000x1 ![0] bcast_S600000_S600000x1_0 : (⟨S600000, .i32⟩ : BufTy).Contents (Elt F) → (⟨S600000x1, .i32⟩ : BufTy).Contents (Elt F)),
    ternary main_v17 main_v18 main_v14 main_v19 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_3 (constant S_ .f32 0x3F800000#32),
    unary main_cst_3 main_v20 (broadcastInDim S50000 ![] bcast_S_S50000 : (⟨S_, .f32⟩ : BufTy).Contents (Elt F) → (⟨S50000, .f32⟩ : BufTy).Contents (Elt F)),
    binary main_v19 main_v20 main_v21 (maximumf : (⟨S50000, .f32⟩ : BufTy).Contents (Elt F) → (⟨S50000, .f32⟩ : BufTy).Contents (Elt F) → (⟨S50000, .f32⟩ : BufTy).Contents (Elt F)),
    unary main_v21 main_v22 (broadcastInDim S50000x1 ![0] bcast_S50000_S50000x1_0 : (⟨S50000, .f32⟩ : BufTy).Contents (Elt F) → (⟨S50000x1, .f32⟩ : BufTy).Contents (Elt F)),
    unary main_v22 main_v23 (broadcastInDim S50000x128 ![0, 1] bcast_S50000x1_S50000x128_0_1 : (⟨S50000x1, .f32⟩ : BufTy).Contents (Elt F) → (⟨S50000x128, .f32⟩ : BufTy).Contents (Elt F)),
    binary main_v13 main_v23 main_v24 (Host.divf : (⟨S50000x128, .f32⟩ : BufTy).Contents (Elt F) → (⟨S50000x128, .f32⟩ : BufTy).Contents (Elt F) → (⟨S50000x128, .f32⟩ : BufTy).Contents (Elt F)),
    unary main_arg5 main_v25 ((transpose S128x128 [1, 0] · transposes_S128x128_S128x128_1_0) : (⟨S128x128, .f32⟩ : BufTy).Contents (Elt F) → (⟨S128x128, .f32⟩ : BufTy).Contents (Elt F)),
    binary main_v24 main_v25 main_v26 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v27 (broadcastInDim S1x128 ![1] bcast_S128_S1x128_1 : (⟨S128, .f32⟩ : BufTy).Contents (Elt F) → (⟨S1x128, .f32⟩ : BufTy).Contents (Elt F)),
    unary main_v27 main_v28 (broadcastInDim S50000x128 ![0, 1] bcast_S1x128_S50000x128_0_1 : (⟨S1x128, .f32⟩ : BufTy).Contents (Elt F) → (⟨S50000x128, .f32⟩ : BufTy).Contents (Elt F)),
    binary main_v26 main_v28 main_v29 (addf : (⟨S50000x128, .f32⟩ : BufTy).Contents (Elt F) → (⟨S50000x128, .f32⟩ : BufTy).Contents (Elt F) → (⟨S50000x128, .f32⟩ : BufTy).Contents (Elt F)),
    unary main_arg7 main_v30 ((transpose S128x128 [1, 0] · transposes_S128x128_S128x128_1_0) : (⟨S128x128, .f32⟩ : BufTy).Contents (Elt F) → (⟨S128x128, .f32⟩ : BufTy).Contents (Elt F)),
    binary main_arg1 main_v30 main_v31 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v29 main_v31 main_v32 (addf : (⟨S50000x128, .f32⟩ : BufTy).Contents (Elt F) → (⟨S50000x128, .f32⟩ : BufTy).Contents (Elt F) → (⟨S50000x128, .f32⟩ : BufTy).Contents (Elt F)) ]

/-- The buffers the segment writes: one per operation. -/
def wr0 : List (Ref sig .tc) :=
  [main_v0, main_v1, main_c, main_v2, main_v3, main_c_0, main_v4, main_v5, main_v6, main_v7, main_v8, main_v9, main_v10, main_cst, main_v11, main_v12, main_v13, main_cst_1, main_v14, main_v15, main_v16, main_cst_2, main_v17, main_v18, main_v19, main_cst_3, main_v20, main_v21, main_v22, main_v23, main_v24, main_v25, main_v26, main_v27, main_v28, main_v29, main_v30, main_v31, main_v32]

/-- A buffer that is in a list is, as a one-element set of device buffers, inside the list's set of device buffers. -/
private theorem writes_sub_of_mem {y : Ref sig .tc} {L : List (Ref sig .tc)} (h : y ∈ L) :
    ({Proc.devRef (τ := τ) .tc y} : Finset (DevRef τ sig)) ⊆ (L.map (Proc.devRef (τ := τ) .tc)).toFinset :=
  Finset.singleton_subset_iff.mpr (List.mem_toFinset.mpr (List.mem_map_of_mem h))

/-- Every operation of the segment writes inside the list. -/
theorem seg0_writes :
    (seg0 (F := F)).Forall fun op => op.writes ⊆ (wr0.map (Proc.devRef (τ := τ) .tc)).toFinset :=
  ⟨writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide)⟩

/-- A buffer the segment does not write keeps its contents. -/
theorem seg0_frame (W : Valuation τ sig (Elt F)) {r : Ref sig .tc} (hr : r ∉ wr0) :
    after seg0 W (no_index (Proc.devRef .tc r)) = W (Proc.devRef .tc r) :=
  after_of_writes_sub seg0 W seg0_writes hr

/-- What the segment's result buffer holds after it. -/
theorem seg0_value (W : Valuation τ sig (Elt Ideal)) :
    after seg0 W (no_index (Proc.devRef .tc main_v32))
      = HostSpec.refSage (HostSpec.segsum (W (Proc.devRef .tc main_arg0)) (W (Proc.devRef .tc main_arg2))) (HostSpec.cntc (W (Proc.devRef .tc main_arg2))) (W (Proc.devRef .tc main_arg1)) (W (Proc.devRef .tc main_arg5)) (W (Proc.devRef .tc main_arg6)) (W (Proc.devRef .tc main_arg7)) := by
  unfold seg0
  after_results_simp <;> rfl

end Cert.ReferenceIdeal.RefOps

end
-- ==== Proof.RefSeg1.lean ====
/-
  The reference's run read back in segments, segment 1 (operations 40 to 78 of the 359).
  Layer 0, the users: the contribution of the edge type item → user.
  Over an arbitrary valuation of the buffers: what the segment's result buffer holds after the segment, as a function
  of what the buffers it reads held before it; and that every buffer the segment does not write keeps its contents.
-/
import proofs.«148312_j75428215652543_2_alg».proof.Proof.Gen.ReferenceIdeal
import proofs.«148312_j75428215652543_2_alg».proof.Proof.HostSpec
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- The segment's operations, in the program's order. -/
def seg1 : List (HloOp τ sig (Elt F)) :=
  [ unary main_arg3 main_v33 ((extractStridedSlice S1x600000 ![0, 0] · slices_S2x600000_S1x600000_0_0) : (⟨S2x600000, .i32⟩ : BufTy).Contents (Elt F) → (⟨S1x600000, .i32⟩ : BufTy).Contents (Elt F)),
    reshape main_v33 main_v34 rfl shapeCasts_S1x600000_S600000,
    nullary main_c_4 (constantI S_ 32 0#32),
    unary main_c_4 main_v35 (broadcastInDim S600000 ![] bcast_S_S600000 : (⟨S_, .i32⟩ : BufTy).Contents (Elt F) → (⟨S600000, .i32⟩ : BufTy).Contents (Elt F)),
    binary main_v34 main_v35 main_v36 (cmpi .slt : (⟨S600000, .i32⟩ : BufTy).Contents (Elt F) → (⟨S600000, .i32⟩ : BufTy).Contents (Elt F) → (⟨S600000, .i1⟩ : BufTy).Contents (Elt F)),
    nullary main_c_5 (constantI S_ 32 50000#32),
    unary main_c_5 main_v37 (broadcastInDim S600000 ![] bcast_S_S600000 : (⟨S_, .i32⟩ : BufTy).Contents (Elt F) → (⟨S600000, .i32⟩ : BufTy).Contents (Elt F)),
    binary main_v34 main_v37 main_v38 (addi : (⟨S600000, .i32⟩ : BufTy).Contents (Elt F) → (⟨S600000, .i32⟩ : BufTy).Contents (Elt F) → (⟨S600000, .i32⟩ : BufTy).Contents (Elt F)),
    ternary main_v36 main_v38 main_v34 main_v39 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v39 main_v40 (broadcastInDim S600000x1 ![0] bcast_S600000_S600000x1_0 : (⟨S600000, .i32⟩ : BufTy).Contents (Elt F) → (⟨S600000x1, .i32⟩ : BufTy).Contents (Elt F)),
    binary main_arg1 main_v40 main_v41 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_arg3 main_v42 ((extractStridedSlice S1x600000 ![1, 0] · slices_S2x600000_S1x600000_1_0) : (⟨S2x600000, .i32⟩ : BufTy).Contents (Elt F) → (⟨S1x600000, .i32⟩ : BufTy).Contents (Elt F)),
    reshape main_v42 main_v43 rfl shapeCasts_S1x600000_S600000,
    nullary main_cst_6 (constant S_ .f32 0x00000000#32),
    unary main_cst_6 main_v44 (broadcastInDim S50000x128 ![] bcast_S_S50000x128 : (⟨S_, .f32⟩ : BufTy).Contents (Elt F) → (⟨S50000x128, .f32⟩ : BufTy).Contents (Elt F)),
    unary main_v43 main_v45 (broadcastInDim S600000x1 ![0] bcast_S600000_S600000x1_0 : (⟨S600000, .i32⟩ : BufTy).Contents (Elt F) → (⟨S600000x1, .i32⟩ : BufTy).Contents (Elt F)),
    ternary main_v44 main_v45 main_v41 main_v46 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    nullary main_cst_7 (constant S_ .f32 0x3F800000#32),
    unary main_cst_7 main_v47 (broadcastInDim S600000 ![] bcast_S_S600000 : (⟨S_, .f32⟩ : BufTy).Contents (Elt F) → (⟨S600000, .f32⟩ : BufTy).Contents (Elt F)),
    unary main_arg3 main_v48 ((extractStridedSlice S1x600000 ![1, 0] · slices_S2x600000_S1x600000_1_0) : (⟨S2x600000, .i32⟩ : BufTy).Contents (Elt F) → (⟨S1x600000, .i32⟩ : BufTy).Contents (Elt F)),
    reshape main_v48 main_v49 rfl shapeCasts_S1x600000_S600000,
    nullary main_cst_8 (constant S_ .f32 0x00000000#32),
    unary main_cst_8 main_v50 (broadcastInDim S50000 ![] bcast_S_S50000 : (⟨S_, .f32⟩ : BufTy).Contents (Elt F) → (⟨S50000, .f32⟩ : BufTy).Contents (Elt F)),
    unary main_v49 main_v51 (broadcastInDim S600000x1 ![0] bcast_S600000_S600000x1_0 : (⟨S600000, .i32⟩ : BufTy).Contents (Elt F) → (⟨S600000x1, .i32⟩ : BufTy).Contents (Elt F)),
    ternary main_v50 main_v51 main_v47 main_v52 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_9 (constant S_ .f32 0x3F800000#32),
    unary main_cst_9 main_v53 (broadcastInDim S50000 ![] bcast_S_S50000 : (⟨S_, .f32⟩ : BufTy).Contents (Elt F) → (⟨S50000, .f32⟩ : BufTy).Contents (Elt F)),
    binary main_v52 main_v53 main_v54 (maximumf : (⟨S50000, .f32⟩ : BufTy).Contents (Elt F) → (⟨S50000, .f32⟩ : BufTy).Contents (Elt F) → (⟨S50000, .f32⟩ : BufTy).Contents (Elt F)),
    unary main_v54 main_v55 (broadcastInDim S50000x1 ![0] bcast_S50000_S50000x1_0 : (⟨S50000, .f32⟩ : BufTy).Contents (Elt F) → (⟨S50000x1, .f32⟩ : BufTy).Contents (Elt F)),
    unary main_v55 main_v56 (broadcastInDim S50000x128 ![0, 1] bcast_S50000x1_S50000x128_0_1 : (⟨S50000x1, .f32⟩ : BufTy).Contents (Elt F) → (⟨S50000x128, .f32⟩ : BufTy).Contents (Elt F)),
    binary main_v46 main_v56 main_v57 (Host.divf : (⟨S50000x128, .f32⟩ : BufTy).Contents (Elt F) → (⟨S50000x128, .f32⟩ : BufTy).Contents (Elt F) → (⟨S50000x128, .f32⟩ : BufTy).Contents (Elt F)),
    unary main_arg8 main_v58 ((transpose S128x128 [1, 0] · transposes_S128x128_S128x128_1_0) : (⟨S128x128, .f32⟩ : BufTy).Contents (Elt F) → (⟨S128x128, .f32⟩ : BufTy).Contents (Elt F)),
    binary main_v57 main_v58 main_v59 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg9 main_v60 (broadcastInDim S1x128 ![1] bcast_S128_S1x128_1 : (⟨S128, .f32⟩ : BufTy).Contents (Elt F) → (⟨S1x128, .f32⟩ : BufTy).Contents (Elt F)),
    unary main_v60 main_v61 (broadcastInDim S50000x128 ![0, 1] bcast_S1x128_S50000x128_0_1 : (⟨S1x128, .f32⟩ : BufTy).Contents (Elt F) → (⟨S50000x128, .f32⟩ : BufTy).Contents (Elt F)),
    binary main_v59 main_v61 main_v62 (addf : (⟨S50000x128, .f32⟩ : BufTy).Contents (Elt F) → (⟨S50000x128, .f32⟩ : BufTy).Contents (Elt F) → (⟨S50000x128, .f32⟩ : BufTy).Contents (Elt F)),
    unary main_arg10 main_v63 ((transpose S128x128 [1, 0] · transposes_S128x128_S128x128_1_0) : (⟨S128x128, .f32⟩ : BufTy).Contents (Elt F) → (⟨S128x128, .f32⟩ : BufTy).Contents (Elt F)),
    binary main_arg0 main_v63 main_v64 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v62 main_v64 main_v65 (addf : (⟨S50000x128, .f32⟩ : BufTy).Contents (Elt F) → (⟨S50000x128, .f32⟩ : BufTy).Contents (Elt F) → (⟨S50000x128, .f32⟩ : BufTy).Contents (Elt F)) ]

/-- The buffers the segment writes: one per operation. -/
def wr1 : List (Ref sig .tc) :=
  [main_v33, main_v34, main_c_4, main_v35, main_v36, main_c_5, main_v37, main_v38, main_v39, main_v40, main_v41, main_v42, main_v43, main_cst_6, main_v44, main_v45, main_v46, main_cst_7, main_v47, main_v48, main_v49, main_cst_8, main_v50, main_v51, main_v52, main_cst_9, main_v53, main_v54, main_v55, main_v56, main_v57, main_v58, main_v59, main_v60, main_v61, main_v62, main_v63, main_v64, main_v65]

/-- A buffer that is in a list is, as a one-element set of device buffers, inside the list's set of device buffers. -/
private theorem writes_sub_of_mem {y : Ref sig .tc} {L : List (Ref sig .tc)} (h : y ∈ L) :
    ({Proc.devRef (τ := τ) .tc y} : Finset (DevRef τ sig)) ⊆ (L.map (Proc.devRef (τ := τ) .tc)).toFinset :=
  Finset.singleton_subset_iff.mpr (List.mem_toFinset.mpr (List.mem_map_of_mem h))

/-- Every operation of the segment writes inside the list. -/
theorem seg1_writes :
    (seg1 (F := F)).Forall fun op => op.writes ⊆ (wr1.map (Proc.devRef (τ := τ) .tc)).toFinset :=
  ⟨writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide)⟩

/-- A buffer the segment does not write keeps its contents. -/
theorem seg1_frame (W : Valuation τ sig (Elt F)) {r : Ref sig .tc} (hr : r ∉ wr1) :
    after seg1 W (no_index (Proc.devRef .tc r)) = W (Proc.devRef .tc r) :=
  after_of_writes_sub seg1 W seg1_writes hr

/-- What the segment's result buffer holds after it. -/
theorem seg1_value (W : Valuation τ sig (Elt Ideal)) :
    after seg1 W (no_index (Proc.devRef .tc main_v65))
      = HostSpec.refSage (HostSpec.segsum (W (Proc.devRef .tc main_arg1)) (W (Proc.devRef .tc main_arg3))) (HostSpec.cntc (W (Proc.devRef .tc main_arg3))) (W (Proc.devRef .tc main_arg0)) (W (Proc.devRef .tc main_arg8)) (W (Proc.devRef .tc main_arg9)) (W (Proc.devRef .tc main_arg10)) := by
  unfold seg1
  after_results_simp <;> rfl

end Cert.ReferenceIdeal.RefOps

end
-- ==== Proof.RefSeg2.lean ====
/-
  The reference's run read back in segments, segment 2 (operations 79 to 118 of the 359).
  Layer 0, the users: the contribution of the edge type user → user, added to the contribution of item → user.
  Over an arbitrary valuation of the buffers: what the segment's result buffer holds after the segment, as a function
  of what the buffers it reads held before it; and that every buffer the segment does not write keeps its contents.
-/
import proofs.«148312_j75428215652543_2_alg».proof.Proof.Gen.ReferenceIdeal
import proofs.«148312_j75428215652543_2_alg».proof.Proof.HostSpec
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- The segment's operations, in the program's order. -/
def seg2 : List (HloOp τ sig (Elt F)) :=
  [ unary main_arg4 main_v66 ((extractStridedSlice S1x600000 ![0, 0] · slices_S2x600000_S1x600000_0_0) : (⟨S2x600000, .i32⟩ : BufTy).Contents (Elt F) → (⟨S1x600000, .i32⟩ : BufTy).Contents (Elt F)),
    reshape main_v66 main_v67 rfl shapeCasts_S1x600000_S600000,
    nullary main_c_10 (constantI S_ 32 0#32),
    unary main_c_10 main_v68 (broadcastInDim S600000 ![] bcast_S_S600000 : (⟨S_, .i32⟩ : BufTy).Contents (Elt F) → (⟨S600000, .i32⟩ : BufTy).Contents (Elt F)),
    binary main_v67 main_v68 main_v69 (cmpi .slt : (⟨S600000, .i32⟩ : BufTy).Contents (Elt F) → (⟨S600000, .i32⟩ : BufTy).Contents (Elt F) → (⟨S600000, .i1⟩ : BufTy).Contents (Elt F)),
    nullary main_c_11 (constantI S_ 32 50000#32),
    unary main_c_11 main_v70 (broadcastInDim S600000 ![] bcast_S_S600000 : (⟨S_, .i32⟩ : BufTy).Contents (Elt F) → (⟨S600000, .i32⟩ : BufTy).Contents (Elt F)),
    binary main_v67 main_v70 main_v71 (addi : (⟨S600000, .i32⟩ : BufTy).Contents (Elt F) → (⟨S600000, .i32⟩ : BufTy).Contents (Elt F) → (⟨S600000, .i32⟩ : BufTy).Contents (Elt F)),
    ternary main_v69 main_v71 main_v67 main_v72 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v72 main_v73 (broadcastInDim S600000x1 ![0] bcast_S600000_S600000x1_0 : (⟨S600000, .i32⟩ : BufTy).Contents (Elt F) → (⟨S600000x1, .i32⟩ : BufTy).Contents (Elt F)),
    binary main_arg0 main_v73 main_v74 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_arg4 main_v75 ((extractStridedSlice S1x600000 ![1, 0] · slices_S2x600000_S1x600000_1_0) : (⟨S2x600000, .i32⟩ : BufTy).Contents (Elt F) → (⟨S1x600000, .i32⟩ : BufTy).Contents (Elt F)),
    reshape main_v75 main_v76 rfl shapeCasts_S1x600000_S600000,
    nullary main_cst_12 (constant S_ .f32 0x00000000#32),
    unary main_cst_12 main_v77 (broadcastInDim S50000x128 ![] bcast_S_S50000x128 : (⟨S_, .f32⟩ : BufTy).Contents (Elt F) → (⟨S50000x128, .f32⟩ : BufTy).Contents (Elt F)),
    unary main_v76 main_v78 (broadcastInDim S600000x1 ![0] bcast_S600000_S600000x1_0 : (⟨S600000, .i32⟩ : BufTy).Contents (Elt F) → (⟨S600000x1, .i32⟩ : BufTy).Contents (Elt F)),
    ternary main_v77 main_v78 main_v74 main_v79 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    nullary main_cst_13 (constant S_ .f32 0x3F800000#32),
    unary main_cst_13 main_v80 (broadcastInDim S600000 ![] bcast_S_S600000 : (⟨S_, .f32⟩ : BufTy).Contents (Elt F) → (⟨S600000, .f32⟩ : BufTy).Contents (Elt F)),
    unary main_arg4 main_v81 ((extractStridedSlice S1x600000 ![1, 0] · slices_S2x600000_S1x600000_1_0) : (⟨S2x600000, .i32⟩ : BufTy).Contents (Elt F) → (⟨S1x600000, .i32⟩ : BufTy).Contents (Elt F)),
    reshape main_v81 main_v82 rfl shapeCasts_S1x600000_S600000,
    nullary main_cst_14 (constant S_ .f32 0x00000000#32),
    unary main_cst_14 main_v83 (broadcastInDim S50000 ![] bcast_S_S50000 : (⟨S_, .f32⟩ : BufTy).Contents (Elt F) → (⟨S50000, .f32⟩ : BufTy).Contents (Elt F)),
    unary main_v82 main_v84 (broadcastInDim S600000x1 ![0] bcast_S600000_S600000x1_0 : (⟨S600000, .i32⟩ : BufTy).Contents (Elt F) → (⟨S600000x1, .i32⟩ : BufTy).Contents (Elt F)),
    ternary main_v83 main_v84 main_v80 main_v85 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_15 (constant S_ .f32 0x3F800000#32),
    unary main_cst_15 main_v86 (broadcastInDim S50000 ![] bcast_S_S50000 : (⟨S_, .f32⟩ : BufTy).Contents (Elt F) → (⟨S50000, .f32⟩ : BufTy).Contents (Elt F)),
    binary main_v85 main_v86 main_v87 (maximumf : (⟨S50000, .f32⟩ : BufTy).Contents (Elt F) → (⟨S50000, .f32⟩ : BufTy).Contents (Elt F) → (⟨S50000, .f32⟩ : BufTy).Contents (Elt F)),
    unary main_v87 main_v88 (broadcastInDim S50000x1 ![0] bcast_S50000_S50000x1_0 : (⟨S50000, .f32⟩ : BufTy).Contents (Elt F) → (⟨S50000x1, .f32⟩ : BufTy).Contents (Elt F)),
    unary main_v88 main_v89 (broadcastInDim S50000x128 ![0, 1] bcast_S50000x1_S50000x128_0_1 : (⟨S50000x1, .f32⟩ : BufTy).Contents (Elt F) → (⟨S50000x128, .f32⟩ : BufTy).Contents (Elt F)),
    binary main_v79 main_v89 main_v90 (Host.divf : (⟨S50000x128, .f32⟩ : BufTy).Contents (Elt F) → (⟨S50000x128, .f32⟩ : BufTy).Contents (Elt F) → (⟨S50000x128, .f32⟩ : BufTy).Contents (Elt F)),
    unary main_arg11 main_v91 ((transpose S128x128 [1, 0] · transposes_S128x128_S128x128_1_0) : (⟨S128x128, .f32⟩ : BufTy).Contents (Elt F) → (⟨S128x128, .f32⟩ : BufTy).Contents (Elt F)),
    binary main_v90 main_v91 main_v92 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg12 main_v93 (broadcastInDim S1x128 ![1] bcast_S128_S1x128_1 : (⟨S128, .f32⟩ : BufTy).Contents (Elt F) → (⟨S1x128, .f32⟩ : BufTy).Contents (Elt F)),
    unary main_v93 main_v94 (broadcastInDim S50000x128 ![0, 1] bcast_S1x128_S50000x128_0_1 : (⟨S1x128, .f32⟩ : BufTy).Contents (Elt F) → (⟨S50000x128, .f32⟩ : BufTy).Contents (Elt F)),
    binary main_v92 main_v94 main_v95 (addf : (⟨S50000x128, .f32⟩ : BufTy).Contents (Elt F) → (⟨S50000x128, .f32⟩ : BufTy).Contents (Elt F) → (⟨S50000x128, .f32⟩ : BufTy).Contents (Elt F)),
    unary main_arg13 main_v96 ((transpose S128x128 [1, 0] · transposes_S128x128_S128x128_1_0) : (⟨S128x128, .f32⟩ : BufTy).Contents (Elt F) → (⟨S128x128, .f32⟩ : BufTy).Contents (Elt F)),
    binary main_arg0 main_v96 main_v97 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v95 main_v97 main_v98 (addf : (⟨S50000x128, .f32⟩ : BufTy).Contents (Elt F) → (⟨S50000x128, .f32⟩ : BufTy).Contents (Elt F) → (⟨S50000x128, .f32⟩ : BufTy).Contents (Elt F)),
    binary main_v65 main_v98 main_v99 (addf : (⟨S50000x128, .f32⟩ : BufTy).Contents (Elt F) → (⟨S50000x128, .f32⟩ : BufTy).Contents (Elt F) → (⟨S50000x128, .f32⟩ : BufTy).Contents (Elt F)) ]

/-- The buffers the segment writes: one per operation. -/
def wr2 : List (Ref sig .tc) :=
  [main_v66, main_v67, main_c_10, main_v68, main_v69, main_c_11, main_v70, main_v71, main_v72, main_v73, main_v74, main_v75, main_v76, main_cst_12, main_v77, main_v78, main_v79, main_cst_13, main_v80, main_v81, main_v82, main_cst_14, main_v83, main_v84, main_v85, main_cst_15, main_v86, main_v87, main_v88, main_v89, main_v90, main_v91, main_v92, main_v93, main_v94, main_v95, main_v96, main_v97, main_v98, main_v99]

/-- A buffer that is in a list is, as a one-element set of device buffers, inside the list's set of device buffers. -/
private theorem writes_sub_of_mem {y : Ref sig .tc} {L : List (Ref sig .tc)} (h : y ∈ L) :
    ({Proc.devRef (τ := τ) .tc y} : Finset (DevRef τ sig)) ⊆ (L.map (Proc.devRef (τ := τ) .tc)).toFinset :=
  Finset.singleton_subset_iff.mpr (List.mem_toFinset.mpr (List.mem_map_of_mem h))

/-- Every operation of the segment writes inside the list. -/
theorem seg2_writes :
    (seg2 (F := F)).Forall fun op => op.writes ⊆ (wr2.map (Proc.devRef (τ := τ) .tc)).toFinset :=
  ⟨writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide)⟩

/-- A buffer the segment does not write keeps its contents. -/
theorem seg2_frame (W : Valuation τ sig (Elt F)) {r : Ref sig .tc} (hr : r ∉ wr2) :
    after seg2 W (no_index (Proc.devRef .tc r)) = W (Proc.devRef .tc r) :=
  after_of_writes_sub seg2 W seg2_writes hr

/-- What the segment's result buffer holds after it. -/
theorem seg2_value (W : Valuation τ sig (Elt Ideal)) :
    after seg2 W (no_index (Proc.devRef .tc main_v99))
      = addf (W (Proc.devRef .tc main_v65) : HostSpec.Nodes) (HostSpec.refSage (HostSpec.segsum (W (Proc.devRef .tc main_arg0)) (W (Proc.devRef .tc main_arg4))) (HostSpec.cntc (W (Proc.devRef .tc main_arg4))) (W (Proc.devRef .tc main_arg0)) (W (Proc.devRef .tc main_arg11)) (W (Proc.devRef .tc main_arg12)) (W (Proc.devRef .tc main_arg13))) := by
  unfold seg2
  after_results_simp <;> rfl

end Cert.ReferenceIdeal.RefOps

end
-- ==== Proof.RefSeg3.lean ====
/-
  The reference's run read back in segments, segment 3 (operations 119 to 148 of the 359).
  Layer 0, the users: layer norm over the 128 features, the affine map and relu, applied to the sum of the two contributions.
  Over an arbitrary valuation of the buffers: what the segment's result buffer holds after the segment, as a function
  of what the buffers it reads held before it; and that every buffer the segment does not write keeps its contents.
-/
import proofs.«148312_j75428215652543_2_alg».proof.Proof.Gen.ReferenceIdeal
import proofs.«148312_j75428215652543_2_alg».proof.Proof.HostSpec
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- The segment's operations, in the program's order. -/
def seg3 : List (HloOp τ sig (Elt F)) :=
  [ nullary main_cst_16 (constant S_ .f32 0x00000000#32),
    binary main_v99 main_cst_16 main_v100 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v100 main_v101 (broadcastInDim S50000x1 ![0] bcast_S50000_S50000x1_0 : (⟨S50000, .f32⟩ : BufTy).Contents (Elt F) → (⟨S50000x1, .f32⟩ : BufTy).Contents (Elt F)),
    nullary main_cst_17 (constant S_ .f32 0x43000000#32),
    unary main_cst_17 main_v102 (broadcastInDim S50000x1 ![] bcast_S_S50000x1 : (⟨S_, .f32⟩ : BufTy).Contents (Elt F) → (⟨S50000x1, .f32⟩ : BufTy).Contents (Elt F)),
    binary main_v101 main_v102 main_v103 (Host.divf : (⟨S50000x1, .f32⟩ : BufTy).Contents (Elt F) → (⟨S50000x1, .f32⟩ : BufTy).Contents (Elt F) → (⟨S50000x1, .f32⟩ : BufTy).Contents (Elt F)),
    unary main_v103 main_v104 (broadcastInDim S50000x128 ![0, 1] bcast_S50000x1_S50000x128_0_1 : (⟨S50000x1, .f32⟩ : BufTy).Contents (Elt F) → (⟨S50000x128, .f32⟩ : BufTy).Contents (Elt F)),
    binary main_v99 main_v104 main_v105 (subf : (⟨S50000x128, .f32⟩ : BufTy).Contents (Elt F) → (⟨S50000x128, .f32⟩ : BufTy).Contents (Elt F) → (⟨S50000x128, .f32⟩ : BufTy).Contents (Elt F)),
    binary main_v105 main_v105 main_v106 (mulf : (⟨S50000x128, .f32⟩ : BufTy).Contents (Elt F) → (⟨S50000x128, .f32⟩ : BufTy).Contents (Elt F) → (⟨S50000x128, .f32⟩ : BufTy).Contents (Elt F)),
    nullary main_cst_18 (constant S_ .f32 0x00000000#32),
    binary main_v106 main_cst_18 main_v107 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v107 main_v108 (broadcastInDim S50000x1 ![0] bcast_S50000_S50000x1_0 : (⟨S50000, .f32⟩ : BufTy).Contents (Elt F) → (⟨S50000x1, .f32⟩ : BufTy).Contents (Elt F)),
    nullary main_cst_19 (constant S_ .f32 0x43000000#32),
    unary main_cst_19 main_v109 (broadcastInDim S50000x1 ![] bcast_S_S50000x1 : (⟨S_, .f32⟩ : BufTy).Contents (Elt F) → (⟨S50000x1, .f32⟩ : BufTy).Contents (Elt F)),
    binary main_v108 main_v109 main_v110 (Host.divf : (⟨S50000x1, .f32⟩ : BufTy).Contents (Elt F) → (⟨S50000x1, .f32⟩ : BufTy).Contents (Elt F) → (⟨S50000x1, .f32⟩ : BufTy).Contents (Elt F)),
    nullary main_cst_20 (constant S_ .f32 0x3727C5AC#32),
    unary main_cst_20 main_v111 (broadcastInDim S50000x1 ![] bcast_S_S50000x1 : (⟨S_, .f32⟩ : BufTy).Contents (Elt F) → (⟨S50000x1, .f32⟩ : BufTy).Contents (Elt F)),
    binary main_v110 main_v111 main_v112 (addf : (⟨S50000x1, .f32⟩ : BufTy).Contents (Elt F) → (⟨S50000x1, .f32⟩ : BufTy).Contents (Elt F) → (⟨S50000x1, .f32⟩ : BufTy).Contents (Elt F)),
    unary main_v112 main_v113 (Host.rsqrt : (⟨S50000x1, .f32⟩ : BufTy).Contents (Elt F) → (⟨S50000x1, .f32⟩ : BufTy).Contents (Elt F)),
    unary main_v113 main_v114 (broadcastInDim S50000x128 ![0, 1] bcast_S50000x1_S50000x128_0_1 : (⟨S50000x1, .f32⟩ : BufTy).Contents (Elt F) → (⟨S50000x128, .f32⟩ : BufTy).Contents (Elt F)),
    binary main_v105 main_v114 main_v115 (mulf : (⟨S50000x128, .f32⟩ : BufTy).Contents (Elt F) → (⟨S50000x128, .f32⟩ : BufTy).Contents (Elt F) → (⟨S50000x128, .f32⟩ : BufTy).Contents (Elt F)),
    unary main_arg14 main_v116 (broadcastInDim S1x128 ![1] bcast_S128_S1x128_1 : (⟨S128, .f32⟩ : BufTy).Contents (Elt F) → (⟨S1x128, .f32⟩ : BufTy).Contents (Elt F)),
    unary main_v116 main_v117 (broadcastInDim S50000x128 ![0, 1] bcast_S1x128_S50000x128_0_1 : (⟨S1x128, .f32⟩ : BufTy).Contents (Elt F) → (⟨S50000x128, .f32⟩ : BufTy).Contents (Elt F)),
    binary main_v115 main_v117 main_v118 (mulf : (⟨S50000x128, .f32⟩ : BufTy).Contents (Elt F) → (⟨S50000x128, .f32⟩ : BufTy).Contents (Elt F) → (⟨S50000x128, .f32⟩ : BufTy).Contents (Elt F)),
    unary main_arg15 main_v119 (broadcastInDim S1x128 ![1] bcast_S128_S1x128_1 : (⟨S128, .f32⟩ : BufTy).Contents (Elt F) → (⟨S1x128, .f32⟩ : BufTy).Contents (Elt F)),
    unary main_v119 main_v120 (broadcastInDim S50000x128 ![0, 1] bcast_S1x128_S50000x128_0_1 : (⟨S1x128, .f32⟩ : BufTy).Contents (Elt F) → (⟨S50000x128, .f32⟩ : BufTy).Contents (Elt F)),
    binary main_v118 main_v120 main_v121 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v121) (TRef.of (T := ⟨S50000x128, .f32⟩) main_call0_v0) (TRef.of (T := ⟨S50000x128, .f32⟩) main_v122) maximumf ]

/-- The buffers the segment writes: one per operation. -/
def wr3 : List (Ref sig .tc) :=
  [main_cst_16, main_v100, main_v101, main_cst_17, main_v102, main_v103, main_v104, main_v105, main_v106, main_cst_18, main_v107, main_v108, main_cst_19, main_v109, main_v110, main_cst_20, main_v111, main_v112, main_v113, main_v114, main_v115, main_v116, main_v117, main_v118, main_v119, main_v120, main_v121, main_call0_cst, main_call0_v0, main_v122]

/-- A buffer that is in a list is, as a one-element set of device buffers, inside the list's set of device buffers. -/
private theorem writes_sub_of_mem {y : Ref sig .tc} {L : List (Ref sig .tc)} (h : y ∈ L) :
    ({Proc.devRef (τ := τ) .tc y} : Finset (DevRef τ sig)) ⊆ (L.map (Proc.devRef (τ := τ) .tc)).toFinset :=
  Finset.singleton_subset_iff.mpr (List.mem_toFinset.mpr (List.mem_map_of_mem h))

/-- Every operation of the segment writes inside the list. -/
theorem seg3_writes :
    (seg3 (F := F)).Forall fun op => op.writes ⊆ (wr3.map (Proc.devRef (τ := τ) .tc)).toFinset :=
  ⟨writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide)⟩

/-- A buffer the segment does not write keeps its contents. -/
theorem seg3_frame (W : Valuation τ sig (Elt F)) {r : Ref sig .tc} (hr : r ∉ wr3) :
    after seg3 W (no_index (Proc.devRef .tc r)) = W (Proc.devRef .tc r) :=
  after_of_writes_sub seg3 W seg3_writes hr

/-- What the segment's result buffer holds after it. -/
theorem seg3_value (W : Valuation τ sig (Elt Ideal)) :
    after seg3 W (no_index (Proc.devRef .tc main_v122))
      = HostSpec.refLnRelu (W (Proc.devRef .tc main_v99)) (W (Proc.devRef .tc main_arg14)) (W (Proc.devRef .tc main_arg15)) := by
  unfold seg3
  after_results_simp <;> rfl

end Cert.ReferenceIdeal.RefOps

end
-- ==== Proof.RefSeg4.lean ====
/-
  The reference's run read back in segments, segment 4 (operations 149 to 178 of the 359).
  Layer 0, the items: layer norm over the 128 features, the affine map and relu, applied to the one contribution.
  Over an arbitrary valuation of the buffers: what the segment's result buffer holds after the segment, as a function
  of what the buffers it reads held before it; and that every buffer the segment does not write keeps its contents.
-/
import proofs.«148312_j75428215652543_2_alg».proof.Proof.Gen.ReferenceIdeal
import proofs.«148312_j75428215652543_2_alg».proof.Proof.HostSpec
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- The segment's operations, in the program's order. -/
def seg4 : List (HloOp τ sig (Elt F)) :=
  [ nullary main_cst_21 (constant S_ .f32 0x00000000#32),
    binary main_v32 main_cst_21 main_v123 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v123 main_v124 (broadcastInDim S50000x1 ![0] bcast_S50000_S50000x1_0 : (⟨S50000, .f32⟩ : BufTy).Contents (Elt F) → (⟨S50000x1, .f32⟩ : BufTy).Contents (Elt F)),
    nullary main_cst_22 (constant S_ .f32 0x43000000#32),
    unary main_cst_22 main_v125 (broadcastInDim S50000x1 ![] bcast_S_S50000x1 : (⟨S_, .f32⟩ : BufTy).Contents (Elt F) → (⟨S50000x1, .f32⟩ : BufTy).Contents (Elt F)),
    binary main_v124 main_v125 main_v126 (Host.divf : (⟨S50000x1, .f32⟩ : BufTy).Contents (Elt F) → (⟨S50000x1, .f32⟩ : BufTy).Contents (Elt F) → (⟨S50000x1, .f32⟩ : BufTy).Contents (Elt F)),
    unary main_v126 main_v127 (broadcastInDim S50000x128 ![0, 1] bcast_S50000x1_S50000x128_0_1 : (⟨S50000x1, .f32⟩ : BufTy).Contents (Elt F) → (⟨S50000x128, .f32⟩ : BufTy).Contents (Elt F)),
    binary main_v32 main_v127 main_v128 (subf : (⟨S50000x128, .f32⟩ : BufTy).Contents (Elt F) → (⟨S50000x128, .f32⟩ : BufTy).Contents (Elt F) → (⟨S50000x128, .f32⟩ : BufTy).Contents (Elt F)),
    binary main_v128 main_v128 main_v129 (mulf : (⟨S50000x128, .f32⟩ : BufTy).Contents (Elt F) → (⟨S50000x128, .f32⟩ : BufTy).Contents (Elt F) → (⟨S50000x128, .f32⟩ : BufTy).Contents (Elt F)),
    nullary main_cst_23 (constant S_ .f32 0x00000000#32),
    binary main_v129 main_cst_23 main_v130 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v130 main_v131 (broadcastInDim S50000x1 ![0] bcast_S50000_S50000x1_0 : (⟨S50000, .f32⟩ : BufTy).Contents (Elt F) → (⟨S50000x1, .f32⟩ : BufTy).Contents (Elt F)),
    nullary main_cst_24 (constant S_ .f32 0x43000000#32),
    unary main_cst_24 main_v132 (broadcastInDim S50000x1 ![] bcast_S_S50000x1 : (⟨S_, .f32⟩ : BufTy).Contents (Elt F) → (⟨S50000x1, .f32⟩ : BufTy).Contents (Elt F)),
    binary main_v131 main_v132 main_v133 (Host.divf : (⟨S50000x1, .f32⟩ : BufTy).Contents (Elt F) → (⟨S50000x1, .f32⟩ : BufTy).Contents (Elt F) → (⟨S50000x1, .f32⟩ : BufTy).Contents (Elt F)),
    nullary main_cst_25 (constant S_ .f32 0x3727C5AC#32),
    unary main_cst_25 main_v134 (broadcastInDim S50000x1 ![] bcast_S_S50000x1 : (⟨S_, .f32⟩ : BufTy).Contents (Elt F) → (⟨S50000x1, .f32⟩ : BufTy).Contents (Elt F)),
    binary main_v133 main_v134 main_v135 (addf : (⟨S50000x1, .f32⟩ : BufTy).Contents (Elt F) → (⟨S50000x1, .f32⟩ : BufTy).Contents (Elt F) → (⟨S50000x1, .f32⟩ : BufTy).Contents (Elt F)),
    unary main_v135 main_v136 (Host.rsqrt : (⟨S50000x1, .f32⟩ : BufTy).Contents (Elt F) → (⟨S50000x1, .f32⟩ : BufTy).Contents (Elt F)),
    unary main_v136 main_v137 (broadcastInDim S50000x128 ![0, 1] bcast_S50000x1_S50000x128_0_1 : (⟨S50000x1, .f32⟩ : BufTy).Contents (Elt F) → (⟨S50000x128, .f32⟩ : BufTy).Contents (Elt F)),
    binary main_v128 main_v137 main_v138 (mulf : (⟨S50000x128, .f32⟩ : BufTy).Contents (Elt F) → (⟨S50000x128, .f32⟩ : BufTy).Contents (Elt F) → (⟨S50000x128, .f32⟩ : BufTy).Contents (Elt F)),
    unary main_arg16 main_v139 (broadcastInDim S1x128 ![1] bcast_S128_S1x128_1 : (⟨S128, .f32⟩ : BufTy).Contents (Elt F) → (⟨S1x128, .f32⟩ : BufTy).Contents (Elt F)),
    unary main_v139 main_v140 (broadcastInDim S50000x128 ![0, 1] bcast_S1x128_S50000x128_0_1 : (⟨S1x128, .f32⟩ : BufTy).Contents (Elt F) → (⟨S50000x128, .f32⟩ : BufTy).Contents (Elt F)),
    binary main_v138 main_v140 main_v141 (mulf : (⟨S50000x128, .f32⟩ : BufTy).Contents (Elt F) → (⟨S50000x128, .f32⟩ : BufTy).Contents (Elt F) → (⟨S50000x128, .f32⟩ : BufTy).Contents (Elt F)),
    unary main_arg17 main_v142 (broadcastInDim S1x128 ![1] bcast_S128_S1x128_1 : (⟨S128, .f32⟩ : BufTy).Contents (Elt F) → (⟨S1x128, .f32⟩ : BufTy).Contents (Elt F)),
    unary main_v142 main_v143 (broadcastInDim S50000x128 ![0, 1] bcast_S1x128_S50000x128_0_1 : (⟨S1x128, .f32⟩ : BufTy).Contents (Elt F) → (⟨S50000x128, .f32⟩ : BufTy).Contents (Elt F)),
    binary main_v141 main_v143 main_v144 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v144) (TRef.of (T := ⟨S50000x128, .f32⟩) main_call1_v0) (TRef.of (T := ⟨S50000x128, .f32⟩) main_v145) maximumf ]

/-- The buffers the segment writes: one per operation. -/
def wr4 : List (Ref sig .tc) :=
  [main_cst_21, main_v123, main_v124, main_cst_22, main_v125, main_v126, main_v127, main_v128, main_v129, main_cst_23, main_v130, main_v131, main_cst_24, main_v132, main_v133, main_cst_25, main_v134, main_v135, main_v136, main_v137, main_v138, main_v139, main_v140, main_v141, main_v142, main_v143, main_v144, main_call1_cst, main_call1_v0, main_v145]

/-- A buffer that is in a list is, as a one-element set of device buffers, inside the list's set of device buffers. -/
private theorem writes_sub_of_mem {y : Ref sig .tc} {L : List (Ref sig .tc)} (h : y ∈ L) :
    ({Proc.devRef (τ := τ) .tc y} : Finset (DevRef τ sig)) ⊆ (L.map (Proc.devRef (τ := τ) .tc)).toFinset :=
  Finset.singleton_subset_iff.mpr (List.mem_toFinset.mpr (List.mem_map_of_mem h))

/-- Every operation of the segment writes inside the list. -/
theorem seg4_writes :
    (seg4 (F := F)).Forall fun op => op.writes ⊆ (wr4.map (Proc.devRef (τ := τ) .tc)).toFinset :=
  ⟨writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide)⟩

/-- A buffer the segment does not write keeps its contents. -/
theorem seg4_frame (W : Valuation τ sig (Elt F)) {r : Ref sig .tc} (hr : r ∉ wr4) :
    after seg4 W (no_index (Proc.devRef .tc r)) = W (Proc.devRef .tc r) :=
  after_of_writes_sub seg4 W seg4_writes hr

/-- What the segment's result buffer holds after it. -/
theorem seg4_value (W : Valuation τ sig (Elt Ideal)) :
    after seg4 W (no_index (Proc.devRef .tc main_v145))
      = HostSpec.refLnRelu (W (Proc.devRef .tc main_v32)) (W (Proc.devRef .tc main_arg16)) (W (Proc.devRef .tc main_arg17)) := by
  unfold seg4
  after_results_simp <;> rfl

end Cert.ReferenceIdeal.RefOps

end
-- ==== Proof.RefSeg5.lean ====
/-
  The reference's run read back in segments, segment 5 (operations 179 to 217 of the 359).
  Layer 1, the items: the contribution of the edge type user → item, over the first layer's arrays.
  Over an arbitrary valuation of the buffers: what the segment's result buffer holds after the segment, as a function
  of what the buffers it reads held before it; and that every buffer the segment does not write keeps its contents.
-/
import proofs.«148312_j75428215652543_2_alg».proof.Proof.Gen.ReferenceIdeal
import proofs.«148312_j75428215652543_2_alg».proof.Proof.HostSpec
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- The segment's operations, in the program's order. -/
def seg5 : List (HloOp τ sig (Elt F)) :=
  [ unary main_arg2 main_v146 ((extractStridedSlice S1x600000 ![0, 0] · slices_S2x600000_S1x600000_0_0) : (⟨S2x600000, .i32⟩ : BufTy).Contents (Elt F) → (⟨S1x600000, .i32⟩ : BufTy).Contents (Elt F)),
    reshape main_v146 main_v147 rfl shapeCasts_S1x600000_S600000,
    nullary main_c_26 (constantI S_ 32 0#32),
    unary main_c_26 main_v148 (broadcastInDim S600000 ![] bcast_S_S600000 : (⟨S_, .i32⟩ : BufTy).Contents (Elt F) → (⟨S600000, .i32⟩ : BufTy).Contents (Elt F)),
    binary main_v147 main_v148 main_v149 (cmpi .slt : (⟨S600000, .i32⟩ : BufTy).Contents (Elt F) → (⟨S600000, .i32⟩ : BufTy).Contents (Elt F) → (⟨S600000, .i1⟩ : BufTy).Contents (Elt F)),
    nullary main_c_27 (constantI S_ 32 50000#32),
    unary main_c_27 main_v150 (broadcastInDim S600000 ![] bcast_S_S600000 : (⟨S_, .i32⟩ : BufTy).Contents (Elt F) → (⟨S600000, .i32⟩ : BufTy).Contents (Elt F)),
    binary main_v147 main_v150 main_v151 (addi : (⟨S600000, .i32⟩ : BufTy).Contents (Elt F) → (⟨S600000, .i32⟩ : BufTy).Contents (Elt F) → (⟨S600000, .i32⟩ : BufTy).Contents (Elt F)),
    ternary main_v149 main_v151 main_v147 main_v152 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v152 main_v153 (broadcastInDim S600000x1 ![0] bcast_S600000_S600000x1_0 : (⟨S600000, .i32⟩ : BufTy).Contents (Elt F) → (⟨S600000x1, .i32⟩ : BufTy).Contents (Elt F)),
    binary main_v122 main_v153 main_v154 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_arg2 main_v155 ((extractStridedSlice S1x600000 ![1, 0] · slices_S2x600000_S1x600000_1_0) : (⟨S2x600000, .i32⟩ : BufTy).Contents (Elt F) → (⟨S1x600000, .i32⟩ : BufTy).Contents (Elt F)),
    reshape main_v155 main_v156 rfl shapeCasts_S1x600000_S600000,
    nullary main_cst_28 (constant S_ .f32 0x00000000#32),
    unary main_cst_28 main_v157 (broadcastInDim S50000x128 ![] bcast_S_S50000x128 : (⟨S_, .f32⟩ : BufTy).Contents (Elt F) → (⟨S50000x128, .f32⟩ : BufTy).Contents (Elt F)),
    unary main_v156 main_v158 (broadcastInDim S600000x1 ![0] bcast_S600000_S600000x1_0 : (⟨S600000, .i32⟩ : BufTy).Contents (Elt F) → (⟨S600000x1, .i32⟩ : BufTy).Contents (Elt F)),
    ternary main_v157 main_v158 main_v154 main_v159 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    nullary main_cst_29 (constant S_ .f32 0x3F800000#32),
    unary main_cst_29 main_v160 (broadcastInDim S600000 ![] bcast_S_S600000 : (⟨S_, .f32⟩ : BufTy).Contents (Elt F) → (⟨S600000, .f32⟩ : BufTy).Contents (Elt F)),
    unary main_arg2 main_v161 ((extractStridedSlice S1x600000 ![1, 0] · slices_S2x600000_S1x600000_1_0) : (⟨S2x600000, .i32⟩ : BufTy).Contents (Elt F) → (⟨S1x600000, .i32⟩ : BufTy).Contents (Elt F)),
    reshape main_v161 main_v162 rfl shapeCasts_S1x600000_S600000,
    nullary main_cst_30 (constant S_ .f32 0x00000000#32),
    unary main_cst_30 main_v163 (broadcastInDim S50000 ![] bcast_S_S50000 : (⟨S_, .f32⟩ : BufTy).Contents (Elt F) → (⟨S50000, .f32⟩ : BufTy).Contents (Elt F)),
    unary main_v162 main_v164 (broadcastInDim S600000x1 ![0] bcast_S600000_S600000x1_0 : (⟨S600000, .i32⟩ : BufTy).Contents (Elt F) → (⟨S600000x1, .i32⟩ : BufTy).Contents (Elt F)),
    ternary main_v163 main_v164 main_v160 main_v165 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_31 (constant S_ .f32 0x3F800000#32),
    unary main_cst_31 main_v166 (broadcastInDim S50000 ![] bcast_S_S50000 : (⟨S_, .f32⟩ : BufTy).Contents (Elt F) → (⟨S50000, .f32⟩ : BufTy).Contents (Elt F)),
    binary main_v165 main_v166 main_v167 (maximumf : (⟨S50000, .f32⟩ : BufTy).Contents (Elt F) → (⟨S50000, .f32⟩ : BufTy).Contents (Elt F) → (⟨S50000, .f32⟩ : BufTy).Contents (Elt F)),
    unary main_v167 main_v168 (broadcastInDim S50000x1 ![0] bcast_S50000_S50000x1_0 : (⟨S50000, .f32⟩ : BufTy).Contents (Elt F) → (⟨S50000x1, .f32⟩ : BufTy).Contents (Elt F)),
    unary main_v168 main_v169 (broadcastInDim S50000x128 ![0, 1] bcast_S50000x1_S50000x128_0_1 : (⟨S50000x1, .f32⟩ : BufTy).Contents (Elt F) → (⟨S50000x128, .f32⟩ : BufTy).Contents (Elt F)),
    binary main_v159 main_v169 main_v170 (Host.divf : (⟨S50000x128, .f32⟩ : BufTy).Contents (Elt F) → (⟨S50000x128, .f32⟩ : BufTy).Contents (Elt F) → (⟨S50000x128, .f32⟩ : BufTy).Contents (Elt F)),
    unary main_arg18 main_v171 ((transpose S128x128 [1, 0] · transposes_S128x128_S128x128_1_0) : (⟨S128x128, .f32⟩ : BufTy).Contents (Elt F) → (⟨S128x128, .f32⟩ : BufTy).Contents (Elt F)),
    binary main_v170 main_v171 main_v172 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg19 main_v173 (broadcastInDim S1x128 ![1] bcast_S128_S1x128_1 : (⟨S128, .f32⟩ : BufTy).Contents (Elt F) → (⟨S1x128, .f32⟩ : BufTy).Contents (Elt F)),
    unary main_v173 main_v174 (broadcastInDim S50000x128 ![0, 1] bcast_S1x128_S50000x128_0_1 : (⟨S1x128, .f32⟩ : BufTy).Contents (Elt F) → (⟨S50000x128, .f32⟩ : BufTy).Contents (Elt F)),
    binary main_v172 main_v174 main_v175 (addf : (⟨S50000x128, .f32⟩ : BufTy).Contents (Elt F) → (⟨S50000x128, .f32⟩ : BufTy).Contents (Elt F) → (⟨S50000x128, .f32⟩ : BufTy).Contents (Elt F)),
    unary main_arg20 main_v176 ((transpose S128x128 [1, 0] · transposes_S128x128_S128x128_1_0) : (⟨S128x128, .f32⟩ : BufTy).Contents (Elt F) → (⟨S128x128, .f32⟩ : BufTy).Contents (Elt F)),
    binary main_v145 main_v176 main_v177 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v175 main_v177 main_v178 (addf : (⟨S50000x128, .f32⟩ : BufTy).Contents (Elt F) → (⟨S50000x128, .f32⟩ : BufTy).Contents (Elt F) → (⟨S50000x128, .f32⟩ : BufTy).Contents (Elt F)) ]

/-- The buffers the segment writes: one per operation. -/
def wr5 : List (Ref sig .tc) :=
  [main_v146, main_v147, main_c_26, main_v148, main_v149, main_c_27, main_v150, main_v151, main_v152, main_v153, main_v154, main_v155, main_v156, main_cst_28, main_v157, main_v158, main_v159, main_cst_29, main_v160, main_v161, main_v162, main_cst_30, main_v163, main_v164, main_v165, main_cst_31, main_v166, main_v167, main_v168, main_v169, main_v170, main_v171, main_v172, main_v173, main_v174, main_v175, main_v176, main_v177, main_v178]

/-- A buffer that is in a list is, as a one-element set of device buffers, inside the list's set of device buffers. -/
private theorem writes_sub_of_mem {y : Ref sig .tc} {L : List (Ref sig .tc)} (h : y ∈ L) :
    ({Proc.devRef (τ := τ) .tc y} : Finset (DevRef τ sig)) ⊆ (L.map (Proc.devRef (τ := τ) .tc)).toFinset :=
  Finset.singleton_subset_iff.mpr (List.mem_toFinset.mpr (List.mem_map_of_mem h))

/-- Every operation of the segment writes inside the list. -/
theorem seg5_writes :
    (seg5 (F := F)).Forall fun op => op.writes ⊆ (wr5.map (Proc.devRef (τ := τ) .tc)).toFinset :=
  ⟨writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide)⟩

/-- A buffer the segment does not write keeps its contents. -/
theorem seg5_frame (W : Valuation τ sig (Elt F)) {r : Ref sig .tc} (hr : r ∉ wr5) :
    after seg5 W (no_index (Proc.devRef .tc r)) = W (Proc.devRef .tc r) :=
  after_of_writes_sub seg5 W seg5_writes hr

/-- What the segment's result buffer holds after it. -/
theorem seg5_value (W : Valuation τ sig (Elt Ideal)) :
    after seg5 W (no_index (Proc.devRef .tc main_v178))
      = HostSpec.refSage (HostSpec.segsum (W (Proc.devRef .tc main_v122)) (W (Proc.devRef .tc main_arg2))) (HostSpec.cntc (W (Proc.devRef .tc main_arg2))) (W (Proc.devRef .tc main_v145)) (W (Proc.devRef .tc main_arg18)) (W (Proc.devRef .tc main_arg19)) (W (Proc.devRef .tc main_arg20)) := by
  unfold seg5
  after_results_simp <;> rfl

end Cert.ReferenceIdeal.RefOps

end
-- ==== Proof.RefSeg6.lean ====
/-
  The reference's run read back in segments, segment 6 (operations 218 to 256 of the 359).
  Layer 1, the users: the contribution of the edge type item → user, over the first layer's arrays.
  Over an arbitrary valuation of the buffers: what the segment's result buffer holds after the segment, as a function
  of what the buffers it reads held before it; and that every buffer the segment does not write keeps its contents.
-/
import proofs.«148312_j75428215652543_2_alg».proof.Proof.Gen.ReferenceIdeal
import proofs.«148312_j75428215652543_2_alg».proof.Proof.HostSpec
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- The segment's operations, in the program's order. -/
def seg6 : List (HloOp τ sig (Elt F)) :=
  [ unary main_arg3 main_v179 ((extractStridedSlice S1x600000 ![0, 0] · slices_S2x600000_S1x600000_0_0) : (⟨S2x600000, .i32⟩ : BufTy).Contents (Elt F) → (⟨S1x600000, .i32⟩ : BufTy).Contents (Elt F)),
    reshape main_v179 main_v180 rfl shapeCasts_S1x600000_S600000,
    nullary main_c_32 (constantI S_ 32 0#32),
    unary main_c_32 main_v181 (broadcastInDim S600000 ![] bcast_S_S600000 : (⟨S_, .i32⟩ : BufTy).Contents (Elt F) → (⟨S600000, .i32⟩ : BufTy).Contents (Elt F)),
    binary main_v180 main_v181 main_v182 (cmpi .slt : (⟨S600000, .i32⟩ : BufTy).Contents (Elt F) → (⟨S600000, .i32⟩ : BufTy).Contents (Elt F) → (⟨S600000, .i1⟩ : BufTy).Contents (Elt F)),
    nullary main_c_33 (constantI S_ 32 50000#32),
    unary main_c_33 main_v183 (broadcastInDim S600000 ![] bcast_S_S600000 : (⟨S_, .i32⟩ : BufTy).Contents (Elt F) → (⟨S600000, .i32⟩ : BufTy).Contents (Elt F)),
    binary main_v180 main_v183 main_v184 (addi : (⟨S600000, .i32⟩ : BufTy).Contents (Elt F) → (⟨S600000, .i32⟩ : BufTy).Contents (Elt F) → (⟨S600000, .i32⟩ : BufTy).Contents (Elt F)),
    ternary main_v182 main_v184 main_v180 main_v185 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v185 main_v186 (broadcastInDim S600000x1 ![0] bcast_S600000_S600000x1_0 : (⟨S600000, .i32⟩ : BufTy).Contents (Elt F) → (⟨S600000x1, .i32⟩ : BufTy).Contents (Elt F)),
    binary main_v145 main_v186 main_v187 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_arg3 main_v188 ((extractStridedSlice S1x600000 ![1, 0] · slices_S2x600000_S1x600000_1_0) : (⟨S2x600000, .i32⟩ : BufTy).Contents (Elt F) → (⟨S1x600000, .i32⟩ : BufTy).Contents (Elt F)),
    reshape main_v188 main_v189 rfl shapeCasts_S1x600000_S600000,
    nullary main_cst_34 (constant S_ .f32 0x00000000#32),
    unary main_cst_34 main_v190 (broadcastInDim S50000x128 ![] bcast_S_S50000x128 : (⟨S_, .f32⟩ : BufTy).Contents (Elt F) → (⟨S50000x128, .f32⟩ : BufTy).Contents (Elt F)),
    unary main_v189 main_v191 (broadcastInDim S600000x1 ![0] bcast_S600000_S600000x1_0 : (⟨S600000, .i32⟩ : BufTy).Contents (Elt F) → (⟨S600000x1, .i32⟩ : BufTy).Contents (Elt F)),
    ternary main_v190 main_v191 main_v187 main_v192 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    nullary main_cst_35 (constant S_ .f32 0x3F800000#32),
    unary main_cst_35 main_v193 (broadcastInDim S600000 ![] bcast_S_S600000 : (⟨S_, .f32⟩ : BufTy).Contents (Elt F) → (⟨S600000, .f32⟩ : BufTy).Contents (Elt F)),
    unary main_arg3 main_v194 ((extractStridedSlice S1x600000 ![1, 0] · slices_S2x600000_S1x600000_1_0) : (⟨S2x600000, .i32⟩ : BufTy).Contents (Elt F) → (⟨S1x600000, .i32⟩ : BufTy).Contents (Elt F)),
    reshape main_v194 main_v195 rfl shapeCasts_S1x600000_S600000,
    nullary main_cst_36 (constant S_ .f32 0x00000000#32),
    unary main_cst_36 main_v196 (broadcastInDim S50000 ![] bcast_S_S50000 : (⟨S_, .f32⟩ : BufTy).Contents (Elt F) → (⟨S50000, .f32⟩ : BufTy).Contents (Elt F)),
    unary main_v195 main_v197 (broadcastInDim S600000x1 ![0] bcast_S600000_S600000x1_0 : (⟨S600000, .i32⟩ : BufTy).Contents (Elt F) → (⟨S600000x1, .i32⟩ : BufTy).Contents (Elt F)),
    ternary main_v196 main_v197 main_v193 main_v198 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_37 (constant S_ .f32 0x3F800000#32),
    unary main_cst_37 main_v199 (broadcastInDim S50000 ![] bcast_S_S50000 : (⟨S_, .f32⟩ : BufTy).Contents (Elt F) → (⟨S50000, .f32⟩ : BufTy).Contents (Elt F)),
    binary main_v198 main_v199 main_v200 (maximumf : (⟨S50000, .f32⟩ : BufTy).Contents (Elt F) → (⟨S50000, .f32⟩ : BufTy).Contents (Elt F) → (⟨S50000, .f32⟩ : BufTy).Contents (Elt F)),
    unary main_v200 main_v201 (broadcastInDim S50000x1 ![0] bcast_S50000_S50000x1_0 : (⟨S50000, .f32⟩ : BufTy).Contents (Elt F) → (⟨S50000x1, .f32⟩ : BufTy).Contents (Elt F)),
    unary main_v201 main_v202 (broadcastInDim S50000x128 ![0, 1] bcast_S50000x1_S50000x128_0_1 : (⟨S50000x1, .f32⟩ : BufTy).Contents (Elt F) → (⟨S50000x128, .f32⟩ : BufTy).Contents (Elt F)),
    binary main_v192 main_v202 main_v203 (Host.divf : (⟨S50000x128, .f32⟩ : BufTy).Contents (Elt F) → (⟨S50000x128, .f32⟩ : BufTy).Contents (Elt F) → (⟨S50000x128, .f32⟩ : BufTy).Contents (Elt F)),
    unary main_arg21 main_v204 ((transpose S128x128 [1, 0] · transposes_S128x128_S128x128_1_0) : (⟨S128x128, .f32⟩ : BufTy).Contents (Elt F) → (⟨S128x128, .f32⟩ : BufTy).Contents (Elt F)),
    binary main_v203 main_v204 main_v205 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg22 main_v206 (broadcastInDim S1x128 ![1] bcast_S128_S1x128_1 : (⟨S128, .f32⟩ : BufTy).Contents (Elt F) → (⟨S1x128, .f32⟩ : BufTy).Contents (Elt F)),
    unary main_v206 main_v207 (broadcastInDim S50000x128 ![0, 1] bcast_S1x128_S50000x128_0_1 : (⟨S1x128, .f32⟩ : BufTy).Contents (Elt F) → (⟨S50000x128, .f32⟩ : BufTy).Contents (Elt F)),
    binary main_v205 main_v207 main_v208 (addf : (⟨S50000x128, .f32⟩ : BufTy).Contents (Elt F) → (⟨S50000x128, .f32⟩ : BufTy).Contents (Elt F) → (⟨S50000x128, .f32⟩ : BufTy).Contents (Elt F)),
    unary main_arg23 main_v209 ((transpose S128x128 [1, 0] · transposes_S128x128_S128x128_1_0) : (⟨S128x128, .f32⟩ : BufTy).Contents (Elt F) → (⟨S128x128, .f32⟩ : BufTy).Contents (Elt F)),
    binary main_v122 main_v209 main_v210 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v208 main_v210 main_v211 (addf : (⟨S50000x128, .f32⟩ : BufTy).Contents (Elt F) → (⟨S50000x128, .f32⟩ : BufTy).Contents (Elt F) → (⟨S50000x128, .f32⟩ : BufTy).Contents (Elt F)) ]

/-- The buffers the segment writes: one per operation. -/
def wr6 : List (Ref sig .tc) :=
  [main_v179, main_v180, main_c_32, main_v181, main_v182, main_c_33, main_v183, main_v184, main_v185, main_v186, main_v187, main_v188, main_v189, main_cst_34, main_v190, main_v191, main_v192, main_cst_35, main_v193, main_v194, main_v195, main_cst_36, main_v196, main_v197, main_v198, main_cst_37, main_v199, main_v200, main_v201, main_v202, main_v203, main_v204, main_v205, main_v206, main_v207, main_v208, main_v209, main_v210, main_v211]

/-- A buffer that is in a list is, as a one-element set of device buffers, inside the list's set of device buffers. -/
private theorem writes_sub_of_mem {y : Ref sig .tc} {L : List (Ref sig .tc)} (h : y ∈ L) :
    ({Proc.devRef (τ := τ) .tc y} : Finset (DevRef τ sig)) ⊆ (L.map (Proc.devRef (τ := τ) .tc)).toFinset :=
  Finset.singleton_subset_iff.mpr (List.mem_toFinset.mpr (List.mem_map_of_mem h))

/-- Every operation of the segment writes inside the list. -/
theorem seg6_writes :
    (seg6 (F := F)).Forall fun op => op.writes ⊆ (wr6.map (Proc.devRef (τ := τ) .tc)).toFinset :=
  ⟨writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide)⟩

/-- A buffer the segment does not write keeps its contents. -/
theorem seg6_frame (W : Valuation τ sig (Elt F)) {r : Ref sig .tc} (hr : r ∉ wr6) :
    after seg6 W (no_index (Proc.devRef .tc r)) = W (Proc.devRef .tc r) :=
  after_of_writes_sub seg6 W seg6_writes hr

/-- What the segment's result buffer holds after it. -/
theorem seg6_value (W : Valuation τ sig (Elt Ideal)) :
    after seg6 W (no_index (Proc.devRef .tc main_v211))
      = HostSpec.refSage (HostSpec.segsum (W (Proc.devRef .tc main_v145)) (W (Proc.devRef .tc main_arg3))) (HostSpec.cntc (W (Proc.devRef .tc main_arg3))) (W (Proc.devRef .tc main_v122)) (W (Proc.devRef .tc main_arg21)) (W (Proc.devRef .tc main_arg22)) (W (Proc.devRef .tc main_arg23)) := by
  unfold seg6
  after_results_simp <;> rfl

end Cert.ReferenceIdeal.RefOps

end
-- ==== Proof.RefSeg7.lean ====
/-
  The reference's run read back in segments, segment 7 (operations 257 to 296 of the 359).
  Layer 1, the users: the contribution of the edge type user → user, added to the contribution of item → user.
  Over an arbitrary valuation of the buffers: what the segment's result buffer holds after the segment, as a function
  of what the buffers it reads held before it; and that every buffer the segment does not write keeps its contents.
-/
import proofs.«148312_j75428215652543_2_alg».proof.Proof.Gen.ReferenceIdeal
import proofs.«148312_j75428215652543_2_alg».proof.Proof.HostSpec
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- The segment's operations, in the program's order. -/
def seg7 : List (HloOp τ sig (Elt F)) :=
  [ unary main_arg4 main_v212 ((extractStridedSlice S1x600000 ![0, 0] · slices_S2x600000_S1x600000_0_0) : (⟨S2x600000, .i32⟩ : BufTy).Contents (Elt F) → (⟨S1x600000, .i32⟩ : BufTy).Contents (Elt F)),
    reshape main_v212 main_v213 rfl shapeCasts_S1x600000_S600000,
    nullary main_c_38 (constantI S_ 32 0#32),
    unary main_c_38 main_v214 (broadcastInDim S600000 ![] bcast_S_S600000 : (⟨S_, .i32⟩ : BufTy).Contents (Elt F) → (⟨S600000, .i32⟩ : BufTy).Contents (Elt F)),
    binary main_v213 main_v214 main_v215 (cmpi .slt : (⟨S600000, .i32⟩ : BufTy).Contents (Elt F) → (⟨S600000, .i32⟩ : BufTy).Contents (Elt F) → (⟨S600000, .i1⟩ : BufTy).Contents (Elt F)),
    nullary main_c_39 (constantI S_ 32 50000#32),
    unary main_c_39 main_v216 (broadcastInDim S600000 ![] bcast_S_S600000 : (⟨S_, .i32⟩ : BufTy).Contents (Elt F) → (⟨S600000, .i32⟩ : BufTy).Contents (Elt F)),
    binary main_v213 main_v216 main_v217 (addi : (⟨S600000, .i32⟩ : BufTy).Contents (Elt F) → (⟨S600000, .i32⟩ : BufTy).Contents (Elt F) → (⟨S600000, .i32⟩ : BufTy).Contents (Elt F)),
    ternary main_v215 main_v217 main_v213 main_v218 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v218 main_v219 (broadcastInDim S600000x1 ![0] bcast_S600000_S600000x1_0 : (⟨S600000, .i32⟩ : BufTy).Contents (Elt F) → (⟨S600000x1, .i32⟩ : BufTy).Contents (Elt F)),
    binary main_v122 main_v219 main_v220 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_arg4 main_v221 ((extractStridedSlice S1x600000 ![1, 0] · slices_S2x600000_S1x600000_1_0) : (⟨S2x600000, .i32⟩ : BufTy).Contents (Elt F) → (⟨S1x600000, .i32⟩ : BufTy).Contents (Elt F)),
    reshape main_v221 main_v222 rfl shapeCasts_S1x600000_S600000,
    nullary main_cst_40 (constant S_ .f32 0x00000000#32),
    unary main_cst_40 main_v223 (broadcastInDim S50000x128 ![] bcast_S_S50000x128 : (⟨S_, .f32⟩ : BufTy).Contents (Elt F) → (⟨S50000x128, .f32⟩ : BufTy).Contents (Elt F)),
    unary main_v222 main_v224 (broadcastInDim S600000x1 ![0] bcast_S600000_S600000x1_0 : (⟨S600000, .i32⟩ : BufTy).Contents (Elt F) → (⟨S600000x1, .i32⟩ : BufTy).Contents (Elt F)),
    ternary main_v223 main_v224 main_v220 main_v225 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    nullary main_cst_41 (constant S_ .f32 0x3F800000#32),
    unary main_cst_41 main_v226 (broadcastInDim S600000 ![] bcast_S_S600000 : (⟨S_, .f32⟩ : BufTy).Contents (Elt F) → (⟨S600000, .f32⟩ : BufTy).Contents (Elt F)),
    unary main_arg4 main_v227 ((extractStridedSlice S1x600000 ![1, 0] · slices_S2x600000_S1x600000_1_0) : (⟨S2x600000, .i32⟩ : BufTy).Contents (Elt F) → (⟨S1x600000, .i32⟩ : BufTy).Contents (Elt F)),
    reshape main_v227 main_v228 rfl shapeCasts_S1x600000_S600000,
    nullary main_cst_42 (constant S_ .f32 0x00000000#32),
    unary main_cst_42 main_v229 (broadcastInDim S50000 ![] bcast_S_S50000 : (⟨S_, .f32⟩ : BufTy).Contents (Elt F) → (⟨S50000, .f32⟩ : BufTy).Contents (Elt F)),
    unary main_v228 main_v230 (broadcastInDim S600000x1 ![0] bcast_S600000_S600000x1_0 : (⟨S600000, .i32⟩ : BufTy).Contents (Elt F) → (⟨S600000x1, .i32⟩ : BufTy).Contents (Elt F)),
    ternary main_v229 main_v230 main_v226 main_v231 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_43 (constant S_ .f32 0x3F800000#32),
    unary main_cst_43 main_v232 (broadcastInDim S50000 ![] bcast_S_S50000 : (⟨S_, .f32⟩ : BufTy).Contents (Elt F) → (⟨S50000, .f32⟩ : BufTy).Contents (Elt F)),
    binary main_v231 main_v232 main_v233 (maximumf : (⟨S50000, .f32⟩ : BufTy).Contents (Elt F) → (⟨S50000, .f32⟩ : BufTy).Contents (Elt F) → (⟨S50000, .f32⟩ : BufTy).Contents (Elt F)),
    unary main_v233 main_v234 (broadcastInDim S50000x1 ![0] bcast_S50000_S50000x1_0 : (⟨S50000, .f32⟩ : BufTy).Contents (Elt F) → (⟨S50000x1, .f32⟩ : BufTy).Contents (Elt F)),
    unary main_v234 main_v235 (broadcastInDim S50000x128 ![0, 1] bcast_S50000x1_S50000x128_0_1 : (⟨S50000x1, .f32⟩ : BufTy).Contents (Elt F) → (⟨S50000x128, .f32⟩ : BufTy).Contents (Elt F)),
    binary main_v225 main_v235 main_v236 (Host.divf : (⟨S50000x128, .f32⟩ : BufTy).Contents (Elt F) → (⟨S50000x128, .f32⟩ : BufTy).Contents (Elt F) → (⟨S50000x128, .f32⟩ : BufTy).Contents (Elt F)),
    unary main_arg24 main_v237 ((transpose S128x128 [1, 0] · transposes_S128x128_S128x128_1_0) : (⟨S128x128, .f32⟩ : BufTy).Contents (Elt F) → (⟨S128x128, .f32⟩ : BufTy).Contents (Elt F)),
    binary main_v236 main_v237 main_v238 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg25 main_v239 (broadcastInDim S1x128 ![1] bcast_S128_S1x128_1 : (⟨S128, .f32⟩ : BufTy).Contents (Elt F) → (⟨S1x128, .f32⟩ : BufTy).Contents (Elt F)),
    unary main_v239 main_v240 (broadcastInDim S50000x128 ![0, 1] bcast_S1x128_S50000x128_0_1 : (⟨S1x128, .f32⟩ : BufTy).Contents (Elt F) → (⟨S50000x128, .f32⟩ : BufTy).Contents (Elt F)),
    binary main_v238 main_v240 main_v241 (addf : (⟨S50000x128, .f32⟩ : BufTy).Contents (Elt F) → (⟨S50000x128, .f32⟩ : BufTy).Contents (Elt F) → (⟨S50000x128, .f32⟩ : BufTy).Contents (Elt F)),
    unary main_arg26 main_v242 ((transpose S128x128 [1, 0] · transposes_S128x128_S128x128_1_0) : (⟨S128x128, .f32⟩ : BufTy).Contents (Elt F) → (⟨S128x128, .f32⟩ : BufTy).Contents (Elt F)),
    binary main_v122 main_v242 main_v243 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v241 main_v243 main_v244 (addf : (⟨S50000x128, .f32⟩ : BufTy).Contents (Elt F) → (⟨S50000x128, .f32⟩ : BufTy).Contents (Elt F) → (⟨S50000x128, .f32⟩ : BufTy).Contents (Elt F)),
    binary main_v211 main_v244 main_v245 (addf : (⟨S50000x128, .f32⟩ : BufTy).Contents (Elt F) → (⟨S50000x128, .f32⟩ : BufTy).Contents (Elt F) → (⟨S50000x128, .f32⟩ : BufTy).Contents (Elt F)) ]

/-- The buffers the segment writes: one per operation. -/
def wr7 : List (Ref sig .tc) :=
  [main_v212, main_v213, main_c_38, main_v214, main_v215, main_c_39, main_v216, main_v217, main_v218, main_v219, main_v220, main_v221, main_v222, main_cst_40, main_v223, main_v224, main_v225, main_cst_41, main_v226, main_v227, main_v228, main_cst_42, main_v229, main_v230, main_v231, main_cst_43, main_v232, main_v233, main_v234, main_v235, main_v236, main_v237, main_v238, main_v239, main_v240, main_v241, main_v242, main_v243, main_v244, main_v245]

/-- A buffer that is in a list is, as a one-element set of device buffers, inside the list's set of device buffers. -/
private theorem writes_sub_of_mem {y : Ref sig .tc} {L : List (Ref sig .tc)} (h : y ∈ L) :
    ({Proc.devRef (τ := τ) .tc y} : Finset (DevRef τ sig)) ⊆ (L.map (Proc.devRef (τ := τ) .tc)).toFinset :=
  Finset.singleton_subset_iff.mpr (List.mem_toFinset.mpr (List.mem_map_of_mem h))

/-- Every operation of the segment writes inside the list. -/
theorem seg7_writes :
    (seg7 (F := F)).Forall fun op => op.writes ⊆ (wr7.map (Proc.devRef (τ := τ) .tc)).toFinset :=
  ⟨writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide)⟩

/-- A buffer the segment does not write keeps its contents. -/
theorem seg7_frame (W : Valuation τ sig (Elt F)) {r : Ref sig .tc} (hr : r ∉ wr7) :
    after seg7 W (no_index (Proc.devRef .tc r)) = W (Proc.devRef .tc r) :=
  after_of_writes_sub seg7 W seg7_writes hr

/-- What the segment's result buffer holds after it. -/
theorem seg7_value (W : Valuation τ sig (Elt Ideal)) :
    after seg7 W (no_index (Proc.devRef .tc main_v245))
      = addf (W (Proc.devRef .tc main_v211) : HostSpec.Nodes) (HostSpec.refSage (HostSpec.segsum (W (Proc.devRef .tc main_v122)) (W (Proc.devRef .tc main_arg4))) (HostSpec.cntc (W (Proc.devRef .tc main_arg4))) (W (Proc.devRef .tc main_v122)) (W (Proc.devRef .tc main_arg24)) (W (Proc.devRef .tc main_arg25)) (W (Proc.devRef .tc main_arg26))) := by
  unfold seg7
  after_results_simp <;> rfl

end Cert.ReferenceIdeal.RefOps

end
-- ==== Proof.RefSeg8.lean ====
/-
  The reference's run read back in segments, segment 8 (operations 297 to 326 of the 359).
  Layer 1, the users: layer norm, affine map and relu of the sum of the two contributions.
  Over an arbitrary valuation of the buffers: what the segment's result buffer holds after the segment, as a function
  of what the buffers it reads held before it; and that every buffer the segment does not write keeps its contents.
-/
import proofs.«148312_j75428215652543_2_alg».proof.Proof.Gen.ReferenceIdeal
import proofs.«148312_j75428215652543_2_alg».proof.Proof.HostSpec
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- The segment's operations, in the program's order. -/
def seg8 : List (HloOp τ sig (Elt F)) :=
  [ nullary main_cst_44 (constant S_ .f32 0x00000000#32),
    binary main_v245 main_cst_44 main_v246 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v246 main_v247 (broadcastInDim S50000x1 ![0] bcast_S50000_S50000x1_0 : (⟨S50000, .f32⟩ : BufTy).Contents (Elt F) → (⟨S50000x1, .f32⟩ : BufTy).Contents (Elt F)),
    nullary main_cst_45 (constant S_ .f32 0x43000000#32),
    unary main_cst_45 main_v248 (broadcastInDim S50000x1 ![] bcast_S_S50000x1 : (⟨S_, .f32⟩ : BufTy).Contents (Elt F) → (⟨S50000x1, .f32⟩ : BufTy).Contents (Elt F)),
    binary main_v247 main_v248 main_v249 (Host.divf : (⟨S50000x1, .f32⟩ : BufTy).Contents (Elt F) → (⟨S50000x1, .f32⟩ : BufTy).Contents (Elt F) → (⟨S50000x1, .f32⟩ : BufTy).Contents (Elt F)),
    unary main_v249 main_v250 (broadcastInDim S50000x128 ![0, 1] bcast_S50000x1_S50000x128_0_1 : (⟨S50000x1, .f32⟩ : BufTy).Contents (Elt F) → (⟨S50000x128, .f32⟩ : BufTy).Contents (Elt F)),
    binary main_v245 main_v250 main_v251 (subf : (⟨S50000x128, .f32⟩ : BufTy).Contents (Elt F) → (⟨S50000x128, .f32⟩ : BufTy).Contents (Elt F) → (⟨S50000x128, .f32⟩ : BufTy).Contents (Elt F)),
    binary main_v251 main_v251 main_v252 (mulf : (⟨S50000x128, .f32⟩ : BufTy).Contents (Elt F) → (⟨S50000x128, .f32⟩ : BufTy).Contents (Elt F) → (⟨S50000x128, .f32⟩ : BufTy).Contents (Elt F)),
    nullary main_cst_46 (constant S_ .f32 0x00000000#32),
    binary main_v252 main_cst_46 main_v253 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v253 main_v254 (broadcastInDim S50000x1 ![0] bcast_S50000_S50000x1_0 : (⟨S50000, .f32⟩ : BufTy).Contents (Elt F) → (⟨S50000x1, .f32⟩ : BufTy).Contents (Elt F)),
    nullary main_cst_47 (constant S_ .f32 0x43000000#32),
    unary main_cst_47 main_v255 (broadcastInDim S50000x1 ![] bcast_S_S50000x1 : (⟨S_, .f32⟩ : BufTy).Contents (Elt F) → (⟨S50000x1, .f32⟩ : BufTy).Contents (Elt F)),
    binary main_v254 main_v255 main_v256 (Host.divf : (⟨S50000x1, .f32⟩ : BufTy).Contents (Elt F) → (⟨S50000x1, .f32⟩ : BufTy).Contents (Elt F) → (⟨S50000x1, .f32⟩ : BufTy).Contents (Elt F)),
    nullary main_cst_48 (constant S_ .f32 0x3727C5AC#32),
    unary main_cst_48 main_v257 (broadcastInDim S50000x1 ![] bcast_S_S50000x1 : (⟨S_, .f32⟩ : BufTy).Contents (Elt F) → (⟨S50000x1, .f32⟩ : BufTy).Contents (Elt F)),
    binary main_v256 main_v257 main_v258 (addf : (⟨S50000x1, .f32⟩ : BufTy).Contents (Elt F) → (⟨S50000x1, .f32⟩ : BufTy).Contents (Elt F) → (⟨S50000x1, .f32⟩ : BufTy).Contents (Elt F)),
    unary main_v258 main_v259 (Host.rsqrt : (⟨S50000x1, .f32⟩ : BufTy).Contents (Elt F) → (⟨S50000x1, .f32⟩ : BufTy).Contents (Elt F)),
    unary main_v259 main_v260 (broadcastInDim S50000x128 ![0, 1] bcast_S50000x1_S50000x128_0_1 : (⟨S50000x1, .f32⟩ : BufTy).Contents (Elt F) → (⟨S50000x128, .f32⟩ : BufTy).Contents (Elt F)),
    binary main_v251 main_v260 main_v261 (mulf : (⟨S50000x128, .f32⟩ : BufTy).Contents (Elt F) → (⟨S50000x128, .f32⟩ : BufTy).Contents (Elt F) → (⟨S50000x128, .f32⟩ : BufTy).Contents (Elt F)),
    unary main_arg27 main_v262 (broadcastInDim S1x128 ![1] bcast_S128_S1x128_1 : (⟨S128, .f32⟩ : BufTy).Contents (Elt F) → (⟨S1x128, .f32⟩ : BufTy).Contents (Elt F)),
    unary main_v262 main_v263 (broadcastInDim S50000x128 ![0, 1] bcast_S1x128_S50000x128_0_1 : (⟨S1x128, .f32⟩ : BufTy).Contents (Elt F) → (⟨S50000x128, .f32⟩ : BufTy).Contents (Elt F)),
    binary main_v261 main_v263 main_v264 (mulf : (⟨S50000x128, .f32⟩ : BufTy).Contents (Elt F) → (⟨S50000x128, .f32⟩ : BufTy).Contents (Elt F) → (⟨S50000x128, .f32⟩ : BufTy).Contents (Elt F)),
    unary main_arg28 main_v265 (broadcastInDim S1x128 ![1] bcast_S128_S1x128_1 : (⟨S128, .f32⟩ : BufTy).Contents (Elt F) → (⟨S1x128, .f32⟩ : BufTy).Contents (Elt F)),
    unary main_v265 main_v266 (broadcastInDim S50000x128 ![0, 1] bcast_S1x128_S50000x128_0_1 : (⟨S1x128, .f32⟩ : BufTy).Contents (Elt F) → (⟨S50000x128, .f32⟩ : BufTy).Contents (Elt F)),
    binary main_v264 main_v266 main_v267 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v267) (TRef.of (T := ⟨S50000x128, .f32⟩) main_call2_v0) (TRef.of (T := ⟨S50000x128, .f32⟩) main_v268) maximumf ]

/-- The buffers the segment writes: one per operation. -/
def wr8 : List (Ref sig .tc) :=
  [main_cst_44, main_v246, main_v247, main_cst_45, main_v248, main_v249, main_v250, main_v251, main_v252, main_cst_46, main_v253, main_v254, main_cst_47, main_v255, main_v256, main_cst_48, main_v257, main_v258, main_v259, main_v260, main_v261, main_v262, main_v263, main_v264, main_v265, main_v266, main_v267, main_call2_cst, main_call2_v0, main_v268]

/-- A buffer that is in a list is, as a one-element set of device buffers, inside the list's set of device buffers. -/
private theorem writes_sub_of_mem {y : Ref sig .tc} {L : List (Ref sig .tc)} (h : y ∈ L) :
    ({Proc.devRef (τ := τ) .tc y} : Finset (DevRef τ sig)) ⊆ (L.map (Proc.devRef (τ := τ) .tc)).toFinset :=
  Finset.singleton_subset_iff.mpr (List.mem_toFinset.mpr (List.mem_map_of_mem h))

/-- Every operation of the segment writes inside the list. -/
theorem seg8_writes :
    (seg8 (F := F)).Forall fun op => op.writes ⊆ (wr8.map (Proc.devRef (τ := τ) .tc)).toFinset :=
  ⟨writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide)⟩

/-- A buffer the segment does not write keeps its contents. -/
theorem seg8_frame (W : Valuation τ sig (Elt F)) {r : Ref sig .tc} (hr : r ∉ wr8) :
    after seg8 W (no_index (Proc.devRef .tc r)) = W (Proc.devRef .tc r) :=
  after_of_writes_sub seg8 W seg8_writes hr

/-- What the segment's result buffer holds after it. -/
theorem seg8_value (W : Valuation τ sig (Elt Ideal)) :
    after seg8 W (no_index (Proc.devRef .tc main_v268))
      = HostSpec.refLnRelu (W (Proc.devRef .tc main_v245)) (W (Proc.devRef .tc main_arg27)) (W (Proc.devRef .tc main_arg28)) := by
  unfold seg8
  after_results_simp <;> rfl

end Cert.ReferenceIdeal.RefOps

end
-- ==== Proof.RefSeg9.lean ====
/-
  The reference's run read back in segments, segment 9 (operations 327 to 356 of the 359).
  Layer 1, the items: layer norm, affine map and relu of the one contribution.
  Over an arbitrary valuation of the buffers: what the segment's result buffer holds after the segment, as a function
  of what the buffers it reads held before it; and that every buffer the segment does not write keeps its contents.
-/
import proofs.«148312_j75428215652543_2_alg».proof.Proof.Gen.ReferenceIdeal
import proofs.«148312_j75428215652543_2_alg».proof.Proof.HostSpec
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- The segment's operations, in the program's order. -/
def seg9 : List (HloOp τ sig (Elt F)) :=
  [ nullary main_cst_49 (constant S_ .f32 0x00000000#32),
    binary main_v178 main_cst_49 main_v269 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v269 main_v270 (broadcastInDim S50000x1 ![0] bcast_S50000_S50000x1_0 : (⟨S50000, .f32⟩ : BufTy).Contents (Elt F) → (⟨S50000x1, .f32⟩ : BufTy).Contents (Elt F)),
    nullary main_cst_50 (constant S_ .f32 0x43000000#32),
    unary main_cst_50 main_v271 (broadcastInDim S50000x1 ![] bcast_S_S50000x1 : (⟨S_, .f32⟩ : BufTy).Contents (Elt F) → (⟨S50000x1, .f32⟩ : BufTy).Contents (Elt F)),
    binary main_v270 main_v271 main_v272 (Host.divf : (⟨S50000x1, .f32⟩ : BufTy).Contents (Elt F) → (⟨S50000x1, .f32⟩ : BufTy).Contents (Elt F) → (⟨S50000x1, .f32⟩ : BufTy).Contents (Elt F)),
    unary main_v272 main_v273 (broadcastInDim S50000x128 ![0, 1] bcast_S50000x1_S50000x128_0_1 : (⟨S50000x1, .f32⟩ : BufTy).Contents (Elt F) → (⟨S50000x128, .f32⟩ : BufTy).Contents (Elt F)),
    binary main_v178 main_v273 main_v274 (subf : (⟨S50000x128, .f32⟩ : BufTy).Contents (Elt F) → (⟨S50000x128, .f32⟩ : BufTy).Contents (Elt F) → (⟨S50000x128, .f32⟩ : BufTy).Contents (Elt F)),
    binary main_v274 main_v274 main_v275 (mulf : (⟨S50000x128, .f32⟩ : BufTy).Contents (Elt F) → (⟨S50000x128, .f32⟩ : BufTy).Contents (Elt F) → (⟨S50000x128, .f32⟩ : BufTy).Contents (Elt F)),
    nullary main_cst_51 (constant S_ .f32 0x00000000#32),
    binary main_v275 main_cst_51 main_v276 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v276 main_v277 (broadcastInDim S50000x1 ![0] bcast_S50000_S50000x1_0 : (⟨S50000, .f32⟩ : BufTy).Contents (Elt F) → (⟨S50000x1, .f32⟩ : BufTy).Contents (Elt F)),
    nullary main_cst_52 (constant S_ .f32 0x43000000#32),
    unary main_cst_52 main_v278 (broadcastInDim S50000x1 ![] bcast_S_S50000x1 : (⟨S_, .f32⟩ : BufTy).Contents (Elt F) → (⟨S50000x1, .f32⟩ : BufTy).Contents (Elt F)),
    binary main_v277 main_v278 main_v279 (Host.divf : (⟨S50000x1, .f32⟩ : BufTy).Contents (Elt F) → (⟨S50000x1, .f32⟩ : BufTy).Contents (Elt F) → (⟨S50000x1, .f32⟩ : BufTy).Contents (Elt F)),
    nullary main_cst_53 (constant S_ .f32 0x3727C5AC#32),
    unary main_cst_53 main_v280 (broadcastInDim S50000x1 ![] bcast_S_S50000x1 : (⟨S_, .f32⟩ : BufTy).Contents (Elt F) → (⟨S50000x1, .f32⟩ : BufTy).Contents (Elt F)),
    binary main_v279 main_v280 main_v281 (addf : (⟨S50000x1, .f32⟩ : BufTy).Contents (Elt F) → (⟨S50000x1, .f32⟩ : BufTy).Contents (Elt F) → (⟨S50000x1, .f32⟩ : BufTy).Contents (Elt F)),
    unary main_v281 main_v282 (Host.rsqrt : (⟨S50000x1, .f32⟩ : BufTy).Contents (Elt F) → (⟨S50000x1, .f32⟩ : BufTy).Contents (Elt F)),
    unary main_v282 main_v283 (broadcastInDim S50000x128 ![0, 1] bcast_S50000x1_S50000x128_0_1 : (⟨S50000x1, .f32⟩ : BufTy).Contents (Elt F) → (⟨S50000x128, .f32⟩ : BufTy).Contents (Elt F)),
    binary main_v274 main_v283 main_v284 (mulf : (⟨S50000x128, .f32⟩ : BufTy).Contents (Elt F) → (⟨S50000x128, .f32⟩ : BufTy).Contents (Elt F) → (⟨S50000x128, .f32⟩ : BufTy).Contents (Elt F)),
    unary main_arg29 main_v285 (broadcastInDim S1x128 ![1] bcast_S128_S1x128_1 : (⟨S128, .f32⟩ : BufTy).Contents (Elt F) → (⟨S1x128, .f32⟩ : BufTy).Contents (Elt F)),
    unary main_v285 main_v286 (broadcastInDim S50000x128 ![0, 1] bcast_S1x128_S50000x128_0_1 : (⟨S1x128, .f32⟩ : BufTy).Contents (Elt F) → (⟨S50000x128, .f32⟩ : BufTy).Contents (Elt F)),
    binary main_v284 main_v286 main_v287 (mulf : (⟨S50000x128, .f32⟩ : BufTy).Contents (Elt F) → (⟨S50000x128, .f32⟩ : BufTy).Contents (Elt F) → (⟨S50000x128, .f32⟩ : BufTy).Contents (Elt F)),
    unary main_arg30 main_v288 (broadcastInDim S1x128 ![1] bcast_S128_S1x128_1 : (⟨S128, .f32⟩ : BufTy).Contents (Elt F) → (⟨S1x128, .f32⟩ : BufTy).Contents (Elt F)),
    unary main_v288 main_v289 (broadcastInDim S50000x128 ![0, 1] bcast_S1x128_S50000x128_0_1 : (⟨S1x128, .f32⟩ : BufTy).Contents (Elt F) → (⟨S50000x128, .f32⟩ : BufTy).Contents (Elt F)),
    binary main_v287 main_v289 main_v290 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v290) (TRef.of (T := ⟨S50000x128, .f32⟩) main_call3_v0) (TRef.of (T := ⟨S50000x128, .f32⟩) main_v291) maximumf ]

/-- The buffers the segment writes: one per operation. -/
def wr9 : List (Ref sig .tc) :=
  [main_cst_49, main_v269, main_v270, main_cst_50, main_v271, main_v272, main_v273, main_v274, main_v275, main_cst_51, main_v276, main_v277, main_cst_52, main_v278, main_v279, main_cst_53, main_v280, main_v281, main_v282, main_v283, main_v284, main_v285, main_v286, main_v287, main_v288, main_v289, main_v290, main_call3_cst, main_call3_v0, main_v291]

/-- A buffer that is in a list is, as a one-element set of device buffers, inside the list's set of device buffers. -/
private theorem writes_sub_of_mem {y : Ref sig .tc} {L : List (Ref sig .tc)} (h : y ∈ L) :
    ({Proc.devRef (τ := τ) .tc y} : Finset (DevRef τ sig)) ⊆ (L.map (Proc.devRef (τ := τ) .tc)).toFinset :=
  Finset.singleton_subset_iff.mpr (List.mem_toFinset.mpr (List.mem_map_of_mem h))

/-- Every operation of the segment writes inside the list. -/
theorem seg9_writes :
    (seg9 (F := F)).Forall fun op => op.writes ⊆ (wr9.map (Proc.devRef (τ := τ) .tc)).toFinset :=
  ⟨writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide),
   writes_sub_of_mem (by decide)⟩

/-- A buffer the segment does not write keeps its contents. -/
theorem seg9_frame (W : Valuation τ sig (Elt F)) {r : Ref sig .tc} (hr : r ∉ wr9) :
    after seg9 W (no_index (Proc.devRef .tc r)) = W (Proc.devRef .tc r) :=
  after_of_writes_sub seg9 W seg9_writes hr

/-- What the segment's result buffer holds after it. -/
theorem seg9_value (W : Valuation τ sig (Elt Ideal)) :
    after seg9 W (no_index (Proc.devRef .tc main_v291))
      = HostSpec.refLnRelu (W (Proc.devRef .tc main_v178)) (W (Proc.devRef .tc main_arg29)) (W (Proc.devRef .tc main_arg30)) := by
  unfold seg9
  after_results_simp <;> rfl

end Cert.ReferenceIdeal.RefOps

end
-- ==== Proof.RefSeg10.lean ====
/-
  The reference's run read back in segments, segment 10 (operations 357 to 359 of the 359).
  The result: the users' and the items' second-layer arrays stacked, users first.
  Over an arbitrary valuation of the buffers: what the segment's result buffer holds after the segment, as a function
  of what the buffers it reads held before it; and that every buffer the segment does not write keeps its contents.
-/
import proofs.«148312_j75428215652543_2_alg».proof.Proof.Gen.ReferenceIdeal
import proofs.«148312_j75428215652543_2_alg».proof.Proof.HostSpec
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- The segment's operations, in the program's order. -/
def seg10 : List (HloOp τ sig (Elt F)) :=
  [ unary main_v268 main_v292 (broadcastInDim S1x50000x128 ![1, 2] bcast_S50000x128_S1x50000x128_1_2 : (⟨S50000x128, .f32⟩ : BufTy).Contents (Elt F) → (⟨S1x50000x128, .f32⟩ : BufTy).Contents (Elt F)),
    unary main_v291 main_v293 (broadcastInDim S1x50000x128 ![1, 2] bcast_S50000x128_S1x50000x128_1_2 : (⟨S50000x128, .f32⟩ : BufTy).Contents (Elt F) → (⟨S1x50000x128, .f32⟩ : BufTy).Contents (Elt F)),
    binary main_v292 main_v293 main_v294 ((fun a b => concatenate S2x50000x128 0 [⟨S1x50000x128, a⟩, ⟨S1x50000x128, b⟩] concatenates_S1x50000x128_S1x50000x128_S2x50000x128_d0) : (⟨S1x50000x128, .f32⟩ : BufTy).Contents (Elt F) → (⟨S1x50000x128, .f32⟩ : BufTy).Contents (Elt F) → (⟨S2x50000x128, .f32⟩ : BufTy).Contents (Elt F)) ]

/-- The buffers the segment writes: one per operation. -/
def wr10 : List (Ref sig .tc) :=
  [main_v292, main_v293, main_v294]

/-- A buffer that is in a list is, as a one-element set of device buffers, inside the list's set of device buffers. -/
private theorem writes_sub_of_mem {y : Ref sig .tc} {L : List (Ref sig .tc)} (h : y ∈ L) :
    ({Proc.devRef (τ := τ) .tc y} : Finset (DevRef τ sig)) ⊆ (L.map (Proc.devRef (τ := τ) .tc)).toFinset :=
  Finset.singleton_subset_iff.mpr (List.mem_toFinset.mpr (List.mem_map_of_mem h))

/-- Every operation of the segment writes inside the list. -/
theorem seg10_writes :
    (seg10 (F := F)).Forall fun op => op.writes ⊆ (wr10.map (Proc.devRef (τ := τ) .tc)).toFinset :=
  ⟨writes_sub_of_mem (by decide),
   writes_sub_of_mem (by decide),
   writes_sub_of_mem (by decide)⟩

/-- A buffer the segment does not write keeps its contents. -/
theorem seg10_frame (W : Valuation τ sig (Elt F)) {r : Ref sig .tc} (hr : r ∉ wr10) :
    after seg10 W (no_index (Proc.devRef .tc r)) = W (Proc.devRef .tc r) :=
  after_of_writes_sub seg10 W seg10_writes hr

/-- What the segment's result buffer holds after it. -/
theorem seg10_value (W : Valuation τ sig (Elt Ideal)) :
    after seg10 W (no_index (Proc.devRef .tc main_v294))
      = HostSpec.stack (W (Proc.devRef .tc main_v268)) (W (Proc.devRef .tc main_v291)) := by
  unfold seg10
  after_results_simp <;> rfl

end Cert.ReferenceIdeal.RefOps

end
-- ==== Proof.RefValue.lean ====
/-
  The reference's run read back: what the result buffer holds after all 359 operations, over an arbitrary valuation
  of the buffers, as the two layers of the graph network in the reference's own host operations.

  The operations are cut into eleven consecutive segments (per layer: the items' one contribution, the users' two
  contributions and their sum, the users' norm, the items' norm; then the stacking). The fold over a concatenation is
  the folds one after the other; each segment's result is a function of the buffers it reads, and each buffer a
  segment does not write passes through it unchanged. Read from the last segment backwards this composes to the
  two-layer term.
-/
import proofs.«148312_j75428215652543_2_alg».proof.Proof.RefOps
import proofs.«148312_j75428215652543_2_alg».proof.Proof.RefSeg0
import proofs.«148312_j75428215652543_2_alg».proof.Proof.RefSeg1
import proofs.«148312_j75428215652543_2_alg».proof.Proof.RefSeg2
import proofs.«148312_j75428215652543_2_alg».proof.Proof.RefSeg3
import proofs.«148312_j75428215652543_2_alg».proof.Proof.RefSeg4
import proofs.«148312_j75428215652543_2_alg».proof.Proof.RefSeg5
import proofs.«148312_j75428215652543_2_alg».proof.Proof.RefSeg6
import proofs.«148312_j75428215652543_2_alg».proof.Proof.RefSeg7
import proofs.«148312_j75428215652543_2_alg».proof.Proof.RefSeg8
import proofs.«148312_j75428215652543_2_alg».proof.Proof.RefSeg9
import proofs.«148312_j75428215652543_2_alg».proof.Proof.RefSeg10

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- The fold over a concatenation is the fold over the first list followed by the fold over the second. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons]; exact ih _

set_option maxRecDepth 8192 in
/-- The 359 operations are the eleven segments in order. -/
theorem ops_split : (ops : List (HloOp τ sig (Elt F)))
    = seg0 ++ (seg1 ++ (seg2 ++ (seg3 ++ (seg4 ++ (seg5 ++ (seg6 ++ (seg7 ++ (seg8 ++ (seg9 ++ seg10))))))))) := rfl

/-- Every buffer some operation writes: the segments' lists in order, one reference per operation. -/
def writtenRef : List (Ref sig .tc) :=
  wr0 ++ (wr1 ++ (wr2 ++ (wr3 ++ (wr4 ++ (wr5 ++ (wr6 ++ (wr7 ++ (wr8 ++ (wr9 ++ wr10)))))))))

/-- A buffer no operation writes (each argument, in particular) holds after all 359 operations what it held before:
    it passes through every segment unchanged. -/
theorem ref_kept (V : Valuation τ sig (Elt Ideal)) (r : Ref sig .tc) (hr : r ∉ writtenRef) :
    after (ops (F := Ideal)) V (Proc.devRef .tc r) = V (Proc.devRef .tc r) := by
  simp only [writtenRef, List.mem_append, not_or] at hr
  obtain ⟨h0, h1, h2, h3, h4, h5, h6, h7, h8, h9, h10⟩ := hr
  rw [ops_split]
  simp only [after_append]
  rw [seg10_frame _ h10, seg9_frame _ h9, seg8_frame _ h8, seg7_frame _ h7, seg6_frame _ h6, seg5_frame _ h5,
    seg4_frame _ h4, seg3_frame _ h3, seg2_frame _ h2, seg1_frame _ h1, seg0_frame _ h0]

/-- The users' array after the first layer: reached by the edge types item → user and user → user. -/
abbrev xu1 (V : Valuation τ sig (Elt Ideal)) : HostSpec.Nodes :=
  HostSpec.refLayer2 (V (Proc.devRef .tc main_arg1)) (V (Proc.devRef .tc main_arg0)) (V (Proc.devRef .tc main_arg0)) (V (Proc.devRef .tc main_arg3)) (V (Proc.devRef .tc main_arg8)) (V (Proc.devRef .tc main_arg9)) (V (Proc.devRef .tc main_arg10))
    (V (Proc.devRef .tc main_arg4)) (V (Proc.devRef .tc main_arg11)) (V (Proc.devRef .tc main_arg12)) (V (Proc.devRef .tc main_arg13)) (V (Proc.devRef .tc main_arg14)) (V (Proc.devRef .tc main_arg15))

/-- The items' array after the first layer: reached by the edge type user → item. -/
abbrev xi1 (V : Valuation τ sig (Elt Ideal)) : HostSpec.Nodes :=
  HostSpec.refLayer1 (V (Proc.devRef .tc main_arg0)) (V (Proc.devRef .tc main_arg1)) (V (Proc.devRef .tc main_arg2)) (V (Proc.devRef .tc main_arg5)) (V (Proc.devRef .tc main_arg6)) (V (Proc.devRef .tc main_arg7)) (V (Proc.devRef .tc main_arg16)) (V (Proc.devRef .tc main_arg17))

set_option maxRecDepth 8192 in
/-- After the reference's operations, from any contents of the buffers, the result buffer holds the second layer's
    two arrays stacked (users first), each the layer's transform of the first layer's arrays. -/
theorem ref_value (V : Valuation τ sig (Elt Ideal)) :
    after (ops (F := Ideal)) V (Proc.devRef .tc main_v294)
      = HostSpec.stack
          (HostSpec.refLayer2 (xi1 V) (xu1 V) (xu1 V) (V (Proc.devRef .tc main_arg3)) (V (Proc.devRef .tc main_arg21)) (V (Proc.devRef .tc main_arg22)) (V (Proc.devRef .tc main_arg23))
            (V (Proc.devRef .tc main_arg4)) (V (Proc.devRef .tc main_arg24)) (V (Proc.devRef .tc main_arg25)) (V (Proc.devRef .tc main_arg26)) (V (Proc.devRef .tc main_arg27)) (V (Proc.devRef .tc main_arg28)))
          (HostSpec.refLayer1 (xu1 V) (xi1 V) (V (Proc.devRef .tc main_arg2)) (V (Proc.devRef .tc main_arg18)) (V (Proc.devRef .tc main_arg19)) (V (Proc.devRef .tc main_arg20)) (V (Proc.devRef .tc main_arg29)) (V (Proc.devRef .tc main_arg30))) := by
  rw [ops_split]
  simp only [after_append]
  simp (disch := decide) only [seg10_value, seg9_value, seg8_value, seg7_value, seg6_value, seg5_value, seg4_value,
    seg3_value, seg2_value, seg1_value, seg0_value, seg10_frame, seg9_frame, seg8_frame, seg7_frame, seg6_frame,
    seg5_frame, seg4_frame, seg3_frame, seg2_frame, seg1_frame, seg0_frame]
  rfl

end Cert.ReferenceIdeal.RefOps

end
-- ==== Proof.Claims.lean ====
/-
  The five claims. The three frames: the two kernel programs' are the generated frame certificates; the
  reference's is its run with the result dropped — no operation writes an argument. The idealization rewrote
  nothing. The algebraic claim: the kernel program's result array, walked back through its regions and host
  stretches, and the reference's, read back segment by segment, are both the two-layer network applied to the
  arguments; the arguments agree, so the results do.
-/
import proofs.«148312_j75428215652543_2_alg».proof.Defs
import proofs.«148312_j75428215652543_2_alg».proof.Proof.Gen.Kernel
import proofs.«148312_j75428215652543_2_alg».proof.Proof.Gen.Kernel.Frame
import proofs.«148312_j75428215652543_2_alg».proof.Proof.Gen.KernelIdeal
import proofs.«148312_j75428215652543_2_alg».proof.Proof.Gen.ReferenceIdeal
import proofs.«148312_j75428215652543_2_alg».proof.Proof.Gen.Pre_finite_inputs
import proofs.«148312_j75428215652543_2_alg».proof.Proof.KValue
import proofs.«148312_j75428215652543_2_alg».proof.Proof.Net
import proofs.«148312_j75428215652543_2_alg».proof.Proof.RefValue

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs, and no operation of it writes an argument array. -/
theorem frame_ri : Cert.frame_ReferenceIdeal := fun m ρ _ =>
  (θ_run Cert.ReferenceIdeal.defs _ _).mono (fun r h c =>
    ⟨(h c Cert.ReferenceIdeal.main_arg0).trans (Cert.ReferenceIdeal.RefOps.ref_kept _ Cert.ReferenceIdeal.main_arg0 (by decide)),
     (h c Cert.ReferenceIdeal.main_arg1).trans (Cert.ReferenceIdeal.RefOps.ref_kept _ Cert.ReferenceIdeal.main_arg1 (by decide)),
     (h c Cert.ReferenceIdeal.main_arg2).trans (Cert.ReferenceIdeal.RefOps.ref_kept _ Cert.ReferenceIdeal.main_arg2 (by decide)),
     (h c Cert.ReferenceIdeal.main_arg3).trans (Cert.ReferenceIdeal.RefOps.ref_kept _ Cert.ReferenceIdeal.main_arg3 (by decide)),
     (h c Cert.ReferenceIdeal.main_arg4).trans (Cert.ReferenceIdeal.RefOps.ref_kept _ Cert.ReferenceIdeal.main_arg4 (by decide)),
     (h c Cert.ReferenceIdeal.main_arg5).trans (Cert.ReferenceIdeal.RefOps.ref_kept _ Cert.ReferenceIdeal.main_arg5 (by decide)),
     (h c Cert.ReferenceIdeal.main_arg6).trans (Cert.ReferenceIdeal.RefOps.ref_kept _ Cert.ReferenceIdeal.main_arg6 (by decide)),
     (h c Cert.ReferenceIdeal.main_arg7).trans (Cert.ReferenceIdeal.RefOps.ref_kept _ Cert.ReferenceIdeal.main_arg7 (by decide)),
     (h c Cert.ReferenceIdeal.main_arg8).trans (Cert.ReferenceIdeal.RefOps.ref_kept _ Cert.ReferenceIdeal.main_arg8 (by decide)),
     (h c Cert.ReferenceIdeal.main_arg9).trans (Cert.ReferenceIdeal.RefOps.ref_kept _ Cert.ReferenceIdeal.main_arg9 (by decide)),
     (h c Cert.ReferenceIdeal.main_arg10).trans (Cert.ReferenceIdeal.RefOps.ref_kept _ Cert.ReferenceIdeal.main_arg10 (by decide)),
     (h c Cert.ReferenceIdeal.main_arg11).trans (Cert.ReferenceIdeal.RefOps.ref_kept _ Cert.ReferenceIdeal.main_arg11 (by decide)),
     (h c Cert.ReferenceIdeal.main_arg12).trans (Cert.ReferenceIdeal.RefOps.ref_kept _ Cert.ReferenceIdeal.main_arg12 (by decide)),
     (h c Cert.ReferenceIdeal.main_arg13).trans (Cert.ReferenceIdeal.RefOps.ref_kept _ Cert.ReferenceIdeal.main_arg13 (by decide)),
     (h c Cert.ReferenceIdeal.main_arg14).trans (Cert.ReferenceIdeal.RefOps.ref_kept _ Cert.ReferenceIdeal.main_arg14 (by decide)),
     (h c Cert.ReferenceIdeal.main_arg15).trans (Cert.ReferenceIdeal.RefOps.ref_kept _ Cert.ReferenceIdeal.main_arg15 (by decide)),
     (h c Cert.ReferenceIdeal.main_arg16).trans (Cert.ReferenceIdeal.RefOps.ref_kept _ Cert.ReferenceIdeal.main_arg16 (by decide)),
     (h c Cert.ReferenceIdeal.main_arg17).trans (Cert.ReferenceIdeal.RefOps.ref_kept _ Cert.ReferenceIdeal.main_arg17 (by decide)),
     (h c Cert.ReferenceIdeal.main_arg18).trans (Cert.ReferenceIdeal.RefOps.ref_kept _ Cert.ReferenceIdeal.main_arg18 (by decide)),
     (h c Cert.ReferenceIdeal.main_arg19).trans (Cert.ReferenceIdeal.RefOps.ref_kept _ Cert.ReferenceIdeal.main_arg19 (by decide)),
     (h c Cert.ReferenceIdeal.main_arg20).trans (Cert.ReferenceIdeal.RefOps.ref_kept _ Cert.ReferenceIdeal.main_arg20 (by decide)),
     (h c Cert.ReferenceIdeal.main_arg21).trans (Cert.ReferenceIdeal.RefOps.ref_kept _ Cert.ReferenceIdeal.main_arg21 (by decide)),
     (h c Cert.ReferenceIdeal.main_arg22).trans (Cert.ReferenceIdeal.RefOps.ref_kept _ Cert.ReferenceIdeal.main_arg22 (by decide)),
     (h c Cert.ReferenceIdeal.main_arg23).trans (Cert.ReferenceIdeal.RefOps.ref_kept _ Cert.ReferenceIdeal.main_arg23 (by decide)),
     (h c Cert.ReferenceIdeal.main_arg24).trans (Cert.ReferenceIdeal.RefOps.ref_kept _ Cert.ReferenceIdeal.main_arg24 (by decide)),
     (h c Cert.ReferenceIdeal.main_arg25).trans (Cert.ReferenceIdeal.RefOps.ref_kept _ Cert.ReferenceIdeal.main_arg25 (by decide)),
     (h c Cert.ReferenceIdeal.main_arg26).trans (Cert.ReferenceIdeal.RefOps.ref_kept _ Cert.ReferenceIdeal.main_arg26 (by decide)),
     (h c Cert.ReferenceIdeal.main_arg27).trans (Cert.ReferenceIdeal.RefOps.ref_kept _ Cert.ReferenceIdeal.main_arg27 (by decide)),
     (h c Cert.ReferenceIdeal.main_arg28).trans (Cert.ReferenceIdeal.RefOps.ref_kept _ Cert.ReferenceIdeal.main_arg28 (by decide)),
     (h c Cert.ReferenceIdeal.main_arg29).trans (Cert.ReferenceIdeal.RefOps.ref_kept _ Cert.ReferenceIdeal.main_arg29 (by decide)),
     (h c Cert.ReferenceIdeal.main_arg30).trans (Cert.ReferenceIdeal.RefOps.ref_kept _ Cert.ReferenceIdeal.main_arg30 (by decide))⟩)
    (Cert.ReferenceIdeal.RefOps.run_after (F := Ideal) m ρ)

theorem preserves : Cert.preserves_Kernel_KernelIdeal := trivial

/-- The kernel program's result array is the network of its arguments. -/
theorem kernel_value (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W7 m ρ c (Proc.devRef .tc Cert.KernelIdeal.main_v135) = Cert.HostSpec.net (Cert.KernelIdeal.KValue.arg0 m c) (Cert.KernelIdeal.KValue.arg1 m c) (Cert.KernelIdeal.KValue.arg2 m c) (Cert.KernelIdeal.KValue.arg3 m c) (Cert.KernelIdeal.KValue.arg4 m c) (Cert.KernelIdeal.KValue.arg5 m c) (Cert.KernelIdeal.KValue.arg6 m c) (Cert.KernelIdeal.KValue.arg7 m c) (Cert.KernelIdeal.KValue.arg8 m c) (Cert.KernelIdeal.KValue.arg9 m c) (Cert.KernelIdeal.KValue.arg10 m c) (Cert.KernelIdeal.KValue.arg11 m c) (Cert.KernelIdeal.KValue.arg12 m c) (Cert.KernelIdeal.KValue.arg13 m c) (Cert.KernelIdeal.KValue.arg14 m c) (Cert.KernelIdeal.KValue.arg15 m c) (Cert.KernelIdeal.KValue.arg16 m c) (Cert.KernelIdeal.KValue.arg17 m c) (Cert.KernelIdeal.KValue.arg18 m c) (Cert.KernelIdeal.KValue.arg19 m c) (Cert.KernelIdeal.KValue.arg20 m c) (Cert.KernelIdeal.KValue.arg21 m c) (Cert.KernelIdeal.KValue.arg22 m c) (Cert.KernelIdeal.KValue.arg23 m c) (Cert.KernelIdeal.KValue.arg24 m c) (Cert.KernelIdeal.KValue.arg25 m c) (Cert.KernelIdeal.KValue.arg26 m c) (Cert.KernelIdeal.KValue.arg27 m c) (Cert.KernelIdeal.KValue.arg28 m c) (Cert.KernelIdeal.KValue.arg29 m c) (Cert.KernelIdeal.KValue.arg30 m c) :=
  (Cert.KernelIdeal.KValue.w7_v135 m ρ c).trans (Cert.HostSpec.net_of_regions _ _ _ _ _ _ _ _ _ _ _ _ _ _ _ _ _ _ _ _ _ _ _ _ _ _ _ _ _ _ _)

/-- The reference's result array is the network of its arguments. -/
theorem ref_value (m' : (ℓ : Loc Cert.ReferenceIdeal.nD Cert.ReferenceIdeal.τ Cert.ReferenceIdeal.sig) → Buf (Elt Ideal) ℓ) (c : Dev Cert.ReferenceIdeal.nD) :
    StableHlo.after (Cert.ReferenceIdeal.RefOps.ops (F := Ideal)) (StableHlo.launchContents m' c) (Proc.devRef .tc Cert.ReferenceIdeal.main_v294)
      = Cert.HostSpec.net (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) (m' ((c.tc : Thread Cert.ReferenceIdeal.nD Cert.ReferenceIdeal.τ).loc Cert.ReferenceIdeal.main_arg26)) (m' ((c.tc : Thread Cert.ReferenceIdeal.nD Cert.ReferenceIdeal.τ).loc Cert.ReferenceIdeal.main_arg27)) (m' ((c.tc : Thread Cert.ReferenceIdeal.nD Cert.ReferenceIdeal.τ).loc Cert.ReferenceIdeal.main_arg28)) (m' ((c.tc : Thread Cert.ReferenceIdeal.nD Cert.ReferenceIdeal.τ).loc Cert.ReferenceIdeal.main_arg29)) (m' ((c.tc : Thread Cert.ReferenceIdeal.nD Cert.ReferenceIdeal.τ).loc Cert.ReferenceIdeal.main_arg30)) :=
  (Cert.ReferenceIdeal.RefOps.ref_value _).trans (Cert.HostSpec.net_of_ref _ _ _ _ _ _ _ _ _ _ _ _ _ _ _ _ _ _ _ _ _ _ _ _ _ _ _ _ _ _ _)

theorem algebraic : Cert.algebraic_KernelIdeal_ReferenceIdeal := by
  intro m ρ m' ρ' _ hagree
  refine ⟨fun c => Cert.HostSpec.net (Cert.KernelIdeal.KValue.arg0 m c) (Cert.KernelIdeal.KValue.arg1 m c) (Cert.KernelIdeal.KValue.arg2 m c) (Cert.KernelIdeal.KValue.arg3 m c) (Cert.KernelIdeal.KValue.arg4 m c) (Cert.KernelIdeal.KValue.arg5 m c) (Cert.KernelIdeal.KValue.arg6 m c) (Cert.KernelIdeal.KValue.arg7 m c) (Cert.KernelIdeal.KValue.arg8 m c) (Cert.KernelIdeal.KValue.arg9 m c) (Cert.KernelIdeal.KValue.arg10 m c) (Cert.KernelIdeal.KValue.arg11 m c) (Cert.KernelIdeal.KValue.arg12 m c) (Cert.KernelIdeal.KValue.arg13 m c) (Cert.KernelIdeal.KValue.arg14 m c) (Cert.KernelIdeal.KValue.arg15 m c) (Cert.KernelIdeal.KValue.arg16 m c) (Cert.KernelIdeal.KValue.arg17 m c) (Cert.KernelIdeal.KValue.arg18 m c) (Cert.KernelIdeal.KValue.arg19 m c) (Cert.KernelIdeal.KValue.arg20 m c) (Cert.KernelIdeal.KValue.arg21 m c) (Cert.KernelIdeal.KValue.arg22 m c) (Cert.KernelIdeal.KValue.arg23 m c) (Cert.KernelIdeal.KValue.arg24 m c) (Cert.KernelIdeal.KValue.arg25 m c) (Cert.KernelIdeal.KValue.arg26 m c) (Cert.KernelIdeal.KValue.arg27 m c) (Cert.KernelIdeal.KValue.arg28 m c) (Cert.KernelIdeal.KValue.arg29 m c) (Cert.KernelIdeal.KValue.arg30 m c), ?_, ?_⟩
  · exact (θ_run Cert.KernelIdeal.defs _ _).mono (fun r h c => ⟨(h c).1.trans (kernel_value m ρ c), (h c).2⟩)
      (Cert.KernelIdeal.Gen.frame_val (F := Ideal) m ρ)
  · refine (θ_run Cert.ReferenceIdeal.defs _ _).mono (fun r h c => ⟨?_,
     (h c Cert.ReferenceIdeal.main_arg0).trans (Cert.ReferenceIdeal.RefOps.ref_kept _ Cert.ReferenceIdeal.main_arg0 (by decide)),
     (h c Cert.ReferenceIdeal.main_arg1).trans (Cert.ReferenceIdeal.RefOps.ref_kept _ Cert.ReferenceIdeal.main_arg1 (by decide)),
     (h c Cert.ReferenceIdeal.main_arg2).trans (Cert.ReferenceIdeal.RefOps.ref_kept _ Cert.ReferenceIdeal.main_arg2 (by decide)),
     (h c Cert.ReferenceIdeal.main_arg3).trans (Cert.ReferenceIdeal.RefOps.ref_kept _ Cert.ReferenceIdeal.main_arg3 (by decide)),
     (h c Cert.ReferenceIdeal.main_arg4).trans (Cert.ReferenceIdeal.RefOps.ref_kept _ Cert.ReferenceIdeal.main_arg4 (by decide)),
     (h c Cert.ReferenceIdeal.main_arg5).trans (Cert.ReferenceIdeal.RefOps.ref_kept _ Cert.ReferenceIdeal.main_arg5 (by decide)),
     (h c Cert.ReferenceIdeal.main_arg6).trans (Cert.ReferenceIdeal.RefOps.ref_kept _ Cert.ReferenceIdeal.main_arg6 (by decide)),
     (h c Cert.ReferenceIdeal.main_arg7).trans (Cert.ReferenceIdeal.RefOps.ref_kept _ Cert.ReferenceIdeal.main_arg7 (by decide)),
     (h c Cert.ReferenceIdeal.main_arg8).trans (Cert.ReferenceIdeal.RefOps.ref_kept _ Cert.ReferenceIdeal.main_arg8 (by decide)),
     (h c Cert.ReferenceIdeal.main_arg9).trans (Cert.ReferenceIdeal.RefOps.ref_kept _ Cert.ReferenceIdeal.main_arg9 (by decide)),
     (h c Cert.ReferenceIdeal.main_arg10).trans (Cert.ReferenceIdeal.RefOps.ref_kept _ Cert.ReferenceIdeal.main_arg10 (by decide)),
     (h c Cert.ReferenceIdeal.main_arg11).trans (Cert.ReferenceIdeal.RefOps.ref_kept _ Cert.ReferenceIdeal.main_arg11 (by decide)),
     (h c Cert.ReferenceIdeal.main_arg12).trans (Cert.ReferenceIdeal.RefOps.ref_kept _ Cert.ReferenceIdeal.main_arg12 (by decide)),
     (h c Cert.ReferenceIdeal.main_arg13).trans (Cert.ReferenceIdeal.RefOps.ref_kept _ Cert.ReferenceIdeal.main_arg13 (by decide)),
     (h c Cert.ReferenceIdeal.main_arg14).trans (Cert.ReferenceIdeal.RefOps.ref_kept _ Cert.ReferenceIdeal.main_arg14 (by decide)),
     (h c Cert.ReferenceIdeal.main_arg15).trans (Cert.ReferenceIdeal.RefOps.ref_kept _ Cert.ReferenceIdeal.main_arg15 (by decide)),
     (h c Cert.ReferenceIdeal.main_arg16).trans (Cert.ReferenceIdeal.RefOps.ref_kept _ Cert.ReferenceIdeal.main_arg16 (by decide)),
     (h c Cert.ReferenceIdeal.main_arg17).trans (Cert.ReferenceIdeal.RefOps.ref_kept _ Cert.ReferenceIdeal.main_arg17 (by decide)),
     (h c Cert.ReferenceIdeal.main_arg18).trans (Cert.ReferenceIdeal.RefOps.ref_kept _ Cert.ReferenceIdeal.main_arg18 (by decide)),
     (h c Cert.ReferenceIdeal.main_arg19).trans (Cert.ReferenceIdeal.RefOps.ref_kept _ Cert.ReferenceIdeal.main_arg19 (by decide)),
     (h c Cert.ReferenceIdeal.main_arg20).trans (Cert.ReferenceIdeal.RefOps.ref_kept _ Cert.ReferenceIdeal.main_arg20 (by decide)),
     (h c Cert.ReferenceIdeal.main_arg21).trans (Cert.ReferenceIdeal.RefOps.ref_kept _ Cert.ReferenceIdeal.main_arg21 (by decide)),
     (h c Cert.ReferenceIdeal.main_arg22).trans (Cert.ReferenceIdeal.RefOps.ref_kept _ Cert.ReferenceIdeal.main_arg22 (by decide)),
     (h c Cert.ReferenceIdeal.main_arg23).trans (Cert.ReferenceIdeal.RefOps.ref_kept _ Cert.ReferenceIdeal.main_arg23 (by decide)),
     (h c Cert.ReferenceIdeal.main_arg24).trans (Cert.ReferenceIdeal.RefOps.ref_kept _ Cert.ReferenceIdeal.main_arg24 (by decide)),
     (h c Cert.ReferenceIdeal.main_arg25).trans (Cert.ReferenceIdeal.RefOps.ref_kept _ Cert.ReferenceIdeal.main_arg25 (by decide)),
     (h c Cert.ReferenceIdeal.main_arg26).trans (Cert.ReferenceIdeal.RefOps.ref_kept _ Cert.ReferenceIdeal.main_arg26 (by decide)),
     (h c Cert.ReferenceIdeal.main_arg27).trans (Cert.ReferenceIdeal.RefOps.ref_kept _ Cert.ReferenceIdeal.main_arg27 (by decide)),
     (h c Cert.ReferenceIdeal.main_arg28).trans (Cert.ReferenceIdeal.RefOps.ref_kept _ Cert.ReferenceIdeal.main_arg28 (by decide)),
     (h c Cert.ReferenceIdeal.main_arg29).trans (Cert.ReferenceIdeal.RefOps.ref_kept _ Cert.ReferenceIdeal.main_arg29 (by decide)),
     (h c Cert.ReferenceIdeal.main_arg30).trans (Cert.ReferenceIdeal.RefOps.ref_kept _ Cert.ReferenceIdeal.main_arg30 (by decide))⟩)
      (Cert.ReferenceIdeal.RefOps.run_after (F := Ideal) m' ρ')
    rw [h c Cert.ReferenceIdeal.main_v294, ref_value m' c]
    obtain ⟨e0, e1, e2, e3, e4, e5, e6, e7, e8, e9, e10, e11, e12, e13, e14, e15, e16, e17, e18, e19, e20, e21, e22, e23, e24, e25, e26, e27, e28, e29, e30⟩ := hagree c
    rw [e0, e1, e2, e3, e4, e5, e6, e7, e8, e9, e10, e11, e12, e13, e14, e15, e16, e17, e18, e19, e20, e21, e22, e23, e24, e25, e26, e27, e28, e29, e30]

end Cert.Proof.Claims

end
-- ==== Proof.lean ====
/- The certificate's claim: the three programs run and keep their arguments, the idealization rewrote nothing, and the
   kernel program and the reference compute the same two-layer network of the arguments. The five claims are proved in Proof/Claims.lean. -/
import proofs.«148312_j75428215652543_2_alg».proof.Defs
import proofs.«148312_j75428215652543_2_alg».proof.Proof.Gen.Kernel
import proofs.«148312_j75428215652543_2_alg».proof.Proof.Gen.KernelIdeal
import proofs.«148312_j75428215652543_2_alg».proof.Proof.Gen.ReferenceIdeal
import proofs.«148312_j75428215652543_2_alg».proof.Proof.Gen.Pre_finite_inputs
import proofs.«148312_j75428215652543_2_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
